-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v372) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S204800 : Shape := ⟨1, ![204800]⟩
abbrev S3276800 : Shape := ⟨1, ![3276800]⟩
abbrev S1x64 : Shape := ⟨2, ![1, 64]⟩
abbrev S64 : Shape := ⟨1, ![64]⟩
abbrev S3x3x64x64 : Shape := ⟨4, ![3, 3, 64, 64]⟩
abbrev S3x3x64 : Shape := ⟨3, ![3, 3, 64]⟩
abbrev S192x10 : Shape := ⟨2, ![192, 10]⟩
abbrev S10 : Shape := ⟨1, ![10]⟩
abbrev S_ : Shape := ⟨0, ![]⟩

class Facts : Prop where
  bcast_S_S204800 : S_.BroadcastsInDim S204800 (![] : Fin 0 → Fin S204800.rank)
  reducesTo_S204800_S_d0 : S204800.ReducesTo [0] S_
  h_S_ : 0 < S_.numel
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S3x3x64x64 : S_.BroadcastsInDim S3x3x64x64 (![] : Fin 0 → Fin S3x3x64x64.rank)
  reducesTo_S3x3x64x64_S_d0_1_2_3 : S3x3x64x64.ReducesTo [0, 1, 2, 3] S_
  bcast_S_S3x3x64 : S_.BroadcastsInDim S3x3x64 (![] : Fin 0 → Fin S3x3x64.rank)
  reducesTo_S3x3x64_S_d0_1_2 : S3x3x64.ReducesTo [0, 1, 2] S_
  bcast_S_S192x10 : S_.BroadcastsInDim S192x10 (![] : Fin 0 → Fin S192x10.rank)
  reducesTo_S192x10_S_d0_1 : S192x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg9 : FVec F S3x3x64 .f32) (main_arg10 : FVec F S3x3x64 .f32) (main_arg11 : FVec F S192x10 .f32) (main_arg12 : FVec F S10 .f32) (main_v33 : IVec S_ 1) : IVec S_ 1 :=
  let main_v34 : FVec F S3x3x64 .f32 := Host.absf main_arg9
  let main_cst_12 : FVec F S_ .f32 := constant S_ .f32 0x7F800000#32
  let main_v35 : FVec F S3x3x64 .f32 := broadcastInDim S3x3x64 ![] bcast_S_S3x3x64 main_cst_12
  let main_v36 : IVec S3x3x64 1 := cmpf .olt main_v34 main_v35
  let main_c_13 : IVec S_ 1 := constantI S_ 1 1#1
  let main_v37 : IVec S_ 1 := (fun x v => Host.reduce IntOp.andi x v reducesTo_S3x3x64_S_d0_1_2 h_S_) main_v36 main_c_13
  let main_v38 : IVec S_ 1 := andi main_v33 main_v37
  let main_v39 : FVec F S3x3x64 .f32 := Host.absf main_arg10
  let main_cst_14 : FVec F S_ .f32 := constant S_ .f32 0x7F800000#32
  let main_v40 : FVec F S3x3x64 .f32 := broadcastInDim S3x3x64 ![] bcast_S_S3x3x64 main_cst_14
  let main_v41 : IVec S3x3x64 1 := cmpf .olt main_v39 main_v40
  let main_c_15 : IVec S_ 1 := constantI S_ 1 1#1
  let main_v42 : IVec S_ 1 := (fun x v => Host.reduce IntOp.andi x v reducesTo_S3x3x64_S_d0_1_2 h_S_) main_v41 main_c_15
  let main_v43 : IVec S_ 1 := andi main_v38 main_v42
  let main_v44 : FVec F S192x10 .f32 := Host.absf main_arg11
  let main_cst_16 : FVec F S_ .f32 := constant S_ .f32 0x7F800000#32
  let main_v45 : FVec F S192x10 .f32 := broadcastInDim S192x10 ![] bcast_S_S192x10 main_cst_16
  let main_v46 : IVec S192x10 1 := cmpf .olt main_v44 main_v45
  let main_c_17 : IVec S_ 1 := constantI S_ 1 1#1
  let main_v47 : IVec S_ 1 := (fun x v => Host.reduce IntOp.andi x v reducesTo_S192x10_S_d0_1 h_S_) main_v46 main_c_17
  let main_v48 : IVec S_ 1 := andi main_v43 main_v47
  let main_v49 : FVec F S10 .f32 := Host.absf main_arg12
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg6 : FVec F S3x3x64 .f32) (main_arg7 : FVec F S3x3x64 .f32) (main_arg8 : FVec F S3x3x64 .f32) (main_arg9 : FVec F S3x3x64 .f32) (main_arg10 : FVec F S3x3x64 .f32) (main_arg11 : FVec F S192x10 .f32) (main_arg12 : FVec F S10 .f32) (main_v13 : IVec S_ 1) (main_v16 : IVec S3x3x64x64 1) : IVec S_ 1 :=
  let main_c_5 : IVec S_ 1 := constantI S_ 1 1#1
  let main_v17 : IVec S_ 1 := (fun x v => Host.reduce IntOp.andi x v reducesTo_S3x3x64x64_S_d0_1_2_3 h_S_) main_v16 main_c_5
  let main_v18 : IVec S_ 1 := andi main_v13 main_v17
  let main_v19 : FVec F S3x3x64 .f32 := Host.absf main_arg6
  let main_cst_6 : FVec F S_ .f32 := constant S_ .f32 0x7F800000#32
  let main_v20 : FVec F S3x3x64 .f32 := broadcastInDim S3x3x64 ![] bcast_S_S3x3x64 main_cst_6
  let main_v21 : IVec S3x3x64 1 := cmpf .olt main_v19 main_v20
  let main_c_7 : IVec S_ 1 := constantI S_ 1 1#1
  let main_v22 : IVec S_ 1 := (fun x v => Host.reduce IntOp.andi x v reducesTo_S3x3x64_S_d0_1_2 h_S_) main_v21 main_c_7
  let main_v23 : IVec S_ 1 := andi main_v18 main_v22
  let main_v24 : FVec F S3x3x64 .f32 := Host.absf main_arg7
  let main_cst_8 : FVec F S_ .f32 := constant S_ .f32 0x7F800000#32
  let main_v25 : FVec F S3x3x64 .f32 := broadcastInDim S3x3x64 ![] bcast_S_S3x3x64 main_cst_8
  let main_v26 : IVec S3x3x64 1 := cmpf .olt main_v24 main_v25
  let main_c_9 : IVec S_ 1 := constantI S_ 1 1#1
  let main_v27 : IVec S_ 1 := (fun x v => Host.reduce IntOp.andi x v reducesTo_S3x3x64_S_d0_1_2 h_S_) main_v26 main_c_9
  let main_v28 : IVec S_ 1 := andi main_v23 main_v27
  let main_v29 : FVec F S3x3x64 .f32 := Host.absf main_arg8
  let main_cst_10 : FVec F S_ .f32 := constant S_ .f32 0x7F800000#32
  let main_v30 : FVec F S3x3x64 .f32 := broadcastInDim S3x3x64 ![] bcast_S_S3x3x64 main_cst_10
  let main_v31 : IVec S3x3x64 1 := cmpf .olt main_v29 main_v30
  let main_c_11 : IVec S_ 1 := constantI S_ 1 1#1
  let main_v32 : IVec S_ 1 := (fun x v => Host.reduce IntOp.andi x v reducesTo_S3x3x64_S_d0_1_2 h_S_) main_v31 main_c_11
  let main_v33 : IVec S_ 1 := andi main_v28 main_v32
  fn_part2 (F := F) main_arg9 main_arg10 main_arg11 main_arg12 main_v33

def fn {F : FTy → Type} [FloatOps F] (main_arg0 : FVec F S204800 .f32) (main_arg1 : IVec S3276800 32) (main_arg2 : IVec S3276800 32) (main_arg3 : FVec F S1x64 .f32) (main_arg4 : FVec F S64 .f32) (main_arg5 : FVec F S3x3x64x64 .f32) (main_arg6 : FVec F S3x3x64 .f32) (main_arg7 : FVec F S3x3x64 .f32) (main_arg8 : FVec F S3x3x64 .f32) (main_arg9 : FVec F S3x3x64 .f32) (main_arg10 : FVec F S3x3x64 .f32) (main_arg11 : FVec F S192x10 .f32) (main_arg12 : FVec F S10 .f32) : IVec S_ 1 :=
  let main_v0 : FVec F S204800 .f32 := Host.absf main_arg0
  let main_cst : FVec F S_ .f32 := constant S_ .f32 0x7F800000#32
  let main_v1 : FVec F S204800 .f32 := broadcastInDim S204800 ![] bcast_S_S204800 main_cst
  let main_v2 : IVec S204800 1 := cmpf .olt main_v0 main_v1
  let main_c : IVec S_ 1 := constantI S_ 1 1#1
  let main_v3 : IVec S_ 1 := (fun x v => Host.reduce IntOp.andi x v reducesTo_S204800_S_d0 h_S_) main_v2 main_c
  let main_v4 : FVec F S1x64 .f32 := Host.absf main_arg3
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3x3x64x64 .f32 := Host.absf main_arg5
  let main_cst_4 : FVec F S_ .f32 := constant S_ .f32 0x7F800000#32
  let main_v15 : FVec F S3x3x64x64 .f32 := broadcastInDim S3x3x64x64 ![] bcast_S_S3x3x64x64 main_cst_4
  let main_v16 : IVec S3x3x64x64 1 := cmpf .olt main_v14 main_v15
  fn_part1 (F := F) main_arg6 main_arg7 main_arg8 main_arg9 main_arg10 main_arg11 main_arg12 main_v13 main_v16
-- ==== Kernel.lean ====
abbrev S204800 : Shape := ⟨1, ![204800]⟩
abbrev S3276800 : Shape := ⟨1, ![3276800]⟩
abbrev S1x64 : Shape := ⟨2, ![1, 64]⟩
abbrev S64 : Shape := ⟨1, ![64]⟩
abbrev S3x3x64x64 : Shape := ⟨4, ![3, 3, 64, 64]⟩
abbrev S3x3x64 : Shape := ⟨3, ![3, 3, 64]⟩
abbrev S192x10 : Shape := ⟨2, ![192, 10]⟩
abbrev S10 : Shape := ⟨1, ![10]⟩
abbrev S204800x1 : Shape := ⟨2, ![204800, 1]⟩
abbrev S204800x64 : Shape := ⟨2, ![204800, 64]⟩
abbrev S_ : Shape := ⟨0, ![]⟩
abbrev S3276800x1 : Shape := ⟨2, ![3276800, 1]⟩
abbrev S3276800x64 : Shape := ⟨2, ![3276800, 64]⟩
abbrev S1x3x64x64 : Shape := ⟨4, ![1, 3, 64, 64]⟩
abbrev S3x64x64 : Shape := ⟨3, ![3, 64, 64]⟩
abbrev S1x3x64 : Shape := ⟨3, ![1, 3, 64]⟩
abbrev S3x64 : Shape := ⟨2, ![3, 64]⟩
abbrev S4096x64 : Shape := ⟨2, ![4096, 64]⟩
abbrev S1x64x64 : Shape := ⟨3, ![1, 64, 64]⟩
abbrev S64x64 : Shape := ⟨2, ![64, 64]⟩
abbrev S4096x50x64 : Shape := ⟨3, ![4096, 50, 64]⟩
abbrev S4096x192 : Shape := ⟨2, ![4096, 192]⟩
abbrev S4096x10 : Shape := ⟨2, ![4096, 10]⟩
abbrev S1x10 : Shape := ⟨2, ![1, 10]⟩

abbrev nBuf : Space → Nat
  | .hbm => 110
  | .vmem => 36
  | .smem => 0
  | _ => 0

abbrev bufTy : (tb : Table) → Fin (tcTables nBuf tb) → BufTy
  | .hbm, ⟨0, _⟩ => ⟨S204800, .f32⟩
  | .hbm, ⟨1, _⟩ => ⟨S3276800, .i32⟩
  | .hbm, ⟨2, _⟩ => ⟨S3276800, .i32⟩
  | .hbm, ⟨3, _⟩ => ⟨S1x64, .f32⟩
  | .hbm, ⟨4, _⟩ => ⟨S64, .f32⟩
  | .hbm, ⟨5, _⟩ => ⟨S3x3x64x64, .f32⟩
  | .hbm, ⟨6, _⟩ => ⟨S3x3x64, .f32⟩
  | .hbm, ⟨7, _⟩ => ⟨S3x3x64, .f32⟩
  | .hbm, ⟨8, _⟩ => ⟨S3x3x64, .f32⟩
  | .hbm, ⟨9, _⟩ => ⟨S3x3x64, .f32⟩
  | .hbm, ⟨10, _⟩ => ⟨S3x3x64, .f32⟩
  | .hbm, ⟨11, _⟩ => ⟨S192x10, .f32⟩
  | .hbm, ⟨12, _⟩ => ⟨S10, .f32⟩
  | .hbm, ⟨13, _⟩ => ⟨S204800x1, .f32⟩
  | .hbm, ⟨14, _⟩ => ⟨S204800x64, .f32⟩
  | .hbm, ⟨15, _⟩ => ⟨S1x64, .f32⟩
  | .hbm, ⟨16, _⟩ => ⟨S204800x64, .f32⟩
  | .hbm, ⟨17, _⟩ => ⟨S204800x64, .f32⟩
  | .hbm, ⟨18, _⟩ => ⟨S_, .i32⟩
  | .hbm, ⟨19, _⟩ => ⟨S3276800, .i32⟩
  | .hbm, ⟨20, _⟩ => ⟨S3276800, .i1⟩
  | .hbm, ⟨21, _⟩ => ⟨S_, .i32⟩
  | .hbm, ⟨22, _⟩ => ⟨S3276800, .i32⟩
  | .hbm, ⟨23, _⟩ => ⟨S3276800, .i32⟩
  | .hbm, ⟨24, _⟩ => ⟨S3276800, .i32⟩
  | .hbm, ⟨25, _⟩ => ⟨S3276800x1, .i32⟩
  | .hbm, ⟨26, _⟩ => ⟨S3276800x64, .f32⟩
  | .hbm, ⟨27, _⟩ => ⟨S_, .f32⟩
  | .hbm, ⟨28, _⟩ => ⟨S204800x64, .f32⟩
  | .hbm, ⟨29, _⟩ => ⟨S3276800x1, .i32⟩
  | .hbm, ⟨30, _⟩ => ⟨S204800x64, .f32⟩
  | .hbm, ⟨31, _⟩ => ⟨S1x3x64x64, .f32⟩
  | .hbm, ⟨32, _⟩ => ⟨S3x64x64, .f32⟩
  | .hbm, ⟨33, _⟩ => ⟨S1x3x64, .f32⟩
  | .hbm, ⟨34, _⟩ => ⟨S3x64, .f32⟩
  | .hbm, ⟨35, _⟩ => ⟨S1x3x64, .f32⟩
  | .hbm, ⟨36, _⟩ => ⟨S3x64, .f32⟩
  | .hbm, ⟨37, _⟩ => ⟨S1x3x64, .f32⟩
  | .hbm, ⟨38, _⟩ => ⟨S3x64, .f32⟩
  | .hbm, ⟨39, _⟩ => ⟨S1x3x64, .f32⟩
  | .hbm, ⟨40, _⟩ => ⟨S3x64, .f32⟩
  | .hbm, ⟨41, _⟩ => ⟨S1x3x64, .f32⟩
  | .hbm, ⟨42, _⟩ => ⟨S3x64, .f32⟩
  | .hbm, ⟨43, _⟩ => ⟨S204800x64, .f32⟩
  | .hbm, ⟨44, _⟩ => ⟨S4096x50x64, .f32⟩
  | .hbm, ⟨45, _⟩ => ⟨S_, .f32⟩
  | .hbm, ⟨46, _⟩ => ⟨S4096x64, .f32⟩
  | .hbm, ⟨47, _⟩ => ⟨S_, .i32⟩
  | .hbm, ⟨48, _⟩ => ⟨S3276800, .i32⟩
  | .hbm, ⟨49, _⟩ => ⟨S3276800, .i1⟩
  | .hbm, ⟨50, _⟩ => ⟨S_, .i32⟩
  | .hbm, ⟨51, _⟩ => ⟨S3276800, .i32⟩
  | .hbm, ⟨52, _⟩ => ⟨S3276800, .i32⟩
  | .hbm, ⟨53, _⟩ => ⟨S3276800, .i32⟩
  | .hbm, ⟨54, _⟩ => ⟨S3276800x1, .i32⟩
  | .hbm, ⟨55, _⟩ => ⟨S3276800x64, .f32⟩
  | .hbm, ⟨56, _⟩ => ⟨S_, .f32⟩
  | .hbm, ⟨57, _⟩ => ⟨S204800x64, .f32⟩
  | .hbm, ⟨58, _⟩ => ⟨S3276800x1, .i32⟩
  | .hbm, ⟨59, _⟩ => ⟨S204800x64, .f32⟩
  | .hbm, ⟨60, _⟩ => ⟨S1x3x64x64, .f32⟩
  | .hbm, ⟨61, _⟩ => ⟨S3x64x64, .f32⟩
  | .hbm, ⟨62, _⟩ => ⟨S1x3x64, .f32⟩
  | .hbm, ⟨63, _⟩ => ⟨S3x64, .f32⟩
  | .hbm, ⟨64, _⟩ => ⟨S1x3x64, .f32⟩
  | .hbm, ⟨65, _⟩ => ⟨S3x64, .f32⟩
  | .hbm, ⟨66, _⟩ => ⟨S1x3x64, .f32⟩
  | .hbm, ⟨67, _⟩ => ⟨S3x64, .f32⟩
  | .hbm, ⟨68, _⟩ => ⟨S1x3x64, .f32⟩
  | .hbm, ⟨69, _⟩ => ⟨S3x64, .f32⟩
  | .hbm, ⟨70, _⟩ => ⟨S1x3x64, .f32⟩
  | .hbm, ⟨71, _⟩ => ⟨S3x64, .f32⟩
  | .hbm, ⟨72, _⟩ => ⟨S204800x64, .f32⟩
  | .hbm, ⟨73, _⟩ => ⟨S4096x50x64, .f32⟩
  | .hbm, ⟨74, _⟩ => ⟨S_, .f32⟩
  | .hbm, ⟨75, _⟩ => ⟨S4096x64, .f32⟩
  | .hbm, ⟨76, _⟩ => ⟨S_, .i32⟩
  | .hbm, ⟨77, _⟩ => ⟨S3276800, .i32⟩
  | .hbm, ⟨78, _⟩ => ⟨S3276800, .i1⟩
  | .hbm, ⟨79, _⟩ => ⟨S_, .i32⟩
  | .hbm, ⟨80, _⟩ => ⟨S3276800, .i32⟩
  | .hbm, ⟨81, _⟩ => ⟨S3276800, .i32⟩
  | .hbm, ⟨82, _⟩ => ⟨S3276800, .i32⟩
  | .hbm, ⟨83, _⟩ => ⟨S3276800x1, .i32⟩
  | .hbm, ⟨84, _⟩ => ⟨S3276800x64, .f32⟩
  | .hbm, ⟨85, _⟩ => ⟨S_, .f32⟩
  | .hbm, ⟨86, _⟩ => ⟨S204800x64, .f32⟩
  | .hbm, ⟨87, _⟩ => ⟨S3276800x1, .i32⟩
  | .hbm, ⟨88, _⟩ => ⟨S204800x64, .f32⟩
  | .hbm, ⟨89, _⟩ => ⟨S1x3x64x64, .f32⟩
  | .hbm, ⟨90, _⟩ => ⟨S3x64x64, .f32⟩
  | .hbm, ⟨91, _⟩ => ⟨S1x3x64, .f32⟩
  | .hbm, ⟨92, _⟩ => ⟨S3x64, .f32⟩
  | .hbm, ⟨93, _⟩ => ⟨S1x3x64, .f32⟩
  | .hbm, ⟨94, _⟩ => ⟨S3x64, .f32⟩
  | .hbm, ⟨95, _⟩ => ⟨S1x3x64, .f32⟩
  | .hbm, ⟨96, _⟩ => ⟨S3x64, .f32⟩
  | .hbm, ⟨97, _⟩ => ⟨S1x3x64, .f32⟩
  | .hbm, ⟨98, _⟩ => ⟨S3x64, .f32⟩
  | .hbm, ⟨99, _⟩ => ⟨S1x3x64, .f32⟩
  | .hbm, ⟨100, _⟩ => ⟨S3x64, .f32⟩
  | .hbm, ⟨101, _⟩ => ⟨S204800x64, .f32⟩
  | .hbm, ⟨102, _⟩ => ⟨S4096x50x64, .f32⟩
  | .hbm, ⟨103, _⟩ => ⟨S_, .f32⟩
  | .hbm, ⟨104, _⟩ => ⟨S4096x64, .f32⟩
  | .hbm, ⟨105, _⟩ => ⟨S4096x192, .f32⟩
  | .hbm, ⟨106, _⟩ => ⟨S4096x10, .f32⟩
  | .hbm, ⟨107, _⟩ => ⟨S1x10, .f32⟩
  | .hbm, ⟨108, _⟩ => ⟨S4096x10, .f32⟩
  | .hbm, ⟨109, _⟩ => ⟨S4096x10, .f32⟩
  | .local _ .vmem, ⟨0, _⟩ => ⟨S4096x64, .f32⟩
  | .local _ .vmem, ⟨1, _⟩ => ⟨S4096x64, .f32⟩
  | .local _ .vmem, ⟨2, _⟩ => ⟨S4096x64, .f32⟩
  | .local _ .vmem, ⟨3, _⟩ => ⟨S4096x64, .f32⟩
  | .local _ .vmem, ⟨4, _⟩ => ⟨S3x64x64, .f32⟩
  | .local _ .vmem, ⟨5, _⟩ => ⟨S3x64, .f32⟩
  | .local _ .vmem, ⟨6, _⟩ => ⟨S3x64, .f32⟩
  | .local _ .vmem, ⟨7, _⟩ => ⟨S3x64, .f32⟩
  | .local _ .vmem, ⟨8, _⟩ => ⟨S3x64, .f32⟩
  | .local _ .vmem, ⟨9, _⟩ => ⟨S3x64, .f32⟩
  | .local _ .vmem, ⟨10, _⟩ => ⟨S4096x64, .f32⟩
  | .local _ .vmem, ⟨11, _⟩ => ⟨S4096x64, .f32⟩
  | .local _ .vmem, ⟨12, _⟩ => ⟨S4096x64, .f32⟩
  | .local _ .vmem, ⟨13, _⟩ => ⟨S4096x64, .f32⟩
  | .local _ .vmem, ⟨14, _⟩ => ⟨S4096x64, .f32⟩
  | .local _ .vmem, ⟨15, _⟩ => ⟨S4096x64, .f32⟩
  | .local _ .vmem, ⟨16, _⟩ => ⟨S3x64x64, .f32⟩
  | .local _ .vmem, ⟨17, _⟩ => ⟨S3x64, .f32⟩
  | .local _ .vmem, ⟨18, _⟩ => ⟨S3x64, .f32⟩
  | .local _ .vmem, ⟨19, _⟩ => ⟨S3x64, .f32⟩
  | .local _ .vmem, ⟨20, _⟩ => ⟨S3x64, .f32⟩
  | .local _ .vmem, ⟨21, _⟩ => ⟨S3x64, .f32⟩
  | .local _ .vmem, ⟨22, _⟩ => ⟨S4096x64, .f32⟩
  | .local _ .vmem, ⟨23, _⟩ => ⟨S4096x64, .f32⟩
  | .local _ .vmem, ⟨24, _⟩ => ⟨S4096x64, .f32⟩
  | .local _ .vmem, ⟨25, _⟩ => ⟨S4096x64, .f32⟩
  | .local _ .vmem, ⟨26, _⟩ => ⟨S4096x64, .f32⟩
  | .local _ .vmem, ⟨27, _⟩ => ⟨S4096x64, .f32⟩
  | .local _ .vmem, ⟨28, _⟩ => ⟨S3x64x64, .f32⟩
  | .local _ .vmem, ⟨29, _⟩ => ⟨S3x64, .f32⟩
  | .local _ .vmem, ⟨30, _⟩ => ⟨S3x64, .f32⟩
  | .local _ .vmem, ⟨31, _⟩ => ⟨S3x64, .f32⟩
  | .local _ .vmem, ⟨32, _⟩ => ⟨S3x64, .f32⟩
  | .local _ .vmem, ⟨33, _⟩ => ⟨S3x64, .f32⟩
  | .local _ .vmem, ⟨34, _⟩ => ⟨S4096x64, .f32⟩
  | .local _ .vmem, ⟨35, _⟩ => ⟨S4096x64, .f32⟩
  | _, _ => ⟨S204800, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_1 : Ref sig .tc := ⟨.hbm, 45, rfl⟩
abbrev main_v29 : Ref sig .tc := ⟨.hbm, 46, rfl⟩
abbrev main_c_2 : Ref sig .tc := ⟨.hbm, 47, rfl⟩
abbrev main_v30 : Ref sig .tc := ⟨.hbm, 48, rfl⟩
abbrev main_v31 : Ref sig .tc := ⟨.hbm, 49, rfl⟩
abbrev main_c_3 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_4 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_5 : Ref sig .tc := ⟨.hbm, 74, rfl⟩
abbrev main_v54 : Ref sig .tc := ⟨.hbm, 75, rfl⟩
abbrev main_c_6 : Ref sig .tc := ⟨.hbm, 76, rfl⟩
abbrev main_v55 : Ref sig .tc := ⟨.hbm, 77, rfl⟩
abbrev main_v56 : Ref sig .tc := ⟨.hbm, 78, rfl⟩
abbrev main_c_7 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_8 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_9 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg8_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem8_1 : DmaSem sig := 35

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S3x64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S3x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S3x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S3x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S3x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S4096x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S3x64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S3x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S3x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S3x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S3x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S3x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S4096x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  shapeCasts_S204800_S204800x1 : S204800.ShapeCasts S204800x1
  bcast_S64_S1x64_1 : S64.BroadcastsInDim S1x64 (![1] : Fin 1 → Fin S1x64.rank)
  bcast_S1x64_S204800x64_0_1 : S1x64.BroadcastsInDim S204800x64 (![0, 1] : Fin 2 → Fin S204800x64.rank)
  bcast_S_S3276800 : S_.BroadcastsInDim S3276800 (![] : Fin 0 → Fin S3276800.rank)
  bcast_S3276800_S3276800x1_0 : S3276800.BroadcastsInDim S3276800x1 (![0] : Fin 1 → Fin S3276800x1.rank)
  bcast_S_S204800x64 : S_.BroadcastsInDim S204800x64 (![] : Fin 0 → Fin S204800x64.rank)
  slices_S3x3x64x64_S1x3x64x64_0_0_0_0 : S3x3x64x64.Slices ![0, 0, 0, 0] S1x3x64x64
  shapeCasts_S1x3x64x64_S3x64x64 : S1x3x64x64.ShapeCasts S3x64x64
  slices_S3x3x64_S1x3x64_0_0_0 : S3x3x64.Slices ![0, 0, 0] S1x3x64
  shapeCasts_S1x3x64_S3x64 : S1x3x64.ShapeCasts S3x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S3x64x64_S1x64x64_0_0_0 : ∀ a, (![0, 0, 0] : Fin 3 → Nat) a + S1x64x64.size a ≤ S3x64x64.size a
  h_S1x64x64 : 0 < S1x64x64.numel
  shapeCasts_S1x64x64_S64x64 : S1x64x64.ShapeCasts S64x64
  bitsLt_bf16_f32 : FTy.bits .bf16 < FTy.bits .f32
  inb_S3x64_S1x64_0_0 : ∀ a, (![0, 0] : Fin 2 → Nat) a + S1x64.size a ≤ S3x64.size a
  h_S1x64 : 0 < S1x64.numel
  shapeCasts_S1x64_S64 : S1x64.ShapeCasts S64
  shapeCasts_S64_S1x64 : S64.ShapeCasts S1x64
  broadcasts_S1x64_S4096x64 : S1x64.Broadcasts S4096x64
  inb_S3x64x64_S1x64x64_1_0_0 : ∀ a, (![1, 0, 0] : Fin 3 → Nat) a + S1x64x64.size a ≤ S3x64x64.size a
  inb_S3x64_S1x64_1_0 : ∀ a, (![1, 0] : Fin 2 → Nat) a + S1x64.size a ≤ S3x64.size a
  inb_S3x64x64_S1x64x64_2_0_0 : ∀ a, (![2, 0, 0] : Fin 3 → Nat) a + S1x64x64.size a ≤ S3x64x64.size a
  inb_S3x64_S1x64_2_0 : ∀ a, (![2, 0] : Fin 2 → Nat) a + S1x64.size a ≤ S3x64.size a
  shapeCasts_S204800x64_S4096x50x64 : S204800x64.ShapeCasts S4096x50x64
  reducesTo_S4096x50x64_S4096x64_d1 : S4096x50x64.ReducesTo [1] S4096x64
  h_S_ : 0 < S_.numel
  slices_S3x3x64x64_S1x3x64x64_1_0_0_0 : S3x3x64x64.Slices ![1, 0, 0, 0] S1x3x64x64
  slices_S3x3x64_S1x3x64_1_0_0 : S3x3x64.Slices ![1, 0, 0] S1x3x64
  slices_S3x3x64x64_S1x3x64x64_2_0_0_0 : S3x3x64x64.Slices ![2, 0, 0, 0] S1x3x64x64
  slices_S3x3x64_S1x3x64_2_0_0 : S3x3x64.Slices ![2, 0, 0] S1x3x64
  concatenates_S4096x64_S4096x64_S4096x64_S4096x192_d1 : Shape.Concatenates [S4096x64, S4096x64, S4096x64] S4096x192 1
  bcast_S10_S1x10_1 : S10.BroadcastsInDim S1x10 (![1] : Fin 1 → Fin S1x10.rank)
  bcast_S1x10_S4096x10_0_1 : S1x10.BroadcastsInDim S4096x10 (![0, 1] : Fin 2 → Fin S4096x10.rank)
  dot_S204800x1_S1x64_S204800x64_1_0_0_1_n_n_wf : DotDims.WF S204800x1 S1x64 S204800x64 [1] [0] [0] [1] [] []
  gather_S204800x64_S3276800x1_S3276800x64_1_0_n_n_0_1_164_wf : GatherDims.WF S204800x64 S3276800x1 S3276800x64 [1] [0] [] [0] [] 1 ![1, 64]
  scatter_S204800x64_S3276800x1_S3276800x64_1_0_0_1_wf : ScatterDims.WF S204800x64 S3276800x1 S3276800x64 [1] [0] [0] 1
  dot_S4096x64_S64x64_S4096x64_1_0_0_1_n_n_wf : DotDims.WF S4096x64 S64x64 S4096x64 [1] [0] [0] [1] [] []
  dot_S4096x192_S192x10_S4096x10_1_0_0_1_n_n_wf : DotDims.WF S4096x192 S192x10 S4096x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S204800x64.size a
  hwx0_0 : ∀ i : grid0.Coords, EltTy.bits .f32 = 32 ∨ (Rect.block (s := S204800x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S204800x64.size a
  hwx0_1 : ∀ i : grid0.Coords, EltTy.bits .f32 = 32 ∨ (Rect.block (s := S204800x64) S4096x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x64x64.size a ≤ S3x64x64.size a
  hwx0_2 : ∀ i : grid0.Coords, EltTy.bits .f32 = 32 ∨ (Rect.block (s := S3x64x64) S3x64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x64.size a ≤ S3x64.size a
  hwx0_3 : ∀ i : grid0.Coords, EltTy.bits .f32 = 32 ∨ (Rect.block (s := S3x64) S3x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x64.size a ≤ S3x64.size a
  hwx0_4 : ∀ i : grid0.Coords, EltTy.bits .f32 = 32 ∨ (Rect.block (s := S3x64) S3x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x64.size a ≤ S3x64.size a
  hwx0_5 : ∀ i : grid0.Coords, EltTy.bits .f32 = 32 ∨ (Rect.block (s := S3x64) S3x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x64.size a ≤ S3x64.size a
  hwx0_6 : ∀ i : grid0.Coords, EltTy.bits .f32 = 32 ∨ (Rect.block (s := S3x64) S3x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x64.size a ≤ S3x64.size a
  hwx0_7 : ∀ i : grid0.Coords, EltTy.bits .f32 = 32 ∨ (Rect.block (s := S3x64) S3x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x64.size a ≤ S204800x64.size a
  hwx0_8 : ∀ i : grid0.Coords, EltTy.bits .f32 = 32 ∨ (Rect.block (s := S204800x64) S4096x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x64.size a ≤ S204800x64.size a
  hwx1_0 : ∀ i : grid1.Coords, EltTy.bits .f32 = 32 ∨ (Rect.block (s := S204800x64) S4096x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x64.size a ≤ S204800x64.size a
  hwx1_1 : ∀ i : grid1.Coords, EltTy.bits .f32 = 32 ∨ (Rect.block (s := S204800x64) S4096x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3x64x64.size a ≤ S3x64x64.size a
  hwx1_2 : ∀ i : grid1.Coords, EltTy.bits .f32 = 32 ∨ (Rect.block (s := S3x64x64) S3x64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x64.size a ≤ S3x64.size a
  hwx1_3 : ∀ i : grid1.Coords, EltTy.bits .f32 = 32 ∨ (Rect.block (s := S3x64) S3x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S3x64.size a ≤ S3x64.size a
  hwx1_4 : ∀ i : grid1.Coords, EltTy.bits .f32 = 32 ∨ (Rect.block (s := S3x64) S3x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S3x64.size a ≤ S3x64.size a
  hwx1_5 : ∀ i : grid1.Coords, EltTy.bits .f32 = 32 ∨ (Rect.block (s := S3x64) S3x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S3x64.size a ≤ S3x64.size a
  hwx1_6 : ∀ i : grid1.Coords, EltTy.bits .f32 = 32 ∨ (Rect.block (s := S3x64) S3x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S3x64.size a ≤ S3x64.size a
  hwx1_7 : ∀ i : grid1.Coords, EltTy.bits .f32 = 32 ∨ (Rect.block (s := S3x64) S3x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4096x64.size a ≤ S204800x64.size a
  hwx1_8 : ∀ i : grid1.Coords, EltTy.bits .f32 = 32 ∨ (Rect.block (s := S204800x64) S4096x64.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x64.size a ≤ S204800x64.size a
  hwx2_0 : ∀ i : grid2.Coords, EltTy.bits .f32 = 32 ∨ (Rect.block (s := S204800x64) S4096x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x64.size a ≤ S204800x64.size a
  hwx2_1 : ∀ i : grid2.Coords, EltTy.bits .f32 = 32 ∨ (Rect.block (s := S204800x64) S4096x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S3x64x64.size a ≤ S3x64x64.size a
  hwx2_2 : ∀ i : grid2.Coords, EltTy.bits .f32 = 32 ∨ (Rect.block (s := S3x64x64) S3x64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S3x64.size a ≤ S3x64.size a
  hwx2_3 : ∀ i : grid2.Coords, EltTy.bits .f32 = 32 ∨ (Rect.block (s := S3x64) S3x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S3x64.size a ≤ S3x64.size a
  hwx2_4 : ∀ i : grid2.Coords, EltTy.bits .f32 = 32 ∨ (Rect.block (s := S3x64) S3x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S3x64.size a ≤ S3x64.size a
  hwx2_5 : ∀ i : grid2.Coords, EltTy.bits .f32 = 32 ∨ (Rect.block (s := S3x64) S3x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S3x64.size a ≤ S3x64.size a
  hwx2_6 : ∀ i : grid2.Coords, EltTy.bits .f32 = 32 ∨ (Rect.block (s := S3x64) S3x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S3x64.size a ≤ S3x64.size a
  hwx2_7 : ∀ i : grid2.Coords, EltTy.bits .f32 = 32 ∨ (Rect.block (s := S3x64) S3x64.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S4096x64.size a ≤ S204800x64.size a
  hwx2_8 : ∀ i : grid2.Coords, EltTy.bits .f32 = 32 ∨ (Rect.block (s := S204800x64) S4096x64.size (cc2_transform_8 i) (hinb2_8 i)).WholeWords (EltTy.packing .f32)

variable [Facts₀]

def dot_S204800x1_S1x64_S204800x64_1_0_0_1_n_n : DotDims S204800x1 S1x64 S204800x64 where
  lhsContracting := [1]
  rhsContracting := [0]
  lhsNonContracting := [0]
  rhsNonContracting := [1]
  lhsBatch := []
  rhsBatch := []
  wf := dot_S204800x1_S1x64_S204800x64_1_0_0_1_n_n_wf
def gather_S204800x64_S3276800x1_S3276800x64_1_0_n_n_0_1_164 : GatherDims S204800x64 S3276800x1 S3276800x64 where
  offsetDims := [1]
  collapsedSliceDims := [0]
  operandBatchingDims := []
  startIndicesBatchingDims := []
  startIndexMap := [0]
  indexVectorDim := 1
  sliceSizes := ![1, 64]
  wf := gather_S204800x64_S3276800x1_S3276800x64_1_0_n_n_0_1_164_wf
def scatter_S204800x64_S3276800x1_S3276800x64_1_0_0_1 : ScatterDims S204800x64 S3276800x1 S3276800x64 where
  updateWindowDims := [1]
  insertedWindowDims := [0]
  scatterDimsToOperandDims := [0]
  indexVectorDim := 1
  wf := scatter_S204800x64_S3276800x1_S3276800x64_1_0_0_1_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x192_S192x10_S4096x10_1_0_0_1_n_n : DotDims S4096x192 S192x10 S4096x10 where
  lhsContracting := [1]
  rhsContracting := [0]
  lhsNonContracting := [0]
  rhsNonContracting := [1]
  lhsBatch := []
  rhsBatch := []
  wf := dot_S4096x192_S192x10_S4096x10_1_0_0_1_n_n_wf

abbrev win0_0 : Pipeline.Window sig grid0 :=
  Pipeline.Window.ofSpec (Memref.whole main_v4) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S3x64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S3x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S3x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S3x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S3x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S3x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27) S4096x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v27) S4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S3x64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S3x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S3x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S3x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v49) S3x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v51) S3x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v52) S4096x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v52) S4096x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S4096x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v66) S3x64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v68) S3x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v70) S3x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v72) S3x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v74) S3x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v76) S3x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v77) S4096x64.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S204800 : Shape := ⟨1, ![204800]⟩
abbrev S3276800 : Shape := ⟨1, ![3276800]⟩
abbrev S1x64 : Shape := ⟨2, ![1, 64]⟩
abbrev S64 : Shape := ⟨1, ![64]⟩
abbrev S3x3x64x64 : Shape := ⟨4, ![3, 3, 64, 64]⟩
abbrev S3x3x64 : Shape := ⟨3, ![3, 3, 64]⟩
abbrev S192x10 : Shape := ⟨2, ![192, 10]⟩
abbrev S10 : Shape := ⟨1, ![10]⟩
abbrev S204800x1 : Shape := ⟨2, ![204800, 1]⟩
abbrev S204800x64 : Shape := ⟨2, ![204800, 64]⟩
abbrev S_ : Shape := ⟨0, ![]⟩
abbrev S3276800x1 : Shape := ⟨2, ![3276800, 1]⟩
abbrev S3276800x64 : Shape := ⟨2, ![3276800, 64]⟩
abbrev S1x3x64x64 : Shape := ⟨4, ![1, 3, 64, 64]⟩
abbrev S3x64x64 : Shape := ⟨3, ![3, 64, 64]⟩
abbrev S1x3x64 : Shape := ⟨3, ![1, 3, 64]⟩
abbrev S3x64 : Shape := ⟨2, ![3, 64]⟩
abbrev S1x64x64 : Shape := ⟨3, ![1, 64, 64]⟩
abbrev S64x64 : Shape := ⟨2, ![64, 64]⟩
abbrev S4096x50x64 : Shape := ⟨3, ![4096, 50, 64]⟩
abbrev S4096x64 : Shape := ⟨2, ![4096, 64]⟩
abbrev S4096x192 : Shape := ⟨2, ![4096, 192]⟩
abbrev S4096x10 : Shape := ⟨2, ![4096, 10]⟩
abbrev S1x10 : Shape := ⟨2, ![1, 10]⟩

abbrev nBuf : Space → Nat
  | .hbm => 425
  | .vmem => 0
  | .smem => 0
  | _ => 0

abbrev hbmTy0_0 (i : Nat) : BufTy := match i % 128 with
  | 0 => ⟨S204800, .f32⟩
  | 1 => ⟨S3276800, .i32⟩
  | 2 => ⟨S3276800, .i32⟩
  | 3 => ⟨S1x64, .f32⟩
  | 4 => ⟨S64, .f32⟩
  | 5 => ⟨S3x3x64x64, .f32⟩
  | 6 => ⟨S3x3x64, .f32⟩
  | 7 => ⟨S3x3x64, .f32⟩
  | 8 => ⟨S3x3x64, .f32⟩
  | 9 => ⟨S3x3x64, .f32⟩
  | 10 => ⟨S3x3x64, .f32⟩
  | 11 => ⟨S192x10, .f32⟩
  | 12 => ⟨S10, .f32⟩
  | 13 => ⟨S204800x1, .f32⟩
  | 14 => ⟨S204800x64, .f32⟩
  | 15 => ⟨S1x64, .f32⟩
  | 16 => ⟨S204800x64, .f32⟩
  | 17 => ⟨S204800x64, .f32⟩
  | 18 => ⟨S_, .i32⟩
  | 19 => ⟨S3276800, .i32⟩
  | 20 => ⟨S3276800, .i1⟩
  | 21 => ⟨S_, .i32⟩
  | 22 => ⟨S3276800, .i32⟩
  | 23 => ⟨S3276800, .i32⟩
  | 24 => ⟨S3276800, .i32⟩
  | 25 => ⟨S3276800x1, .i32⟩
  | 26 => ⟨S3276800x64, .f32⟩
  | 27 => ⟨S_, .f32⟩
  | 28 => ⟨S204800x64, .f32⟩
  | 29 => ⟨S3276800x1, .i32⟩
  | 30 => ⟨S204800x64, .f32⟩
  | 31 => ⟨S204800x64, .f32⟩
  | 32 => ⟨S1x3x64x64, .f32⟩
  | 33 => ⟨S3x64x64, .f32⟩
  | 34 => ⟨S1x3x64, .f32⟩
  | 35 => ⟨S3x64, .f32⟩
  | 36 => ⟨S1x3x64, .f32⟩
  | 37 => ⟨S3x64, .f32⟩
  | 38 => ⟨S1x3x64, .f32⟩
  | 39 => ⟨S3x64, .f32⟩
  | 40 => ⟨S1x3x64, .f32⟩
  | 41 => ⟨S3x64, .f32⟩
  | 42 => ⟨S1x3x64, .f32⟩
  | 43 => ⟨S3x64, .f32⟩
  | 44 => ⟨S1x64x64, .f32⟩
  | 45 => ⟨S64x64, .f32⟩
  | 46 => ⟨S204800x64, .f32⟩
  | 47 => ⟨S1x64, .f32⟩
  | 48 => ⟨S64, .f32⟩
  | 49 => ⟨S1x64, .f32⟩
  | 50 => ⟨S204800x64, .f32⟩
  | 51 => ⟨S204800x64, .f32⟩
  | 52 => ⟨S_, .f32⟩
  | 53 => ⟨S204800x64, .f32⟩
  | 54 => ⟨S204800x64, .f32⟩
  | 55 => ⟨S1x64, .f32⟩
  | 56 => ⟨S64, .f32⟩
  | 57 => ⟨S1x64, .f32⟩
  | 58 => ⟨S204800x64, .f32⟩
  | 59 => ⟨S204800x64, .f32⟩
  | 60 => ⟨S1x64, .f32⟩
  | 61 => ⟨S64, .f32⟩
  | 62 => ⟨S_, .f32⟩
  | 63 => ⟨S64, .f32⟩
  | 64 => ⟨S64, .f32⟩
  | 65 => ⟨S64, .f32⟩
  | 66 => ⟨S1x64, .f32⟩
  | 67 => ⟨S204800x64, .f32⟩
  | 68 => ⟨S204800x64, .f32⟩
  | 69 => ⟨S1x64, .f32⟩
  | 70 => ⟨S64, .f32⟩
  | 71 => ⟨S1x64, .f32⟩
  | 72 => ⟨S204800x64, .f32⟩
  | 73 => ⟨S204800x64, .f32⟩
  | 74 => ⟨S1x64, .f32⟩
  | 75 => ⟨S64, .f32⟩
  | 76 => ⟨S1x64, .f32⟩
  | 77 => ⟨S204800x64, .f32⟩
  | 78 => ⟨S204800x64, .f32⟩
  | 79 => ⟨S1x64x64, .f32⟩
  | 80 => ⟨S64x64, .f32⟩
  | 81 => ⟨S204800x64, .f32⟩
  | 82 => ⟨S1x64, .f32⟩
  | 83 => ⟨S64, .f32⟩
  | 84 => ⟨S1x64, .f32⟩
  | 85 => ⟨S204800x64, .f32⟩
  | 86 => ⟨S204800x64, .f32⟩
  | 87 => ⟨S_, .f32⟩
  | 88 => ⟨S204800x64, .f32⟩
  | 89 => ⟨S204800x64, .f32⟩
  | 90 => ⟨S1x64, .f32⟩
  | 91 => ⟨S64, .f32⟩
  | 92 => ⟨S1x64, .f32⟩
  | 93 => ⟨S204800x64, .f32⟩
  | 94 => ⟨S204800x64, .f32⟩
  | 95 => ⟨S1x64, .f32⟩
  | 96 => ⟨S64, .f32⟩
  | 97 => ⟨S_, .f32⟩
  | 98 => ⟨S64, .f32⟩
  | 99 => ⟨S64, .f32⟩
  | 100 => ⟨S64, .f32⟩
  | 101 => ⟨S1x64, .f32⟩
  | 102 => ⟨S204800x64, .f32⟩
  | 103 => ⟨S204800x64, .f32⟩
  | 104 => ⟨S1x64, .f32⟩
  | 105 => ⟨S64, .f32⟩
  | 106 => ⟨S1x64, .f32⟩
  | 107 => ⟨S204800x64, .f32⟩
  | 108 => ⟨S204800x64, .f32⟩
  | 109 => ⟨S1x64, .f32⟩
  | 110 => ⟨S64, .f32⟩
  | 111 => ⟨S1x64, .f32⟩
  | 112 => ⟨S204800x64, .f32⟩
  | 113 => ⟨S204800x64, .f32⟩
  | 114 => ⟨S1x64x64, .f32⟩
  | 115 => ⟨S64x64, .f32⟩
  | 116 => ⟨S204800x64, .f32⟩
  | 117 => ⟨S1x64, .f32⟩
  | 118 => ⟨S64, .f32⟩
  | 119 => ⟨S1x64, .f32⟩
  | 120 => ⟨S204800x64, .f32⟩
  | 121 => ⟨S204800x64, .f32⟩
  | 122 => ⟨S_, .f32⟩
  | 123 => ⟨S204800x64, .f32⟩
  | 124 => ⟨S204800x64, .f32⟩
  | 125 => ⟨S1x64, .f32⟩
  | 126 => ⟨S64, .f32⟩
  | 127 => ⟨S1x64, .f32⟩
  | _ => ⟨S204800, .f32⟩

abbrev hbmTy0_1 (i : Nat) : BufTy := match i % 128 with
  | 0 => ⟨S204800x64, .f32⟩
  | 1 => ⟨S204800x64, .f32⟩
  | 2 => ⟨S1x64, .f32⟩
  | 3 => ⟨S64, .f32⟩
  | 4 => ⟨S_, .f32⟩
  | 5 => ⟨S64, .f32⟩
  | 6 => ⟨S64, .f32⟩
  | 7 => ⟨S64, .f32⟩
  | 8 => ⟨S1x64, .f32⟩
  | 9 => ⟨S204800x64, .f32⟩
  | 10 => ⟨S204800x64, .f32⟩
  | 11 => ⟨S1x64, .f32⟩
  | 12 => ⟨S64, .f32⟩
  | 13 => ⟨S1x64, .f32⟩
  | 14 => ⟨S204800x64, .f32⟩
  | 15 => ⟨S204800x64, .f32⟩
  | 16 => ⟨S1x64, .f32⟩
  | 17 => ⟨S64, .f32⟩
  | 18 => ⟨S1x64, .f32⟩
  | 19 => ⟨S204800x64, .f32⟩
  | 20 => ⟨S204800x64, .f32⟩
  | 21 => ⟨S4096x50x64, .f32⟩
  | 22 => ⟨S_, .f32⟩
  | 23 => ⟨S4096x64, .f32⟩
  | 24 => ⟨S_, .i32⟩
  | 25 => ⟨S3276800, .i32⟩
  | 26 => ⟨S3276800, .i1⟩
  | 27 => ⟨S_, .i32⟩
  | 28 => ⟨S3276800, .i32⟩
  | 29 => ⟨S3276800, .i32⟩
  | 30 => ⟨S3276800, .i32⟩
  | 31 => ⟨S3276800x1, .i32⟩
  | 32 => ⟨S3276800x64, .f32⟩
  | 33 => ⟨S_, .f32⟩
  | 34 => ⟨S204800x64, .f32⟩
  | 35 => ⟨S3276800x1, .i32⟩
  | 36 => ⟨S204800x64, .f32⟩
  | 37 => ⟨S204800x64, .f32⟩
  | 38 => ⟨S1x3x64x64, .f32⟩
  | 39 => ⟨S3x64x64, .f32⟩
  | 40 => ⟨S1x3x64, .f32⟩
  | 41 => ⟨S3x64, .f32⟩
  | 42 => ⟨S1x3x64, .f32⟩
  | 43 => ⟨S3x64, .f32⟩
  | 44 => ⟨S1x3x64, .f32⟩
  | 45 => ⟨S3x64, .f32⟩
  | 46 => ⟨S1x3x64, .f32⟩
  | 47 => ⟨S3x64, .f32⟩
  | 48 => ⟨S1x3x64, .f32⟩
  | 49 => ⟨S3x64, .f32⟩
  | 50 => ⟨S1x64x64, .f32⟩
  | 51 => ⟨S64x64, .f32⟩
  | 52 => ⟨S204800x64, .f32⟩
  | 53 => ⟨S1x64, .f32⟩
  | 54 => ⟨S64, .f32⟩
  | 55 => ⟨S1x64, .f32⟩
  | 56 => ⟨S204800x64, .f32⟩
  | 57 => ⟨S204800x64, .f32⟩
  | 58 => ⟨S_, .f32⟩
  | 59 => ⟨S204800x64, .f32⟩
  | 60 => ⟨S204800x64, .f32⟩
  | 61 => ⟨S1x64, .f32⟩
  | 62 => ⟨S64, .f32⟩
  | 63 => ⟨S1x64, .f32⟩
  | 64 => ⟨S204800x64, .f32⟩
  | 65 => ⟨S204800x64, .f32⟩
  | 66 => ⟨S1x64, .f32⟩
  | 67 => ⟨S64, .f32⟩
  | 68 => ⟨S_, .f32⟩
  | 69 => ⟨S64, .f32⟩
  | 70 => ⟨S64, .f32⟩
  | 71 => ⟨S64, .f32⟩
  | 72 => ⟨S1x64, .f32⟩
  | 73 => ⟨S204800x64, .f32⟩
  | 74 => ⟨S204800x64, .f32⟩
  | 75 => ⟨S1x64, .f32⟩
  | 76 => ⟨S64, .f32⟩
  | 77 => ⟨S1x64, .f32⟩
  | 78 => ⟨S204800x64, .f32⟩
  | 79 => ⟨S204800x64, .f32⟩
  | 80 => ⟨S1x64, .f32⟩
  | 81 => ⟨S64, .f32⟩
  | 82 => ⟨S1x64, .f32⟩
  | 83 => ⟨S204800x64, .f32⟩
  | 84 => ⟨S204800x64, .f32⟩
  | 85 => ⟨S1x64x64, .f32⟩
  | 86 => ⟨S64x64, .f32⟩
  | 87 => ⟨S204800x64, .f32⟩
  | 88 => ⟨S1x64, .f32⟩
  | 89 => ⟨S64, .f32⟩
  | 90 => ⟨S1x64, .f32⟩
  | 91 => ⟨S204800x64, .f32⟩
  | 92 => ⟨S204800x64, .f32⟩
  | 93 => ⟨S_, .f32⟩
  | 94 => ⟨S204800x64, .f32⟩
  | 95 => ⟨S204800x64, .f32⟩
  | 96 => ⟨S1x64, .f32⟩
  | 97 => ⟨S64, .f32⟩
  | 98 => ⟨S1x64, .f32⟩
  | 99 => ⟨S204800x64, .f32⟩
  | 100 => ⟨S204800x64, .f32⟩
  | 101 => ⟨S1x64, .f32⟩
  | 102 => ⟨S64, .f32⟩
  | 103 => ⟨S_, .f32⟩
  | 104 => ⟨S64, .f32⟩
  | 105 => ⟨S64, .f32⟩
  | 106 => ⟨S64, .f32⟩
  | 107 => ⟨S1x64, .f32⟩
  | 108 => ⟨S204800x64, .f32⟩
  | 109 => ⟨S204800x64, .f32⟩
  | 110 => ⟨S1x64, .f32⟩
  | 111 => ⟨S64, .f32⟩
  | 112 => ⟨S1x64, .f32⟩
  | 113 => ⟨S204800x64, .f32⟩
  | 114 => ⟨S204800x64, .f32⟩
  | 115 => ⟨S1x64, .f32⟩
  | 116 => ⟨S64, .f32⟩
  | 117 => ⟨S1x64, .f32⟩
  | 118 => ⟨S204800x64, .f32⟩
  | 119 => ⟨S204800x64, .f32⟩
  | 120 => ⟨S1x64x64, .f32⟩
  | 121 => ⟨S64x64, .f32⟩
  | 122 => ⟨S204800x64, .f32⟩
  | 123 => ⟨S1x64, .f32⟩
  | 124 => ⟨S64, .f32⟩
  | 125 => ⟨S1x64, .f32⟩
  | 126 => ⟨S204800x64, .f32⟩
  | 127 => ⟨S204800x64, .f32⟩
  | _ => ⟨S204800, .f32⟩

abbrev hbmTy0_2 (i : Nat) : BufTy := match i % 128 with
  | 0 => ⟨S_, .f32⟩
  | 1 => ⟨S204800x64, .f32⟩
  | 2 => ⟨S204800x64, .f32⟩
  | 3 => ⟨S1x64, .f32⟩
  | 4 => ⟨S64, .f32⟩
  | 5 => ⟨S1x64, .f32⟩
  | 6 => ⟨S204800x64, .f32⟩
  | 7 => ⟨S204800x64, .f32⟩
  | 8 => ⟨S1x64, .f32⟩
  | 9 => ⟨S64, .f32⟩
  | 10 => ⟨S_, .f32⟩
  | 11 => ⟨S64, .f32⟩
  | 12 => ⟨S64, .f32⟩
  | 13 => ⟨S64, .f32⟩
  | 14 => ⟨S1x64, .f32⟩
  | 15 => ⟨S204800x64, .f32⟩
  | 16 => ⟨S204800x64, .f32⟩
  | 17 => ⟨S1x64, .f32⟩
  | 18 => ⟨S64, .f32⟩
  | 19 => ⟨S1x64, .f32⟩
  | 20 => ⟨S204800x64, .f32⟩
  | 21 => ⟨S204800x64, .f32⟩
  | 22 => ⟨S1x64, .f32⟩
  | 23 => ⟨S64, .f32⟩
  | 24 => ⟨S1x64, .f32⟩
  | 25 => ⟨S204800x64, .f32⟩
  | 26 => ⟨S204800x64, .f32⟩
  | 27 => ⟨S4096x50x64, .f32⟩
  | 28 => ⟨S_, .f32⟩
  | 29 => ⟨S4096x64, .f32⟩
  | 30 => ⟨S_, .i32⟩
  | 31 => ⟨S3276800, .i32⟩
  | 32 => ⟨S3276800, .i1⟩
  | 33 => ⟨S_, .i32⟩
  | 34 => ⟨S3276800, .i32⟩
  | 35 => ⟨S3276800, .i32⟩
  | 36 => ⟨S3276800, .i32⟩
  | 37 => ⟨S3276800x1, .i32⟩
  | 38 => ⟨S3276800x64, .f32⟩
  | 39 => ⟨S_, .f32⟩
  | 40 => ⟨S204800x64, .f32⟩
  | 41 => ⟨S3276800x1, .i32⟩
  | 42 => ⟨S204800x64, .f32⟩
  | 43 => ⟨S204800x64, .f32⟩
  | 44 => ⟨S1x3x64x64, .f32⟩
  | 45 => ⟨S3x64x64, .f32⟩
  | 46 => ⟨S1x3x64, .f32⟩
  | 47 => ⟨S3x64, .f32⟩
  | 48 => ⟨S1x3x64, .f32⟩
  | 49 => ⟨S3x64, .f32⟩
  | 50 => ⟨S1x3x64, .f32⟩
  | 51 => ⟨S3x64, .f32⟩
  | 52 => ⟨S1x3x64, .f32⟩
  | 53 => ⟨S3x64, .f32⟩
  | 54 => ⟨S1x3x64, .f32⟩
  | 55 => ⟨S3x64, .f32⟩
  | 56 => ⟨S1x64x64, .f32⟩
  | 57 => ⟨S64x64, .f32⟩
  | 58 => ⟨S204800x64, .f32⟩
  | 59 => ⟨S1x64, .f32⟩
  | 60 => ⟨S64, .f32⟩
  | 61 => ⟨S1x64, .f32⟩
  | 62 => ⟨S204800x64, .f32⟩
  | 63 => ⟨S204800x64, .f32⟩
  | 64 => ⟨S_, .f32⟩
  | 65 => ⟨S204800x64, .f32⟩
  | 66 => ⟨S204800x64, .f32⟩
  | 67 => ⟨S1x64, .f32⟩
  | 68 => ⟨S64, .f32⟩
  | 69 => ⟨S1x64, .f32⟩
  | 70 => ⟨S204800x64, .f32⟩
  | 71 => ⟨S204800x64, .f32⟩
  | 72 => ⟨S1x64, .f32⟩
  | 73 => ⟨S64, .f32⟩
  | 74 => ⟨S_, .f32⟩
  | 75 => ⟨S64, .f32⟩
  | 76 => ⟨S64, .f32⟩
  | 77 => ⟨S64, .f32⟩
  | 78 => ⟨S1x64, .f32⟩
  | 79 => ⟨S204800x64, .f32⟩
  | 80 => ⟨S204800x64, .f32⟩
  | 81 => ⟨S1x64, .f32⟩
  | 82 => ⟨S64, .f32⟩
  | 83 => ⟨S1x64, .f32⟩
  | 84 => ⟨S204800x64, .f32⟩
  | 85 => ⟨S204800x64, .f32⟩
  | 86 => ⟨S1x64, .f32⟩
  | 87 => ⟨S64, .f32⟩
  | 88 => ⟨S1x64, .f32⟩
  | 89 => ⟨S204800x64, .f32⟩
  | 90 => ⟨S204800x64, .f32⟩
  | 91 => ⟨S1x64x64, .f32⟩
  | 92 => ⟨S64x64, .f32⟩
  | 93 => ⟨S204800x64, .f32⟩
  | 94 => ⟨S1x64, .f32⟩
  | 95 => ⟨S64, .f32⟩
  | 96 => ⟨S1x64, .f32⟩
  | 97 => ⟨S204800x64, .f32⟩
  | 98 => ⟨S204800x64, .f32⟩
  | 99 => ⟨S_, .f32⟩
  | 100 => ⟨S204800x64, .f32⟩
  | 101 => ⟨S204800x64, .f32⟩
  | 102 => ⟨S1x64, .f32⟩
  | 103 => ⟨S64, .f32⟩
  | 104 => ⟨S1x64, .f32⟩
  | 105 => ⟨S204800x64, .f32⟩
  | 106 => ⟨S204800x64, .f32⟩
  | 107 => ⟨S1x64, .f32⟩
  | 108 => ⟨S64, .f32⟩
  | 109 => ⟨S_, .f32⟩
  | 110 => ⟨S64, .f32⟩
  | 111 => ⟨S64, .f32⟩
  | 112 => ⟨S64, .f32⟩
  | 113 => ⟨S1x64, .f32⟩
  | 114 => ⟨S204800x64, .f32⟩
  | 115 => ⟨S204800x64, .f32⟩
  | 116 => ⟨S1x64, .f32⟩
  | 117 => ⟨S64, .f32⟩
  | 118 => ⟨S1x64, .f32⟩
  | 119 => ⟨S204800x64, .f32⟩
  | 120 => ⟨S204800x64, .f32⟩
  | 121 => ⟨S1x64, .f32⟩
  | 122 => ⟨S64, .f32⟩
  | 123 => ⟨S1x64, .f32⟩
  | 124 => ⟨S204800x64, .f32⟩
  | 125 => ⟨S204800x64, .f32⟩
  | 126 => ⟨S1x64x64, .f32⟩
  | 127 => ⟨S64x64, .f32⟩
  | _ => ⟨S204800, .f32⟩

abbrev hbmTy0_3 (i : Nat) : BufTy := match i % 128 with
  | 0 => ⟨S204800x64, .f32⟩
  | 1 => ⟨S1x64, .f32⟩
  | 2 => ⟨S64, .f32⟩
  | 3 => ⟨S1x64, .f32⟩
  | 4 => ⟨S204800x64, .f32⟩
  | 5 => ⟨S204800x64, .f32⟩
  | 6 => ⟨S_, .f32⟩
  | 7 => ⟨S204800x64, .f32⟩
  | 8 => ⟨S204800x64, .f32⟩
  | 9 => ⟨S1x64, .f32⟩
  | 10 => ⟨S64, .f32⟩
  | 11 => ⟨S1x64, .f32⟩
  | 12 => ⟨S204800x64, .f32⟩
  | 13 => ⟨S204800x64, .f32⟩
  | 14 => ⟨S1x64, .f32⟩
  | 15 => ⟨S64, .f32⟩
  | 16 => ⟨S_, .f32⟩
  | 17 => ⟨S64, .f32⟩
  | 18 => ⟨S64, .f32⟩
  | 19 => ⟨S64, .f32⟩
  | 20 => ⟨S1x64, .f32⟩
  | 21 => ⟨S204800x64, .f32⟩
  | 22 => ⟨S204800x64, .f32⟩
  | 23 => ⟨S1x64, .f32⟩
  | 24 => ⟨S64, .f32⟩
  | 25 => ⟨S1x64, .f32⟩
  | 26 => ⟨S204800x64, .f32⟩
  | 27 => ⟨S204800x64, .f32⟩
  | 28 => ⟨S1x64, .f32⟩
  | 29 => ⟨S64, .f32⟩
  | 30 => ⟨S1x64, .f32⟩
  | 31 => ⟨S204800x64, .f32⟩
  | 32 => ⟨S204800x64, .f32⟩
  | 33 => ⟨S4096x50x64, .f32⟩
  | 34 => ⟨S_, .f32⟩
  | 35 => ⟨S4096x64, .f32⟩
  | 36 => ⟨S4096x192, .f32⟩
  | 37 => ⟨S4096x10, .f32⟩
  | 38 => ⟨S1x10, .f32⟩
  | 39 => ⟨S4096x10, .f32⟩
  | 40 => ⟨S4096x10, .f32⟩
  | _ => ⟨S204800, .f32⟩

abbrev hbmTy (i : Nat) : BufTy := match i / 128 with
  | 0 => hbmTy0_0 i
  | 1 => hbmTy0_1 i
  | 2 => hbmTy0_2 i
  | 3 => hbmTy0_3 i
  | _ => ⟨S204800, .f32⟩

abbrev bufTy : (tb : Table) → Fin (tcTables nBuf tb) → BufTy
  | .hbm, ⟨i, _⟩ => hbmTy i
  | _, _ => ⟨S204800, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_call0_cst : Ref sig .tc := ⟨.hbm, 52, rfl⟩
abbrev main_call0_v0 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_1 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_call1_cst : Ref sig .tc := ⟨.hbm, 87, rfl⟩
abbrev main_call1_v0 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_2 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_call2_cst : Ref sig .tc := ⟨.hbm, 122, rfl⟩
abbrev main_call2_v0 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_cst_3 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_cst_4 : Ref sig .tc := ⟨.hbm, 150, rfl⟩
abbrev main_v125 : Ref sig .tc := ⟨.hbm, 151, rfl⟩
abbrev main_c_5 : Ref sig .tc := ⟨.hbm, 152, rfl⟩
abbrev main_v126 : Ref sig .tc := ⟨.hbm, 153, rfl⟩
abbrev main_v127 : Ref sig .tc := ⟨.hbm, 154, rfl⟩
abbrev main_c_6 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_cst_7 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_call3_cst : Ref sig .tc := ⟨.hbm, 186, rfl⟩
abbrev main_call3_v0 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_cst_8 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩
abbrev main_v182 : Ref sig .tc := ⟨.hbm, 214, rfl⟩
abbrev main_v183 : Ref sig .tc := ⟨.hbm, 215, rfl⟩
abbrev main_v184 : Ref sig .tc := ⟨.hbm, 216, rfl⟩
abbrev main_v185 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_call4_cst : Ref sig .tc := ⟨.hbm, 221, rfl⟩
abbrev main_call4_v0 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_v192 : Ref sig .tc := ⟨.hbm, 226, rfl⟩
abbrev main_v193 : Ref sig .tc := ⟨.hbm, 227, rfl⟩
abbrev main_v194 : Ref sig .tc := ⟨.hbm, 228, rfl⟩
abbrev main_v195 : Ref sig .tc := ⟨.hbm, 229, rfl⟩
abbrev main_v196 : Ref sig .tc := ⟨.hbm, 230, rfl⟩
abbrev main_cst_9 : Ref sig .tc := ⟨.hbm, 231, rfl⟩
abbrev main_v197 : Ref sig .tc := ⟨.hbm, 232, rfl⟩
abbrev main_v198 : Ref sig .tc := ⟨.hbm, 233, rfl⟩
abbrev main_v199 : Ref sig .tc := ⟨.hbm, 234, rfl⟩
abbrev main_v200 : Ref sig .tc := ⟨.hbm, 235, rfl⟩
abbrev main_v201 : Ref sig .tc := ⟨.hbm, 236, rfl⟩
abbrev main_v202 : Ref sig .tc := ⟨.hbm, 237, rfl⟩
abbrev main_v203 : Ref sig .tc := ⟨.hbm, 238, rfl⟩
abbrev main_v204 : Ref sig .tc := ⟨.hbm, 239, rfl⟩
abbrev main_v205 : Ref sig .tc := ⟨.hbm, 240, rfl⟩
abbrev main_v206 : Ref sig .tc := ⟨.hbm, 241, rfl⟩
abbrev main_v207 : Ref sig .tc := ⟨.hbm, 242, rfl⟩
abbrev main_v208 : Ref sig .tc := ⟨.hbm, 243, rfl⟩
abbrev main_v209 : Ref sig .tc := ⟨.hbm, 244, rfl⟩
abbrev main_v210 : Ref sig .tc := ⟨.hbm, 245, rfl⟩
abbrev main_v211 : Ref sig .tc := ⟨.hbm, 246, rfl⟩
abbrev main_v212 : Ref sig .tc := ⟨.hbm, 247, rfl⟩
abbrev main_v213 : Ref sig .tc := ⟨.hbm, 248, rfl⟩
abbrev main_v214 : Ref sig .tc := ⟨.hbm, 249, rfl⟩
abbrev main_v215 : Ref sig .tc := ⟨.hbm, 250, rfl⟩
abbrev main_v216 : Ref sig .tc := ⟨.hbm, 251, rfl⟩
abbrev main_v217 : Ref sig .tc := ⟨.hbm, 252, rfl⟩
abbrev main_v218 : Ref sig .tc := ⟨.hbm, 253, rfl⟩
abbrev main_v219 : Ref sig .tc := ⟨.hbm, 254, rfl⟩
abbrev main_v220 : Ref sig .tc := ⟨.hbm, 255, rfl⟩
abbrev main_call5_cst : Ref sig .tc := ⟨.hbm, 256, rfl⟩
abbrev main_call5_v0 : Ref sig .tc := ⟨.hbm, 257, rfl⟩
abbrev main_v221 : Ref sig .tc := ⟨.hbm, 258, rfl⟩
abbrev main_v222 : Ref sig .tc := ⟨.hbm, 259, rfl⟩
abbrev main_v223 : Ref sig .tc := ⟨.hbm, 260, rfl⟩
abbrev main_v224 : Ref sig .tc := ⟨.hbm, 261, rfl⟩
abbrev main_v225 : Ref sig .tc := ⟨.hbm, 262, rfl⟩
abbrev main_v226 : Ref sig .tc := ⟨.hbm, 263, rfl⟩
abbrev main_v227 : Ref sig .tc := ⟨.hbm, 264, rfl⟩
abbrev main_v228 : Ref sig .tc := ⟨.hbm, 265, rfl⟩
abbrev main_cst_10 : Ref sig .tc := ⟨.hbm, 266, rfl⟩
abbrev main_v229 : Ref sig .tc := ⟨.hbm, 267, rfl⟩
abbrev main_v230 : Ref sig .tc := ⟨.hbm, 268, rfl⟩
abbrev main_v231 : Ref sig .tc := ⟨.hbm, 269, rfl⟩
abbrev main_v232 : Ref sig .tc := ⟨.hbm, 270, rfl⟩
abbrev main_v233 : Ref sig .tc := ⟨.hbm, 271, rfl⟩
abbrev main_v234 : Ref sig .tc := ⟨.hbm, 272, rfl⟩
abbrev main_v235 : Ref sig .tc := ⟨.hbm, 273, rfl⟩
abbrev main_v236 : Ref sig .tc := ⟨.hbm, 274, rfl⟩
abbrev main_v237 : Ref sig .tc := ⟨.hbm, 275, rfl⟩
abbrev main_v238 : Ref sig .tc := ⟨.hbm, 276, rfl⟩
abbrev main_v239 : Ref sig .tc := ⟨.hbm, 277, rfl⟩
abbrev main_v240 : Ref sig .tc := ⟨.hbm, 278, rfl⟩
abbrev main_v241 : Ref sig .tc := ⟨.hbm, 279, rfl⟩
abbrev main_v242 : Ref sig .tc := ⟨.hbm, 280, rfl⟩
abbrev main_v243 : Ref sig .tc := ⟨.hbm, 281, rfl⟩
abbrev main_v244 : Ref sig .tc := ⟨.hbm, 282, rfl⟩
abbrev main_v245 : Ref sig .tc := ⟨.hbm, 283, rfl⟩
abbrev main_cst_11 : Ref sig .tc := ⟨.hbm, 284, rfl⟩
abbrev main_v246 : Ref sig .tc := ⟨.hbm, 285, rfl⟩
abbrev main_c_12 : Ref sig .tc := ⟨.hbm, 286, rfl⟩
abbrev main_v247 : Ref sig .tc := ⟨.hbm, 287, rfl⟩
abbrev main_v248 : Ref sig .tc := ⟨.hbm, 288, rfl⟩
abbrev main_c_13 : Ref sig .tc := ⟨.hbm, 289, rfl⟩
abbrev main_v249 : Ref sig .tc := ⟨.hbm, 290, rfl⟩
abbrev main_v250 : Ref sig .tc := ⟨.hbm, 291, rfl⟩
abbrev main_v251 : Ref sig .tc := ⟨.hbm, 292, rfl⟩
abbrev main_v252 : Ref sig .tc := ⟨.hbm, 293, rfl⟩
abbrev main_v253 : Ref sig .tc := ⟨.hbm, 294, rfl⟩
abbrev main_cst_14 : Ref sig .tc := ⟨.hbm, 295, rfl⟩
abbrev main_v254 : Ref sig .tc := ⟨.hbm, 296, rfl⟩
abbrev main_v255 : Ref sig .tc := ⟨.hbm, 297, rfl⟩
abbrev main_v256 : Ref sig .tc := ⟨.hbm, 298, rfl⟩
abbrev main_v257 : Ref sig .tc := ⟨.hbm, 299, rfl⟩
abbrev main_v258 : Ref sig .tc := ⟨.hbm, 300, rfl⟩
abbrev main_v259 : Ref sig .tc := ⟨.hbm, 301, rfl⟩
abbrev main_v260 : Ref sig .tc := ⟨.hbm, 302, rfl⟩
abbrev main_v261 : Ref sig .tc := ⟨.hbm, 303, rfl⟩
abbrev main_v262 : Ref sig .tc := ⟨.hbm, 304, rfl⟩
abbrev main_v263 : Ref sig .tc := ⟨.hbm, 305, rfl⟩
abbrev main_v264 : Ref sig .tc := ⟨.hbm, 306, rfl⟩
abbrev main_v265 : Ref sig .tc := ⟨.hbm, 307, rfl⟩
abbrev main_v266 : Ref sig .tc := ⟨.hbm, 308, rfl⟩
abbrev main_v267 : Ref sig .tc := ⟨.hbm, 309, rfl⟩
abbrev main_v268 : Ref sig .tc := ⟨.hbm, 310, rfl⟩
abbrev main_v269 : Ref sig .tc := ⟨.hbm, 311, rfl⟩
abbrev main_v270 : Ref sig .tc := ⟨.hbm, 312, rfl⟩
abbrev main_v271 : Ref sig .tc := ⟨.hbm, 313, rfl⟩
abbrev main_v272 : Ref sig .tc := ⟨.hbm, 314, rfl⟩
abbrev main_v273 : Ref sig .tc := ⟨.hbm, 315, rfl⟩
abbrev main_v274 : Ref sig .tc := ⟨.hbm, 316, rfl⟩
abbrev main_v275 : Ref sig .tc := ⟨.hbm, 317, rfl⟩
abbrev main_v276 : Ref sig .tc := ⟨.hbm, 318, rfl⟩
abbrev main_v277 : Ref sig .tc := ⟨.hbm, 319, rfl⟩
abbrev main_call6_cst : Ref sig .tc := ⟨.hbm, 320, rfl⟩
abbrev main_call6_v0 : Ref sig .tc := ⟨.hbm, 321, rfl⟩
abbrev main_v278 : Ref sig .tc := ⟨.hbm, 322, rfl⟩
abbrev main_v279 : Ref sig .tc := ⟨.hbm, 323, rfl⟩
abbrev main_v280 : Ref sig .tc := ⟨.hbm, 324, rfl⟩
abbrev main_v281 : Ref sig .tc := ⟨.hbm, 325, rfl⟩
abbrev main_v282 : Ref sig .tc := ⟨.hbm, 326, rfl⟩
abbrev main_v283 : Ref sig .tc := ⟨.hbm, 327, rfl⟩
abbrev main_v284 : Ref sig .tc := ⟨.hbm, 328, rfl⟩
abbrev main_v285 : Ref sig .tc := ⟨.hbm, 329, rfl⟩
abbrev main_cst_15 : Ref sig .tc := ⟨.hbm, 330, rfl⟩
abbrev main_v286 : Ref sig .tc := ⟨.hbm, 331, rfl⟩
abbrev main_v287 : Ref sig .tc := ⟨.hbm, 332, rfl⟩
abbrev main_v288 : Ref sig .tc := ⟨.hbm, 333, rfl⟩
abbrev main_v289 : Ref sig .tc := ⟨.hbm, 334, rfl⟩
abbrev main_v290 : Ref sig .tc := ⟨.hbm, 335, rfl⟩
abbrev main_v291 : Ref sig .tc := ⟨.hbm, 336, rfl⟩
abbrev main_v292 : Ref sig .tc := ⟨.hbm, 337, rfl⟩
abbrev main_v293 : Ref sig .tc := ⟨.hbm, 338, rfl⟩
abbrev main_v294 : Ref sig .tc := ⟨.hbm, 339, rfl⟩
abbrev main_v295 : Ref sig .tc := ⟨.hbm, 340, rfl⟩
abbrev main_v296 : Ref sig .tc := ⟨.hbm, 341, rfl⟩
abbrev main_v297 : Ref sig .tc := ⟨.hbm, 342, rfl⟩
abbrev main_v298 : Ref sig .tc := ⟨.hbm, 343, rfl⟩
abbrev main_v299 : Ref sig .tc := ⟨.hbm, 344, rfl⟩
abbrev main_v300 : Ref sig .tc := ⟨.hbm, 345, rfl⟩
abbrev main_v301 : Ref sig .tc := ⟨.hbm, 346, rfl⟩
abbrev main_v302 : Ref sig .tc := ⟨.hbm, 347, rfl⟩
abbrev main_v303 : Ref sig .tc := ⟨.hbm, 348, rfl⟩
abbrev main_v304 : Ref sig .tc := ⟨.hbm, 349, rfl⟩
abbrev main_v305 : Ref sig .tc := ⟨.hbm, 350, rfl⟩
abbrev main_v306 : Ref sig .tc := ⟨.hbm, 351, rfl⟩
abbrev main_v307 : Ref sig .tc := ⟨.hbm, 352, rfl⟩
abbrev main_v308 : Ref sig .tc := ⟨.hbm, 353, rfl⟩
abbrev main_v309 : Ref sig .tc := ⟨.hbm, 354, rfl⟩
abbrev main_call7_cst : Ref sig .tc := ⟨.hbm, 355, rfl⟩
abbrev main_call7_v0 : Ref sig .tc := ⟨.hbm, 356, rfl⟩
abbrev main_v310 : Ref sig .tc := ⟨.hbm, 357, rfl⟩
abbrev main_v311 : Ref sig .tc := ⟨.hbm, 358, rfl⟩
abbrev main_v312 : Ref sig .tc := ⟨.hbm, 359, rfl⟩
abbrev main_v313 : Ref sig .tc := ⟨.hbm, 360, rfl⟩
abbrev main_v314 : Ref sig .tc := ⟨.hbm, 361, rfl⟩
abbrev main_v315 : Ref sig .tc := ⟨.hbm, 362, rfl⟩
abbrev main_v316 : Ref sig .tc := ⟨.hbm, 363, rfl⟩
abbrev main_v317 : Ref sig .tc := ⟨.hbm, 364, rfl⟩
abbrev main_cst_16 : Ref sig .tc := ⟨.hbm, 365, rfl⟩
abbrev main_v318 : Ref sig .tc := ⟨.hbm, 366, rfl⟩
abbrev main_v319 : Ref sig .tc := ⟨.hbm, 367, rfl⟩
abbrev main_v320 : Ref sig .tc := ⟨.hbm, 368, rfl⟩
abbrev main_v321 : Ref sig .tc := ⟨.hbm, 369, rfl⟩
abbrev main_v322 : Ref sig .tc := ⟨.hbm, 370, rfl⟩
abbrev main_v323 : Ref sig .tc := ⟨.hbm, 371, rfl⟩
abbrev main_v324 : Ref sig .tc := ⟨.hbm, 372, rfl⟩
abbrev main_v325 : Ref sig .tc := ⟨.hbm, 373, rfl⟩
abbrev main_v326 : Ref sig .tc := ⟨.hbm, 374, rfl⟩
abbrev main_v327 : Ref sig .tc := ⟨.hbm, 375, rfl⟩
abbrev main_v328 : Ref sig .tc := ⟨.hbm, 376, rfl⟩
abbrev main_v329 : Ref sig .tc := ⟨.hbm, 377, rfl⟩
abbrev main_v330 : Ref sig .tc := ⟨.hbm, 378, rfl⟩
abbrev main_v331 : Ref sig .tc := ⟨.hbm, 379, rfl⟩
abbrev main_v332 : Ref sig .tc := ⟨.hbm, 380, rfl⟩
abbrev main_v333 : Ref sig .tc := ⟨.hbm, 381, rfl⟩
abbrev main_v334 : Ref sig .tc := ⟨.hbm, 382, rfl⟩
abbrev main_v335 : Ref sig .tc := ⟨.hbm, 383, rfl⟩
abbrev main_v336 : Ref sig .tc := ⟨.hbm, 384, rfl⟩
abbrev main_v337 : Ref sig .tc := ⟨.hbm, 385, rfl⟩
abbrev main_v338 : Ref sig .tc := ⟨.hbm, 386, rfl⟩
abbrev main_v339 : Ref sig .tc := ⟨.hbm, 387, rfl⟩
abbrev main_v340 : Ref sig .tc := ⟨.hbm, 388, rfl⟩
abbrev main_v341 : Ref sig .tc := ⟨.hbm, 389, rfl⟩
abbrev main_call8_cst : Ref sig .tc := ⟨.hbm, 390, rfl⟩
abbrev main_call8_v0 : Ref sig .tc := ⟨.hbm, 391, rfl⟩
abbrev main_v342 : Ref sig .tc := ⟨.hbm, 392, rfl⟩
abbrev main_v343 : Ref sig .tc := ⟨.hbm, 393, rfl⟩
abbrev main_v344 : Ref sig .tc := ⟨.hbm, 394, rfl⟩
abbrev main_v345 : Ref sig .tc := ⟨.hbm, 395, rfl⟩
abbrev main_v346 : Ref sig .tc := ⟨.hbm, 396, rfl⟩
abbrev main_v347 : Ref sig .tc := ⟨.hbm, 397, rfl⟩
abbrev main_v348 : Ref sig .tc := ⟨.hbm, 398, rfl⟩
abbrev main_v349 : Ref sig .tc := ⟨.hbm, 399, rfl⟩
abbrev main_cst_17 : Ref sig .tc := ⟨.hbm, 400, rfl⟩
abbrev main_v350 : Ref sig .tc := ⟨.hbm, 401, rfl⟩
abbrev main_v351 : Ref sig .tc := ⟨.hbm, 402, rfl⟩
abbrev main_v352 : Ref sig .tc := ⟨.hbm, 403, rfl⟩
abbrev main_v353 : Ref sig .tc := ⟨.hbm, 404, rfl⟩
abbrev main_v354 : Ref sig .tc := ⟨.hbm, 405, rfl⟩
abbrev main_v355 : Ref sig .tc := ⟨.hbm, 406, rfl⟩
abbrev main_v356 : Ref sig .tc := ⟨.hbm, 407, rfl⟩
abbrev main_v357 : Ref sig .tc := ⟨.hbm, 408, rfl⟩
abbrev main_v358 : Ref sig .tc := ⟨.hbm, 409, rfl⟩
abbrev main_v359 : Ref sig .tc := ⟨.hbm, 410, rfl⟩
abbrev main_v360 : Ref sig .tc := ⟨.hbm, 411, rfl⟩
abbrev main_v361 : Ref sig .tc := ⟨.hbm, 412, rfl⟩
abbrev main_v362 : Ref sig .tc := ⟨.hbm, 413, rfl⟩
abbrev main_v363 : Ref sig .tc := ⟨.hbm, 414, rfl⟩
abbrev main_v364 : Ref sig .tc := ⟨.hbm, 415, rfl⟩
abbrev main_v365 : Ref sig .tc := ⟨.hbm, 416, rfl⟩
abbrev main_v366 : Ref sig .tc := ⟨.hbm, 417, rfl⟩
abbrev main_cst_18 : Ref sig .tc := ⟨.hbm, 418, rfl⟩
abbrev main_v367 : Ref sig .tc := ⟨.hbm, 419, rfl⟩
abbrev main_v368 : Ref sig .tc := ⟨.hbm, 420, rfl⟩
abbrev main_v369 : Ref sig .tc := ⟨.hbm, 421, rfl⟩
abbrev main_v370 : Ref sig .tc := ⟨.hbm, 422, rfl⟩
abbrev main_v371 : Ref sig .tc := ⟨.hbm, 423, rfl⟩
abbrev main_v372 : Ref sig .tc := ⟨.hbm, 424, rfl⟩

abbrev nD : Nat := 1
abbrev τ : Topo := Topo.v7x

variable {F : FTy → Type} [FloatOps F]

class Facts₀ : Prop where
  shapeCasts_S204800_S204800x1 : S204800.ShapeCasts S204800x1
  bcast_S64_S1x64_1 : S64.BroadcastsInDim S1x64 (![1] : Fin 1 → Fin S1x64.rank)
  bcast_S1x64_S204800x64_0_1 : S1x64.BroadcastsInDim S204800x64 (![0, 1] : Fin 2 → Fin S204800x64.rank)
  bcast_S_S3276800 : S_.BroadcastsInDim S3276800 (![] : Fin 0 → Fin S3276800.rank)
  bcast_S3276800_S3276800x1_0 : S3276800.BroadcastsInDim S3276800x1 (![0] : Fin 1 → Fin S3276800x1.rank)
  bcast_S_S204800x64 : S_.BroadcastsInDim S204800x64 (![] : Fin 0 → Fin S204800x64.rank)
  slices_S3x3x64x64_S1x3x64x64_0_0_0_0 : S3x3x64x64.Slices ![0, 0, 0, 0] S1x3x64x64
  shapeCasts_S1x3x64x64_S3x64x64 : S1x3x64x64.ShapeCasts S3x64x64
  slices_S3x3x64_S1x3x64_0_0_0 : S3x3x64.Slices ![0, 0, 0] S1x3x64
  shapeCasts_S1x3x64_S3x64 : S1x3x64.ShapeCasts S3x64
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S_S64 : S_.BroadcastsInDim S64 (![] : Fin 0 → Fin S64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  shapeCasts_S204800x64_S4096x50x64 : S204800x64.ShapeCasts S4096x50x64
  reducesTo_S4096x50x64_S4096x64_d1 : S4096x50x64.ReducesTo [1] S4096x64
  h_S_ : 0 < S_.numel
  slices_S3x3x64x64_S1x3x64x64_1_0_0_0 : S3x3x64x64.Slices ![1, 0, 0, 0] S1x3x64x64
  slices_S3x3x64_S1x3x64_1_0_0 : S3x3x64.Slices ![1, 0, 0] S1x3x64
  slices_S3x3x64x64_S1x3x64x64_2_0_0_0 : S3x3x64x64.Slices ![2, 0, 0, 0] S1x3x64x64
  slices_S3x3x64_S1x3x64_2_0_0 : S3x3x64.Slices ![2, 0, 0] S1x3x64
  concatenates_S4096x64_S4096x64_S4096x64_S4096x192_d1 : Shape.Concatenates [S4096x64, S4096x64, S4096x64] S4096x192 1
  bcast_S10_S1x10_1 : S10.BroadcastsInDim S1x10 (![1] : Fin 1 → Fin S1x10.rank)
  bcast_S1x10_S4096x10_0_1 : S1x10.BroadcastsInDim S4096x10 (![0, 1] : Fin 2 → Fin S4096x10.rank)
  dot_S204800x1_S1x64_S204800x64_1_0_0_1_n_n_wf : DotDims.WF S204800x1 S1x64 S204800x64 [1] [0] [0] [1] [] []
  gather_S204800x64_S3276800x1_S3276800x64_1_0_n_n_0_1_164_wf : GatherDims.WF S204800x64 S3276800x1 S3276800x64 [1] [0] [] [0] [] 1 ![1, 64]
  scatter_S204800x64_S3276800x1_S3276800x64_1_0_0_1_wf : ScatterDims.WF S204800x64 S3276800x1 S3276800x64 [1] [0] [0] 1
  dot_S204800x64_S64x64_S204800x64_1_0_0_1_n_n_wf : DotDims.WF S204800x64 S64x64 S204800x64 [1] [0] [0] [1] [] []
  dot_S4096x192_S192x10_S4096x10_1_0_0_1_n_n_wf : DotDims.WF S4096x192 S192x10 S4096x10 [1] [0] [0] [1] [] []

variable [Facts₀]

def dot_S204800x1_S1x64_S204800x64_1_0_0_1_n_n : DotDims S204800x1 S1x64 S204800x64 where
  lhsContracting := [1]
  rhsContracting := [0]
  lhsNonContracting := [0]
  rhsNonContracting := [1]
  lhsBatch := []
  rhsBatch := []
  wf := dot_S204800x1_S1x64_S204800x64_1_0_0_1_n_n_wf
def gather_S204800x64_S3276800x1_S3276800x64_1_0_n_n_0_1_164 : GatherDims S204800x64 S3276800x1 S3276800x64 where
  offsetDims := [1]
  collapsedSliceDims := [0]
  operandBatchingDims := []
  startIndicesBatchingDims := []
  startIndexMap := [0]
  indexVectorDim := 1
  sliceSizes := ![1, 64]
  wf := gather_S204800x64_S3276800x1_S3276800x64_1_0_n_n_0_1_164_wf
def scatter_S204800x64_S3276800x1_S3276800x64_1_0_0_1 : ScatterDims S204800x64 S3276800x1 S3276800x64 where
  updateWindowDims := [1]
  insertedWindowDims := [0]
  scatterDimsToOperandDims := [0]
  indexVectorDim := 1
  wf := scatter_S204800x64_S3276800x1_S3276800x64_1_0_0_1_wf
def dot_S204800x64_S64x64_S204800x64_1_0_0_1_n_n : DotDims S204800x64 S64x64 S204800x64 where
  lhsContracting := [1]
  rhsContracting := [0]
  lhsNonContracting := [0]
  rhsNonContracting := [1]
  lhsBatch := []
  rhsBatch := []
  wf := dot_S204800x64_S64x64_S204800x64_1_0_0_1_n_n_wf
def dot_S4096x192_S192x10_S4096x10_1_0_0_1_n_n : DotDims S4096x192 S192x10 S4096x10 where
  lhsContracting := [1]
  rhsContracting := [0]
  lhsNonContracting := [0]
  rhsNonContracting := [1]
  lhsBatch := []
  rhsBatch := []
  wf := dot_S4096x192_S192x10_S4096x10_1_0_0_1_n_n_wf

class Facts : Prop extends Facts₀ where

variable [Facts]
-- ==== Proof.KernelRegion0.lean ====
import proofs.«129687_j87179246174626_1_alg».proof.Proof.Gen.Kernel.Launch
import proofs.«129687_j87179246174626_1_alg».proof.Proof.Gen.Kernel.Skeleton
import proofs.«129687_j87179246174626_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Pallas call 0: one grid point of the fused add + three-stage MLP

The call walks 50 grid points; point `t` sees rows `4096 t … 4096 t + 4095` of the node features `h` and of the
aggregated messages `agg` (windows 0 and 1), the whole weight stack `3 × 64 × 64` (window 2) and the five per-stage
vectors `3 × 64` — bias, scale γ, shift β, running mean, running variance (windows 3 to 7) — and fills the same rows
of the result (window 8). The body loads each input once per stage through literal rectangles, computes
`x ↦ ((relu (x · Wⱼ + bⱼ) − meanⱼ) · rsqrt (varⱼ + ε)) · γⱼ + βⱼ` for `j = 0, 1, 2` starting from `x = h + agg`, and
stores the whole `4096 × 64` block once. This module states what the result's staging buffer holds after the body
as a function of the eight input blocks, proves that the body, run operation by operation, leaves exactly that, and packages both as the
pipeline's proof data and body obligation, at any entry contents `V` of the TensorCore's buffers and any float
interpretation `F`.
-/

set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the array at every grid point, whether the pipeline
    fetched it there or kept it from an earlier point (the index map has not moved since), for any proof data whose
    array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block of the array at every grid point, whether the pipeline
    fetched it there or kept it from an earlier point (the index map has not moved since), for any proof data whose
    array is the entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block of the array at every grid point, whether the pipeline
    fetched it there or kept it from an earlier point (the index map has not moved since), for any proof data whose
    array is the entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block of the array at every grid point, whether the pipeline
    fetched it there or kept it from an earlier point (the index map has not moved since), for any proof data whose
    array is the entry contents and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block of the array at every grid point, whether the pipeline
    fetched it there or kept it from an earlier point (the index map has not moved since), for any proof data whose
    array is the entry contents and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block of the array at every grid point, whether the pipeline
    fetched it there or kept it from an earlier point (the index map has not moved since), for any proof data whose
    array is the entry contents and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block of the array at every grid point, whether the pipeline
    fetched it there or kept it from an earlier point (the index map has not moved since), for any proof data whose
    array is the entry contents and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block of the array at every grid point, whether the pipeline
    fetched it there or kept it from an earlier point (the index map has not moved since), for any proof data whose
    array is the entry contents and whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The body's rectangles -/

/-- The whole `4096 × 64` block (rows of `h`, of `agg`, of the result). -/
abbrev rX : Rect S4096x64 := Rect.unit (s := S4096x64) ![0, 0] S4096x64.size inb_S4096x64_S4096x64_0_0
/-- Stage `j`'s `64 × 64` weight matrix inside the stack. -/
abbrev rW0 : Rect S3x64x64 := Rect.unit (s := S3x64x64) ![0, 0, 0] S1x64x64.size inb_S3x64x64_S1x64x64_0_0_0
abbrev rW1 : Rect S3x64x64 := Rect.unit (s := S3x64x64) ![1, 0, 0] S1x64x64.size inb_S3x64x64_S1x64x64_1_0_0
abbrev rW2 : Rect S3x64x64 := Rect.unit (s := S3x64x64) ![2, 0, 0] S1x64x64.size inb_S3x64x64_S1x64x64_2_0_0
/-- Stage `j`'s row of a `3 × 64` per-stage vector. -/
abbrev rv0 : Rect S3x64 := Rect.unit (s := S3x64) ![0, 0] S1x64.size inb_S3x64_S1x64_0_0
abbrev rv1 : Rect S3x64 := Rect.unit (s := S3x64) ![1, 0] S1x64.size inb_S3x64_S1x64_1_0
abbrev rv2 : Rect S3x64 := Rect.unit (s := S3x64) ![2, 0] S1x64.size inb_S3x64_S1x64_2_0

/-! ## What the body leaves in the result's staging buffer -/

/-- The stored value, from the eight input blocks: stage 0 (weights `rW0`, vectors' row 0) applied to `x0 + x1`, then
    stage 1, then stage 2, written through the payload names of the body's skeleton. -/
def stored0 (x0 : Vec F S4096x64 .f32) (x1 : Vec F S4096x64 .f32) (x2 : Vec F S3x64x64 .f32) (x3 : Vec F S3x64 .f32) (x4 : Vec F S3x64 .f32) (x5 : Vec F S3x64 .f32) (x6 : Vec F S3x64 .f32) (x7 : Vec F S3x64 .f32) : FVec F S4096x64 .f32 :=
  k0_pay1 (k0_pay4 (View.ld x2 rW2))
    (k0_pay5 (k0_pay2 (View.ld x0 rX) (View.ld x1 rX) (View.ld x2 rW0) (View.ld x3 rv0) (View.ld x6 rv0) (View.ld x7 rv0) (View.ld x4 rv0))
      (k0_pay3 (View.ld x5 rv0)) (View.ld x2 rW1) (View.ld x3 rv1) (View.ld x6 rv1) (View.ld x7 rv1) (View.ld x4 rv1) (View.ld x5 rv1))
    (constant S4096x64 .f32 0x00000000#32) (View.ld x3 rv2) (View.ld x6 rv2) (View.ld x7 rv2) (View.ld x4 rv2) (View.ld x5 rv2)

/-- Window 8's staging buffer after the body: its one store, of the whole block. -/
def out0_8 (x0 : Vec F S4096x64 .f32) (x1 : Vec F S4096x64 .f32) (x2 : Vec F S3x64x64 .f32) (x3 : Vec F S3x64 .f32) (x4 : Vec F S3x64 .f32) (x5 : Vec F S3x64 .f32) (x6 : Vec F S3x64 .f32) (x7 : Vec F S3x64 .f32) : Vec F S4096x64 .f32 :=
  View.canon [⟨rX, stored0 x0 x1 x2 x3 x4 x5 x6 x7⟩]

/-- The one store covers the buffer. -/
theorem cover0_8 (p0 : Vec F S4096x64 .f32) (y : S4096x64.Idx) :
    ∃ pc ∈ ([⟨rX, p0⟩] : List (View.Piece (Elt F) S4096x64 .f32)), y ∈ pc.1.set :=
  View.cover_of_tiled [⟨rX, p0⟩] S4096x64.size (by rfl) y

/-! ## The body's triple -/

set_option maxHeartbeats 1000000 in
/-- On whole staging buffers — the inputs' at contents `xW`, the result's at anything — the body runs to its end holding
    the inputs' as they were and the result's at `out0_8` of the inputs'. -/
theorem sound_kernel0 (c : Dev nD) (E : Set ℕ) (i : grid0.Coords) (arg1 : Memref sig .tc .vmem S4096x64 .f32) (harg1 : arg1.IsWhole) (arg2 : Memref sig .tc .vmem S4096x64 .f32) (harg2 : arg2.IsWhole) (arg3 : Memref sig .tc .vmem S3x64x64 .f32) (harg3 : arg3.IsWhole) (arg4 : Memref sig .tc .vmem S3x64 .f32) (harg4 : arg4.IsWhole) (arg5 : Memref sig .tc .vmem S3x64 .f32) (harg5 : arg5.IsWhole) (arg6 : Memref sig .tc .vmem S3x64 .f32) (harg6 : arg6.IsWhole) (arg7 : Memref sig .tc .vmem S3x64 .f32) (harg7 : arg7.IsWhole) (arg8 : Memref sig .tc .vmem S3x64 .f32) (harg8 : arg8.IsWhole) (arg9 : Memref sig .tc .vmem S4096x64 .f32) (harg9 : arg9.IsWhole)
    (x0 : Vec F S4096x64 .f32) (x1 : Vec F S4096x64 .f32) (x2 : Vec F S3x64x64 .f32) (x3 : Vec F S3x64 .f32) (x4 : Vec F S3x64 .f32) (x5 : Vec F S3x64 .f32) (x6 : Vec F S3x64 .f32) (x7 : Vec F S3x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out0_8 x0 x1 x2 x3 x4 x5 x6 x7)) -∗ K ⟨⟩))
      ⊢ wp frame (wpE (defs₀ (F := F)) Variants.none c none) E (cc0__gin_mlp_kernel i arg1 harg1 arg2 harg2 arg3 harg3 arg4 harg4 arg5 harg5 arg6 harg6 arg7 harg7 arg8 harg8 arg9 harg9) K := by
  simp only [cc0__gin_mlp_kernel_eq_skeleton]; unfold cc0__gin_mlp_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover0_8 _)

/-! ## The pipeline's proof data -/

/-- The proof data of the call on core `c`: the arrays as the call finds them; after the body at point `t` each input's
    buffer still at its block and the result's at `out0_8` of the input blocks; the invariant is the scoped rest and the
    generator register, untouched; nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) (iblk0 V c 7 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: the inputs' buffers hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Region0

end
-- ==== Proof.KernelRegion1.lean ====
import proofs.«129687_j87179246174626_1_alg».proof.Proof.Gen.Kernel.Launch
import proofs.«129687_j87179246174626_1_alg».proof.Proof.Gen.Kernel.Skeleton
import proofs.«129687_j87179246174626_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Pallas call 1: one grid point of the fused add + three-stage MLP

The call walks 50 grid points; point `t` sees rows `4096 t … 4096 t + 4095` of the node features `h` and of the
aggregated messages `agg` (windows 0 and 1), the whole weight stack `3 × 64 × 64` (window 2) and the five per-stage
vectors `3 × 64` — bias, scale γ, shift β, running mean, running variance (windows 3 to 7) — and fills the same rows
of the result (window 8). The body loads each input once per stage through literal rectangles, computes
`x ↦ ((relu (x · Wⱼ + bⱼ) − meanⱼ) · rsqrt (varⱼ + ε)) · γⱼ + βⱼ` for `j = 0, 1, 2` starting from `x = h + agg`, and
stores the whole `4096 × 64` block once. This module states what the result's staging buffer holds after the body
as a function of the eight input blocks, proves that the body, run operation by operation, leaves exactly that, and packages both as the
pipeline's proof data and body obligation, at any entry contents `V` of the TensorCore's buffers and any float
interpretation `F`.
-/

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block of the array at every grid point, whether the pipeline
    fetched it there or kept it from an earlier point (the index map has not moved since), for any proof data whose
    array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block of the array at every grid point, whether the pipeline
    fetched it there or kept it from an earlier point (the index map has not moved since), for any proof data whose
    array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block of the array at every grid point, whether the pipeline
    fetched it there or kept it from an earlier point (the index map has not moved since), for any proof data whose
    array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block of the array at every grid point, whether the pipeline
    fetched it there or kept it from an earlier point (the index map has not moved since), for any proof data whose
    array is the entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block of the array at every grid point, whether the pipeline
    fetched it there or kept it from an earlier point (the index map has not moved since), for any proof data whose
    array is the entry contents and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block of the array at every grid point, whether the pipeline
    fetched it there or kept it from an earlier point (the index map has not moved since), for any proof data whose
    array is the entry contents and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block of the array at every grid point, whether the pipeline
    fetched it there or kept it from an earlier point (the index map has not moved since), for any proof data whose
    array is the entry contents and whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block of the array at every grid point, whether the pipeline
    fetched it there or kept it from an earlier point (the index map has not moved since), for any proof data whose
    array is the entry contents and whose body leaves the block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's rectangles -/

/-- The whole `4096 × 64` block (rows of `h`, of `agg`, of the result). -/
abbrev rX : Rect S4096x64 := Rect.unit (s := S4096x64) ![0, 0] S4096x64.size inb_S4096x64_S4096x64_0_0
/-- Stage `j`'s `64 × 64` weight matrix inside the stack. -/
abbrev rW0 : Rect S3x64x64 := Rect.unit (s := S3x64x64) ![0, 0, 0] S1x64x64.size inb_S3x64x64_S1x64x64_0_0_0
abbrev rW1 : Rect S3x64x64 := Rect.unit (s := S3x64x64) ![1, 0, 0] S1x64x64.size inb_S3x64x64_S1x64x64_1_0_0
abbrev rW2 : Rect S3x64x64 := Rect.unit (s := S3x64x64) ![2, 0, 0] S1x64x64.size inb_S3x64x64_S1x64x64_2_0_0
/-- Stage `j`'s row of a `3 × 64` per-stage vector. -/
abbrev rv0 : Rect S3x64 := Rect.unit (s := S3x64) ![0, 0] S1x64.size inb_S3x64_S1x64_0_0
abbrev rv1 : Rect S3x64 := Rect.unit (s := S3x64) ![1, 0] S1x64.size inb_S3x64_S1x64_1_0
abbrev rv2 : Rect S3x64 := Rect.unit (s := S3x64) ![2, 0] S1x64.size inb_S3x64_S1x64_2_0

/-! ## What the body leaves in the result's staging buffer -/

/-- The stored value, from the eight input blocks: stage 0 (weights `rW0`, vectors' row 0) applied to `x0 + x1`, then
    stage 1, then stage 2, written through the payload names of the body's skeleton. -/
def stored1 (x0 : Vec F S4096x64 .f32) (x1 : Vec F S4096x64 .f32) (x2 : Vec F S3x64x64 .f32) (x3 : Vec F S3x64 .f32) (x4 : Vec F S3x64 .f32) (x5 : Vec F S3x64 .f32) (x6 : Vec F S3x64 .f32) (x7 : Vec F S3x64 .f32) : FVec F S4096x64 .f32 :=
  k1_pay1 (k1_pay4 (View.ld x2 rW2))
    (k1_pay5 (k1_pay2 (View.ld x0 rX) (View.ld x1 rX) (View.ld x2 rW0) (View.ld x3 rv0) (View.ld x6 rv0) (View.ld x7 rv0) (View.ld x4 rv0))
      (k1_pay3 (View.ld x5 rv0)) (View.ld x2 rW1) (View.ld x3 rv1) (View.ld x6 rv1) (View.ld x7 rv1) (View.ld x4 rv1) (View.ld x5 rv1))
    (constant S4096x64 .f32 0x00000000#32) (View.ld x3 rv2) (View.ld x6 rv2) (View.ld x7 rv2) (View.ld x4 rv2) (View.ld x5 rv2)

/-- Window 8's staging buffer after the body: its one store, of the whole block. -/
def out1_8 (x0 : Vec F S4096x64 .f32) (x1 : Vec F S4096x64 .f32) (x2 : Vec F S3x64x64 .f32) (x3 : Vec F S3x64 .f32) (x4 : Vec F S3x64 .f32) (x5 : Vec F S3x64 .f32) (x6 : Vec F S3x64 .f32) (x7 : Vec F S3x64 .f32) : Vec F S4096x64 .f32 :=
  View.canon [⟨rX, stored1 x0 x1 x2 x3 x4 x5 x6 x7⟩]

/-- The one store covers the buffer. -/
theorem cover1_8 (p0 : Vec F S4096x64 .f32) (y : S4096x64.Idx) :
    ∃ pc ∈ ([⟨rX, p0⟩] : List (View.Piece (Elt F) S4096x64 .f32)), y ∈ pc.1.set :=
  View.cover_of_tiled [⟨rX, p0⟩] S4096x64.size (by rfl) y

/-! ## The body's triple -/

set_option maxHeartbeats 1000000 in
/-- On whole staging buffers — the inputs' at contents `xW`, the result's at anything — the body runs to its end holding
    the inputs' as they were and the result's at `out1_8` of the inputs'. -/
theorem sound_kernel1 (c : Dev nD) (E : Set ℕ) (i : grid1.Coords) (arg1 : Memref sig .tc .vmem S4096x64 .f32) (harg1 : arg1.IsWhole) (arg2 : Memref sig .tc .vmem S4096x64 .f32) (harg2 : arg2.IsWhole) (arg3 : Memref sig .tc .vmem S3x64x64 .f32) (harg3 : arg3.IsWhole) (arg4 : Memref sig .tc .vmem S3x64 .f32) (harg4 : arg4.IsWhole) (arg5 : Memref sig .tc .vmem S3x64 .f32) (harg5 : arg5.IsWhole) (arg6 : Memref sig .tc .vmem S3x64 .f32) (harg6 : arg6.IsWhole) (arg7 : Memref sig .tc .vmem S3x64 .f32) (harg7 : arg7.IsWhole) (arg8 : Memref sig .tc .vmem S3x64 .f32) (harg8 : arg8.IsWhole) (arg9 : Memref sig .tc .vmem S4096x64 .f32) (harg9 : arg9.IsWhole)
    (x0 : Vec F S4096x64 .f32) (x1 : Vec F S4096x64 .f32) (x2 : Vec F S3x64x64 .f32) (x3 : Vec F S3x64 .f32) (x4 : Vec F S3x64 .f32) (x5 : Vec F S3x64 .f32) (x6 : Vec F S3x64 .f32) (x7 : Vec F S3x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out1_8 x0 x1 x2 x3 x4 x5 x6 x7)) -∗ K ⟨⟩))
      ⊢ wp frame (wpE (defs₀ (F := F)) Variants.none c none) E (cc1__gin_mlp_kernel i arg1 harg1 arg2 harg2 arg3 harg3 arg4 harg4 arg5 harg5 arg6 harg6 arg7 harg7 arg8 harg8 arg9 harg9) K := by
  simp only [cc1__gin_mlp_kernel_eq_skeleton]; unfold cc1__gin_mlp_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover1_8 _)

/-! ## The pipeline's proof data -/

/-- The proof data of the call on core `c`: the arrays as the call finds them; after the body at point `t` each input's
    buffer still at its block and the result's at `out1_8` of the input blocks; the invariant is the scoped rest and the
    generator register, untouched; nothing is owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' buffers hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Region1

end
-- ==== Proof.KernelRegion2.lean ====
import proofs.«129687_j87179246174626_1_alg».proof.Proof.Gen.Kernel.Launch
import proofs.«129687_j87179246174626_1_alg».proof.Proof.Gen.Kernel.Skeleton
import proofs.«129687_j87179246174626_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Pallas call 2: one grid point of the fused add + three-stage MLP

The call walks 50 grid points; point `t` sees rows `4096 t … 4096 t + 4095` of the node features `h` and of the
aggregated messages `agg` (windows 0 and 1), the whole weight stack `3 × 64 × 64` (window 2) and the five per-stage
vectors `3 × 64` — bias, scale γ, shift β, running mean, running variance (windows 3 to 7) — and fills the same rows
of the result (window 8). The body loads each input once per stage through literal rectangles, computes
`x ↦ ((relu (x · Wⱼ + bⱼ) − meanⱼ) · rsqrt (varⱼ + ε)) · γⱼ + βⱼ` for `j = 0, 1, 2` starting from `x = h + agg`, and
stores the whole `4096 × 64` block once. This module states what the result's staging buffer holds after the body
as a function of the eight input blocks, proves that the body, run operation by operation, leaves exactly that, and packages both as the
pipeline's proof data and body obligation, at any entry contents `V` of the TensorCore's buffers and any float
interpretation `F`.
-/

set_option maxRecDepth 16384

noncomputable section

namespace Cert.Kernel.Region2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block of the array at every grid point, whether the pipeline
    fetched it there or kept it from an earlier point (the index map has not moved since), for any proof data whose
    array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block of the array at every grid point, whether the pipeline
    fetched it there or kept it from an earlier point (the index map has not moved since), for any proof data whose
    array is the entry contents and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block of the array at every grid point, whether the pipeline
    fetched it there or kept it from an earlier point (the index map has not moved since), for any proof data whose
    array is the entry contents and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block of the array at every grid point, whether the pipeline
    fetched it there or kept it from an earlier point (the index map has not moved since), for any proof data whose
    array is the entry contents and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block of the array at every grid point, whether the pipeline
    fetched it there or kept it from an earlier point (the index map has not moved since), for any proof data whose
    array is the entry contents and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block of the array at every grid point, whether the pipeline
    fetched it there or kept it from an earlier point (the index map has not moved since), for any proof data whose
    array is the entry contents and whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block of the array at every grid point, whether the pipeline
    fetched it there or kept it from an earlier point (the index map has not moved since), for any proof data whose
    array is the entry contents and whose body leaves the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block of the array at every grid point, whether the pipeline
    fetched it there or kept it from an earlier point (the index map has not moved since), for any proof data whose
    array is the entry contents and whose body leaves the block in place. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The body's rectangles -/

/-- The whole `4096 × 64` block (rows of `h`, of `agg`, of the result). -/
abbrev rX : Rect S4096x64 := Rect.unit (s := S4096x64) ![0, 0] S4096x64.size inb_S4096x64_S4096x64_0_0
/-- Stage `j`'s `64 × 64` weight matrix inside the stack. -/
abbrev rW0 : Rect S3x64x64 := Rect.unit (s := S3x64x64) ![0, 0, 0] S1x64x64.size inb_S3x64x64_S1x64x64_0_0_0
abbrev rW1 : Rect S3x64x64 := Rect.unit (s := S3x64x64) ![1, 0, 0] S1x64x64.size inb_S3x64x64_S1x64x64_1_0_0
abbrev rW2 : Rect S3x64x64 := Rect.unit (s := S3x64x64) ![2, 0, 0] S1x64x64.size inb_S3x64x64_S1x64x64_2_0_0
/-- Stage `j`'s row of a `3 × 64` per-stage vector. -/
abbrev rv0 : Rect S3x64 := Rect.unit (s := S3x64) ![0, 0] S1x64.size inb_S3x64_S1x64_0_0
abbrev rv1 : Rect S3x64 := Rect.unit (s := S3x64) ![1, 0] S1x64.size inb_S3x64_S1x64_1_0
abbrev rv2 : Rect S3x64 := Rect.unit (s := S3x64) ![2, 0] S1x64.size inb_S3x64_S1x64_2_0

/-! ## What the body leaves in the result's staging buffer -/

/-- The stored value, from the eight input blocks: stage 0 (weights `rW0`, vectors' row 0) applied to `x0 + x1`, then
    stage 1, then stage 2, written through the payload names of the body's skeleton. -/
def stored2 (x0 : Vec F S4096x64 .f32) (x1 : Vec F S4096x64 .f32) (x2 : Vec F S3x64x64 .f32) (x3 : Vec F S3x64 .f32) (x4 : Vec F S3x64 .f32) (x5 : Vec F S3x64 .f32) (x6 : Vec F S3x64 .f32) (x7 : Vec F S3x64 .f32) : FVec F S4096x64 .f32 :=
  k2_pay1 (k2_pay4 (View.ld x2 rW2))
    (k2_pay5 (k2_pay2 (View.ld x0 rX) (View.ld x1 rX) (View.ld x2 rW0) (View.ld x3 rv0) (View.ld x6 rv0) (View.ld x7 rv0) (View.ld x4 rv0))
      (k2_pay3 (View.ld x5 rv0)) (View.ld x2 rW1) (View.ld x3 rv1) (View.ld x6 rv1) (View.ld x7 rv1) (View.ld x4 rv1) (View.ld x5 rv1))
    (constant S4096x64 .f32 0x00000000#32) (View.ld x3 rv2) (View.ld x6 rv2) (View.ld x7 rv2) (View.ld x4 rv2) (View.ld x5 rv2)

/-- Window 8's staging buffer after the body: its one store, of the whole block. -/
def out2_8 (x0 : Vec F S4096x64 .f32) (x1 : Vec F S4096x64 .f32) (x2 : Vec F S3x64x64 .f32) (x3 : Vec F S3x64 .f32) (x4 : Vec F S3x64 .f32) (x5 : Vec F S3x64 .f32) (x6 : Vec F S3x64 .f32) (x7 : Vec F S3x64 .f32) : Vec F S4096x64 .f32 :=
  View.canon [⟨rX, stored2 x0 x1 x2 x3 x4 x5 x6 x7⟩]

/-- The one store covers the buffer. -/
theorem cover2_8 (p0 : Vec F S4096x64 .f32) (y : S4096x64.Idx) :
    ∃ pc ∈ ([⟨rX, p0⟩] : List (View.Piece (Elt F) S4096x64 .f32)), y ∈ pc.1.set :=
  View.cover_of_tiled [⟨rX, p0⟩] S4096x64.size (by rfl) y

/-! ## The body's triple -/

set_option maxHeartbeats 1000000 in
/-- On whole staging buffers — the inputs' at contents `xW`, the result's at anything — the body runs to its end holding
    the inputs' as they were and the result's at `out2_8` of the inputs'. -/
theorem sound_kernel2 (c : Dev nD) (E : Set ℕ) (i : grid2.Coords) (arg1 : Memref sig .tc .vmem S4096x64 .f32) (harg1 : arg1.IsWhole) (arg2 : Memref sig .tc .vmem S4096x64 .f32) (harg2 : arg2.IsWhole) (arg3 : Memref sig .tc .vmem S3x64x64 .f32) (harg3 : arg3.IsWhole) (arg4 : Memref sig .tc .vmem S3x64 .f32) (harg4 : arg4.IsWhole) (arg5 : Memref sig .tc .vmem S3x64 .f32) (harg5 : arg5.IsWhole) (arg6 : Memref sig .tc .vmem S3x64 .f32) (harg6 : arg6.IsWhole) (arg7 : Memref sig .tc .vmem S3x64 .f32) (harg7 : arg7.IsWhole) (arg8 : Memref sig .tc .vmem S3x64 .f32) (harg8 : arg8.IsWhole) (arg9 : Memref sig .tc .vmem S4096x64 .f32) (harg9 : arg9.IsWhole)
    (x0 : Vec F S4096x64 .f32) (x1 : Vec F S4096x64 .f32) (x2 : Vec F S3x64x64 .f32) (x3 : Vec F S3x64 .f32) (x4 : Vec F S3x64 .f32) (x5 : Vec F S3x64 .f32) (x6 : Vec F S3x64 .f32) (x7 : Vec F S3x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out2_8 x0 x1 x2 x3 x4 x5 x6 x7)) -∗ K ⟨⟩))
      ⊢ wp frame (wpE (defs₀ (F := F)) Variants.none c none) E (cc2__gin_mlp_kernel i arg1 harg1 arg2 harg2 arg3 harg3 arg4 harg4 arg5 harg5 arg6 harg6 arg7 harg7 arg8 harg8 arg9 harg9) K := by
  simp only [cc2__gin_mlp_kernel_eq_skeleton]; unfold cc2__gin_mlp_kernel_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover2_8 _)

/-! ## The pipeline's proof data -/

/-- The proof data of the call on core `c`: the arrays as the call finds them; after the body at point `t` each input's
    buffer still at its block and the result's at `out2_8` of the input blocks; the invariant is the scoped rest and the
    generator register, untouched; nothing is owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the inputs' buffers hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Region2

end
-- ==== Proof.KernelRun.lean ====
import proofs.«129687_j87179246174626_1_alg».proof.Proof.Gen.Kernel.Regions
import proofs.«129687_j87179246174626_1_alg».proof.Proof.KernelRegion0
import proofs.«129687_j87179246174626_1_alg».proof.Proof.KernelRegion1
import proofs.«129687_j87179246174626_1_alg».proof.Proof.KernelRegion2

/-!
# The whole program as seven segments

`@main` is: host operations (the embedding `h₀ = feats · W_seq + b_seq`, the first gather and segment sum, the first
layer's slices of the stacked parameters), pallas call 0, host operations (the first readout, the second gather and
segment sum, the second layer's slices), call 1, host operations, call 2, host operations (the third readout, the
concatenation of the three readouts, the classifier). Between two segments every unscoped buffer of a core holds
known contents: the launch memory, then each host stretch's operations applied in order, then — across a call — the
same contents with the call's result buffer replaced by what the call leaves. The one thing a call leaves is
`arrAt 8 N` of its proof data: the fold of its 50 write-backs over the result array. This module names those contents
(`outsC`), states each call as a segment between them, and launches the segments: every weakly fair execution
terminates, and at the end every unscoped buffer holds the last contents. The frame (the arguments end unchanged) is
read off that, argument by argument, since no segment writes an argument.
-/

set_option maxRecDepth 16384

noncomputable section

namespace Cert.Kernel.Run

open Cert.Kernel Cert.Kernel.Gen Cert.Kernel.Region0 Cert.Kernel.Region1 Cert.Kernel.Region2
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-! ## The contents each call is entered with and left at -/

abbrev En0 : (c : Dev nD) → (b : Ref sig .tc) → Buf (Elt F) ((c : Thread nD τ).loc b) := fun c b => Gen.V1 m c b
abbrev Ex0 : (c : Dev nD) → (b : Ref sig .tc) → Buf (Elt F) ((c : Thread nD τ).loc b) := fun c b => Gen.V2 m outs c b
abbrev En1 : (c : Dev nD) → (b : Ref sig .tc) → Buf (Elt F) ((c : Thread nD τ).loc b) := fun c b => Gen.V3 m outs c b
abbrev Ex1 : (c : Dev nD) → (b : Ref sig .tc) → Buf (Elt F) ((c : Thread nD τ).loc b) := fun c b => Gen.V4 m outs c b
abbrev En2 : (c : Dev nD) → (b : Ref sig .tc) → Buf (Elt F) ((c : Thread nD τ).loc b) := fun c b => Gen.V5 m outs c b
abbrev Ex2 : (c : Dev nD) → (b : Ref sig .tc) → Buf (Elt F) ((c : Thread nD τ).loc b) := fun c b => Gen.V6 m outs c b

/-- Each call's proof data, at the contents the call is entered with. -/
def pdats : (p : Fin 3) → (c : Dev nD) → Dat τ (Elt F) Unit ℕ (UR sig nD τ) ℕ (cfgs p) c
  | ⟨0, _⟩ => fun c => dat0 (En0 m) c
  | ⟨1, _⟩ => fun c => dat1 (En1 m outs) c
  | ⟨2, _⟩ => fun c => dat2 (En2 m outs) c

/-- `outs` names what the calls leave: call K's result buffer ends at the fold of its write-backs. -/
structure Leaves : Prop where
  h0 : ∀ c, outs 2 main_v27 c = (dat0 (En0 m) c).arrAt 8 cfg0.N
  h1 : ∀ c, outs 4 main_v52 c = (dat1 (En1 m outs) c).arrAt 8 cfg1.N
  h2 : ∀ c, outs 6 main_v77 c = (dat2 (En2 m outs) c).arrAt 8 cfg2.N

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core's dues, empty. -/
abbrev R (c : Dev nD) : sProp 𝕄 := iprop((∃ r, prngReg c r) ∗ ∃ W, owes (c : Thread nD τ) (0 : CellTallies nD τ sig Unit) W)

/-- What rides along ends owing nothing (the generator register is dropped). -/
theorem dues_of_R (c : Dev nD) : (R (F := F) c) ⊢ (iprop(∃ W, owes (c : Thread nD τ) (0 : CellTallies nD τ sig Unit) W) : sProp 𝕄) := by
  show (iprop((∃ r, prngReg c r) ∗ ∃ W, owes (c : Thread nD τ) (0 : CellTallies nD τ sig Unit) W) : sProp 𝕄) ⊢ _
  iintro ⟨-, HO⟩
  iexact HO

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Call 0 -/

/-- An input window's array is the same buffer contents after call 0 as before it: the pipeline only reads it, and
    the one buffer the call may change is the result's. -/
theorem keep0 (c : Dev nD) (w : Fin 9) (hin : (cfg0.win w).isOut = false)
    (hne : Pipeline.arrRef spec0 w ∉ ([main_v27] : List (Ref sig .tc))) :
    (dat0 (En0 m) c).arrAt w cfg0.N = Ex0 m outs c (Pipeline.arrRef spec0 w) :=
  ((dat0 (En0 m) c).arrAt_in w hin _).trans ((A_eq0 (En0 m) c w).trans (Gen.V2_of m outs c _ hne).symm)

/-- After call 0 its result buffer holds what `outs` says. -/
theorem Ex0_out (c : Dev nD) : Ex0 m outs c main_v27 = outs 2 main_v27 c := by
  show Function.update (Gen.V1 m c) (Proc.devRef .tc main_v27) (outs 2 main_v27 c) (Proc.devRef .tc main_v27) = _
  exact Function.update_self ..

set_option maxHeartbeats 1000000 in
/-- Every array of call 0, after the call: the inputs as entered, the result at the fold of its write-backs. -/
theorem hF0 (h : Leaves m outs) (c : Dev nD) : ∀ w : Fin 9, (dat0 (En0 m) c).arrAt w cfg0.N = Ex0 m outs c (Pipeline.arrRef spec0 w)
  | ⟨0, _⟩ => keep0 m outs c ⟨0, by decide⟩ rfl (by decide)
  | ⟨1, _⟩ => keep0 m outs c ⟨1, by decide⟩ rfl (by decide)
  | ⟨2, _⟩ => keep0 m outs c ⟨2, by decide⟩ rfl (by decide)
  | ⟨3, _⟩ => keep0 m outs c ⟨3, by decide⟩ rfl (by decide)
  | ⟨4, _⟩ => keep0 m outs c ⟨4, by decide⟩ rfl (by decide)
  | ⟨5, _⟩ => keep0 m outs c ⟨5, by decide⟩ rfl (by decide)
  | ⟨6, _⟩ => keep0 m outs c ⟨6, by decide⟩ rfl (by decide)
  | ⟨7, _⟩ => keep0 m outs c ⟨7, by decide⟩ rfl (by decide)
  | ⟨8, _⟩ => ((Ex0_out m outs c).trans (h.h0 c)).symm

/-- Every buffer that is no array of call 0 is untouched by it. -/
theorem hrest0 (c : Dev nD) : ∀ b, b ∉ Finset.univ.image (Pipeline.arrRef spec0) → Ex0 m outs c b = En0 m c b :=
  fun b hb => Gen.V2_of m outs c b (by
    intro hmem
    rw [List.mem_singleton] at hmem
    exact hb (Finset.mem_image.mpr ⟨8, Finset.mem_univ _, by rw [hmem]⟩))

set_option backward.isDefEq.respectTransparency.types false in
/-- Call 0 as a segment of the program: entered with every unscoped buffer at the contents before it, left with them
    at the contents after it; the generator register and the core's (empty) dues ride along. Its arrays are split out
    of the unscoped buffers on entry and put back on exit. -/
def reg0 (h : Leaves m outs) : Pipeline.RegionSeg (pcfgs (F := F)) adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (body_obligation0 (En0 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m outs c) ∗ R c)
  X c := iprop(∃ r, prngReg c r)
  Y c := iprop(∃ r, prngReg c r)
  Z c := Pipeline.unscopedRest (Ix := Unit) (Name := ℕ) (U := UR sig nD τ) (Lvl := ℕ) spec0 c (En0 m c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (En0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (En0 m c) (Ex0 m outs c) ((pdats m outs 0 c).arrAt · cfg0.N) (hF0 m outs h c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Call 1 -/

/-- An input window's array is the same buffer contents after call 1 as before it: the pipeline only reads it, and
    the one buffer the call may change is the result's. -/
theorem keep1 (c : Dev nD) (w : Fin 9) (hin : (cfg1.win w).isOut = false)
    (hne : Pipeline.arrRef spec1 w ∉ ([main_v52] : List (Ref sig .tc))) :
    (dat1 (En1 m outs) c).arrAt w cfg1.N = Ex1 m outs c (Pipeline.arrRef spec1 w) :=
  ((dat1 (En1 m outs) c).arrAt_in w hin _).trans ((A_eq1 (En1 m outs) c w).trans (Gen.V4_of m outs c _ hne).symm)

/-- After call 1 its result buffer holds what `outs` says. -/
theorem Ex1_out (c : Dev nD) : Ex1 m outs c main_v52 = outs 4 main_v52 c := by
  show Function.update (Gen.V3 m outs c) (Proc.devRef .tc main_v52) (outs 4 main_v52 c) (Proc.devRef .tc main_v52) = _
  exact Function.update_self ..

set_option maxHeartbeats 1000000 in
/-- Every array of call 1, after the call: the inputs as entered, the result at the fold of its write-backs. -/
theorem hF1 (h : Leaves m outs) (c : Dev nD) : ∀ w : Fin 9, (dat1 (En1 m outs) c).arrAt w cfg1.N = Ex1 m outs c (Pipeline.arrRef spec1 w)
  | ⟨0, _⟩ => keep1 m outs c ⟨0, by decide⟩ rfl (by decide)
  | ⟨1, _⟩ => keep1 m outs c ⟨1, by decide⟩ rfl (by decide)
  | ⟨2, _⟩ => keep1 m outs c ⟨2, by decide⟩ rfl (by decide)
  | ⟨3, _⟩ => keep1 m outs c ⟨3, by decide⟩ rfl (by decide)
  | ⟨4, _⟩ => keep1 m outs c ⟨4, by decide⟩ rfl (by decide)
  | ⟨5, _⟩ => keep1 m outs c ⟨5, by decide⟩ rfl (by decide)
  | ⟨6, _⟩ => keep1 m outs c ⟨6, by decide⟩ rfl (by decide)
  | ⟨7, _⟩ => keep1 m outs c ⟨7, by decide⟩ rfl (by decide)
  | ⟨8, _⟩ => ((Ex1_out m outs c).trans (h.h1 c)).symm

/-- Every buffer that is no array of call 1 is untouched by it. -/
theorem hrest1 (c : Dev nD) : ∀ b, b ∉ Finset.univ.image (Pipeline.arrRef spec1) → Ex1 m outs c b = En1 m outs c b :=
  fun b hb => Gen.V4_of m outs c b (by
    intro hmem
    rw [List.mem_singleton] at hmem
    exact hb (Finset.mem_image.mpr ⟨8, Finset.mem_univ _, by rw [hmem]⟩))

set_option backward.isDefEq.respectTransparency.types false in
/-- Call 1 as a segment of the program: entered with every unscoped buffer at the contents before it, left with them
    at the contents after it; the generator register and the core's (empty) dues ride along. Its arrays are split out
    of the unscoped buffers on entry and put back on exit. -/
def reg1 (h : Leaves m outs) : Pipeline.RegionSeg (pcfgs (F := F)) adm (pdats m outs) () defs₀ 𝒱₀ L lv 1 where
  win := launch1.win.to₀
  block_pos := launch1.block_pos
  stage_whole := launch1.stage_whole
  K := PEmpty
  osem k := k.elim
  ho := Pipeline.OwnSemFacts.none _
  hbody c := (body_obligation1 (En1 m outs) c).loose
  hwaits := Pipeline.hwaits_of_owed_zero _ _ _ _ L lv 1 fun _ _ => rfl
  pre c := iprop(StableHlo.held (c : Thread nD τ) (Pipeline.ucRefs τ sig) (Gen.V3 m outs c) ∗ R c)
  post c := iprop(StableHlo.held (c : Thread nD τ) (Pipeline.ucRefs τ sig) (Gen.V4 m outs c) ∗ R c)
  X c := iprop(∃ r, prngReg c r)
  Y c := iprop(∃ r, prngReg c r)
  Z c := Pipeline.unscopedRest (Ix := Unit) (Name := ℕ) (U := UR sig nD τ) (Lvl := ℕ) spec1 c (En1 m outs c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (En1 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (En1 m outs c) (Ex1 m outs c) ((pdats m outs 1 c).arrAt · cfg1.N) (hF1 m outs h c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Call 2 -/

/-- An input window's array is the same buffer contents after call 2 as before it: the pipeline only reads it, and
    the one buffer the call may change is the result's. -/
theorem keep2 (c : Dev nD) (w : Fin 9) (hin : (cfg2.win w).isOut = false)
    (hne : Pipeline.arrRef spec2 w ∉ ([main_v77] : List (Ref sig .tc))) :
    (dat2 (En2 m outs) c).arrAt w cfg2.N = Ex2 m outs c (Pipeline.arrRef spec2 w) :=
  ((dat2 (En2 m outs) c).arrAt_in w hin _).trans ((A_eq2 (En2 m outs) c w).trans (Gen.V6_of m outs c _ hne).symm)

/-- After call 2 its result buffer holds what `outs` says. -/
theorem Ex2_out (c : Dev nD) : Ex2 m outs c main_v77 = outs 6 main_v77 c := by
  show Function.update (Gen.V5 m outs c) (Proc.devRef .tc main_v77) (outs 6 main_v77 c) (Proc.devRef .tc main_v77) = _
  exact Function.update_self ..

set_option maxHeartbeats 1000000 in
/-- Every array of call 2, after the call: the inputs as entered, the result at the fold of its write-backs. -/
theorem hF2 (h : Leaves m outs) (c : Dev nD) : ∀ w : Fin 9, (dat2 (En2 m outs) c).arrAt w cfg2.N = Ex2 m outs c (Pipeline.arrRef spec2 w)
  | ⟨0, _⟩ => keep2 m outs c ⟨0, by decide⟩ rfl (by decide)
  | ⟨1, _⟩ => keep2 m outs c ⟨1, by decide⟩ rfl (by decide)
  | ⟨2, _⟩ => keep2 m outs c ⟨2, by decide⟩ rfl (by decide)
  | ⟨3, _⟩ => keep2 m outs c ⟨3, by decide⟩ rfl (by decide)
  | ⟨4, _⟩ => keep2 m outs c ⟨4, by decide⟩ rfl (by decide)
  | ⟨5, _⟩ => keep2 m outs c ⟨5, by decide⟩ rfl (by decide)
  | ⟨6, _⟩ => keep2 m outs c ⟨6, by decide⟩ rfl (by decide)
  | ⟨7, _⟩ => keep2 m outs c ⟨7, by decide⟩ rfl (by decide)
  | ⟨8, _⟩ => ((Ex2_out m outs c).trans (h.h2 c)).symm

/-- Every buffer that is no array of call 2 is untouched by it. -/
theorem hrest2 (c : Dev nD) : ∀ b, b ∉ Finset.univ.image (Pipeline.arrRef spec2) → Ex2 m outs c b = En2 m outs c b :=
  fun b hb => Gen.V6_of m outs c b (by
    intro hmem
    rw [List.mem_singleton] at hmem
    exact hb (Finset.mem_image.mpr ⟨8, Finset.mem_univ _, by rw [hmem]⟩))

set_option backward.isDefEq.respectTransparency.types false in
/-- Call 2 as a segment of the program: entered with every unscoped buffer at the contents before it, left with them
    at the contents after it; the generator register and the core's (empty) dues ride along. Its arrays are split out
    of the unscoped buffers on entry and put back on exit. -/
def reg2 (h : Leaves m outs) : Pipeline.RegionSeg (pcfgs (F := F)) adm (pdats m outs) () defs₀ 𝒱₀ L lv 2 where
  win := launch2.win.to₀
  block_pos := launch2.block_pos
  stage_whole := launch2.stage_whole
  K := PEmpty
  osem k := k.elim
  ho := Pipeline.OwnSemFacts.none _
  hbody c := (body_obligation2 (En2 m outs) c).loose
  hwaits := Pipeline.hwaits_of_owed_zero _ _ _ _ L lv 2 fun _ _ => rfl
  pre c := iprop(StableHlo.held (c : Thread nD τ) (Pipeline.ucRefs τ sig) (Gen.V5 m outs c) ∗ R c)
  post c := iprop(StableHlo.held (c : Thread nD τ) (Pipeline.ucRefs τ sig) (Gen.V6 m outs c) ∗ R c)
  X c := iprop(∃ r, prngReg c r)
  Y c := iprop(∃ r, prngReg c r)
  Z c := Pipeline.unscopedRest (Ix := Unit) (Name := ℕ) (U := UR sig nD τ) (Lvl := ℕ) spec2 c (En2 m outs c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (En2 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (En2 m outs c) (Ex2 m outs c) ((pdats m outs 2 c).arrAt · cfg2.N) (hF2 m outs h c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

set_option backward.isDefEq.respectTransparency.types false in
/-- From any memory with zero counters every weakly fair execution of `@main` terminates without a fault, and at the
    end every unscoped buffer of every core holds the last contents `Gen.V7`, whenever `outs` names what the calls leave. -/
theorem run_all (ρ : Dev nD → PrngReg) (h : Leaves m outs) :
    θ_run defs (onTc (τ := τ) (main (F := F))) ⟨m, fun _ => 0, ρ⟩ (fun r => ∀ c : Dev nD, ∀ b ∈ Pipeline.ucRefs τ sig,
      r.2.mem (((c : Thread nD τ)).1, b) = Gen.V7 m outs c b) := by
  refine Pipeline.θ_run_regions_kit_dev (pcfgs (F := F)) adm (pdats m outs) () cellOf_inj emb₁ defs₀ 𝒱₀ L lv m ρ main
    (Gen.segs m outs 𝒱₀ L lv (fun _ c => R c) () (pdats m outs) (reg0 m outs h) (reg1 m outs h) (reg2 m outs h))
    (fun c Q => by
      rewrite [main_chain c, Seg.run_eq_chain,
        show (Gen.segs m outs 𝒱₀ L lv (fun _ c => R c) () (pdats m outs) (reg0 m outs h) (reg1 m outs h) (reg2 m outs h) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V7 m outs c))
    (hch := fun c => ⟨.rfl, .rfl, .rfl, .rfl, .rfl, .rfl, .rfl, sep_mono .rfl (dues_of_R c)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V7 m outs c b)
    (hfin := fun c s' => by
      iintro ⟨Hh, HSI⟩
      unfold StableHlo.held
      imodintro
      iapply (pointsTo_read_all (Pipeline.ucRefs τ sig) (fun b => (((c : Thread nD τ)).1, b)) (Gen.V7 m outs c) s')
      isplitl [Hh] <;> iassumption)
    (hQ := fun _ h => h)

/-! ## What the calls leave, named -/

/-- An `Outs` family from the three result buffers' contents (all that the contents between segments ever read of it). -/
def mk (a : (c : Dev nD) → Buf (Elt F) ((c : Thread nD τ).loc main_v27)) (b : (c : Dev nD) → Buf (Elt F) ((c : Thread nD τ).loc main_v52))
    (d : (c : Dev nD) → Buf (Elt F) ((c : Thread nD τ).loc main_v77)) : Outs (F := F) := fun J r c =>
  match J with
  | 2 => Function.update (Gen.V0 m c) (Proc.devRef .tc main_v27) (a c) (Proc.devRef .tc r)
  | 4 => Function.update (Gen.V0 m c) (Proc.devRef .tc main_v52) (b c) (Proc.devRef .tc r)
  | _ => Function.update (Gen.V0 m c) (Proc.devRef .tc main_v77) (d c) (Proc.devRef .tc r)

/-- Call 0's result: the fold of its write-backs, entered at the first host stretch's contents. -/
def o2 (c : Dev nD) : Buf (Elt F) ((c : Thread nD τ).loc main_v27) := (dat0 (En0 m) c).arrAt 8 cfg0.N
/-- Call 1's result, entered at the contents the second host stretch makes of call 0's result. -/
def o4 (c : Dev nD) : Buf (Elt F) ((c : Thread nD τ).loc main_v52) :=
  (dat1 (En1 m (mk m (o2 m) (fun c => Gen.V0 m c main_v52) (fun c => Gen.V0 m c main_v77))) c).arrAt 8 cfg1.N
/-- Call 2's result, entered at the contents the third host stretch makes of call 1's result. -/
def o6 (c : Dev nD) : Buf (Elt F) ((c : Thread nD τ).loc main_v77) :=
  (dat2 (En2 m (mk m (o2 m) (o4 m) (fun c => Gen.V0 m c main_v77))) c).arrAt 8 cfg2.N
/-- What the three calls leave. -/
def outsC : Outs (F := F) := mk m (o2 m) (o4 m) (o6 m)

theorem outsC_2 (c : Dev nD) : outsC m 2 main_v27 c = o2 m c := by
  show Function.update (Gen.V0 m c) (Proc.devRef .tc main_v27) (o2 m c) (Proc.devRef .tc main_v27) = _
  exact Function.update_self ..
theorem outsC_4 (c : Dev nD) : outsC m 4 main_v52 c = o4 m c := by
  show Function.update (Gen.V0 m c) (Proc.devRef .tc main_v52) (o4 m c) (Proc.devRef .tc main_v52) = _
  exact Function.update_self ..
theorem outsC_6 (c : Dev nD) : outsC m 6 main_v77 c = o6 m c := by
  show Function.update (Gen.V0 m c) (Proc.devRef .tc main_v77) (o6 m c) (Proc.devRef .tc main_v77) = _
  exact Function.update_self ..

theorem leaves : Leaves m (outsC m) where
  h0 c := outsC_2 m c
  h1 c := (outsC_4 m c).trans rfl
  h2 c := (outsC_6 m c).trans rfl

/-- The run with what the calls leave named. -/
theorem run (ρ : Dev nD → PrngReg) :
    θ_run defs (onTc (τ := τ) (main (F := F))) ⟨m, fun _ => 0, ρ⟩ (fun r => ∀ c : Dev nD, ∀ b ∈ Pipeline.ucRefs τ sig,
      r.2.mem (((c : Thread nD τ)).1, b) = Gen.V7 m (outsC m) c b) :=
  run_all m (outsC m) ρ (leaves m)

/-- The frame: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (Gen.V7_main_arg0 m (outsC m) c),
     (h c _ (mem_uc main_arg1 (by decide))).trans (Gen.V7_main_arg1 m (outsC m) c),
     (h c _ (mem_uc main_arg2 (by decide))).trans (Gen.V7_main_arg2 m (outsC m) c),
     (h c _ (mem_uc main_arg3 (by decide))).trans (Gen.V7_main_arg3 m (outsC m) c),
     (h c _ (mem_uc main_arg4 (by decide))).trans (Gen.V7_main_arg4 m (outsC m) c),
     (h c _ (mem_uc main_arg5 (by decide))).trans (Gen.V7_main_arg5 m (outsC m) c),
     (h c _ (mem_uc main_arg6 (by decide))).trans (Gen.V7_main_arg6 m (outsC m) c),
     (h c _ (mem_uc main_arg7 (by decide))).trans (Gen.V7_main_arg7 m (outsC m) c),
     (h c _ (mem_uc main_arg8 (by decide))).trans (Gen.V7_main_arg8 m (outsC m) c),
     (h c _ (mem_uc main_arg9 (by decide))).trans (Gen.V7_main_arg9 m (outsC m) c),
     (h c _ (mem_uc main_arg10 (by decide))).trans (Gen.V7_main_arg10 m (outsC m) c),
     (h c _ (mem_uc main_arg11 (by decide))).trans (Gen.V7_main_arg11 m (outsC m) c),
     (h c _ (mem_uc main_arg12 (by decide))).trans (Gen.V7_main_arg12 m (outsC m) c)⟩) (run m ρ)

end Cert.Kernel.Run

end
-- ==== Proof.KernelIdealRegion0.lean ====
import proofs.«129687_j87179246174626_1_alg».proof.Proof.Gen.KernelIdeal.Launch
import proofs.«129687_j87179246174626_1_alg».proof.Proof.Gen.KernelIdeal.Skeleton
import proofs.«129687_j87179246174626_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Pallas call 0: one grid point of the fused add + three-stage MLP

The call walks 50 grid points; point `t` sees rows `4096 t … 4096 t + 4095` of the node features `h` and of the
aggregated messages `agg` (windows 0 and 1), the whole weight stack `3 × 64 × 64` (window 2) and the five per-stage
vectors `3 × 64` — bias, scale γ, shift β, running mean, running variance (windows 3 to 7) — and fills the same rows
of the result (window 8). The body loads each input once per stage through literal rectangles, computes
`x ↦ ((relu (x · Wⱼ + bⱼ) − meanⱼ) · rsqrt (varⱼ + ε)) · γⱼ + βⱼ` for `j = 0, 1, 2` starting from `x = h + agg`, and
stores the whole `4096 × 64` block once. This module states what the result's staging buffer holds after the body
as a function of the eight input blocks, proves that the body, run operation by operation, leaves exactly that, and packages both as the
pipeline's proof data and body obligation, at any entry contents `V` of the TensorCore's buffers and any float
interpretation `F`.
-/

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the array at every grid point, whether the pipeline
    fetched it there or kept it from an earlier point (the index map has not moved since), for any proof data whose
    array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block of the array at every grid point, whether the pipeline
    fetched it there or kept it from an earlier point (the index map has not moved since), for any proof data whose
    array is the entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block of the array at every grid point, whether the pipeline
    fetched it there or kept it from an earlier point (the index map has not moved since), for any proof data whose
    array is the entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block of the array at every grid point, whether the pipeline
    fetched it there or kept it from an earlier point (the index map has not moved since), for any proof data whose
    array is the entry contents and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block of the array at every grid point, whether the pipeline
    fetched it there or kept it from an earlier point (the index map has not moved since), for any proof data whose
    array is the entry contents and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block of the array at every grid point, whether the pipeline
    fetched it there or kept it from an earlier point (the index map has not moved since), for any proof data whose
    array is the entry contents and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block of the array at every grid point, whether the pipeline
    fetched it there or kept it from an earlier point (the index map has not moved since), for any proof data whose
    array is the entry contents and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block of the array at every grid point, whether the pipeline
    fetched it there or kept it from an earlier point (the index map has not moved since), for any proof data whose
    array is the entry contents and whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The body's rectangles -/

/-- The whole `4096 × 64` block (rows of `h`, of `agg`, of the result). -/
abbrev rX : Rect S4096x64 := Rect.unit (s := S4096x64) ![0, 0] S4096x64.size inb_S4096x64_S4096x64_0_0
/-- Stage `j`'s `64 × 64` weight matrix inside the stack. -/
abbrev rW0 : Rect S3x64x64 := Rect.unit (s := S3x64x64) ![0, 0, 0] S1x64x64.size inb_S3x64x64_S1x64x64_0_0_0
abbrev rW1 : Rect S3x64x64 := Rect.unit (s := S3x64x64) ![1, 0, 0] S1x64x64.size inb_S3x64x64_S1x64x64_1_0_0
abbrev rW2 : Rect S3x64x64 := Rect.unit (s := S3x64x64) ![2, 0, 0] S1x64x64.size inb_S3x64x64_S1x64x64_2_0_0
/-- Stage `j`'s row of a `3 × 64` per-stage vector. -/
abbrev rv0 : Rect S3x64 := Rect.unit (s := S3x64) ![0, 0] S1x64.size inb_S3x64_S1x64_0_0
abbrev rv1 : Rect S3x64 := Rect.unit (s := S3x64) ![1, 0] S1x64.size inb_S3x64_S1x64_1_0
abbrev rv2 : Rect S3x64 := Rect.unit (s := S3x64) ![2, 0] S1x64.size inb_S3x64_S1x64_2_0

/-! ## What the body leaves in the result's staging buffer -/

/-- The stored value, from the eight input blocks: stage 0 (weights `rW0`, vectors' row 0) applied to `x0 + x1`, then
    stage 1, then stage 2, written through the payload names of the body's skeleton. -/
def stored0 (x0 : Vec F S4096x64 .f32) (x1 : Vec F S4096x64 .f32) (x2 : Vec F S3x64x64 .f32) (x3 : Vec F S3x64 .f32) (x4 : Vec F S3x64 .f32) (x5 : Vec F S3x64 .f32) (x6 : Vec F S3x64 .f32) (x7 : Vec F S3x64 .f32) : FVec F S4096x64 .f32 :=
  k0_pay1 (k0_pay4 (View.ld x2 rW2))
    (k0_pay5 (k0_pay2 (View.ld x0 rX) (View.ld x1 rX) (View.ld x2 rW0) (View.ld x3 rv0) (View.ld x6 rv0) (View.ld x7 rv0) (View.ld x4 rv0))
      (k0_pay3 (View.ld x5 rv0)) (View.ld x2 rW1) (View.ld x3 rv1) (View.ld x6 rv1) (View.ld x7 rv1) (View.ld x4 rv1) (View.ld x5 rv1))
    (constant S4096x64 .f32 0x00000000#32) (View.ld x3 rv2) (View.ld x6 rv2) (View.ld x7 rv2) (View.ld x4 rv2) (View.ld x5 rv2)

/-- Window 8's staging buffer after the body: its one store, of the whole block. -/
def out0_8 (x0 : Vec F S4096x64 .f32) (x1 : Vec F S4096x64 .f32) (x2 : Vec F S3x64x64 .f32) (x3 : Vec F S3x64 .f32) (x4 : Vec F S3x64 .f32) (x5 : Vec F S3x64 .f32) (x6 : Vec F S3x64 .f32) (x7 : Vec F S3x64 .f32) : Vec F S4096x64 .f32 :=
  View.canon [⟨rX, stored0 x0 x1 x2 x3 x4 x5 x6 x7⟩]

/-- The one store covers the buffer. -/
theorem cover0_8 (p0 : Vec F S4096x64 .f32) (y : S4096x64.Idx) :
    ∃ pc ∈ ([⟨rX, p0⟩] : List (View.Piece (Elt F) S4096x64 .f32)), y ∈ pc.1.set :=
  View.cover_of_tiled [⟨rX, p0⟩] S4096x64.size (by rfl) y

/-! ## The body's triple -/

set_option maxHeartbeats 1000000 in
/-- On whole staging buffers — the inputs' at contents `xW`, the result's at anything — the body runs to its end holding
    the inputs' as they were and the result's at `out0_8` of the inputs'. -/
theorem sound_kernel0 (c : Dev nD) (E : Set ℕ) (i : grid0.Coords) (arg1 : Memref sig .tc .vmem S4096x64 .f32) (harg1 : arg1.IsWhole) (arg2 : Memref sig .tc .vmem S4096x64 .f32) (harg2 : arg2.IsWhole) (arg3 : Memref sig .tc .vmem S3x64x64 .f32) (harg3 : arg3.IsWhole) (arg4 : Memref sig .tc .vmem S3x64 .f32) (harg4 : arg4.IsWhole) (arg5 : Memref sig .tc .vmem S3x64 .f32) (harg5 : arg5.IsWhole) (arg6 : Memref sig .tc .vmem S3x64 .f32) (harg6 : arg6.IsWhole) (arg7 : Memref sig .tc .vmem S3x64 .f32) (harg7 : arg7.IsWhole) (arg8 : Memref sig .tc .vmem S3x64 .f32) (harg8 : arg8.IsWhole) (arg9 : Memref sig .tc .vmem S4096x64 .f32) (harg9 : arg9.IsWhole)
    (x0 : Vec F S4096x64 .f32) (x1 : Vec F S4096x64 .f32) (x2 : Vec F S3x64x64 .f32) (x3 : Vec F S3x64 .f32) (x4 : Vec F S3x64 .f32) (x5 : Vec F S3x64 .f32) (x6 : Vec F S3x64 .f32) (x7 : Vec F S3x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out0_8 x0 x1 x2 x3 x4 x5 x6 x7)) -∗ K ⟨⟩))
      ⊢ wp frame (wpE (defs₀ (F := F)) Variants.none c none) E (cc0__gin_mlp_kernel i arg1 harg1 arg2 harg2 arg3 harg3 arg4 harg4 arg5 harg5 arg6 harg6 arg7 harg7 arg8 harg8 arg9 harg9) K := by
  simp only [cc0__gin_mlp_kernel_eq_skeleton]; unfold cc0__gin_mlp_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover0_8 _)

/-! ## The pipeline's proof data -/

/-- The proof data of the call on core `c`: the arrays as the call finds them; after the body at point `t` each input's
    buffer still at its block and the result's at `out0_8` of the input blocks; the invariant is the scoped rest and the
    generator register, untouched; nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) (iblk0 V c 7 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: the inputs' buffers hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Region0

end
-- ==== Proof.KernelIdealRegion1.lean ====
import proofs.«129687_j87179246174626_1_alg».proof.Proof.Gen.KernelIdeal.Launch
import proofs.«129687_j87179246174626_1_alg».proof.Proof.Gen.KernelIdeal.Skeleton
import proofs.«129687_j87179246174626_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Pallas call 1: one grid point of the fused add + three-stage MLP

The call walks 50 grid points; point `t` sees rows `4096 t … 4096 t + 4095` of the node features `h` and of the
aggregated messages `agg` (windows 0 and 1), the whole weight stack `3 × 64 × 64` (window 2) and the five per-stage
vectors `3 × 64` — bias, scale γ, shift β, running mean, running variance (windows 3 to 7) — and fills the same rows
of the result (window 8). The body loads each input once per stage through literal rectangles, computes
`x ↦ ((relu (x · Wⱼ + bⱼ) − meanⱼ) · rsqrt (varⱼ + ε)) · γⱼ + βⱼ` for `j = 0, 1, 2` starting from `x = h + agg`, and
stores the whole `4096 × 64` block once. This module states what the result's staging buffer holds after the body
as a function of the eight input blocks, proves that the body, run operation by operation, leaves exactly that, and packages both as the
pipeline's proof data and body obligation, at any entry contents `V` of the TensorCore's buffers and any float
interpretation `F`.
-/

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block of the array at every grid point, whether the pipeline
    fetched it there or kept it from an earlier point (the index map has not moved since), for any proof data whose
    array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block of the array at every grid point, whether the pipeline
    fetched it there or kept it from an earlier point (the index map has not moved since), for any proof data whose
    array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block of the array at every grid point, whether the pipeline
    fetched it there or kept it from an earlier point (the index map has not moved since), for any proof data whose
    array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block of the array at every grid point, whether the pipeline
    fetched it there or kept it from an earlier point (the index map has not moved since), for any proof data whose
    array is the entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block of the array at every grid point, whether the pipeline
    fetched it there or kept it from an earlier point (the index map has not moved since), for any proof data whose
    array is the entry contents and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block of the array at every grid point, whether the pipeline
    fetched it there or kept it from an earlier point (the index map has not moved since), for any proof data whose
    array is the entry contents and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block of the array at every grid point, whether the pipeline
    fetched it there or kept it from an earlier point (the index map has not moved since), for any proof data whose
    array is the entry contents and whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block of the array at every grid point, whether the pipeline
    fetched it there or kept it from an earlier point (the index map has not moved since), for any proof data whose
    array is the entry contents and whose body leaves the block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's rectangles -/

/-- The whole `4096 × 64` block (rows of `h`, of `agg`, of the result). -/
abbrev rX : Rect S4096x64 := Rect.unit (s := S4096x64) ![0, 0] S4096x64.size inb_S4096x64_S4096x64_0_0
/-- Stage `j`'s `64 × 64` weight matrix inside the stack. -/
abbrev rW0 : Rect S3x64x64 := Rect.unit (s := S3x64x64) ![0, 0, 0] S1x64x64.size inb_S3x64x64_S1x64x64_0_0_0
abbrev rW1 : Rect S3x64x64 := Rect.unit (s := S3x64x64) ![1, 0, 0] S1x64x64.size inb_S3x64x64_S1x64x64_1_0_0
abbrev rW2 : Rect S3x64x64 := Rect.unit (s := S3x64x64) ![2, 0, 0] S1x64x64.size inb_S3x64x64_S1x64x64_2_0_0
/-- Stage `j`'s row of a `3 × 64` per-stage vector. -/
abbrev rv0 : Rect S3x64 := Rect.unit (s := S3x64) ![0, 0] S1x64.size inb_S3x64_S1x64_0_0
abbrev rv1 : Rect S3x64 := Rect.unit (s := S3x64) ![1, 0] S1x64.size inb_S3x64_S1x64_1_0
abbrev rv2 : Rect S3x64 := Rect.unit (s := S3x64) ![2, 0] S1x64.size inb_S3x64_S1x64_2_0

/-! ## What the body leaves in the result's staging buffer -/

/-- The stored value, from the eight input blocks: stage 0 (weights `rW0`, vectors' row 0) applied to `x0 + x1`, then
    stage 1, then stage 2, written through the payload names of the body's skeleton. -/
def stored1 (x0 : Vec F S4096x64 .f32) (x1 : Vec F S4096x64 .f32) (x2 : Vec F S3x64x64 .f32) (x3 : Vec F S3x64 .f32) (x4 : Vec F S3x64 .f32) (x5 : Vec F S3x64 .f32) (x6 : Vec F S3x64 .f32) (x7 : Vec F S3x64 .f32) : FVec F S4096x64 .f32 :=
  k1_pay1 (k1_pay4 (View.ld x2 rW2))
    (k1_pay5 (k1_pay2 (View.ld x0 rX) (View.ld x1 rX) (View.ld x2 rW0) (View.ld x3 rv0) (View.ld x6 rv0) (View.ld x7 rv0) (View.ld x4 rv0))
      (k1_pay3 (View.ld x5 rv0)) (View.ld x2 rW1) (View.ld x3 rv1) (View.ld x6 rv1) (View.ld x7 rv1) (View.ld x4 rv1) (View.ld x5 rv1))
    (constant S4096x64 .f32 0x00000000#32) (View.ld x3 rv2) (View.ld x6 rv2) (View.ld x7 rv2) (View.ld x4 rv2) (View.ld x5 rv2)

/-- Window 8's staging buffer after the body: its one store, of the whole block. -/
def out1_8 (x0 : Vec F S4096x64 .f32) (x1 : Vec F S4096x64 .f32) (x2 : Vec F S3x64x64 .f32) (x3 : Vec F S3x64 .f32) (x4 : Vec F S3x64 .f32) (x5 : Vec F S3x64 .f32) (x6 : Vec F S3x64 .f32) (x7 : Vec F S3x64 .f32) : Vec F S4096x64 .f32 :=
  View.canon [⟨rX, stored1 x0 x1 x2 x3 x4 x5 x6 x7⟩]

/-- The one store covers the buffer. -/
theorem cover1_8 (p0 : Vec F S4096x64 .f32) (y : S4096x64.Idx) :
    ∃ pc ∈ ([⟨rX, p0⟩] : List (View.Piece (Elt F) S4096x64 .f32)), y ∈ pc.1.set :=
  View.cover_of_tiled [⟨rX, p0⟩] S4096x64.size (by rfl) y

/-! ## The body's triple -/

set_option maxHeartbeats 1000000 in
/-- On whole staging buffers — the inputs' at contents `xW`, the result's at anything — the body runs to its end holding
    the inputs' as they were and the result's at `out1_8` of the inputs'. -/
theorem sound_kernel1 (c : Dev nD) (E : Set ℕ) (i : grid1.Coords) (arg1 : Memref sig .tc .vmem S4096x64 .f32) (harg1 : arg1.IsWhole) (arg2 : Memref sig .tc .vmem S4096x64 .f32) (harg2 : arg2.IsWhole) (arg3 : Memref sig .tc .vmem S3x64x64 .f32) (harg3 : arg3.IsWhole) (arg4 : Memref sig .tc .vmem S3x64 .f32) (harg4 : arg4.IsWhole) (arg5 : Memref sig .tc .vmem S3x64 .f32) (harg5 : arg5.IsWhole) (arg6 : Memref sig .tc .vmem S3x64 .f32) (harg6 : arg6.IsWhole) (arg7 : Memref sig .tc .vmem S3x64 .f32) (harg7 : arg7.IsWhole) (arg8 : Memref sig .tc .vmem S3x64 .f32) (harg8 : arg8.IsWhole) (arg9 : Memref sig .tc .vmem S4096x64 .f32) (harg9 : arg9.IsWhole)
    (x0 : Vec F S4096x64 .f32) (x1 : Vec F S4096x64 .f32) (x2 : Vec F S3x64x64 .f32) (x3 : Vec F S3x64 .f32) (x4 : Vec F S3x64 .f32) (x5 : Vec F S3x64 .f32) (x6 : Vec F S3x64 .f32) (x7 : Vec F S3x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out1_8 x0 x1 x2 x3 x4 x5 x6 x7)) -∗ K ⟨⟩))
      ⊢ wp frame (wpE (defs₀ (F := F)) Variants.none c none) E (cc1__gin_mlp_kernel i arg1 harg1 arg2 harg2 arg3 harg3 arg4 harg4 arg5 harg5 arg6 harg6 arg7 harg7 arg8 harg8 arg9 harg9) K := by
  simp only [cc1__gin_mlp_kernel_eq_skeleton]; unfold cc1__gin_mlp_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover1_8 _)

/-! ## The pipeline's proof data -/

/-- The proof data of the call on core `c`: the arrays as the call finds them; after the body at point `t` each input's
    buffer still at its block and the result's at `out1_8` of the input blocks; the invariant is the scoped rest and the
    generator register, untouched; nothing is owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' buffers hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Region1

end
-- ==== Proof.KernelIdealRegion2.lean ====
import proofs.«129687_j87179246174626_1_alg».proof.Proof.Gen.KernelIdeal.Launch
import proofs.«129687_j87179246174626_1_alg».proof.Proof.Gen.KernelIdeal.Skeleton
import proofs.«129687_j87179246174626_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Pallas call 2: one grid point of the fused add + three-stage MLP

The call walks 50 grid points; point `t` sees rows `4096 t … 4096 t + 4095` of the node features `h` and of the
aggregated messages `agg` (windows 0 and 1), the whole weight stack `3 × 64 × 64` (window 2) and the five per-stage
vectors `3 × 64` — bias, scale γ, shift β, running mean, running variance (windows 3 to 7) — and fills the same rows
of the result (window 8). The body loads each input once per stage through literal rectangles, computes
`x ↦ ((relu (x · Wⱼ + bⱼ) − meanⱼ) · rsqrt (varⱼ + ε)) · γⱼ + βⱼ` for `j = 0, 1, 2` starting from `x = h + agg`, and
stores the whole `4096 × 64` block once. This module states what the result's staging buffer holds after the body
as a function of the eight input blocks, proves that the body, run operation by operation, leaves exactly that, and packages both as the
pipeline's proof data and body obligation, at any entry contents `V` of the TensorCore's buffers and any float
interpretation `F`.
-/

set_option maxRecDepth 16384

noncomputable section

namespace Cert.KernelIdeal.Region2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block of the array at every grid point, whether the pipeline
    fetched it there or kept it from an earlier point (the index map has not moved since), for any proof data whose
    array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block of the array at every grid point, whether the pipeline
    fetched it there or kept it from an earlier point (the index map has not moved since), for any proof data whose
    array is the entry contents and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block of the array at every grid point, whether the pipeline
    fetched it there or kept it from an earlier point (the index map has not moved since), for any proof data whose
    array is the entry contents and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block of the array at every grid point, whether the pipeline
    fetched it there or kept it from an earlier point (the index map has not moved since), for any proof data whose
    array is the entry contents and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block of the array at every grid point, whether the pipeline
    fetched it there or kept it from an earlier point (the index map has not moved since), for any proof data whose
    array is the entry contents and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block of the array at every grid point, whether the pipeline
    fetched it there or kept it from an earlier point (the index map has not moved since), for any proof data whose
    array is the entry contents and whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block of the array at every grid point, whether the pipeline
    fetched it there or kept it from an earlier point (the index map has not moved since), for any proof data whose
    array is the entry contents and whose body leaves the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block of the array at every grid point, whether the pipeline
    fetched it there or kept it from an earlier point (the index map has not moved since), for any proof data whose
    array is the entry contents and whose body leaves the block in place. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The body's rectangles -/

/-- The whole `4096 × 64` block (rows of `h`, of `agg`, of the result). -/
abbrev rX : Rect S4096x64 := Rect.unit (s := S4096x64) ![0, 0] S4096x64.size inb_S4096x64_S4096x64_0_0
/-- Stage `j`'s `64 × 64` weight matrix inside the stack. -/
abbrev rW0 : Rect S3x64x64 := Rect.unit (s := S3x64x64) ![0, 0, 0] S1x64x64.size inb_S3x64x64_S1x64x64_0_0_0
abbrev rW1 : Rect S3x64x64 := Rect.unit (s := S3x64x64) ![1, 0, 0] S1x64x64.size inb_S3x64x64_S1x64x64_1_0_0
abbrev rW2 : Rect S3x64x64 := Rect.unit (s := S3x64x64) ![2, 0, 0] S1x64x64.size inb_S3x64x64_S1x64x64_2_0_0
/-- Stage `j`'s row of a `3 × 64` per-stage vector. -/
abbrev rv0 : Rect S3x64 := Rect.unit (s := S3x64) ![0, 0] S1x64.size inb_S3x64_S1x64_0_0
abbrev rv1 : Rect S3x64 := Rect.unit (s := S3x64) ![1, 0] S1x64.size inb_S3x64_S1x64_1_0
abbrev rv2 : Rect S3x64 := Rect.unit (s := S3x64) ![2, 0] S1x64.size inb_S3x64_S1x64_2_0

/-! ## What the body leaves in the result's staging buffer -/

/-- The stored value, from the eight input blocks: stage 0 (weights `rW0`, vectors' row 0) applied to `x0 + x1`, then
    stage 1, then stage 2, written through the payload names of the body's skeleton. -/
def stored2 (x0 : Vec F S4096x64 .f32) (x1 : Vec F S4096x64 .f32) (x2 : Vec F S3x64x64 .f32) (x3 : Vec F S3x64 .f32) (x4 : Vec F S3x64 .f32) (x5 : Vec F S3x64 .f32) (x6 : Vec F S3x64 .f32) (x7 : Vec F S3x64 .f32) : FVec F S4096x64 .f32 :=
  k2_pay1 (k2_pay4 (View.ld x2 rW2))
    (k2_pay5 (k2_pay2 (View.ld x0 rX) (View.ld x1 rX) (View.ld x2 rW0) (View.ld x3 rv0) (View.ld x6 rv0) (View.ld x7 rv0) (View.ld x4 rv0))
      (k2_pay3 (View.ld x5 rv0)) (View.ld x2 rW1) (View.ld x3 rv1) (View.ld x6 rv1) (View.ld x7 rv1) (View.ld x4 rv1) (View.ld x5 rv1))
    (constant S4096x64 .f32 0x00000000#32) (View.ld x3 rv2) (View.ld x6 rv2) (View.ld x7 rv2) (View.ld x4 rv2) (View.ld x5 rv2)

/-- Window 8's staging buffer after the body: its one store, of the whole block. -/
def out2_8 (x0 : Vec F S4096x64 .f32) (x1 : Vec F S4096x64 .f32) (x2 : Vec F S3x64x64 .f32) (x3 : Vec F S3x64 .f32) (x4 : Vec F S3x64 .f32) (x5 : Vec F S3x64 .f32) (x6 : Vec F S3x64 .f32) (x7 : Vec F S3x64 .f32) : Vec F S4096x64 .f32 :=
  View.canon [⟨rX, stored2 x0 x1 x2 x3 x4 x5 x6 x7⟩]

/-- The one store covers the buffer. -/
theorem cover2_8 (p0 : Vec F S4096x64 .f32) (y : S4096x64.Idx) :
    ∃ pc ∈ ([⟨rX, p0⟩] : List (View.Piece (Elt F) S4096x64 .f32)), y ∈ pc.1.set :=
  View.cover_of_tiled [⟨rX, p0⟩] S4096x64.size (by rfl) y

/-! ## The body's triple -/

set_option maxHeartbeats 1000000 in
/-- On whole staging buffers — the inputs' at contents `xW`, the result's at anything — the body runs to its end holding
    the inputs' as they were and the result's at `out2_8` of the inputs'. -/
theorem sound_kernel2 (c : Dev nD) (E : Set ℕ) (i : grid2.Coords) (arg1 : Memref sig .tc .vmem S4096x64 .f32) (harg1 : arg1.IsWhole) (arg2 : Memref sig .tc .vmem S4096x64 .f32) (harg2 : arg2.IsWhole) (arg3 : Memref sig .tc .vmem S3x64x64 .f32) (harg3 : arg3.IsWhole) (arg4 : Memref sig .tc .vmem S3x64 .f32) (harg4 : arg4.IsWhole) (arg5 : Memref sig .tc .vmem S3x64 .f32) (harg5 : arg5.IsWhole) (arg6 : Memref sig .tc .vmem S3x64 .f32) (harg6 : arg6.IsWhole) (arg7 : Memref sig .tc .vmem S3x64 .f32) (harg7 : arg7.IsWhole) (arg8 : Memref sig .tc .vmem S3x64 .f32) (harg8 : arg8.IsWhole) (arg9 : Memref sig .tc .vmem S4096x64 .f32) (harg9 : arg9.IsWhole)
    (x0 : Vec F S4096x64 .f32) (x1 : Vec F S4096x64 .f32) (x2 : Vec F S3x64x64 .f32) (x3 : Vec F S3x64 .f32) (x4 : Vec F S3x64 .f32) (x5 : Vec F S3x64 .f32) (x6 : Vec F S3x64 .f32) (x7 : Vec F S3x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out2_8 x0 x1 x2 x3 x4 x5 x6 x7)) -∗ K ⟨⟩))
      ⊢ wp frame (wpE (defs₀ (F := F)) Variants.none c none) E (cc2__gin_mlp_kernel i arg1 harg1 arg2 harg2 arg3 harg3 arg4 harg4 arg5 harg5 arg6 harg6 arg7 harg7 arg8 harg8 arg9 harg9) K := by
  simp only [cc2__gin_mlp_kernel_eq_skeleton]; unfold cc2__gin_mlp_kernel_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover2_8 _)

/-! ## The pipeline's proof data -/

/-- The proof data of the call on core `c`: the arrays as the call finds them; after the body at point `t` each input's
    buffer still at its block and the result's at `out2_8` of the input blocks; the invariant is the scoped rest and the
    generator register, untouched; nothing is owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the inputs' buffers hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Region2

end
-- ==== Proof.KernelIdealRun.lean ====
import proofs.«129687_j87179246174626_1_alg».proof.Proof.Gen.KernelIdeal.Regions
import proofs.«129687_j87179246174626_1_alg».proof.Proof.KernelIdealRegion0
import proofs.«129687_j87179246174626_1_alg».proof.Proof.KernelIdealRegion1
import proofs.«129687_j87179246174626_1_alg».proof.Proof.KernelIdealRegion2

/-!
# The whole program as seven segments

`@main` is: host operations (the embedding `h₀ = feats · W_seq + b_seq`, the first gather and segment sum, the first
layer's slices of the stacked parameters), pallas call 0, host operations (the first readout, the second gather and
segment sum, the second layer's slices), call 1, host operations, call 2, host operations (the third readout, the
concatenation of the three readouts, the classifier). Between two segments every unscoped buffer of a core holds
known contents: the launch memory, then each host stretch's operations applied in order, then — across a call — the
same contents with the call's result buffer replaced by what the call leaves. The one thing a call leaves is
`arrAt 8 N` of its proof data: the fold of its 50 write-backs over the result array. This module names those contents
(`outsC`), states each call as a segment between them, and launches the segments: every weakly fair execution
terminates, and at the end every unscoped buffer holds the last contents. The frame (the arguments end unchanged) is
read off that, argument by argument, since no segment writes an argument.
-/

set_option maxRecDepth 16384

noncomputable section

namespace Cert.KernelIdeal.Run

open Cert.KernelIdeal Cert.KernelIdeal.Gen Cert.KernelIdeal.Region0 Cert.KernelIdeal.Region1 Cert.KernelIdeal.Region2
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-! ## The contents each call is entered with and left at -/

abbrev En0 : (c : Dev nD) → (b : Ref sig .tc) → Buf (Elt F) ((c : Thread nD τ).loc b) := fun c b => Gen.V1 m c b
abbrev Ex0 : (c : Dev nD) → (b : Ref sig .tc) → Buf (Elt F) ((c : Thread nD τ).loc b) := fun c b => Gen.V2 m outs c b
abbrev En1 : (c : Dev nD) → (b : Ref sig .tc) → Buf (Elt F) ((c : Thread nD τ).loc b) := fun c b => Gen.V3 m outs c b
abbrev Ex1 : (c : Dev nD) → (b : Ref sig .tc) → Buf (Elt F) ((c : Thread nD τ).loc b) := fun c b => Gen.V4 m outs c b
abbrev En2 : (c : Dev nD) → (b : Ref sig .tc) → Buf (Elt F) ((c : Thread nD τ).loc b) := fun c b => Gen.V5 m outs c b
abbrev Ex2 : (c : Dev nD) → (b : Ref sig .tc) → Buf (Elt F) ((c : Thread nD τ).loc b) := fun c b => Gen.V6 m outs c b

/-- Each call's proof data, at the contents the call is entered with. -/
def pdats : (p : Fin 3) → (c : Dev nD) → Dat τ (Elt F) Unit ℕ (UR sig nD τ) ℕ (cfgs p) c
  | ⟨0, _⟩ => fun c => dat0 (En0 m) c
  | ⟨1, _⟩ => fun c => dat1 (En1 m outs) c
  | ⟨2, _⟩ => fun c => dat2 (En2 m outs) c

/-- `outs` names what the calls leave: call K's result buffer ends at the fold of its write-backs. -/
structure Leaves : Prop where
  h0 : ∀ c, outs 2 main_v27 c = (dat0 (En0 m) c).arrAt 8 cfg0.N
  h1 : ∀ c, outs 4 main_v52 c = (dat1 (En1 m outs) c).arrAt 8 cfg1.N
  h2 : ∀ c, outs 6 main_v77 c = (dat2 (En2 m outs) c).arrAt 8 cfg2.N

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core's dues, empty. -/
abbrev R (c : Dev nD) : sProp 𝕄 := iprop((∃ r, prngReg c r) ∗ ∃ W, owes (c : Thread nD τ) (0 : CellTallies nD τ sig Unit) W)

/-- What rides along ends owing nothing (the generator register is dropped). -/
theorem dues_of_R (c : Dev nD) : (R (F := F) c) ⊢ (iprop(∃ W, owes (c : Thread nD τ) (0 : CellTallies nD τ sig Unit) W) : sProp 𝕄) := by
  show (iprop((∃ r, prngReg c r) ∗ ∃ W, owes (c : Thread nD τ) (0 : CellTallies nD τ sig Unit) W) : sProp 𝕄) ⊢ _
  iintro ⟨-, HO⟩
  iexact HO

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Call 0 -/

/-- An input window's array is the same buffer contents after call 0 as before it: the pipeline only reads it, and
    the one buffer the call may change is the result's. -/
theorem keep0 (c : Dev nD) (w : Fin 9) (hin : (cfg0.win w).isOut = false)
    (hne : Pipeline.arrRef spec0 w ∉ ([main_v27] : List (Ref sig .tc))) :
    (dat0 (En0 m) c).arrAt w cfg0.N = Ex0 m outs c (Pipeline.arrRef spec0 w) :=
  ((dat0 (En0 m) c).arrAt_in w hin _).trans ((A_eq0 (En0 m) c w).trans (Gen.V2_of m outs c _ hne).symm)

/-- After call 0 its result buffer holds what `outs` says. -/
theorem Ex0_out (c : Dev nD) : Ex0 m outs c main_v27 = outs 2 main_v27 c := by
  show Function.update (Gen.V1 m c) (Proc.devRef .tc main_v27) (outs 2 main_v27 c) (Proc.devRef .tc main_v27) = _
  exact Function.update_self ..

set_option maxHeartbeats 1000000 in
/-- Every array of call 0, after the call: the inputs as entered, the result at the fold of its write-backs. -/
theorem hF0 (h : Leaves m outs) (c : Dev nD) : ∀ w : Fin 9, (dat0 (En0 m) c).arrAt w cfg0.N = Ex0 m outs c (Pipeline.arrRef spec0 w)
  | ⟨0, _⟩ => keep0 m outs c ⟨0, by decide⟩ rfl (by decide)
  | ⟨1, _⟩ => keep0 m outs c ⟨1, by decide⟩ rfl (by decide)
  | ⟨2, _⟩ => keep0 m outs c ⟨2, by decide⟩ rfl (by decide)
  | ⟨3, _⟩ => keep0 m outs c ⟨3, by decide⟩ rfl (by decide)
  | ⟨4, _⟩ => keep0 m outs c ⟨4, by decide⟩ rfl (by decide)
  | ⟨5, _⟩ => keep0 m outs c ⟨5, by decide⟩ rfl (by decide)
  | ⟨6, _⟩ => keep0 m outs c ⟨6, by decide⟩ rfl (by decide)
  | ⟨7, _⟩ => keep0 m outs c ⟨7, by decide⟩ rfl (by decide)
  | ⟨8, _⟩ => ((Ex0_out m outs c).trans (h.h0 c)).symm

/-- Every buffer that is no array of call 0 is untouched by it. -/
theorem hrest0 (c : Dev nD) : ∀ b, b ∉ Finset.univ.image (Pipeline.arrRef spec0) → Ex0 m outs c b = En0 m c b :=
  fun b hb => Gen.V2_of m outs c b (by
    intro hmem
    rw [List.mem_singleton] at hmem
    exact hb (Finset.mem_image.mpr ⟨8, Finset.mem_univ _, by rw [hmem]⟩))

set_option backward.isDefEq.respectTransparency.types false in
/-- Call 0 as a segment of the program: entered with every unscoped buffer at the contents before it, left with them
    at the contents after it; the generator register and the core's (empty) dues ride along. Its arrays are split out
    of the unscoped buffers on entry and put back on exit. -/
def reg0 (h : Leaves m outs) : Pipeline.RegionSeg (pcfgs (F := F)) adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (body_obligation0 (En0 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m outs c) ∗ R c)
  X c := iprop(∃ r, prngReg c r)
  Y c := iprop(∃ r, prngReg c r)
  Z c := Pipeline.unscopedRest (Ix := Unit) (Name := ℕ) (U := UR sig nD τ) (Lvl := ℕ) spec0 c (En0 m c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (En0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (En0 m c) (Ex0 m outs c) ((pdats m outs 0 c).arrAt · cfg0.N) (hF0 m outs h c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Call 1 -/

/-- An input window's array is the same buffer contents after call 1 as before it: the pipeline only reads it, and
    the one buffer the call may change is the result's. -/
theorem keep1 (c : Dev nD) (w : Fin 9) (hin : (cfg1.win w).isOut = false)
    (hne : Pipeline.arrRef spec1 w ∉ ([main_v52] : List (Ref sig .tc))) :
    (dat1 (En1 m outs) c).arrAt w cfg1.N = Ex1 m outs c (Pipeline.arrRef spec1 w) :=
  ((dat1 (En1 m outs) c).arrAt_in w hin _).trans ((A_eq1 (En1 m outs) c w).trans (Gen.V4_of m outs c _ hne).symm)

/-- After call 1 its result buffer holds what `outs` says. -/
theorem Ex1_out (c : Dev nD) : Ex1 m outs c main_v52 = outs 4 main_v52 c := by
  show Function.update (Gen.V3 m outs c) (Proc.devRef .tc main_v52) (outs 4 main_v52 c) (Proc.devRef .tc main_v52) = _
  exact Function.update_self ..

set_option maxHeartbeats 1000000 in
/-- Every array of call 1, after the call: the inputs as entered, the result at the fold of its write-backs. -/
theorem hF1 (h : Leaves m outs) (c : Dev nD) : ∀ w : Fin 9, (dat1 (En1 m outs) c).arrAt w cfg1.N = Ex1 m outs c (Pipeline.arrRef spec1 w)
  | ⟨0, _⟩ => keep1 m outs c ⟨0, by decide⟩ rfl (by decide)
  | ⟨1, _⟩ => keep1 m outs c ⟨1, by decide⟩ rfl (by decide)
  | ⟨2, _⟩ => keep1 m outs c ⟨2, by decide⟩ rfl (by decide)
  | ⟨3, _⟩ => keep1 m outs c ⟨3, by decide⟩ rfl (by decide)
  | ⟨4, _⟩ => keep1 m outs c ⟨4, by decide⟩ rfl (by decide)
  | ⟨5, _⟩ => keep1 m outs c ⟨5, by decide⟩ rfl (by decide)
  | ⟨6, _⟩ => keep1 m outs c ⟨6, by decide⟩ rfl (by decide)
  | ⟨7, _⟩ => keep1 m outs c ⟨7, by decide⟩ rfl (by decide)
  | ⟨8, _⟩ => ((Ex1_out m outs c).trans (h.h1 c)).symm

/-- Every buffer that is no array of call 1 is untouched by it. -/
theorem hrest1 (c : Dev nD) : ∀ b, b ∉ Finset.univ.image (Pipeline.arrRef spec1) → Ex1 m outs c b = En1 m outs c b :=
  fun b hb => Gen.V4_of m outs c b (by
    intro hmem
    rw [List.mem_singleton] at hmem
    exact hb (Finset.mem_image.mpr ⟨8, Finset.mem_univ _, by rw [hmem]⟩))

set_option backward.isDefEq.respectTransparency.types false in
/-- Call 1 as a segment of the program: entered with every unscoped buffer at the contents before it, left with them
    at the contents after it; the generator register and the core's (empty) dues ride along. Its arrays are split out
    of the unscoped buffers on entry and put back on exit. -/
def reg1 (h : Leaves m outs) : Pipeline.RegionSeg (pcfgs (F := F)) adm (pdats m outs) () defs₀ 𝒱₀ L lv 1 where
  win := launch1.win.to₀
  block_pos := launch1.block_pos
  stage_whole := launch1.stage_whole
  K := PEmpty
  osem k := k.elim
  ho := Pipeline.OwnSemFacts.none _
  hbody c := (body_obligation1 (En1 m outs) c).loose
  hwaits := Pipeline.hwaits_of_owed_zero _ _ _ _ L lv 1 fun _ _ => rfl
  pre c := iprop(StableHlo.held (c : Thread nD τ) (Pipeline.ucRefs τ sig) (Gen.V3 m outs c) ∗ R c)
  post c := iprop(StableHlo.held (c : Thread nD τ) (Pipeline.ucRefs τ sig) (Gen.V4 m outs c) ∗ R c)
  X c := iprop(∃ r, prngReg c r)
  Y c := iprop(∃ r, prngReg c r)
  Z c := Pipeline.unscopedRest (Ix := Unit) (Name := ℕ) (U := UR sig nD τ) (Lvl := ℕ) spec1 c (En1 m outs c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (En1 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (En1 m outs c) (Ex1 m outs c) ((pdats m outs 1 c).arrAt · cfg1.N) (hF1 m outs h c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Call 2 -/

/-- An input window's array is the same buffer contents after call 2 as before it: the pipeline only reads it, and
    the one buffer the call may change is the result's. -/
theorem keep2 (c : Dev nD) (w : Fin 9) (hin : (cfg2.win w).isOut = false)
    (hne : Pipeline.arrRef spec2 w ∉ ([main_v77] : List (Ref sig .tc))) :
    (dat2 (En2 m outs) c).arrAt w cfg2.N = Ex2 m outs c (Pipeline.arrRef spec2 w) :=
  ((dat2 (En2 m outs) c).arrAt_in w hin _).trans ((A_eq2 (En2 m outs) c w).trans (Gen.V6_of m outs c _ hne).symm)

/-- After call 2 its result buffer holds what `outs` says. -/
theorem Ex2_out (c : Dev nD) : Ex2 m outs c main_v77 = outs 6 main_v77 c := by
  show Function.update (Gen.V5 m outs c) (Proc.devRef .tc main_v77) (outs 6 main_v77 c) (Proc.devRef .tc main_v77) = _
  exact Function.update_self ..

set_option maxHeartbeats 1000000 in
/-- Every array of call 2, after the call: the inputs as entered, the result at the fold of its write-backs. -/
theorem hF2 (h : Leaves m outs) (c : Dev nD) : ∀ w : Fin 9, (dat2 (En2 m outs) c).arrAt w cfg2.N = Ex2 m outs c (Pipeline.arrRef spec2 w)
  | ⟨0, _⟩ => keep2 m outs c ⟨0, by decide⟩ rfl (by decide)
  | ⟨1, _⟩ => keep2 m outs c ⟨1, by decide⟩ rfl (by decide)
  | ⟨2, _⟩ => keep2 m outs c ⟨2, by decide⟩ rfl (by decide)
  | ⟨3, _⟩ => keep2 m outs c ⟨3, by decide⟩ rfl (by decide)
  | ⟨4, _⟩ => keep2 m outs c ⟨4, by decide⟩ rfl (by decide)
  | ⟨5, _⟩ => keep2 m outs c ⟨5, by decide⟩ rfl (by decide)
  | ⟨6, _⟩ => keep2 m outs c ⟨6, by decide⟩ rfl (by decide)
  | ⟨7, _⟩ => keep2 m outs c ⟨7, by decide⟩ rfl (by decide)
  | ⟨8, _⟩ => ((Ex2_out m outs c).trans (h.h2 c)).symm

/-- Every buffer that is no array of call 2 is untouched by it. -/
theorem hrest2 (c : Dev nD) : ∀ b, b ∉ Finset.univ.image (Pipeline.arrRef spec2) → Ex2 m outs c b = En2 m outs c b :=
  fun b hb => Gen.V6_of m outs c b (by
    intro hmem
    rw [List.mem_singleton] at hmem
    exact hb (Finset.mem_image.mpr ⟨8, Finset.mem_univ _, by rw [hmem]⟩))

set_option backward.isDefEq.respectTransparency.types false in
/-- Call 2 as a segment of the program: entered with every unscoped buffer at the contents before it, left with them
    at the contents after it; the generator register and the core's (empty) dues ride along. Its arrays are split out
    of the unscoped buffers on entry and put back on exit. -/
def reg2 (h : Leaves m outs) : Pipeline.RegionSeg (pcfgs (F := F)) adm (pdats m outs) () defs₀ 𝒱₀ L lv 2 where
  win := launch2.win.to₀
  block_pos := launch2.block_pos
  stage_whole := launch2.stage_whole
  K := PEmpty
  osem k := k.elim
  ho := Pipeline.OwnSemFacts.none _
  hbody c := (body_obligation2 (En2 m outs) c).loose
  hwaits := Pipeline.hwaits_of_owed_zero _ _ _ _ L lv 2 fun _ _ => rfl
  pre c := iprop(StableHlo.held (c : Thread nD τ) (Pipeline.ucRefs τ sig) (Gen.V5 m outs c) ∗ R c)
  post c := iprop(StableHlo.held (c : Thread nD τ) (Pipeline.ucRefs τ sig) (Gen.V6 m outs c) ∗ R c)
  X c := iprop(∃ r, prngReg c r)
  Y c := iprop(∃ r, prngReg c r)
  Z c := Pipeline.unscopedRest (Ix := Unit) (Name := ℕ) (U := UR sig nD τ) (Lvl := ℕ) spec2 c (En2 m outs c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (En2 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (En2 m outs c) (Ex2 m outs c) ((pdats m outs 2 c).arrAt · cfg2.N) (hF2 m outs h c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

set_option backward.isDefEq.respectTransparency.types false in
/-- From any memory with zero counters every weakly fair execution of `@main` terminates without a fault, and at the
    end every unscoped buffer of every core holds the last contents `Gen.V7`, whenever `outs` names what the calls leave. -/
theorem run_all (ρ : Dev nD → PrngReg) (h : Leaves m outs) :
    θ_run defs (onTc (τ := τ) (main (F := F))) ⟨m, fun _ => 0, ρ⟩ (fun r => ∀ c : Dev nD, ∀ b ∈ Pipeline.ucRefs τ sig,
      r.2.mem (((c : Thread nD τ)).1, b) = Gen.V7 m outs c b) := by
  refine Pipeline.θ_run_regions_kit_dev (pcfgs (F := F)) adm (pdats m outs) () cellOf_inj emb₁ defs₀ 𝒱₀ L lv m ρ main
    (Gen.segs m outs 𝒱₀ L lv (fun _ c => R c) () (pdats m outs) (reg0 m outs h) (reg1 m outs h) (reg2 m outs h))
    (fun c Q => by
      rewrite [main_chain c, Seg.run_eq_chain,
        show (Gen.segs m outs 𝒱₀ L lv (fun _ c => R c) () (pdats m outs) (reg0 m outs h) (reg1 m outs h) (reg2 m outs h) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V7 m outs c))
    (hch := fun c => ⟨.rfl, .rfl, .rfl, .rfl, .rfl, .rfl, .rfl, sep_mono .rfl (dues_of_R c)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V7 m outs c b)
    (hfin := fun c s' => by
      iintro ⟨Hh, HSI⟩
      unfold StableHlo.held
      imodintro
      iapply (pointsTo_read_all (Pipeline.ucRefs τ sig) (fun b => (((c : Thread nD τ)).1, b)) (Gen.V7 m outs c) s')
      isplitl [Hh] <;> iassumption)
    (hQ := fun _ h => h)

/-! ## What the calls leave, named -/

/-- An `Outs` family from the three result buffers' contents (all that the contents between segments ever read of it). -/
def mk (a : (c : Dev nD) → Buf (Elt F) ((c : Thread nD τ).loc main_v27)) (b : (c : Dev nD) → Buf (Elt F) ((c : Thread nD τ).loc main_v52))
    (d : (c : Dev nD) → Buf (Elt F) ((c : Thread nD τ).loc main_v77)) : Outs (F := F) := fun J r c =>
  match J with
  | 2 => Function.update (Gen.V0 m c) (Proc.devRef .tc main_v27) (a c) (Proc.devRef .tc r)
  | 4 => Function.update (Gen.V0 m c) (Proc.devRef .tc main_v52) (b c) (Proc.devRef .tc r)
  | _ => Function.update (Gen.V0 m c) (Proc.devRef .tc main_v77) (d c) (Proc.devRef .tc r)

/-- Call 0's result: the fold of its write-backs, entered at the first host stretch's contents. -/
def o2 (c : Dev nD) : Buf (Elt F) ((c : Thread nD τ).loc main_v27) := (dat0 (En0 m) c).arrAt 8 cfg0.N
/-- Call 1's result, entered at the contents the second host stretch makes of call 0's result. -/
def o4 (c : Dev nD) : Buf (Elt F) ((c : Thread nD τ).loc main_v52) :=
  (dat1 (En1 m (mk m (o2 m) (fun c => Gen.V0 m c main_v52) (fun c => Gen.V0 m c main_v77))) c).arrAt 8 cfg1.N
/-- Call 2's result, entered at the contents the third host stretch makes of call 1's result. -/
def o6 (c : Dev nD) : Buf (Elt F) ((c : Thread nD τ).loc main_v77) :=
  (dat2 (En2 m (mk m (o2 m) (o4 m) (fun c => Gen.V0 m c main_v77))) c).arrAt 8 cfg2.N
/-- What the three calls leave. -/
def outsC : Outs (F := F) := mk m (o2 m) (o4 m) (o6 m)

theorem outsC_2 (c : Dev nD) : outsC m 2 main_v27 c = o2 m c := by
  show Function.update (Gen.V0 m c) (Proc.devRef .tc main_v27) (o2 m c) (Proc.devRef .tc main_v27) = _
  exact Function.update_self ..
theorem outsC_4 (c : Dev nD) : outsC m 4 main_v52 c = o4 m c := by
  show Function.update (Gen.V0 m c) (Proc.devRef .tc main_v52) (o4 m c) (Proc.devRef .tc main_v52) = _
  exact Function.update_self ..
theorem outsC_6 (c : Dev nD) : outsC m 6 main_v77 c = o6 m c := by
  show Function.update (Gen.V0 m c) (Proc.devRef .tc main_v77) (o6 m c) (Proc.devRef .tc main_v77) = _
  exact Function.update_self ..

theorem leaves : Leaves m (outsC m) where
  h0 c := outsC_2 m c
  h1 c := (outsC_4 m c).trans rfl
  h2 c := (outsC_6 m c).trans rfl

/-- The run with what the calls leave named. -/
theorem run (ρ : Dev nD → PrngReg) :
    θ_run defs (onTc (τ := τ) (main (F := F))) ⟨m, fun _ => 0, ρ⟩ (fun r => ∀ c : Dev nD, ∀ b ∈ Pipeline.ucRefs τ sig,
      r.2.mem (((c : Thread nD τ)).1, b) = Gen.V7 m (outsC m) c b) :=
  run_all m (outsC m) ρ (leaves m)

/-- The frame: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (Gen.V7_main_arg0 m (outsC m) c),
     (h c _ (mem_uc main_arg1 (by decide))).trans (Gen.V7_main_arg1 m (outsC m) c),
     (h c _ (mem_uc main_arg2 (by decide))).trans (Gen.V7_main_arg2 m (outsC m) c),
     (h c _ (mem_uc main_arg3 (by decide))).trans (Gen.V7_main_arg3 m (outsC m) c),
     (h c _ (mem_uc main_arg4 (by decide))).trans (Gen.V7_main_arg4 m (outsC m) c),
     (h c _ (mem_uc main_arg5 (by decide))).trans (Gen.V7_main_arg5 m (outsC m) c),
     (h c _ (mem_uc main_arg6 (by decide))).trans (Gen.V7_main_arg6 m (outsC m) c),
     (h c _ (mem_uc main_arg7 (by decide))).trans (Gen.V7_main_arg7 m (outsC m) c),
     (h c _ (mem_uc main_arg8 (by decide))).trans (Gen.V7_main_arg8 m (outsC m) c),
     (h c _ (mem_uc main_arg9 (by decide))).trans (Gen.V7_main_arg9 m (outsC m) c),
     (h c _ (mem_uc main_arg10 (by decide))).trans (Gen.V7_main_arg10 m (outsC m) c),
     (h c _ (mem_uc main_arg11 (by decide))).trans (Gen.V7_main_arg11 m (outsC m) c),
     (h c _ (mem_uc main_arg12 (by decide))).trans (Gen.V7_main_arg12 m (outsC m) c)⟩) (run m ρ)

end Cert.KernelIdeal.Run

end
-- ==== Proof.RefRun.lean ====
import proofs.«129687_j87179246174626_1_alg».proof.Proof.Gen.ReferenceIdeal
import Idealize.ShloMosaic.Lib.StableHlo.Run

/-!
# The reference program's run, window by window

The reference is a straight line of 412 host operations, printed in seven parts. It is cut here into nineteen windows
of at most 35 operations — the common refinement of the printed parts and of the program's own structure (the
embedding and first aggregation; each of the nine stages; the two stretches between layers; the classifier) — so that
each part is the run of a few consecutive windows and the whole program the run of the nineteen lists one after the
other. A straight line of host operations terminates without a fault and leaves every buffer at the fold of the
operations' results over the launch contents (`StableHlo.run_seq`); the fold over a concatenation is the fold over the
second list from the fold over the first, so the final contents are nineteen nested folds, each read on its own. A
buffer a window does not write keeps its contents through it; no window writes an argument, which is the frame.
-/

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The fold of the operations' results over a concatenation: the second list's fold from the first's. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih _

theorem forall_append {α : Type} {p : α → Prop} {l₁ l₂ : List α} (h₁ : l₁.Forall p) (h₂ : l₂.Forall p) : (l₁ ++ l₂).Forall p :=
  List.forall_iff_forall_mem.mpr fun a ha =>
    (List.mem_append.mp ha).elim (List.forall_iff_forall_mem.mp h₁ a) (List.forall_iff_forall_mem.mp h₂ a)

/-- One operation writes only its result buffer, which the window's list of result buffers holds. -/
local macro "writes_one" : tactic =>
  `(tactic| (simp only [TRef.nullary, TRef.unary, TRef.binary, StableHlo.nullary_writes, StableHlo.unary_writes, StableHlo.binary_writes,
      StableHlo.ternary_writes, StableHlo.quaternary_writes, StableHlo.reshape_writes, StableHlo.nary_writes,
      Finset.singleton_subset_iff, List.mem_toFinset]; exact List.mem_map_of_mem (by decide)))

/-- Window 0: operations 1 to 31 of the program. -/
abbrev f0 : List (HloOp τ sig (Elt F)) :=
  [ reshape main_arg0 main_v0 rfl shapeCasts_S204800_S204800x1,
    binary main_v0 main_arg3 main_v1 ((fun l r => Host.dotGeneral dot_S204800x1_S1x64_S204800x64_1_0_0_1_n_n none l r) : (⟨S204800x1, .f32⟩ : BufTy).Contents (Elt F) → (⟨S1x64, .f32⟩ : BufTy).Contents (Elt F) → (⟨S204800x64, .f32⟩ : BufTy).Contents (Elt F)),
    unary main_arg4 main_v2 (broadcastInDim S1x64 ![1] bcast_S64_S1x64_1 : (⟨S64, .f32⟩ : BufTy).Contents (Elt F) → (⟨S1x64, .f32⟩ : BufTy).Contents (Elt F)),
    unary main_v2 main_v3 (broadcastInDim S204800x64 ![0, 1] bcast_S1x64_S204800x64_0_1 : (⟨S1x64, .f32⟩ : BufTy).Contents (Elt F) → (⟨S204800x64, .f32⟩ : BufTy).Contents (Elt F)),
    binary main_v1 main_v3 main_v4 (addf : (⟨S204800x64, .f32⟩ : BufTy).Contents (Elt F) → (⟨S204800x64, .f32⟩ : BufTy).Contents (Elt F) → (⟨S204800x64, .f32⟩ : BufTy).Contents (Elt F)),
    nullary main_c (constantI S_ 32 0#32),
    unary main_c main_v5 (broadcastInDim S3276800 ![] bcast_S_S3276800 : (⟨S_, .i32⟩ : BufTy).Contents (Elt F) → (⟨S3276800, .i32⟩ : BufTy).Contents (Elt F)),
    binary main_arg1 main_v5 main_v6 (cmpi .slt : (⟨S3276800, .i32⟩ : BufTy).Contents (Elt F) → (⟨S3276800, .i32⟩ : BufTy).Contents (Elt F) → (⟨S3276800, .i1⟩ : BufTy).Contents (Elt F)),
    nullary main_c_0 (constantI S_ 32 204800#32),
    unary main_c_0 main_v7 (broadcastInDim S3276800 ![] bcast_S_S3276800 : (⟨S_, .i32⟩ : BufTy).Contents (Elt F) → (⟨S3276800, .i32⟩ : BufTy).Contents (Elt F)),
    binary main_arg1 main_v7 main_v8 (addi : (⟨S3276800, .i32⟩ : BufTy).Contents (Elt F) → (⟨S3276800, .i32⟩ : BufTy).Contents (Elt F) → (⟨S3276800, .i32⟩ : BufTy).Contents (Elt F)),
    ternary main_v6 main_v8 main_arg1 main_v9 (select : (⟨S3276800, .i1⟩ : BufTy).Contents (Elt F) → (⟨S3276800, .i32⟩ : BufTy).Contents (Elt F) → (⟨S3276800, .i32⟩ : BufTy).Contents (Elt F) → (⟨S3276800, .i32⟩ : BufTy).Contents (Elt F)),
    unary main_v9 main_v10 (broadcastInDim S3276800x1 ![0] bcast_S3276800_S3276800x1_0 : (⟨S3276800, .i32⟩ : BufTy).Contents (Elt F) → (⟨S3276800x1, .i32⟩ : BufTy).Contents (Elt F)),
    binary main_v4 main_v10 main_v11 ((fun x i => Host.gather gather_S204800x64_S3276800x1_S3276800x64_1_0_n_n_0_1_164 x i) : (⟨S204800x64, .f32⟩ : BufTy).Contents (Elt F) → (⟨S3276800x1, .i32⟩ : BufTy).Contents (Elt F) → (⟨S3276800x64, .f32⟩ : BufTy).Contents (Elt F)),
    nullary main_cst (constant S_ .f32 0x00000000#32),
    unary main_cst main_v12 (broadcastInDim S204800x64 ![] bcast_S_S204800x64 : (⟨S_, .f32⟩ : BufTy).Contents (Elt F) → (⟨S204800x64, .f32⟩ : BufTy).Contents (Elt F)),
    unary main_arg2 main_v13 (broadcastInDim S3276800x1 ![0] bcast_S3276800_S3276800x1_0 : (⟨S3276800, .i32⟩ : BufTy).Contents (Elt F) → (⟨S3276800x1, .i32⟩ : BufTy).Contents (Elt F)),
    ternary main_v12 main_v13 main_v11 main_v14 ((fun x i u => Host.scatterAdd scatter_S204800x64_S3276800x1_S3276800x64_1_0_0_1 x i u) : (⟨S204800x64, .f32⟩ : BufTy).Contents (Elt F) → (⟨S3276800x1, .i32⟩ : BufTy).Contents (Elt F) → (⟨S3276800x64, .f32⟩ : BufTy).Contents (Elt F) → (⟨S204800x64, .f32⟩ : BufTy).Contents (Elt F)),
    binary main_v4 main_v14 main_v15 (addf : (⟨S204800x64, .f32⟩ : BufTy).Contents (Elt F) → (⟨S204800x64, .f32⟩ : BufTy).Contents (Elt F) → (⟨S204800x64, .f32⟩ : BufTy).Contents (Elt F)),
    unary main_arg5 main_v16 ((extractStridedSlice S1x3x64x64 ![0, 0, 0, 0] · slices_S3x3x64x64_S1x3x64x64_0_0_0_0) : (⟨S3x3x64x64, .f32⟩ : BufTy).Contents (Elt F) → (⟨S1x3x64x64, .f32⟩ : BufTy).Contents (Elt F)),
    reshape main_v16 main_v17 rfl shapeCasts_S1x3x64x64_S3x64x64,
    unary main_arg6 main_v18 ((extractStridedSlice S1x3x64 ![0, 0, 0] · slices_S3x3x64_S1x3x64_0_0_0) : (⟨S3x3x64, .f32⟩ : BufTy).Contents (Elt F) → (⟨S1x3x64, .f32⟩ : BufTy).Contents (Elt F)),
    reshape main_v18 main_v19 rfl shapeCasts_S1x3x64_S3x64,
    unary main_arg7 main_v20 ((extractStridedSlice S1x3x64 ![0, 0, 0] · slices_S3x3x64_S1x3x64_0_0_0) : (⟨S3x3x64, .f32⟩ : BufTy).Contents (Elt F) → (⟨S1x3x64, .f32⟩ : BufTy).Contents (Elt F)),
    reshape main_v20 main_v21 rfl shapeCasts_S1x3x64_S3x64,
    unary main_arg8 main_v22 ((extractStridedSlice S1x3x64 ![0, 0, 0] · slices_S3x3x64_S1x3x64_0_0_0) : (⟨S3x3x64, .f32⟩ : BufTy).Contents (Elt F) → (⟨S1x3x64, .f32⟩ : BufTy).Contents (Elt F)),
    reshape main_v22 main_v23 rfl shapeCasts_S1x3x64_S3x64,
    unary main_arg9 main_v24 ((extractStridedSlice S1x3x64 ![0, 0, 0] · slices_S3x3x64_S1x3x64_0_0_0) : (⟨S3x3x64, .f32⟩ : BufTy).Contents (Elt F) → (⟨S1x3x64, .f32⟩ : BufTy).Contents (Elt F)),
    reshape main_v24 main_v25 rfl shapeCasts_S1x3x64_S3x64,
    unary main_arg10 main_v26 ((extractStridedSlice S1x3x64 ![0, 0, 0] · slices_S3x3x64_S1x3x64_0_0_0) : (⟨S3x3x64, .f32⟩ : BufTy).Contents (Elt F) → (⟨S1x3x64, .f32⟩ : BufTy).Contents (Elt F)),
    reshape main_v26 main_v27 rfl shapeCasts_S1x3x64_S3x64 ]
theorem f0_sub : (f0 : List (HloOp τ sig (Elt F))).Forall fun op => op.bufs ⊆ tcRefs τ sig :=
  ⟨reshape_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub ..⟩
theorem f0_fresh : (f0 : List (HloOp τ sig (Elt F))).Forall fun op => op.fresh = ∅ := by
  simp only [List.Forall]; repeat' constructor
/-- The buffers window 0 writes. -/
abbrev f0_W : List (Ref sig .tc) := [main_v0, main_v1, main_v2, main_v3, main_v4, main_c, main_v5, main_v6, main_c_0, main_v7, main_v8, main_v9, main_v10, main_v11, main_cst, main_v12, main_v13, main_v14, main_v15, main_v16, main_v17, main_v18, main_v19, main_v20, main_v21, main_v22, main_v23, main_v24, main_v25, main_v26, main_v27]
theorem f0_writes : (f0 : List (HloOp τ sig (Elt F))).Forall fun op => op.writes ⊆ (f0_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer window 0 does not write keeps its contents through it. -/
theorem keep0 (W : Valuation τ sig (Elt F)) (r : Ref sig .tc) (h : r ∉ f0_W) : after f0 W (Proc.devRef .tc r) = W (Proc.devRef .tc r) :=
  after_of_writes_sub f0 W f0_writes h

/-- Window 1: operations 32 to 62 of the program. -/
abbrev f1 : List (HloOp τ sig (Elt F)) :=
  [ unary main_v17 main_v28 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v28 main_v29 rfl shapeCasts_S1x64x64_S64x64,
    binary main_v15 main_v29 main_v30 ((fun l r => Host.dotGeneral dot_S204800x64_S64x64_S204800x64_1_0_0_1_n_n none l r) : (⟨S204800x64, .f32⟩ : BufTy).Contents (Elt F) → (⟨S64x64, .f32⟩ : BufTy).Contents (Elt F) → (⟨S204800x64, .f32⟩ : BufTy).Contents (Elt F)),
    unary main_v19 main_v31 ((extractStridedSlice S1x64 ![0, 0] · slices_S3x64_S1x64_0_0) : (⟨S3x64, .f32⟩ : BufTy).Contents (Elt F) → (⟨S1x64, .f32⟩ : BufTy).Contents (Elt F)),
    reshape main_v31 main_v32 rfl shapeCasts_S1x64_S64,
    unary main_v32 main_v33 (broadcastInDim S1x64 ![1] bcast_S64_S1x64_1 : (⟨S64, .f32⟩ : BufTy).Contents (Elt F) → (⟨S1x64, .f32⟩ : BufTy).Contents (Elt F)),
    unary main_v33 main_v34 (broadcastInDim S204800x64 ![0, 1] bcast_S1x64_S204800x64_0_1 : (⟨S1x64, .f32⟩ : BufTy).Contents (Elt F) → (⟨S204800x64, .f32⟩ : BufTy).Contents (Elt F)),
    binary main_v30 main_v34 main_v35 (addf : (⟨S204800x64, .f32⟩ : BufTy).Contents (Elt F) → (⟨S204800x64, .f32⟩ : BufTy).Contents (Elt F) → (⟨S204800x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S204800x64, .f32⟩) main_call0_v0) (broadcastInDim S204800x64 ![] bcast_S_S204800x64),
    TRef.binary (TRef.of (T := ⟨S204800x64, .f32⟩) main_v35) (TRef.of (T := ⟨S204800x64, .f32⟩) main_call0_v0) (TRef.of (T := ⟨S204800x64, .f32⟩) main_v36) maximumf,
    unary main_v25 main_v37 ((extractStridedSlice S1x64 ![0, 0] · slices_S3x64_S1x64_0_0) : (⟨S3x64, .f32⟩ : BufTy).Contents (Elt F) → (⟨S1x64, .f32⟩ : BufTy).Contents (Elt F)),
    reshape main_v37 main_v38 rfl shapeCasts_S1x64_S64,
    unary main_v38 main_v39 (broadcastInDim S1x64 ![1] bcast_S64_S1x64_1 : (⟨S64, .f32⟩ : BufTy).Contents (Elt F) → (⟨S1x64, .f32⟩ : BufTy).Contents (Elt F)),
    unary main_v39 main_v40 (broadcastInDim S204800x64 ![0, 1] bcast_S1x64_S204800x64_0_1 : (⟨S1x64, .f32⟩ : BufTy).Contents (Elt F) → (⟨S204800x64, .f32⟩ : BufTy).Contents (Elt F)),
    binary main_v36 main_v40 main_v41 (subf : (⟨S204800x64, .f32⟩ : BufTy).Contents (Elt F) → (⟨S204800x64, .f32⟩ : BufTy).Contents (Elt F) → (⟨S204800x64, .f32⟩ : BufTy).Contents (Elt F)),
    unary main_v27 main_v42 ((extractStridedSlice S1x64 ![0, 0] · slices_S3x64_S1x64_0_0) : (⟨S3x64, .f32⟩ : BufTy).Contents (Elt F) → (⟨S1x64, .f32⟩ : BufTy).Contents (Elt F)),
    reshape main_v42 main_v43 rfl shapeCasts_S1x64_S64,
    nullary main_cst_1 (constant S_ .f32 0x3727C5AC#32),
    unary main_cst_1 main_v44 (broadcastInDim S64 ![] bcast_S_S64 : (⟨S_, .f32⟩ : BufTy).Contents (Elt F) → (⟨S64, .f32⟩ : BufTy).Contents (Elt F)),
    binary main_v43 main_v44 main_v45 (addf : (⟨S64, .f32⟩ : BufTy).Contents (Elt F) → (⟨S64, .f32⟩ : BufTy).Contents (Elt F) → (⟨S64, .f32⟩ : BufTy).Contents (Elt F)),
    unary main_v45 main_v46 (Host.rsqrt : (⟨S64, .f32⟩ : BufTy).Contents (Elt F) → (⟨S64, .f32⟩ : BufTy).Contents (Elt F)),
    unary main_v46 main_v47 (broadcastInDim S1x64 ![1] bcast_S64_S1x64_1 : (⟨S64, .f32⟩ : BufTy).Contents (Elt F) → (⟨S1x64, .f32⟩ : BufTy).Contents (Elt F)),
    unary main_v47 main_v48 (broadcastInDim S204800x64 ![0, 1] bcast_S1x64_S204800x64_0_1 : (⟨S1x64, .f32⟩ : BufTy).Contents (Elt F) → (⟨S204800x64, .f32⟩ : BufTy).Contents (Elt F)),
    binary main_v41 main_v48 main_v49 (mulf : (⟨S204800x64, .f32⟩ : BufTy).Contents (Elt F) → (⟨S204800x64, .f32⟩ : BufTy).Contents (Elt F) → (⟨S204800x64, .f32⟩ : BufTy).Contents (Elt F)),
    unary main_v21 main_v50 ((extractStridedSlice S1x64 ![0, 0] · slices_S3x64_S1x64_0_0) : (⟨S3x64, .f32⟩ : BufTy).Contents (Elt F) → (⟨S1x64, .f32⟩ : BufTy).Contents (Elt F)),
    reshape main_v50 main_v51 rfl shapeCasts_S1x64_S64,
    unary main_v51 main_v52 (broadcastInDim S1x64 ![1] bcast_S64_S1x64_1 : (⟨S64, .f32⟩ : BufTy).Contents (Elt F) → (⟨S1x64, .f32⟩ : BufTy).Contents (Elt F)),
    unary main_v52 main_v53 (broadcastInDim S204800x64 ![0, 1] bcast_S1x64_S204800x64_0_1 : (⟨S1x64, .f32⟩ : BufTy).Contents (Elt F) → (⟨S204800x64, .f32⟩ : BufTy).Contents (Elt F)),
    binary main_v49 main_v53 main_v54 (mulf : (⟨S204800x64, .f32⟩ : BufTy).Contents (Elt F) → (⟨S204800x64, .f32⟩ : BufTy).Contents (Elt F) → (⟨S204800x64, .f32⟩ : BufTy).Contents (Elt F)),
    unary main_v23 main_v55 ((extractStridedSlice S1x64 ![0, 0] · slices_S3x64_S1x64_0_0) : (⟨S3x64, .f32⟩ : BufTy).Contents (Elt F) → (⟨S1x64, .f32⟩ : BufTy).Contents (Elt F)) ]
theorem f1_sub : (f1 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub ..⟩
theorem f1_fresh : (f1 : List (HloOp τ sig (Elt F))).Forall fun op => op.fresh = ∅ := by
  simp only [List.Forall]; repeat' constructor
/-- The buffers window 1 writes. -/
abbrev f1_W : List (Ref sig .tc) := [main_v28, main_v29, main_v30, main_v31, main_v32, main_v33, main_v34, main_v35, main_call0_cst, main_call0_v0, main_v36, main_v37, main_v38, main_v39, main_v40, main_v41, main_v42, main_v43, main_cst_1, main_v44, main_v45, main_v46, main_v47, main_v48, main_v49, main_v50, main_v51, main_v52, main_v53, main_v54, main_v55]
theorem f1_writes : (f1 : List (HloOp τ sig (Elt F))).Forall fun op => op.writes ⊆ (f1_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer window 1 does not write keeps its contents through it. -/
theorem keep1 (W : Valuation τ sig (Elt F)) (r : Ref sig .tc) (h : r ∉ f1_W) : after f1 W (Proc.devRef .tc r) = W (Proc.devRef .tc r) :=
  after_of_writes_sub f1 W f1_writes h

/-- Window 2: operations 63 to 66 of the program. -/
abbrev f2 : List (HloOp τ sig (Elt F)) :=
  [ reshape main_v55 main_v56 rfl shapeCasts_S1x64_S64,
    unary main_v56 main_v57 (broadcastInDim S1x64 ![1] bcast_S64_S1x64_1 : (⟨S64, .f32⟩ : BufTy).Contents (Elt F) → (⟨S1x64, .f32⟩ : BufTy).Contents (Elt F)),
    unary main_v57 main_v58 (broadcastInDim S204800x64 ![0, 1] bcast_S1x64_S204800x64_0_1 : (⟨S1x64, .f32⟩ : BufTy).Contents (Elt F) → (⟨S204800x64, .f32⟩ : BufTy).Contents (Elt F)),
    binary main_v54 main_v58 main_v59 (addf : (⟨S204800x64, .f32⟩ : BufTy).Contents (Elt F) → (⟨S204800x64, .f32⟩ : BufTy).Contents (Elt F) → (⟨S204800x64, .f32⟩ : BufTy).Contents (Elt F)) ]
theorem f2_sub : (f2 : List (HloOp τ sig (Elt F))).Forall fun op => op.bufs ⊆ tcRefs τ sig :=
  ⟨reshape_bufs_sub .., unary_bufs_sub .., unary_bufs_sub .., binary_bufs_sub ..⟩
theorem f2_fresh : (f2 : List (HloOp τ sig (Elt F))).Forall fun op => op.fresh = ∅ := by
  simp only [List.Forall]; repeat' constructor
/-- The buffers window 2 writes. -/
abbrev f2_W : List (Ref sig .tc) := [main_v56, main_v57, main_v58, main_v59]
theorem f2_writes : (f2 : List (HloOp τ sig (Elt F))).Forall fun op => op.writes ⊆ (f2_W.map (Proc.devRef (τ := τ) .tc)).toFinset := by
  simp only [List.Forall]; exact ⟨by writes_one, by writes_one, by writes_one, by writes_one⟩
/-- A buffer window 2 does not write keeps its contents through it. -/
theorem keep2 (W : Valuation τ sig (Elt F)) (r : Ref sig .tc) (h : r ∉ f2_W) : after f2 W (Proc.devRef .tc r) = W (Proc.devRef .tc r) :=
  after_of_writes_sub f2 W f2_writes h

/-- Window 3: operations 67 to 101 of the program. -/
abbrev f3 : List (HloOp τ sig (Elt F)) :=
  [ unary main_v17 main_v60 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v60 main_v61 rfl shapeCasts_S1x64x64_S64x64,
    binary main_v59 main_v61 main_v62 ((fun l r => Host.dotGeneral dot_S204800x64_S64x64_S204800x64_1_0_0_1_n_n none l r) : (⟨S204800x64, .f32⟩ : BufTy).Contents (Elt F) → (⟨S64x64, .f32⟩ : BufTy).Contents (Elt F) → (⟨S204800x64, .f32⟩ : BufTy).Contents (Elt F)),
    unary main_v19 main_v63 ((extractStridedSlice S1x64 ![1, 0] · slices_S3x64_S1x64_1_0) : (⟨S3x64, .f32⟩ : BufTy).Contents (Elt F) → (⟨S1x64, .f32⟩ : BufTy).Contents (Elt F)),
    reshape main_v63 main_v64 rfl shapeCasts_S1x64_S64,
    unary main_v64 main_v65 (broadcastInDim S1x64 ![1] bcast_S64_S1x64_1 : (⟨S64, .f32⟩ : BufTy).Contents (Elt F) → (⟨S1x64, .f32⟩ : BufTy).Contents (Elt F)),
    unary main_v65 main_v66 (broadcastInDim S204800x64 ![0, 1] bcast_S1x64_S204800x64_0_1 : (⟨S1x64, .f32⟩ : BufTy).Contents (Elt F) → (⟨S204800x64, .f32⟩ : BufTy).Contents (Elt F)),
    binary main_v62 main_v66 main_v67 (addf : (⟨S204800x64, .f32⟩ : BufTy).Contents (Elt F) → (⟨S204800x64, .f32⟩ : BufTy).Contents (Elt F) → (⟨S204800x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S204800x64, .f32⟩) main_call1_v0) (broadcastInDim S204800x64 ![] bcast_S_S204800x64),
    TRef.binary (TRef.of (T := ⟨S204800x64, .f32⟩) main_v67) (TRef.of (T := ⟨S204800x64, .f32⟩) main_call1_v0) (TRef.of (T := ⟨S204800x64, .f32⟩) main_v68) maximumf,
    unary main_v25 main_v69 ((extractStridedSlice S1x64 ![1, 0] · slices_S3x64_S1x64_1_0) : (⟨S3x64, .f32⟩ : BufTy).Contents (Elt F) → (⟨S1x64, .f32⟩ : BufTy).Contents (Elt F)),
    reshape main_v69 main_v70 rfl shapeCasts_S1x64_S64,
    unary main_v70 main_v71 (broadcastInDim S1x64 ![1] bcast_S64_S1x64_1 : (⟨S64, .f32⟩ : BufTy).Contents (Elt F) → (⟨S1x64, .f32⟩ : BufTy).Contents (Elt F)),
    unary main_v71 main_v72 (broadcastInDim S204800x64 ![0, 1] bcast_S1x64_S204800x64_0_1 : (⟨S1x64, .f32⟩ : BufTy).Contents (Elt F) → (⟨S204800x64, .f32⟩ : BufTy).Contents (Elt F)),
    binary main_v68 main_v72 main_v73 (subf : (⟨S204800x64, .f32⟩ : BufTy).Contents (Elt F) → (⟨S204800x64, .f32⟩ : BufTy).Contents (Elt F) → (⟨S204800x64, .f32⟩ : BufTy).Contents (Elt F)),
    unary main_v27 main_v74 ((extractStridedSlice S1x64 ![1, 0] · slices_S3x64_S1x64_1_0) : (⟨S3x64, .f32⟩ : BufTy).Contents (Elt F) → (⟨S1x64, .f32⟩ : BufTy).Contents (Elt F)),
    reshape main_v74 main_v75 rfl shapeCasts_S1x64_S64,
    nullary main_cst_2 (constant S_ .f32 0x3727C5AC#32),
    unary main_cst_2 main_v76 (broadcastInDim S64 ![] bcast_S_S64 : (⟨S_, .f32⟩ : BufTy).Contents (Elt F) → (⟨S64, .f32⟩ : BufTy).Contents (Elt F)),
    binary main_v75 main_v76 main_v77 (addf : (⟨S64, .f32⟩ : BufTy).Contents (Elt F) → (⟨S64, .f32⟩ : BufTy).Contents (Elt F) → (⟨S64, .f32⟩ : BufTy).Contents (Elt F)),
    unary main_v77 main_v78 (Host.rsqrt : (⟨S64, .f32⟩ : BufTy).Contents (Elt F) → (⟨S64, .f32⟩ : BufTy).Contents (Elt F)),
    unary main_v78 main_v79 (broadcastInDim S1x64 ![1] bcast_S64_S1x64_1 : (⟨S64, .f32⟩ : BufTy).Contents (Elt F) → (⟨S1x64, .f32⟩ : BufTy).Contents (Elt F)),
    unary main_v79 main_v80 (broadcastInDim S204800x64 ![0, 1] bcast_S1x64_S204800x64_0_1 : (⟨S1x64, .f32⟩ : BufTy).Contents (Elt F) → (⟨S204800x64, .f32⟩ : BufTy).Contents (Elt F)),
    binary main_v73 main_v80 main_v81 (mulf : (⟨S204800x64, .f32⟩ : BufTy).Contents (Elt F) → (⟨S204800x64, .f32⟩ : BufTy).Contents (Elt F) → (⟨S204800x64, .f32⟩ : BufTy).Contents (Elt F)),
    unary main_v21 main_v82 ((extractStridedSlice S1x64 ![1, 0] · slices_S3x64_S1x64_1_0) : (⟨S3x64, .f32⟩ : BufTy).Contents (Elt F) → (⟨S1x64, .f32⟩ : BufTy).Contents (Elt F)),
    reshape main_v82 main_v83 rfl shapeCasts_S1x64_S64,
    unary main_v83 main_v84 (broadcastInDim S1x64 ![1] bcast_S64_S1x64_1 : (⟨S64, .f32⟩ : BufTy).Contents (Elt F) → (⟨S1x64, .f32⟩ : BufTy).Contents (Elt F)),
    unary main_v84 main_v85 (broadcastInDim S204800x64 ![0, 1] bcast_S1x64_S204800x64_0_1 : (⟨S1x64, .f32⟩ : BufTy).Contents (Elt F) → (⟨S204800x64, .f32⟩ : BufTy).Contents (Elt F)),
    binary main_v81 main_v85 main_v86 (mulf : (⟨S204800x64, .f32⟩ : BufTy).Contents (Elt F) → (⟨S204800x64, .f32⟩ : BufTy).Contents (Elt F) → (⟨S204800x64, .f32⟩ : BufTy).Contents (Elt F)),
    unary main_v23 main_v87 ((extractStridedSlice S1x64 ![1, 0] · slices_S3x64_S1x64_1_0) : (⟨S3x64, .f32⟩ : BufTy).Contents (Elt F) → (⟨S1x64, .f32⟩ : BufTy).Contents (Elt F)),
    reshape main_v87 main_v88 rfl shapeCasts_S1x64_S64,
    unary main_v88 main_v89 (broadcastInDim S1x64 ![1] bcast_S64_S1x64_1 : (⟨S64, .f32⟩ : BufTy).Contents (Elt F) → (⟨S1x64, .f32⟩ : BufTy).Contents (Elt F)),
    unary main_v89 main_v90 (broadcastInDim S204800x64 ![0, 1] bcast_S1x64_S204800x64_0_1 : (⟨S1x64, .f32⟩ : BufTy).Contents (Elt F) → (⟨S204800x64, .f32⟩ : BufTy).Contents (Elt F)),
    binary main_v86 main_v90 main_v91 (addf : (⟨S204800x64, .f32⟩ : BufTy).Contents (Elt F) → (⟨S204800x64, .f32⟩ : BufTy).Contents (Elt F) → (⟨S204800x64, .f32⟩ : BufTy).Contents (Elt F)) ]
theorem f3_sub : (f3 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub ..⟩
theorem f3_fresh : (f3 : List (HloOp τ sig (Elt F))).Forall fun op => op.fresh = ∅ := by
  simp only [List.Forall]; repeat' constructor
/-- The buffers window 3 writes. -/
abbrev f3_W : List (Ref sig .tc) := [main_v60, main_v61, main_v62, main_v63, main_v64, main_v65, main_v66, main_v67, main_call1_cst, main_call1_v0, main_v68, main_v69, main_v70, main_v71, main_v72, main_v73, main_v74, main_v75, main_cst_2, main_v76, main_v77, main_v78, main_v79, main_v80, main_v81, main_v82, main_v83, main_v84, main_v85, main_v86, main_v87, main_v88, main_v89, main_v90, main_v91]
theorem f3_writes : (f3 : List (HloOp τ sig (Elt F))).Forall fun op => op.writes ⊆ (f3_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer window 3 does not write keeps its contents through it. -/
theorem keep3 (W : Valuation τ sig (Elt F)) (r : Ref sig .tc) (h : r ∉ f3_W) : after f3 W (Proc.devRef .tc r) = W (Proc.devRef .tc r) :=
  after_of_writes_sub f3 W f3_writes h

/-- Window 4: operations 102 to 126 of the program. -/
abbrev f4 : List (HloOp τ sig (Elt F)) :=
  [ unary main_v17 main_v92 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v92 main_v93 rfl shapeCasts_S1x64x64_S64x64,
    binary main_v91 main_v93 main_v94 ((fun l r => Host.dotGeneral dot_S204800x64_S64x64_S204800x64_1_0_0_1_n_n none l r) : (⟨S204800x64, .f32⟩ : BufTy).Contents (Elt F) → (⟨S64x64, .f32⟩ : BufTy).Contents (Elt F) → (⟨S204800x64, .f32⟩ : BufTy).Contents (Elt F)),
    unary main_v19 main_v95 ((extractStridedSlice S1x64 ![2, 0] · slices_S3x64_S1x64_2_0) : (⟨S3x64, .f32⟩ : BufTy).Contents (Elt F) → (⟨S1x64, .f32⟩ : BufTy).Contents (Elt F)),
    reshape main_v95 main_v96 rfl shapeCasts_S1x64_S64,
    unary main_v96 main_v97 (broadcastInDim S1x64 ![1] bcast_S64_S1x64_1 : (⟨S64, .f32⟩ : BufTy).Contents (Elt F) → (⟨S1x64, .f32⟩ : BufTy).Contents (Elt F)),
    unary main_v97 main_v98 (broadcastInDim S204800x64 ![0, 1] bcast_S1x64_S204800x64_0_1 : (⟨S1x64, .f32⟩ : BufTy).Contents (Elt F) → (⟨S204800x64, .f32⟩ : BufTy).Contents (Elt F)),
    binary main_v94 main_v98 main_v99 (addf : (⟨S204800x64, .f32⟩ : BufTy).Contents (Elt F) → (⟨S204800x64, .f32⟩ : BufTy).Contents (Elt F) → (⟨S204800x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S204800x64, .f32⟩) main_call2_v0) (broadcastInDim S204800x64 ![] bcast_S_S204800x64),
    TRef.binary (TRef.of (T := ⟨S204800x64, .f32⟩) main_v99) (TRef.of (T := ⟨S204800x64, .f32⟩) main_call2_v0) (TRef.of (T := ⟨S204800x64, .f32⟩) main_v100) maximumf,
    unary main_v25 main_v101 ((extractStridedSlice S1x64 ![2, 0] · slices_S3x64_S1x64_2_0) : (⟨S3x64, .f32⟩ : BufTy).Contents (Elt F) → (⟨S1x64, .f32⟩ : BufTy).Contents (Elt F)),
    reshape main_v101 main_v102 rfl shapeCasts_S1x64_S64,
    unary main_v102 main_v103 (broadcastInDim S1x64 ![1] bcast_S64_S1x64_1 : (⟨S64, .f32⟩ : BufTy).Contents (Elt F) → (⟨S1x64, .f32⟩ : BufTy).Contents (Elt F)),
    unary main_v103 main_v104 (broadcastInDim S204800x64 ![0, 1] bcast_S1x64_S204800x64_0_1 : (⟨S1x64, .f32⟩ : BufTy).Contents (Elt F) → (⟨S204800x64, .f32⟩ : BufTy).Contents (Elt F)),
    binary main_v100 main_v104 main_v105 (subf : (⟨S204800x64, .f32⟩ : BufTy).Contents (Elt F) → (⟨S204800x64, .f32⟩ : BufTy).Contents (Elt F) → (⟨S204800x64, .f32⟩ : BufTy).Contents (Elt F)),
    unary main_v27 main_v106 ((extractStridedSlice S1x64 ![2, 0] · slices_S3x64_S1x64_2_0) : (⟨S3x64, .f32⟩ : BufTy).Contents (Elt F) → (⟨S1x64, .f32⟩ : BufTy).Contents (Elt F)),
    reshape main_v106 main_v107 rfl shapeCasts_S1x64_S64,
    nullary main_cst_3 (constant S_ .f32 0x3727C5AC#32),
    unary main_cst_3 main_v108 (broadcastInDim S64 ![] bcast_S_S64 : (⟨S_, .f32⟩ : BufTy).Contents (Elt F) → (⟨S64, .f32⟩ : BufTy).Contents (Elt F)),
    binary main_v107 main_v108 main_v109 (addf : (⟨S64, .f32⟩ : BufTy).Contents (Elt F) → (⟨S64, .f32⟩ : BufTy).Contents (Elt F) → (⟨S64, .f32⟩ : BufTy).Contents (Elt F)),
    unary main_v109 main_v110 (Host.rsqrt : (⟨S64, .f32⟩ : BufTy).Contents (Elt F) → (⟨S64, .f32⟩ : BufTy).Contents (Elt F)),
    unary main_v110 main_v111 (broadcastInDim S1x64 ![1] bcast_S64_S1x64_1 : (⟨S64, .f32⟩ : BufTy).Contents (Elt F) → (⟨S1x64, .f32⟩ : BufTy).Contents (Elt F)),
    unary main_v111 main_v112 (broadcastInDim S204800x64 ![0, 1] bcast_S1x64_S204800x64_0_1 : (⟨S1x64, .f32⟩ : BufTy).Contents (Elt F) → (⟨S204800x64, .f32⟩ : BufTy).Contents (Elt F)),
    binary main_v105 main_v112 main_v113 (mulf : (⟨S204800x64, .f32⟩ : BufTy).Contents (Elt F) → (⟨S204800x64, .f32⟩ : BufTy).Contents (Elt F) → (⟨S204800x64, .f32⟩ : BufTy).Contents (Elt F)) ]
theorem f4_sub : (f4 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub ..⟩
theorem f4_fresh : (f4 : List (HloOp τ sig (Elt F))).Forall fun op => op.fresh = ∅ := by
  simp only [List.Forall]; repeat' constructor
/-- The buffers window 4 writes. -/
abbrev f4_W : List (Ref sig .tc) := [main_v92, main_v93, main_v94, main_v95, main_v96, main_v97, main_v98, main_v99, main_call2_cst, main_call2_v0, main_v100, main_v101, main_v102, main_v103, main_v104, main_v105, main_v106, main_v107, main_cst_3, main_v108, main_v109, main_v110, main_v111, main_v112, main_v113]
theorem f4_writes : (f4 : List (HloOp τ sig (Elt F))).Forall fun op => op.writes ⊆ (f4_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer window 4 does not write keeps its contents through it. -/
theorem keep4 (W : Valuation τ sig (Elt F)) (r : Ref sig .tc) (h : r ∉ f4_W) : after f4 W (Proc.devRef .tc r) = W (Proc.devRef .tc r) :=
  after_of_writes_sub f4 W f4_writes h

/-- Window 5: operations 127 to 136 of the program. -/
abbrev f5 : List (HloOp τ sig (Elt F)) :=
  [ unary main_v21 main_v114 ((extractStridedSlice S1x64 ![2, 0] · slices_S3x64_S1x64_2_0) : (⟨S3x64, .f32⟩ : BufTy).Contents (Elt F) → (⟨S1x64, .f32⟩ : BufTy).Contents (Elt F)),
    reshape main_v114 main_v115 rfl shapeCasts_S1x64_S64,
    unary main_v115 main_v116 (broadcastInDim S1x64 ![1] bcast_S64_S1x64_1 : (⟨S64, .f32⟩ : BufTy).Contents (Elt F) → (⟨S1x64, .f32⟩ : BufTy).Contents (Elt F)),
    unary main_v116 main_v117 (broadcastInDim S204800x64 ![0, 1] bcast_S1x64_S204800x64_0_1 : (⟨S1x64, .f32⟩ : BufTy).Contents (Elt F) → (⟨S204800x64, .f32⟩ : BufTy).Contents (Elt F)),
    binary main_v113 main_v117 main_v118 (mulf : (⟨S204800x64, .f32⟩ : BufTy).Contents (Elt F) → (⟨S204800x64, .f32⟩ : BufTy).Contents (Elt F) → (⟨S204800x64, .f32⟩ : BufTy).Contents (Elt F)),
    unary main_v23 main_v119 ((extractStridedSlice S1x64 ![2, 0] · slices_S3x64_S1x64_2_0) : (⟨S3x64, .f32⟩ : BufTy).Contents (Elt F) → (⟨S1x64, .f32⟩ : BufTy).Contents (Elt F)),
    reshape main_v119 main_v120 rfl shapeCasts_S1x64_S64,
    unary main_v120 main_v121 (broadcastInDim S1x64 ![1] bcast_S64_S1x64_1 : (⟨S64, .f32⟩ : BufTy).Contents (Elt F) → (⟨S1x64, .f32⟩ : BufTy).Contents (Elt F)),
    unary main_v121 main_v122 (broadcastInDim S204800x64 ![0, 1] bcast_S1x64_S204800x64_0_1 : (⟨S1x64, .f32⟩ : BufTy).Contents (Elt F) → (⟨S204800x64, .f32⟩ : BufTy).Contents (Elt F)),
    binary main_v118 main_v122 main_v123 (addf : (⟨S204800x64, .f32⟩ : BufTy).Contents (Elt F) → (⟨S204800x64, .f32⟩ : BufTy).Contents (Elt F) → (⟨S204800x64, .f32⟩ : BufTy).Contents (Elt F)) ]
theorem f5_sub : (f5 : List (HloOp τ sig (Elt F))).Forall fun op => op.bufs ⊆ tcRefs τ sig :=
  ⟨unary_bufs_sub .., reshape_bufs_sub .., unary_bufs_sub .., unary_bufs_sub .., binary_bufs_sub .., unary_bufs_sub .., reshape_bufs_sub .., unary_bufs_sub .., unary_bufs_sub .., binary_bufs_sub ..⟩
theorem f5_fresh : (f5 : List (HloOp τ sig (Elt F))).Forall fun op => op.fresh = ∅ := by
  simp only [List.Forall]; repeat' constructor
/-- The buffers window 5 writes. -/
abbrev f5_W : List (Ref sig .tc) := [main_v114, main_v115, main_v116, main_v117, main_v118, main_v119, main_v120, main_v121, main_v122, main_v123]
theorem f5_writes : (f5 : List (HloOp τ sig (Elt F))).Forall fun op => op.writes ⊆ (f5_W.map (Proc.devRef (τ := τ) .tc)).toFinset := by
  simp only [List.Forall]; exact ⟨by writes_one, by writes_one, by writes_one, by writes_one, by writes_one, by writes_one, by writes_one, by writes_one, by writes_one, by writes_one⟩
/-- A buffer window 5 does not write keeps its contents through it. -/
theorem keep5 (W : Valuation τ sig (Elt F)) (r : Ref sig .tc) (h : r ∉ f5_W) : after f5 W (Proc.devRef .tc r) = W (Proc.devRef .tc r) :=
  after_of_writes_sub f5 W f5_writes h

/-- Window 6: operations 137 to 165 of the program. -/
abbrev f6 : List (HloOp τ sig (Elt F)) :=
  [ reshape main_v123 main_v124 rfl shapeCasts_S204800x64_S4096x50x64,
    nullary main_cst_4 (constant S_ .f32 0x00000000#32),
    binary main_v124 main_cst_4 main_v125 ((fun x v => Host.reduceAdd x v reducesTo_S4096x50x64_S4096x64_d1 h_S_) : (⟨S4096x50x64, .f32⟩ : BufTy).Contents (Elt F) → (⟨S_, .f32⟩ : BufTy).Contents (Elt F) → (⟨S4096x64, .f32⟩ : BufTy).Contents (Elt F)),
    nullary main_c_5 (constantI S_ 32 0#32),
    unary main_c_5 main_v126 (broadcastInDim S3276800 ![] bcast_S_S3276800 : (⟨S_, .i32⟩ : BufTy).Contents (Elt F) → (⟨S3276800, .i32⟩ : BufTy).Contents (Elt F)),
    binary main_arg1 main_v126 main_v127 (cmpi .slt : (⟨S3276800, .i32⟩ : BufTy).Contents (Elt F) → (⟨S3276800, .i32⟩ : BufTy).Contents (Elt F) → (⟨S3276800, .i1⟩ : BufTy).Contents (Elt F)),
    nullary main_c_6 (constantI S_ 32 204800#32),
    unary main_c_6 main_v128 (broadcastInDim S3276800 ![] bcast_S_S3276800 : (⟨S_, .i32⟩ : BufTy).Contents (Elt F) → (⟨S3276800, .i32⟩ : BufTy).Contents (Elt F)),
    binary main_arg1 main_v128 main_v129 (addi : (⟨S3276800, .i32⟩ : BufTy).Contents (Elt F) → (⟨S3276800, .i32⟩ : BufTy).Contents (Elt F) → (⟨S3276800, .i32⟩ : BufTy).Contents (Elt F)),
    ternary main_v127 main_v129 main_arg1 main_v130 (select : (⟨S3276800, .i1⟩ : BufTy).Contents (Elt F) → (⟨S3276800, .i32⟩ : BufTy).Contents (Elt F) → (⟨S3276800, .i32⟩ : BufTy).Contents (Elt F) → (⟨S3276800, .i32⟩ : BufTy).Contents (Elt F)),
    unary main_v130 main_v131 (broadcastInDim S3276800x1 ![0] bcast_S3276800_S3276800x1_0 : (⟨S3276800, .i32⟩ : BufTy).Contents (Elt F) → (⟨S3276800x1, .i32⟩ : BufTy).Contents (Elt F)),
    binary main_v123 main_v131 main_v132 ((fun x i => Host.gather gather_S204800x64_S3276800x1_S3276800x64_1_0_n_n_0_1_164 x i) : (⟨S204800x64, .f32⟩ : BufTy).Contents (Elt F) → (⟨S3276800x1, .i32⟩ : BufTy).Contents (Elt F) → (⟨S3276800x64, .f32⟩ : BufTy).Contents (Elt F)),
    nullary main_cst_7 (constant S_ .f32 0x00000000#32),
    unary main_cst_7 main_v133 (broadcastInDim S204800x64 ![] bcast_S_S204800x64 : (⟨S_, .f32⟩ : BufTy).Contents (Elt F) → (⟨S204800x64, .f32⟩ : BufTy).Contents (Elt F)),
    unary main_arg2 main_v134 (broadcastInDim S3276800x1 ![0] bcast_S3276800_S3276800x1_0 : (⟨S3276800, .i32⟩ : BufTy).Contents (Elt F) → (⟨S3276800x1, .i32⟩ : BufTy).Contents (Elt F)),
    ternary main_v133 main_v134 main_v132 main_v135 ((fun x i u => Host.scatterAdd scatter_S204800x64_S3276800x1_S3276800x64_1_0_0_1 x i u) : (⟨S204800x64, .f32⟩ : BufTy).Contents (Elt F) → (⟨S3276800x1, .i32⟩ : BufTy).Contents (Elt F) → (⟨S3276800x64, .f32⟩ : BufTy).Contents (Elt F) → (⟨S204800x64, .f32⟩ : BufTy).Contents (Elt F)),
    binary main_v123 main_v135 main_v136 (addf : (⟨S204800x64, .f32⟩ : BufTy).Contents (Elt F) → (⟨S204800x64, .f32⟩ : BufTy).Contents (Elt F) → (⟨S204800x64, .f32⟩ : BufTy).Contents (Elt F)),
    unary main_arg5 main_v137 ((extractStridedSlice S1x3x64x64 ![1, 0, 0, 0] · slices_S3x3x64x64_S1x3x64x64_1_0_0_0) : (⟨S3x3x64x64, .f32⟩ : BufTy).Contents (Elt F) → (⟨S1x3x64x64, .f32⟩ : BufTy).Contents (Elt F)),
    reshape main_v137 main_v138 rfl shapeCasts_S1x3x64x64_S3x64x64,
    unary main_arg6 main_v139 ((extractStridedSlice S1x3x64 ![1, 0, 0] · slices_S3x3x64_S1x3x64_1_0_0) : (⟨S3x3x64, .f32⟩ : BufTy).Contents (Elt F) → (⟨S1x3x64, .f32⟩ : BufTy).Contents (Elt F)),
    reshape main_v139 main_v140 rfl shapeCasts_S1x3x64_S3x64,
    unary main_arg7 main_v141 ((extractStridedSlice S1x3x64 ![1, 0, 0] · slices_S3x3x64_S1x3x64_1_0_0) : (⟨S3x3x64, .f32⟩ : BufTy).Contents (Elt F) → (⟨S1x3x64, .f32⟩ : BufTy).Contents (Elt F)),
    reshape main_v141 main_v142 rfl shapeCasts_S1x3x64_S3x64,
    unary main_arg8 main_v143 ((extractStridedSlice S1x3x64 ![1, 0, 0] · slices_S3x3x64_S1x3x64_1_0_0) : (⟨S3x3x64, .f32⟩ : BufTy).Contents (Elt F) → (⟨S1x3x64, .f32⟩ : BufTy).Contents (Elt F)),
    reshape main_v143 main_v144 rfl shapeCasts_S1x3x64_S3x64,
    unary main_arg9 main_v145 ((extractStridedSlice S1x3x64 ![1, 0, 0] · slices_S3x3x64_S1x3x64_1_0_0) : (⟨S3x3x64, .f32⟩ : BufTy).Contents (Elt F) → (⟨S1x3x64, .f32⟩ : BufTy).Contents (Elt F)),
    reshape main_v145 main_v146 rfl shapeCasts_S1x3x64_S3x64,
    unary main_arg10 main_v147 ((extractStridedSlice S1x3x64 ![1, 0, 0] · slices_S3x3x64_S1x3x64_1_0_0) : (⟨S3x3x64, .f32⟩ : BufTy).Contents (Elt F) → (⟨S1x3x64, .f32⟩ : BufTy).Contents (Elt F)),
    reshape main_v147 main_v148 rfl shapeCasts_S1x3x64_S3x64 ]
theorem f6_sub : (f6 : List (HloOp τ sig (Elt F))).Forall fun op => op.bufs ⊆ tcRefs τ sig :=
  ⟨reshape_bufs_sub .., nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub ..⟩
theorem f6_fresh : (f6 : List (HloOp τ sig (Elt F))).Forall fun op => op.fresh = ∅ := by
  simp only [List.Forall]; repeat' constructor
/-- The buffers window 6 writes. -/
abbrev f6_W : List (Ref sig .tc) := [main_v124, main_cst_4, main_v125, main_c_5, main_v126, main_v127, main_c_6, main_v128, main_v129, main_v130, main_v131, main_v132, main_cst_7, main_v133, main_v134, main_v135, main_v136, main_v137, main_v138, main_v139, main_v140, main_v141, main_v142, main_v143, main_v144, main_v145, main_v146, main_v147, main_v148]
theorem f6_writes : (f6 : List (HloOp τ sig (Elt F))).Forall fun op => op.writes ⊆ (f6_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer window 6 does not write keeps its contents through it. -/
theorem keep6 (W : Valuation τ sig (Elt F)) (r : Ref sig .tc) (h : r ∉ f6_W) : after f6 W (Proc.devRef .tc r) = W (Proc.devRef .tc r) :=
  after_of_writes_sub f6 W f6_writes h

/-- Window 7: operations 166 to 188 of the program. -/
abbrev f7 : List (HloOp τ sig (Elt F)) :=
  [ unary main_v138 main_v149 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v149 main_v150 rfl shapeCasts_S1x64x64_S64x64,
    binary main_v136 main_v150 main_v151 ((fun l r => Host.dotGeneral dot_S204800x64_S64x64_S204800x64_1_0_0_1_n_n none l r) : (⟨S204800x64, .f32⟩ : BufTy).Contents (Elt F) → (⟨S64x64, .f32⟩ : BufTy).Contents (Elt F) → (⟨S204800x64, .f32⟩ : BufTy).Contents (Elt F)),
    unary main_v140 main_v152 ((extractStridedSlice S1x64 ![0, 0] · slices_S3x64_S1x64_0_0) : (⟨S3x64, .f32⟩ : BufTy).Contents (Elt F) → (⟨S1x64, .f32⟩ : BufTy).Contents (Elt F)),
    reshape main_v152 main_v153 rfl shapeCasts_S1x64_S64,
    unary main_v153 main_v154 (broadcastInDim S1x64 ![1] bcast_S64_S1x64_1 : (⟨S64, .f32⟩ : BufTy).Contents (Elt F) → (⟨S1x64, .f32⟩ : BufTy).Contents (Elt F)),
    unary main_v154 main_v155 (broadcastInDim S204800x64 ![0, 1] bcast_S1x64_S204800x64_0_1 : (⟨S1x64, .f32⟩ : BufTy).Contents (Elt F) → (⟨S204800x64, .f32⟩ : BufTy).Contents (Elt F)),
    binary main_v151 main_v155 main_v156 (addf : (⟨S204800x64, .f32⟩ : BufTy).Contents (Elt F) → (⟨S204800x64, .f32⟩ : BufTy).Contents (Elt F) → (⟨S204800x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S204800x64, .f32⟩) main_call3_v0) (broadcastInDim S204800x64 ![] bcast_S_S204800x64),
    TRef.binary (TRef.of (T := ⟨S204800x64, .f32⟩) main_v156) (TRef.of (T := ⟨S204800x64, .f32⟩) main_call3_v0) (TRef.of (T := ⟨S204800x64, .f32⟩) main_v157) maximumf,
    unary main_v146 main_v158 ((extractStridedSlice S1x64 ![0, 0] · slices_S3x64_S1x64_0_0) : (⟨S3x64, .f32⟩ : BufTy).Contents (Elt F) → (⟨S1x64, .f32⟩ : BufTy).Contents (Elt F)),
    reshape main_v158 main_v159 rfl shapeCasts_S1x64_S64,
    unary main_v159 main_v160 (broadcastInDim S1x64 ![1] bcast_S64_S1x64_1 : (⟨S64, .f32⟩ : BufTy).Contents (Elt F) → (⟨S1x64, .f32⟩ : BufTy).Contents (Elt F)),
    unary main_v160 main_v161 (broadcastInDim S204800x64 ![0, 1] bcast_S1x64_S204800x64_0_1 : (⟨S1x64, .f32⟩ : BufTy).Contents (Elt F) → (⟨S204800x64, .f32⟩ : BufTy).Contents (Elt F)),
    binary main_v157 main_v161 main_v162 (subf : (⟨S204800x64, .f32⟩ : BufTy).Contents (Elt F) → (⟨S204800x64, .f32⟩ : BufTy).Contents (Elt F) → (⟨S204800x64, .f32⟩ : BufTy).Contents (Elt F)),
    unary main_v148 main_v163 ((extractStridedSlice S1x64 ![0, 0] · slices_S3x64_S1x64_0_0) : (⟨S3x64, .f32⟩ : BufTy).Contents (Elt F) → (⟨S1x64, .f32⟩ : BufTy).Contents (Elt F)),
    reshape main_v163 main_v164 rfl shapeCasts_S1x64_S64,
    nullary main_cst_8 (constant S_ .f32 0x3727C5AC#32),
    unary main_cst_8 main_v165 (broadcastInDim S64 ![] bcast_S_S64 : (⟨S_, .f32⟩ : BufTy).Contents (Elt F) → (⟨S64, .f32⟩ : BufTy).Contents (Elt F)),
    binary main_v164 main_v165 main_v166 (addf : (⟨S64, .f32⟩ : BufTy).Contents (Elt F) → (⟨S64, .f32⟩ : BufTy).Contents (Elt F) → (⟨S64, .f32⟩ : BufTy).Contents (Elt F)),
    unary main_v166 main_v167 (Host.rsqrt : (⟨S64, .f32⟩ : BufTy).Contents (Elt F) → (⟨S64, .f32⟩ : BufTy).Contents (Elt F)),
    unary main_v167 main_v168 (broadcastInDim S1x64 ![1] bcast_S64_S1x64_1 : (⟨S64, .f32⟩ : BufTy).Contents (Elt F) → (⟨S1x64, .f32⟩ : BufTy).Contents (Elt F)) ]
theorem f7_sub : (f7 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., unary_bufs_sub .., unary_bufs_sub ..⟩
theorem f7_fresh : (f7 : List (HloOp τ sig (Elt F))).Forall fun op => op.fresh = ∅ := by
  simp only [List.Forall]; repeat' constructor
/-- The buffers window 7 writes. -/
abbrev f7_W : List (Ref sig .tc) := [main_v149, main_v150, main_v151, main_v152, main_v153, main_v154, main_v155, main_v156, main_call3_cst, main_call3_v0, main_v157, main_v158, main_v159, main_v160, main_v161, main_v162, main_v163, main_v164, main_cst_8, main_v165, main_v166, main_v167, main_v168]
theorem f7_writes : (f7 : List (HloOp τ sig (Elt F))).Forall fun op => op.writes ⊆ (f7_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer window 7 does not write keeps its contents through it. -/
theorem keep7 (W : Valuation τ sig (Elt F)) (r : Ref sig .tc) (h : r ∉ f7_W) : after f7 W (Proc.devRef .tc r) = W (Proc.devRef .tc r) :=
  after_of_writes_sub f7 W f7_writes h

/-- Window 8: operations 189 to 200 of the program. -/
abbrev f8 : List (HloOp τ sig (Elt F)) :=
  [ unary main_v168 main_v169 (broadcastInDim S204800x64 ![0, 1] bcast_S1x64_S204800x64_0_1 : (⟨S1x64, .f32⟩ : BufTy).Contents (Elt F) → (⟨S204800x64, .f32⟩ : BufTy).Contents (Elt F)),
    binary main_v162 main_v169 main_v170 (mulf : (⟨S204800x64, .f32⟩ : BufTy).Contents (Elt F) → (⟨S204800x64, .f32⟩ : BufTy).Contents (Elt F) → (⟨S204800x64, .f32⟩ : BufTy).Contents (Elt F)),
    unary main_v142 main_v171 ((extractStridedSlice S1x64 ![0, 0] · slices_S3x64_S1x64_0_0) : (⟨S3x64, .f32⟩ : BufTy).Contents (Elt F) → (⟨S1x64, .f32⟩ : BufTy).Contents (Elt F)),
    reshape main_v171 main_v172 rfl shapeCasts_S1x64_S64,
    unary main_v172 main_v173 (broadcastInDim S1x64 ![1] bcast_S64_S1x64_1 : (⟨S64, .f32⟩ : BufTy).Contents (Elt F) → (⟨S1x64, .f32⟩ : BufTy).Contents (Elt F)),
    unary main_v173 main_v174 (broadcastInDim S204800x64 ![0, 1] bcast_S1x64_S204800x64_0_1 : (⟨S1x64, .f32⟩ : BufTy).Contents (Elt F) → (⟨S204800x64, .f32⟩ : BufTy).Contents (Elt F)),
    binary main_v170 main_v174 main_v175 (mulf : (⟨S204800x64, .f32⟩ : BufTy).Contents (Elt F) → (⟨S204800x64, .f32⟩ : BufTy).Contents (Elt F) → (⟨S204800x64, .f32⟩ : BufTy).Contents (Elt F)),
    unary main_v144 main_v176 ((extractStridedSlice S1x64 ![0, 0] · slices_S3x64_S1x64_0_0) : (⟨S3x64, .f32⟩ : BufTy).Contents (Elt F) → (⟨S1x64, .f32⟩ : BufTy).Contents (Elt F)),
    reshape main_v176 main_v177 rfl shapeCasts_S1x64_S64,
    unary main_v177 main_v178 (broadcastInDim S1x64 ![1] bcast_S64_S1x64_1 : (⟨S64, .f32⟩ : BufTy).Contents (Elt F) → (⟨S1x64, .f32⟩ : BufTy).Contents (Elt F)),
    unary main_v178 main_v179 (broadcastInDim S204800x64 ![0, 1] bcast_S1x64_S204800x64_0_1 : (⟨S1x64, .f32⟩ : BufTy).Contents (Elt F) → (⟨S204800x64, .f32⟩ : BufTy).Contents (Elt F)),
    binary main_v175 main_v179 main_v180 (addf : (⟨S204800x64, .f32⟩ : BufTy).Contents (Elt F) → (⟨S204800x64, .f32⟩ : BufTy).Contents (Elt F) → (⟨S204800x64, .f32⟩ : BufTy).Contents (Elt F)) ]
theorem f8_sub : (f8 : List (HloOp τ sig (Elt F))).Forall fun op => op.bufs ⊆ tcRefs τ sig :=
  ⟨unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub ..⟩
theorem f8_fresh : (f8 : List (HloOp τ sig (Elt F))).Forall fun op => op.fresh = ∅ := by
  simp only [List.Forall]; repeat' constructor
/-- The buffers window 8 writes. -/
abbrev f8_W : List (Ref sig .tc) := [main_v169, main_v170, main_v171, main_v172, main_v173, main_v174, main_v175, main_v176, main_v177, main_v178, main_v179, main_v180]
theorem f8_writes : (f8 : List (HloOp τ sig (Elt F))).Forall fun op => op.writes ⊆ (f8_W.map (Proc.devRef (τ := τ) .tc)).toFinset := by
  simp only [List.Forall]; exact ⟨by writes_one, by writes_one, by writes_one, by writes_one, by writes_one, by writes_one, by writes_one, by writes_one, by writes_one, by writes_one, by writes_one, by writes_one⟩
/-- A buffer window 8 does not write keeps its contents through it. -/
theorem keep8 (W : Valuation τ sig (Elt F)) (r : Ref sig .tc) (h : r ∉ f8_W) : after f8 W (Proc.devRef .tc r) = W (Proc.devRef .tc r) :=
  after_of_writes_sub f8 W f8_writes h

/-- Window 9: operations 201 to 235 of the program. -/
abbrev f9 : List (HloOp τ sig (Elt F)) :=
  [ unary main_v138 main_v181 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v181 main_v182 rfl shapeCasts_S1x64x64_S64x64,
    binary main_v180 main_v182 main_v183 ((fun l r => Host.dotGeneral dot_S204800x64_S64x64_S204800x64_1_0_0_1_n_n none l r) : (⟨S204800x64, .f32⟩ : BufTy).Contents (Elt F) → (⟨S64x64, .f32⟩ : BufTy).Contents (Elt F) → (⟨S204800x64, .f32⟩ : BufTy).Contents (Elt F)),
    unary main_v140 main_v184 ((extractStridedSlice S1x64 ![1, 0] · slices_S3x64_S1x64_1_0) : (⟨S3x64, .f32⟩ : BufTy).Contents (Elt F) → (⟨S1x64, .f32⟩ : BufTy).Contents (Elt F)),
    reshape main_v184 main_v185 rfl shapeCasts_S1x64_S64,
    unary main_v185 main_v186 (broadcastInDim S1x64 ![1] bcast_S64_S1x64_1 : (⟨S64, .f32⟩ : BufTy).Contents (Elt F) → (⟨S1x64, .f32⟩ : BufTy).Contents (Elt F)),
    unary main_v186 main_v187 (broadcastInDim S204800x64 ![0, 1] bcast_S1x64_S204800x64_0_1 : (⟨S1x64, .f32⟩ : BufTy).Contents (Elt F) → (⟨S204800x64, .f32⟩ : BufTy).Contents (Elt F)),
    binary main_v183 main_v187 main_v188 (addf : (⟨S204800x64, .f32⟩ : BufTy).Contents (Elt F) → (⟨S204800x64, .f32⟩ : BufTy).Contents (Elt F) → (⟨S204800x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S204800x64, .f32⟩) main_call4_v0) (broadcastInDim S204800x64 ![] bcast_S_S204800x64),
    TRef.binary (TRef.of (T := ⟨S204800x64, .f32⟩) main_v188) (TRef.of (T := ⟨S204800x64, .f32⟩) main_call4_v0) (TRef.of (T := ⟨S204800x64, .f32⟩) main_v189) maximumf,
    unary main_v146 main_v190 ((extractStridedSlice S1x64 ![1, 0] · slices_S3x64_S1x64_1_0) : (⟨S3x64, .f32⟩ : BufTy).Contents (Elt F) → (⟨S1x64, .f32⟩ : BufTy).Contents (Elt F)),
    reshape main_v190 main_v191 rfl shapeCasts_S1x64_S64,
    unary main_v191 main_v192 (broadcastInDim S1x64 ![1] bcast_S64_S1x64_1 : (⟨S64, .f32⟩ : BufTy).Contents (Elt F) → (⟨S1x64, .f32⟩ : BufTy).Contents (Elt F)),
    unary main_v192 main_v193 (broadcastInDim S204800x64 ![0, 1] bcast_S1x64_S204800x64_0_1 : (⟨S1x64, .f32⟩ : BufTy).Contents (Elt F) → (⟨S204800x64, .f32⟩ : BufTy).Contents (Elt F)),
    binary main_v189 main_v193 main_v194 (subf : (⟨S204800x64, .f32⟩ : BufTy).Contents (Elt F) → (⟨S204800x64, .f32⟩ : BufTy).Contents (Elt F) → (⟨S204800x64, .f32⟩ : BufTy).Contents (Elt F)),
    unary main_v148 main_v195 ((extractStridedSlice S1x64 ![1, 0] · slices_S3x64_S1x64_1_0) : (⟨S3x64, .f32⟩ : BufTy).Contents (Elt F) → (⟨S1x64, .f32⟩ : BufTy).Contents (Elt F)),
    reshape main_v195 main_v196 rfl shapeCasts_S1x64_S64,
    nullary main_cst_9 (constant S_ .f32 0x3727C5AC#32),
    unary main_cst_9 main_v197 (broadcastInDim S64 ![] bcast_S_S64 : (⟨S_, .f32⟩ : BufTy).Contents (Elt F) → (⟨S64, .f32⟩ : BufTy).Contents (Elt F)),
    binary main_v196 main_v197 main_v198 (addf : (⟨S64, .f32⟩ : BufTy).Contents (Elt F) → (⟨S64, .f32⟩ : BufTy).Contents (Elt F) → (⟨S64, .f32⟩ : BufTy).Contents (Elt F)),
    unary main_v198 main_v199 (Host.rsqrt : (⟨S64, .f32⟩ : BufTy).Contents (Elt F) → (⟨S64, .f32⟩ : BufTy).Contents (Elt F)),
    unary main_v199 main_v200 (broadcastInDim S1x64 ![1] bcast_S64_S1x64_1 : (⟨S64, .f32⟩ : BufTy).Contents (Elt F) → (⟨S1x64, .f32⟩ : BufTy).Contents (Elt F)),
    unary main_v200 main_v201 (broadcastInDim S204800x64 ![0, 1] bcast_S1x64_S204800x64_0_1 : (⟨S1x64, .f32⟩ : BufTy).Contents (Elt F) → (⟨S204800x64, .f32⟩ : BufTy).Contents (Elt F)),
    binary main_v194 main_v201 main_v202 (mulf : (⟨S204800x64, .f32⟩ : BufTy).Contents (Elt F) → (⟨S204800x64, .f32⟩ : BufTy).Contents (Elt F) → (⟨S204800x64, .f32⟩ : BufTy).Contents (Elt F)),
    unary main_v142 main_v203 ((extractStridedSlice S1x64 ![1, 0] · slices_S3x64_S1x64_1_0) : (⟨S3x64, .f32⟩ : BufTy).Contents (Elt F) → (⟨S1x64, .f32⟩ : BufTy).Contents (Elt F)),
    reshape main_v203 main_v204 rfl shapeCasts_S1x64_S64,
    unary main_v204 main_v205 (broadcastInDim S1x64 ![1] bcast_S64_S1x64_1 : (⟨S64, .f32⟩ : BufTy).Contents (Elt F) → (⟨S1x64, .f32⟩ : BufTy).Contents (Elt F)),
    unary main_v205 main_v206 (broadcastInDim S204800x64 ![0, 1] bcast_S1x64_S204800x64_0_1 : (⟨S1x64, .f32⟩ : BufTy).Contents (Elt F) → (⟨S204800x64, .f32⟩ : BufTy).Contents (Elt F)),
    binary main_v202 main_v206 main_v207 (mulf : (⟨S204800x64, .f32⟩ : BufTy).Contents (Elt F) → (⟨S204800x64, .f32⟩ : BufTy).Contents (Elt F) → (⟨S204800x64, .f32⟩ : BufTy).Contents (Elt F)),
    unary main_v144 main_v208 ((extractStridedSlice S1x64 ![1, 0] · slices_S3x64_S1x64_1_0) : (⟨S3x64, .f32⟩ : BufTy).Contents (Elt F) → (⟨S1x64, .f32⟩ : BufTy).Contents (Elt F)),
    reshape main_v208 main_v209 rfl shapeCasts_S1x64_S64,
    unary main_v209 main_v210 (broadcastInDim S1x64 ![1] bcast_S64_S1x64_1 : (⟨S64, .f32⟩ : BufTy).Contents (Elt F) → (⟨S1x64, .f32⟩ : BufTy).Contents (Elt F)),
    unary main_v210 main_v211 (broadcastInDim S204800x64 ![0, 1] bcast_S1x64_S204800x64_0_1 : (⟨S1x64, .f32⟩ : BufTy).Contents (Elt F) → (⟨S204800x64, .f32⟩ : BufTy).Contents (Elt F)),
    binary main_v207 main_v211 main_v212 (addf : (⟨S204800x64, .f32⟩ : BufTy).Contents (Elt F) → (⟨S204800x64, .f32⟩ : BufTy).Contents (Elt F) → (⟨S204800x64, .f32⟩ : BufTy).Contents (Elt F)) ]
theorem f9_sub : (f9 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub ..⟩
theorem f9_fresh : (f9 : List (HloOp τ sig (Elt F))).Forall fun op => op.fresh = ∅ := by
  simp only [List.Forall]; repeat' constructor
/-- The buffers window 9 writes. -/
abbrev f9_W : List (Ref sig .tc) := [main_v181, main_v182, main_v183, main_v184, main_v185, main_v186, main_v187, main_v188, main_call4_cst, main_call4_v0, main_v189, main_v190, main_v191, main_v192, main_v193, main_v194, main_v195, main_v196, main_cst_9, main_v197, main_v198, main_v199, main_v200, main_v201, main_v202, main_v203, main_v204, main_v205, main_v206, main_v207, main_v208, main_v209, main_v210, main_v211, main_v212]
theorem f9_writes : (f9 : List (HloOp τ sig (Elt F))).Forall fun op => op.writes ⊆ (f9_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer window 9 does not write keeps its contents through it. -/
theorem keep9 (W : Valuation τ sig (Elt F)) (r : Ref sig .tc) (h : r ∉ f9_W) : after f9 W (Proc.devRef .tc r) = W (Proc.devRef .tc r) :=
  after_of_writes_sub f9 W f9_writes h

/-- Window 10: operations 236 to 252 of the program. -/
abbrev f10 : List (HloOp τ sig (Elt F)) :=
  [ unary main_v138 main_v213 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v213 main_v214 rfl shapeCasts_S1x64x64_S64x64,
    binary main_v212 main_v214 main_v215 ((fun l r => Host.dotGeneral dot_S204800x64_S64x64_S204800x64_1_0_0_1_n_n none l r) : (⟨S204800x64, .f32⟩ : BufTy).Contents (Elt F) → (⟨S64x64, .f32⟩ : BufTy).Contents (Elt F) → (⟨S204800x64, .f32⟩ : BufTy).Contents (Elt F)),
    unary main_v140 main_v216 ((extractStridedSlice S1x64 ![2, 0] · slices_S3x64_S1x64_2_0) : (⟨S3x64, .f32⟩ : BufTy).Contents (Elt F) → (⟨S1x64, .f32⟩ : BufTy).Contents (Elt F)),
    reshape main_v216 main_v217 rfl shapeCasts_S1x64_S64,
    unary main_v217 main_v218 (broadcastInDim S1x64 ![1] bcast_S64_S1x64_1 : (⟨S64, .f32⟩ : BufTy).Contents (Elt F) → (⟨S1x64, .f32⟩ : BufTy).Contents (Elt F)),
    unary main_v218 main_v219 (broadcastInDim S204800x64 ![0, 1] bcast_S1x64_S204800x64_0_1 : (⟨S1x64, .f32⟩ : BufTy).Contents (Elt F) → (⟨S204800x64, .f32⟩ : BufTy).Contents (Elt F)),
    binary main_v215 main_v219 main_v220 (addf : (⟨S204800x64, .f32⟩ : BufTy).Contents (Elt F) → (⟨S204800x64, .f32⟩ : BufTy).Contents (Elt F) → (⟨S204800x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S204800x64, .f32⟩) main_call5_v0) (broadcastInDim S204800x64 ![] bcast_S_S204800x64),
    TRef.binary (TRef.of (T := ⟨S204800x64, .f32⟩) main_v220) (TRef.of (T := ⟨S204800x64, .f32⟩) main_call5_v0) (TRef.of (T := ⟨S204800x64, .f32⟩) main_v221) maximumf,
    unary main_v146 main_v222 ((extractStridedSlice S1x64 ![2, 0] · slices_S3x64_S1x64_2_0) : (⟨S3x64, .f32⟩ : BufTy).Contents (Elt F) → (⟨S1x64, .f32⟩ : BufTy).Contents (Elt F)),
    reshape main_v222 main_v223 rfl shapeCasts_S1x64_S64,
    unary main_v223 main_v224 (broadcastInDim S1x64 ![1] bcast_S64_S1x64_1 : (⟨S64, .f32⟩ : BufTy).Contents (Elt F) → (⟨S1x64, .f32⟩ : BufTy).Contents (Elt F)),
    unary main_v224 main_v225 (broadcastInDim S204800x64 ![0, 1] bcast_S1x64_S204800x64_0_1 : (⟨S1x64, .f32⟩ : BufTy).Contents (Elt F) → (⟨S204800x64, .f32⟩ : BufTy).Contents (Elt F)),
    binary main_v221 main_v225 main_v226 (subf : (⟨S204800x64, .f32⟩ : BufTy).Contents (Elt F) → (⟨S204800x64, .f32⟩ : BufTy).Contents (Elt F) → (⟨S204800x64, .f32⟩ : BufTy).Contents (Elt F)),
    unary main_v148 main_v227 ((extractStridedSlice S1x64 ![2, 0] · slices_S3x64_S1x64_2_0) : (⟨S3x64, .f32⟩ : BufTy).Contents (Elt F) → (⟨S1x64, .f32⟩ : BufTy).Contents (Elt F)) ]
theorem f10_sub : (f10 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., unary_bufs_sub .., binary_bufs_sub .., unary_bufs_sub ..⟩
theorem f10_fresh : (f10 : List (HloOp τ sig (Elt F))).Forall fun op => op.fresh = ∅ := by
  simp only [List.Forall]; repeat' constructor
/-- The buffers window 10 writes. -/
abbrev f10_W : List (Ref sig .tc) := [main_v213, main_v214, main_v215, main_v216, main_v217, main_v218, main_v219, main_v220, main_call5_cst, main_call5_v0, main_v221, main_v222, main_v223, main_v224, main_v225, main_v226, main_v227]
theorem f10_writes : (f10 : List (HloOp τ sig (Elt F))).Forall fun op => op.writes ⊆ (f10_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one⟩
/-- A buffer window 10 does not write keeps its contents through it. -/
theorem keep10 (W : Valuation τ sig (Elt F)) (r : Ref sig .tc) (h : r ∉ f10_W) : after f10 W (Proc.devRef .tc r) = W (Proc.devRef .tc r) :=
  after_of_writes_sub f10 W f10_writes h

/-- Window 11: operations 253 to 270 of the program. -/
abbrev f11 : List (HloOp τ sig (Elt F)) :=
  [ reshape main_v227 main_v228 rfl shapeCasts_S1x64_S64,
    nullary main_cst_10 (constant S_ .f32 0x3727C5AC#32),
    unary main_cst_10 main_v229 (broadcastInDim S64 ![] bcast_S_S64 : (⟨S_, .f32⟩ : BufTy).Contents (Elt F) → (⟨S64, .f32⟩ : BufTy).Contents (Elt F)),
    binary main_v228 main_v229 main_v230 (addf : (⟨S64, .f32⟩ : BufTy).Contents (Elt F) → (⟨S64, .f32⟩ : BufTy).Contents (Elt F) → (⟨S64, .f32⟩ : BufTy).Contents (Elt F)),
    unary main_v230 main_v231 (Host.rsqrt : (⟨S64, .f32⟩ : BufTy).Contents (Elt F) → (⟨S64, .f32⟩ : BufTy).Contents (Elt F)),
    unary main_v231 main_v232 (broadcastInDim S1x64 ![1] bcast_S64_S1x64_1 : (⟨S64, .f32⟩ : BufTy).Contents (Elt F) → (⟨S1x64, .f32⟩ : BufTy).Contents (Elt F)),
    unary main_v232 main_v233 (broadcastInDim S204800x64 ![0, 1] bcast_S1x64_S204800x64_0_1 : (⟨S1x64, .f32⟩ : BufTy).Contents (Elt F) → (⟨S204800x64, .f32⟩ : BufTy).Contents (Elt F)),
    binary main_v226 main_v233 main_v234 (mulf : (⟨S204800x64, .f32⟩ : BufTy).Contents (Elt F) → (⟨S204800x64, .f32⟩ : BufTy).Contents (Elt F) → (⟨S204800x64, .f32⟩ : BufTy).Contents (Elt F)),
    unary main_v142 main_v235 ((extractStridedSlice S1x64 ![2, 0] · slices_S3x64_S1x64_2_0) : (⟨S3x64, .f32⟩ : BufTy).Contents (Elt F) → (⟨S1x64, .f32⟩ : BufTy).Contents (Elt F)),
    reshape main_v235 main_v236 rfl shapeCasts_S1x64_S64,
    unary main_v236 main_v237 (broadcastInDim S1x64 ![1] bcast_S64_S1x64_1 : (⟨S64, .f32⟩ : BufTy).Contents (Elt F) → (⟨S1x64, .f32⟩ : BufTy).Contents (Elt F)),
    unary main_v237 main_v238 (broadcastInDim S204800x64 ![0, 1] bcast_S1x64_S204800x64_0_1 : (⟨S1x64, .f32⟩ : BufTy).Contents (Elt F) → (⟨S204800x64, .f32⟩ : BufTy).Contents (Elt F)),
    binary main_v234 main_v238 main_v239 (mulf : (⟨S204800x64, .f32⟩ : BufTy).Contents (Elt F) → (⟨S204800x64, .f32⟩ : BufTy).Contents (Elt F) → (⟨S204800x64, .f32⟩ : BufTy).Contents (Elt F)),
    unary main_v144 main_v240 ((extractStridedSlice S1x64 ![2, 0] · slices_S3x64_S1x64_2_0) : (⟨S3x64, .f32⟩ : BufTy).Contents (Elt F) → (⟨S1x64, .f32⟩ : BufTy).Contents (Elt F)),
    reshape main_v240 main_v241 rfl shapeCasts_S1x64_S64,
    unary main_v241 main_v242 (broadcastInDim S1x64 ![1] bcast_S64_S1x64_1 : (⟨S64, .f32⟩ : BufTy).Contents (Elt F) → (⟨S1x64, .f32⟩ : BufTy).Contents (Elt F)),
    unary main_v242 main_v243 (broadcastInDim S204800x64 ![0, 1] bcast_S1x64_S204800x64_0_1 : (⟨S1x64, .f32⟩ : BufTy).Contents (Elt F) → (⟨S204800x64, .f32⟩ : BufTy).Contents (Elt F)),
    binary main_v239 main_v243 main_v244 (addf : (⟨S204800x64, .f32⟩ : BufTy).Contents (Elt F) → (⟨S204800x64, .f32⟩ : BufTy).Contents (Elt F) → (⟨S204800x64, .f32⟩ : BufTy).Contents (Elt F)) ]
theorem f11_sub : (f11 : List (HloOp τ sig (Elt F))).Forall fun op => op.bufs ⊆ tcRefs τ sig :=
  ⟨reshape_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub ..⟩
theorem f11_fresh : (f11 : List (HloOp τ sig (Elt F))).Forall fun op => op.fresh = ∅ := by
  simp only [List.Forall]; repeat' constructor
/-- The buffers window 11 writes. -/
abbrev f11_W : List (Ref sig .tc) := [main_v228, main_cst_10, main_v229, main_v230, main_v231, main_v232, main_v233, main_v234, main_v235, main_v236, main_v237, main_v238, main_v239, main_v240, main_v241, main_v242, main_v243, main_v244]
theorem f11_writes : (f11 : List (HloOp τ sig (Elt F))).Forall fun op => op.writes ⊆ (f11_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one⟩
/-- A buffer window 11 does not write keeps its contents through it. -/
theorem keep11 (W : Valuation τ sig (Elt F)) (r : Ref sig .tc) (h : r ∉ f11_W) : after f11 W (Proc.devRef .tc r) = W (Proc.devRef .tc r) :=
  after_of_writes_sub f11 W f11_writes h

/-- Window 12: operations 271 to 299 of the program. -/
abbrev f12 : List (HloOp τ sig (Elt F)) :=
  [ reshape main_v244 main_v245 rfl shapeCasts_S204800x64_S4096x50x64,
    nullary main_cst_11 (constant S_ .f32 0x00000000#32),
    binary main_v245 main_cst_11 main_v246 ((fun x v => Host.reduceAdd x v reducesTo_S4096x50x64_S4096x64_d1 h_S_) : (⟨S4096x50x64, .f32⟩ : BufTy).Contents (Elt F) → (⟨S_, .f32⟩ : BufTy).Contents (Elt F) → (⟨S4096x64, .f32⟩ : BufTy).Contents (Elt F)),
    nullary main_c_12 (constantI S_ 32 0#32),
    unary main_c_12 main_v247 (broadcastInDim S3276800 ![] bcast_S_S3276800 : (⟨S_, .i32⟩ : BufTy).Contents (Elt F) → (⟨S3276800, .i32⟩ : BufTy).Contents (Elt F)),
    binary main_arg1 main_v247 main_v248 (cmpi .slt : (⟨S3276800, .i32⟩ : BufTy).Contents (Elt F) → (⟨S3276800, .i32⟩ : BufTy).Contents (Elt F) → (⟨S3276800, .i1⟩ : BufTy).Contents (Elt F)),
    nullary main_c_13 (constantI S_ 32 204800#32),
    unary main_c_13 main_v249 (broadcastInDim S3276800 ![] bcast_S_S3276800 : (⟨S_, .i32⟩ : BufTy).Contents (Elt F) → (⟨S3276800, .i32⟩ : BufTy).Contents (Elt F)),
    binary main_arg1 main_v249 main_v250 (addi : (⟨S3276800, .i32⟩ : BufTy).Contents (Elt F) → (⟨S3276800, .i32⟩ : BufTy).Contents (Elt F) → (⟨S3276800, .i32⟩ : BufTy).Contents (Elt F)),
    ternary main_v248 main_v250 main_arg1 main_v251 (select : (⟨S3276800, .i1⟩ : BufTy).Contents (Elt F) → (⟨S3276800, .i32⟩ : BufTy).Contents (Elt F) → (⟨S3276800, .i32⟩ : BufTy).Contents (Elt F) → (⟨S3276800, .i32⟩ : BufTy).Contents (Elt F)),
    unary main_v251 main_v252 (broadcastInDim S3276800x1 ![0] bcast_S3276800_S3276800x1_0 : (⟨S3276800, .i32⟩ : BufTy).Contents (Elt F) → (⟨S3276800x1, .i32⟩ : BufTy).Contents (Elt F)),
    binary main_v244 main_v252 main_v253 ((fun x i => Host.gather gather_S204800x64_S3276800x1_S3276800x64_1_0_n_n_0_1_164 x i) : (⟨S204800x64, .f32⟩ : BufTy).Contents (Elt F) → (⟨S3276800x1, .i32⟩ : BufTy).Contents (Elt F) → (⟨S3276800x64, .f32⟩ : BufTy).Contents (Elt F)),
    nullary main_cst_14 (constant S_ .f32 0x00000000#32),
    unary main_cst_14 main_v254 (broadcastInDim S204800x64 ![] bcast_S_S204800x64 : (⟨S_, .f32⟩ : BufTy).Contents (Elt F) → (⟨S204800x64, .f32⟩ : BufTy).Contents (Elt F)),
    unary main_arg2 main_v255 (broadcastInDim S3276800x1 ![0] bcast_S3276800_S3276800x1_0 : (⟨S3276800, .i32⟩ : BufTy).Contents (Elt F) → (⟨S3276800x1, .i32⟩ : BufTy).Contents (Elt F)),
    ternary main_v254 main_v255 main_v253 main_v256 ((fun x i u => Host.scatterAdd scatter_S204800x64_S3276800x1_S3276800x64_1_0_0_1 x i u) : (⟨S204800x64, .f32⟩ : BufTy).Contents (Elt F) → (⟨S3276800x1, .i32⟩ : BufTy).Contents (Elt F) → (⟨S3276800x64, .f32⟩ : BufTy).Contents (Elt F) → (⟨S204800x64, .f32⟩ : BufTy).Contents (Elt F)),
    binary main_v244 main_v256 main_v257 (addf : (⟨S204800x64, .f32⟩ : BufTy).Contents (Elt F) → (⟨S204800x64, .f32⟩ : BufTy).Contents (Elt F) → (⟨S204800x64, .f32⟩ : BufTy).Contents (Elt F)),
    unary main_arg5 main_v258 ((extractStridedSlice S1x3x64x64 ![2, 0, 0, 0] · slices_S3x3x64x64_S1x3x64x64_2_0_0_0) : (⟨S3x3x64x64, .f32⟩ : BufTy).Contents (Elt F) → (⟨S1x3x64x64, .f32⟩ : BufTy).Contents (Elt F)),
    reshape main_v258 main_v259 rfl shapeCasts_S1x3x64x64_S3x64x64,
    unary main_arg6 main_v260 ((extractStridedSlice S1x3x64 ![2, 0, 0] · slices_S3x3x64_S1x3x64_2_0_0) : (⟨S3x3x64, .f32⟩ : BufTy).Contents (Elt F) → (⟨S1x3x64, .f32⟩ : BufTy).Contents (Elt F)),
    reshape main_v260 main_v261 rfl shapeCasts_S1x3x64_S3x64,
    unary main_arg7 main_v262 ((extractStridedSlice S1x3x64 ![2, 0, 0] · slices_S3x3x64_S1x3x64_2_0_0) : (⟨S3x3x64, .f32⟩ : BufTy).Contents (Elt F) → (⟨S1x3x64, .f32⟩ : BufTy).Contents (Elt F)),
    reshape main_v262 main_v263 rfl shapeCasts_S1x3x64_S3x64,
    unary main_arg8 main_v264 ((extractStridedSlice S1x3x64 ![2, 0, 0] · slices_S3x3x64_S1x3x64_2_0_0) : (⟨S3x3x64, .f32⟩ : BufTy).Contents (Elt F) → (⟨S1x3x64, .f32⟩ : BufTy).Contents (Elt F)),
    reshape main_v264 main_v265 rfl shapeCasts_S1x3x64_S3x64,
    unary main_arg9 main_v266 ((extractStridedSlice S1x3x64 ![2, 0, 0] · slices_S3x3x64_S1x3x64_2_0_0) : (⟨S3x3x64, .f32⟩ : BufTy).Contents (Elt F) → (⟨S1x3x64, .f32⟩ : BufTy).Contents (Elt F)),
    reshape main_v266 main_v267 rfl shapeCasts_S1x3x64_S3x64,
    unary main_arg10 main_v268 ((extractStridedSlice S1x3x64 ![2, 0, 0] · slices_S3x3x64_S1x3x64_2_0_0) : (⟨S3x3x64, .f32⟩ : BufTy).Contents (Elt F) → (⟨S1x3x64, .f32⟩ : BufTy).Contents (Elt F)),
    reshape main_v268 main_v269 rfl shapeCasts_S1x3x64_S3x64 ]
theorem f12_sub : (f12 : List (HloOp τ sig (Elt F))).Forall fun op => op.bufs ⊆ tcRefs τ sig :=
  ⟨reshape_bufs_sub .., nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub ..⟩
theorem f12_fresh : (f12 : List (HloOp τ sig (Elt F))).Forall fun op => op.fresh = ∅ := by
  simp only [List.Forall]; repeat' constructor
/-- The buffers window 12 writes. -/
abbrev f12_W : List (Ref sig .tc) := [main_v245, main_cst_11, main_v246, main_c_12, main_v247, main_v248, main_c_13, main_v249, main_v250, main_v251, main_v252, main_v253, main_cst_14, main_v254, main_v255, main_v256, main_v257, main_v258, main_v259, main_v260, main_v261, main_v262, main_v263, main_v264, main_v265, main_v266, main_v267, main_v268, main_v269]
theorem f12_writes : (f12 : List (HloOp τ sig (Elt F))).Forall fun op => op.writes ⊆ (f12_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer window 12 does not write keeps its contents through it. -/
theorem keep12 (W : Valuation τ sig (Elt F)) (r : Ref sig .tc) (h : r ∉ f12_W) : after f12 W (Proc.devRef .tc r) = W (Proc.devRef .tc r) :=
  after_of_writes_sub f12 W f12_writes h

/-- Window 13: operations 300 to 314 of the program. -/
abbrev f13 : List (HloOp τ sig (Elt F)) :=
  [ unary main_v259 main_v270 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v270 main_v271 rfl shapeCasts_S1x64x64_S64x64,
    binary main_v257 main_v271 main_v272 ((fun l r => Host.dotGeneral dot_S204800x64_S64x64_S204800x64_1_0_0_1_n_n none l r) : (⟨S204800x64, .f32⟩ : BufTy).Contents (Elt F) → (⟨S64x64, .f32⟩ : BufTy).Contents (Elt F) → (⟨S204800x64, .f32⟩ : BufTy).Contents (Elt F)),
    unary main_v261 main_v273 ((extractStridedSlice S1x64 ![0, 0] · slices_S3x64_S1x64_0_0) : (⟨S3x64, .f32⟩ : BufTy).Contents (Elt F) → (⟨S1x64, .f32⟩ : BufTy).Contents (Elt F)),
    reshape main_v273 main_v274 rfl shapeCasts_S1x64_S64,
    unary main_v274 main_v275 (broadcastInDim S1x64 ![1] bcast_S64_S1x64_1 : (⟨S64, .f32⟩ : BufTy).Contents (Elt F) → (⟨S1x64, .f32⟩ : BufTy).Contents (Elt F)),
    unary main_v275 main_v276 (broadcastInDim S204800x64 ![0, 1] bcast_S1x64_S204800x64_0_1 : (⟨S1x64, .f32⟩ : BufTy).Contents (Elt F) → (⟨S204800x64, .f32⟩ : BufTy).Contents (Elt F)),
    binary main_v272 main_v276 main_v277 (addf : (⟨S204800x64, .f32⟩ : BufTy).Contents (Elt F) → (⟨S204800x64, .f32⟩ : BufTy).Contents (Elt F) → (⟨S204800x64, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S204800x64, .f32⟩) main_call6_v0) (broadcastInDim S204800x64 ![] bcast_S_S204800x64),
    TRef.binary (TRef.of (T := ⟨S204800x64, .f32⟩) main_v277) (TRef.of (T := ⟨S204800x64, .f32⟩) main_call6_v0) (TRef.of (T := ⟨S204800x64, .f32⟩) main_v278) maximumf,
    unary main_v267 main_v279 ((extractStridedSlice S1x64 ![0, 0] · slices_S3x64_S1x64_0_0) : (⟨S3x64, .f32⟩ : BufTy).Contents (Elt F) → (⟨S1x64, .f32⟩ : BufTy).Contents (Elt F)),
    reshape main_v279 main_v280 rfl shapeCasts_S1x64_S64,
    unary main_v280 main_v281 (broadcastInDim S1x64 ![1] bcast_S64_S1x64_1 : (⟨S64, .f32⟩ : BufTy).Contents (Elt F) → (⟨S1x64, .f32⟩ : BufTy).Contents (Elt F)),
    unary main_v281 main_v282 (broadcastInDim S204800x64 ![0, 1] bcast_S1x64_S204800x64_0_1 : (⟨S1x64, .f32⟩ : BufTy).Contents (Elt F) → (⟨S204800x64, .f32⟩ : BufTy).Contents (Elt F)) ]
theorem f13_sub : (f13 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., unary_bufs_sub ..⟩
theorem f13_fresh : (f13 : List (HloOp τ sig (Elt F))).Forall fun op => op.fresh = ∅ := by
  simp only [List.Forall]; repeat' constructor
/-- The buffers window 13 writes. -/
abbrev f13_W : List (Ref sig .tc) := [main_v270, main_v271, main_v272, main_v273, main_v274, main_v275, main_v276, main_v277, main_call6_cst, main_call6_v0, main_v278, main_v279, main_v280, main_v281, main_v282]
theorem f13_writes : (f13 : List (HloOp τ sig (Elt F))).Forall fun op => op.writes ⊆ (f13_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one⟩
/-- A buffer window 13 does not write keeps its contents through it. -/
theorem keep13 (W : Valuation τ sig (Elt F)) (r : Ref sig .tc) (h : r ∉ f13_W) : after f13 W (Proc.devRef .tc r) = W (Proc.devRef .tc r) :=
  after_of_writes_sub f13 W f13_writes h

/-- Window 14: operations 315 to 334 of the program. -/
abbrev f14 : List (HloOp τ sig (Elt F)) :=
  [ binary main_v278 main_v282 main_v283 (subf : (⟨S204800x64, .f32⟩ : BufTy).Contents (Elt F) → (⟨S204800x64, .f32⟩ : BufTy).Contents (Elt F) → (⟨S204800x64, .f32⟩ : BufTy).Contents (Elt F)),
    unary main_v269 main_v284 ((extractStridedSlice S1x64 ![0, 0] · slices_S3x64_S1x64_0_0) : (⟨S3x64, .f32⟩ : BufTy).Contents (Elt F) → (⟨S1x64, .f32⟩ : BufTy).Contents (Elt F)),
    reshape main_v284 main_v285 rfl shapeCasts_S1x64_S64,
    nullary main_cst_15 (constant S_ .f32 0x3727C5AC#32),
    unary main_cst_15 main_v286 (broadcastInDim S64 ![] bcast_S_S64 : (⟨S_, .f32⟩ : BufTy).Contents (Elt F) → (⟨S64, .f32⟩ : BufTy).Contents (Elt F)),
    binary main_v285 main_v286 main_v287 (addf : (⟨S64, .f32⟩ : BufTy).Contents (Elt F) → (⟨S64, .f32⟩ : BufTy).Contents (Elt F) → (⟨S64, .f32⟩ : BufTy).Contents (Elt F)),
    unary main_v287 main_v288 (Host.rsqrt : (⟨S64, .f32⟩ : BufTy).Contents (Elt F) → (⟨S64, .f32⟩ : BufTy).Contents (Elt F)),
    unary main_v288 main_v289 (broadcastInDim S1x64 ![1] bcast_S64_S1x64_1 : (⟨S64, .f32⟩ : BufTy).Contents (Elt F) → (⟨S1x64, .f32⟩ : BufTy).Contents (Elt F)),
    unary main_v289 main_v290 (broadcastInDim S204800x64 ![0, 1] bcast_S1x64_S204800x64_0_1 : (⟨S1x64, .f32⟩ : BufTy).Contents (Elt F) → (⟨S204800x64, .f32⟩ : BufTy).Contents (Elt F)),
    binary main_v283 main_v290 main_v291 (mulf : (⟨S204800x64, .f32⟩ : BufTy).Contents (Elt F) → (⟨S204800x64, .f32⟩ : BufTy).Contents (Elt F) → (⟨S204800x64, .f32⟩ : BufTy).Contents (Elt F)),
    unary main_v263 main_v292 ((extractStridedSlice S1x64 ![0, 0] · slices_S3x64_S1x64_0_0) : (⟨S3x64, .f32⟩ : BufTy).Contents (Elt F) → (⟨S1x64, .f32⟩ : BufTy).Contents (Elt F)),
    reshape main_v292 main_v293 rfl shapeCasts_S1x64_S64,
    unary main_v293 main_v294 (broadcastInDim S1x64 ![1] bcast_S64_S1x64_1 : (⟨S64, .f32⟩ : BufTy).Contents (Elt F) → (⟨S1x64, .f32⟩ : BufTy).Contents (Elt F)),
    unary main_v294 main_v295 (broadcastInDim S204800x64 ![0, 1] bcast_S1x64_S204800x64_0_1 : (⟨S1x64, .f32⟩ : BufTy).Contents (Elt F) → (⟨S204800x64, .f32⟩ : BufTy).Contents (Elt F)),
    binary main_v291 main_v295 main_v296 (mulf : (⟨S204800x64, .f32⟩ : BufTy).Contents (Elt F) → (⟨S204800x64, .f32⟩ : BufTy).Contents (Elt F) → (⟨S204800x64, .f32⟩ : BufTy).Contents (Elt F)),
    unary main_v265 main_v297 ((extractStridedSlice S1x64 ![0, 0] · slices_S3x64_S1x64_0_0) : (⟨S3x64, .f32⟩ : BufTy).Contents (Elt F) → (⟨S1x64, .f32⟩ : BufTy).Contents (Elt F)),
    reshape main_v297 main_v298 rfl shapeCasts_S1x64_S64,
    unary main_v298 main_v299 (broadcastInDim S1x64 ![1] bcast_S64_S1x64_1 : (⟨S64, .f32⟩ : BufTy).Contents (Elt F) → (⟨S1x64, .f32⟩ : BufTy).Contents (Elt F)),
    unary main_v299 main_v300 (broadcastInDim S204800x64 ![0, 1] bcast_S1x64_S204800x64_0_1 : (⟨S1x64, .f32⟩ : BufTy).Contents (Elt F) → (⟨S204800x64, .f32⟩ : BufTy).Contents (Elt F)),
    binary main_v296 main_v300 main_v301 (addf : (⟨S204800x64, .f32⟩ : BufTy).Contents (Elt F) → (⟨S204800x64, .f32⟩ : BufTy).Contents (Elt F) → (⟨S204800x64, .f32⟩ : BufTy).Contents (Elt F)) ]
theorem f14_sub : (f14 : List (HloOp τ sig (Elt F))).Forall fun op => op.bufs ⊆ tcRefs τ sig :=
  ⟨binary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub ..⟩
theorem f14_fresh : (f14 : List (HloOp τ sig (Elt F))).Forall fun op => op.fresh = ∅ := by
  simp only [List.Forall]; repeat' constructor
/-- The buffers window 14 writes. -/
abbrev f14_W : List (Ref sig .tc) := [main_v283, main_v284, main_v285, main_cst_15, main_v286, main_v287, main_v288, main_v289, main_v290, main_v291, main_v292, main_v293, main_v294, main_v295, main_v296, main_v297, main_v298, main_v299, main_v300, main_v301]
theorem f14_writes : (f14 : List (HloOp τ sig (Elt F))).Forall fun op => op.writes ⊆ (f14_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer window 14 does not write keeps its contents through it. -/
theorem keep14 (W : Valuation τ sig (Elt F)) (r : Ref sig .tc) (h : r ∉ f14_W) : after f14 W (Proc.devRef .tc r) = W (Proc.devRef .tc r) :=
  after_of_writes_sub f14 W f14_writes h

/-- Window 15: operations 335 to 369 of the program. -/
abbrev f15 : List (HloOp τ sig (Elt F)) :=
  [ unary main_v259 main_v302 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v302 main_v303 rfl shapeCasts_S1x64x64_S64x64,
    binary main_v301 main_v303 main_v304 ((fun l r => Host.dotGeneral dot_S204800x64_S64x64_S204800x64_1_0_0_1_n_n none l r) : (⟨S204800x64, .f32⟩ : BufTy).Contents (Elt F) → (⟨S64x64, .f32⟩ : BufTy).Contents (Elt F) → (⟨S204800x64, .f32⟩ : BufTy).Contents (Elt F)),
    unary main_v261 main_v305 ((extractStridedSlice S1x64 ![1, 0] · slices_S3x64_S1x64_1_0) : (⟨S3x64, .f32⟩ : BufTy).Contents (Elt F) → (⟨S1x64, .f32⟩ : BufTy).Contents (Elt F)),
    reshape main_v305 main_v306 rfl shapeCasts_S1x64_S64,
    unary main_v306 main_v307 (broadcastInDim S1x64 ![1] bcast_S64_S1x64_1 : (⟨S64, .f32⟩ : BufTy).Contents (Elt F) → (⟨S1x64, .f32⟩ : BufTy).Contents (Elt F)),
    unary main_v307 main_v308 (broadcastInDim S204800x64 ![0, 1] bcast_S1x64_S204800x64_0_1 : (⟨S1x64, .f32⟩ : BufTy).Contents (Elt F) → (⟨S204800x64, .f32⟩ : BufTy).Contents (Elt F)),
    binary main_v304 main_v308 main_v309 (addf : (⟨S204800x64, .f32⟩ : BufTy).Contents (Elt F) → (⟨S204800x64, .f32⟩ : BufTy).Contents (Elt F) → (⟨S204800x64, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S204800x64, .f32⟩) main_call7_v0) (broadcastInDim S204800x64 ![] bcast_S_S204800x64),
    TRef.binary (TRef.of (T := ⟨S204800x64, .f32⟩) main_v309) (TRef.of (T := ⟨S204800x64, .f32⟩) main_call7_v0) (TRef.of (T := ⟨S204800x64, .f32⟩) main_v310) maximumf,
    unary main_v267 main_v311 ((extractStridedSlice S1x64 ![1, 0] · slices_S3x64_S1x64_1_0) : (⟨S3x64, .f32⟩ : BufTy).Contents (Elt F) → (⟨S1x64, .f32⟩ : BufTy).Contents (Elt F)),
    reshape main_v311 main_v312 rfl shapeCasts_S1x64_S64,
    unary main_v312 main_v313 (broadcastInDim S1x64 ![1] bcast_S64_S1x64_1 : (⟨S64, .f32⟩ : BufTy).Contents (Elt F) → (⟨S1x64, .f32⟩ : BufTy).Contents (Elt F)),
    unary main_v313 main_v314 (broadcastInDim S204800x64 ![0, 1] bcast_S1x64_S204800x64_0_1 : (⟨S1x64, .f32⟩ : BufTy).Contents (Elt F) → (⟨S204800x64, .f32⟩ : BufTy).Contents (Elt F)),
    binary main_v310 main_v314 main_v315 (subf : (⟨S204800x64, .f32⟩ : BufTy).Contents (Elt F) → (⟨S204800x64, .f32⟩ : BufTy).Contents (Elt F) → (⟨S204800x64, .f32⟩ : BufTy).Contents (Elt F)),
    unary main_v269 main_v316 ((extractStridedSlice S1x64 ![1, 0] · slices_S3x64_S1x64_1_0) : (⟨S3x64, .f32⟩ : BufTy).Contents (Elt F) → (⟨S1x64, .f32⟩ : BufTy).Contents (Elt F)),
    reshape main_v316 main_v317 rfl shapeCasts_S1x64_S64,
    nullary main_cst_16 (constant S_ .f32 0x3727C5AC#32),
    unary main_cst_16 main_v318 (broadcastInDim S64 ![] bcast_S_S64 : (⟨S_, .f32⟩ : BufTy).Contents (Elt F) → (⟨S64, .f32⟩ : BufTy).Contents (Elt F)),
    binary main_v317 main_v318 main_v319 (addf : (⟨S64, .f32⟩ : BufTy).Contents (Elt F) → (⟨S64, .f32⟩ : BufTy).Contents (Elt F) → (⟨S64, .f32⟩ : BufTy).Contents (Elt F)),
    unary main_v319 main_v320 (Host.rsqrt : (⟨S64, .f32⟩ : BufTy).Contents (Elt F) → (⟨S64, .f32⟩ : BufTy).Contents (Elt F)),
    unary main_v320 main_v321 (broadcastInDim S1x64 ![1] bcast_S64_S1x64_1 : (⟨S64, .f32⟩ : BufTy).Contents (Elt F) → (⟨S1x64, .f32⟩ : BufTy).Contents (Elt F)),
    unary main_v321 main_v322 (broadcastInDim S204800x64 ![0, 1] bcast_S1x64_S204800x64_0_1 : (⟨S1x64, .f32⟩ : BufTy).Contents (Elt F) → (⟨S204800x64, .f32⟩ : BufTy).Contents (Elt F)),
    binary main_v315 main_v322 main_v323 (mulf : (⟨S204800x64, .f32⟩ : BufTy).Contents (Elt F) → (⟨S204800x64, .f32⟩ : BufTy).Contents (Elt F) → (⟨S204800x64, .f32⟩ : BufTy).Contents (Elt F)),
    unary main_v263 main_v324 ((extractStridedSlice S1x64 ![1, 0] · slices_S3x64_S1x64_1_0) : (⟨S3x64, .f32⟩ : BufTy).Contents (Elt F) → (⟨S1x64, .f32⟩ : BufTy).Contents (Elt F)),
    reshape main_v324 main_v325 rfl shapeCasts_S1x64_S64,
    unary main_v325 main_v326 (broadcastInDim S1x64 ![1] bcast_S64_S1x64_1 : (⟨S64, .f32⟩ : BufTy).Contents (Elt F) → (⟨S1x64, .f32⟩ : BufTy).Contents (Elt F)),
    unary main_v326 main_v327 (broadcastInDim S204800x64 ![0, 1] bcast_S1x64_S204800x64_0_1 : (⟨S1x64, .f32⟩ : BufTy).Contents (Elt F) → (⟨S204800x64, .f32⟩ : BufTy).Contents (Elt F)),
    binary main_v323 main_v327 main_v328 (mulf : (⟨S204800x64, .f32⟩ : BufTy).Contents (Elt F) → (⟨S204800x64, .f32⟩ : BufTy).Contents (Elt F) → (⟨S204800x64, .f32⟩ : BufTy).Contents (Elt F)),
    unary main_v265 main_v329 ((extractStridedSlice S1x64 ![1, 0] · slices_S3x64_S1x64_1_0) : (⟨S3x64, .f32⟩ : BufTy).Contents (Elt F) → (⟨S1x64, .f32⟩ : BufTy).Contents (Elt F)),
    reshape main_v329 main_v330 rfl shapeCasts_S1x64_S64,
    unary main_v330 main_v331 (broadcastInDim S1x64 ![1] bcast_S64_S1x64_1 : (⟨S64, .f32⟩ : BufTy).Contents (Elt F) → (⟨S1x64, .f32⟩ : BufTy).Contents (Elt F)),
    unary main_v331 main_v332 (broadcastInDim S204800x64 ![0, 1] bcast_S1x64_S204800x64_0_1 : (⟨S1x64, .f32⟩ : BufTy).Contents (Elt F) → (⟨S204800x64, .f32⟩ : BufTy).Contents (Elt F)),
    binary main_v328 main_v332 main_v333 (addf : (⟨S204800x64, .f32⟩ : BufTy).Contents (Elt F) → (⟨S204800x64, .f32⟩ : BufTy).Contents (Elt F) → (⟨S204800x64, .f32⟩ : BufTy).Contents (Elt F)) ]
theorem f15_sub : (f15 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub ..⟩
theorem f15_fresh : (f15 : List (HloOp τ sig (Elt F))).Forall fun op => op.fresh = ∅ := by
  simp only [List.Forall]; repeat' constructor
/-- The buffers window 15 writes. -/
abbrev f15_W : List (Ref sig .tc) := [main_v302, main_v303, main_v304, main_v305, main_v306, main_v307, main_v308, main_v309, main_call7_cst, main_call7_v0, main_v310, main_v311, main_v312, main_v313, main_v314, main_v315, main_v316, main_v317, main_cst_16, main_v318, main_v319, main_v320, main_v321, main_v322, main_v323, main_v324, main_v325, main_v326, main_v327, main_v328, main_v329, main_v330, main_v331, main_v332, main_v333]
theorem f15_writes : (f15 : List (HloOp τ sig (Elt F))).Forall fun op => op.writes ⊆ (f15_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer window 15 does not write keeps its contents through it. -/
theorem keep15 (W : Valuation τ sig (Elt F)) (r : Ref sig .tc) (h : r ∉ f15_W) : after f15 W (Proc.devRef .tc r) = W (Proc.devRef .tc r) :=
  after_of_writes_sub f15 W f15_writes h

/-- Window 16: operations 370 to 376 of the program. -/
abbrev f16 : List (HloOp τ sig (Elt F)) :=
  [ unary main_v259 main_v334 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v334 main_v335 rfl shapeCasts_S1x64x64_S64x64,
    binary main_v333 main_v335 main_v336 ((fun l r => Host.dotGeneral dot_S204800x64_S64x64_S204800x64_1_0_0_1_n_n none l r) : (⟨S204800x64, .f32⟩ : BufTy).Contents (Elt F) → (⟨S64x64, .f32⟩ : BufTy).Contents (Elt F) → (⟨S204800x64, .f32⟩ : BufTy).Contents (Elt F)),
    unary main_v261 main_v337 ((extractStridedSlice S1x64 ![2, 0] · slices_S3x64_S1x64_2_0) : (⟨S3x64, .f32⟩ : BufTy).Contents (Elt F) → (⟨S1x64, .f32⟩ : BufTy).Contents (Elt F)),
    reshape main_v337 main_v338 rfl shapeCasts_S1x64_S64,
    unary main_v338 main_v339 (broadcastInDim S1x64 ![1] bcast_S64_S1x64_1 : (⟨S64, .f32⟩ : BufTy).Contents (Elt F) → (⟨S1x64, .f32⟩ : BufTy).Contents (Elt F)),
    unary main_v339 main_v340 (broadcastInDim S204800x64 ![0, 1] bcast_S1x64_S204800x64_0_1 : (⟨S1x64, .f32⟩ : BufTy).Contents (Elt F) → (⟨S204800x64, .f32⟩ : BufTy).Contents (Elt F)) ]
theorem f16_sub : (f16 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub ..⟩
theorem f16_fresh : (f16 : List (HloOp τ sig (Elt F))).Forall fun op => op.fresh = ∅ := by
  simp only [List.Forall]; repeat' constructor
/-- The buffers window 16 writes. -/
abbrev f16_W : List (Ref sig .tc) := [main_v334, main_v335, main_v336, main_v337, main_v338, main_v339, main_v340]
theorem f16_writes : (f16 : List (HloOp τ sig (Elt F))).Forall fun op => op.writes ⊆ (f16_W.map (Proc.devRef (τ := τ) .tc)).toFinset := by
  simp only [List.Forall]; exact ⟨by writes_one, by writes_one, by writes_one, by writes_one, by writes_one, by writes_one, by writes_one⟩
/-- A buffer window 16 does not write keeps its contents through it. -/
theorem keep16 (W : Valuation τ sig (Elt F)) (r : Ref sig .tc) (h : r ∉ f16_W) : after f16 W (Proc.devRef .tc r) = W (Proc.devRef .tc r) :=
  after_of_writes_sub f16 W f16_writes h

/-- Window 17: operations 377 to 404 of the program. -/
abbrev f17 : List (HloOp τ sig (Elt F)) :=
  [ binary main_v336 main_v340 main_v341 (addf : (⟨S204800x64, .f32⟩ : BufTy).Contents (Elt F) → (⟨S204800x64, .f32⟩ : BufTy).Contents (Elt F) → (⟨S204800x64, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S204800x64, .f32⟩) main_call8_v0) (broadcastInDim S204800x64 ![] bcast_S_S204800x64),
    TRef.binary (TRef.of (T := ⟨S204800x64, .f32⟩) main_v341) (TRef.of (T := ⟨S204800x64, .f32⟩) main_call8_v0) (TRef.of (T := ⟨S204800x64, .f32⟩) main_v342) maximumf,
    unary main_v267 main_v343 ((extractStridedSlice S1x64 ![2, 0] · slices_S3x64_S1x64_2_0) : (⟨S3x64, .f32⟩ : BufTy).Contents (Elt F) → (⟨S1x64, .f32⟩ : BufTy).Contents (Elt F)),
    reshape main_v343 main_v344 rfl shapeCasts_S1x64_S64,
    unary main_v344 main_v345 (broadcastInDim S1x64 ![1] bcast_S64_S1x64_1 : (⟨S64, .f32⟩ : BufTy).Contents (Elt F) → (⟨S1x64, .f32⟩ : BufTy).Contents (Elt F)),
    unary main_v345 main_v346 (broadcastInDim S204800x64 ![0, 1] bcast_S1x64_S204800x64_0_1 : (⟨S1x64, .f32⟩ : BufTy).Contents (Elt F) → (⟨S204800x64, .f32⟩ : BufTy).Contents (Elt F)),
    binary main_v342 main_v346 main_v347 (subf : (⟨S204800x64, .f32⟩ : BufTy).Contents (Elt F) → (⟨S204800x64, .f32⟩ : BufTy).Contents (Elt F) → (⟨S204800x64, .f32⟩ : BufTy).Contents (Elt F)),
    unary main_v269 main_v348 ((extractStridedSlice S1x64 ![2, 0] · slices_S3x64_S1x64_2_0) : (⟨S3x64, .f32⟩ : BufTy).Contents (Elt F) → (⟨S1x64, .f32⟩ : BufTy).Contents (Elt F)),
    reshape main_v348 main_v349 rfl shapeCasts_S1x64_S64,
    nullary main_cst_17 (constant S_ .f32 0x3727C5AC#32),
    unary main_cst_17 main_v350 (broadcastInDim S64 ![] bcast_S_S64 : (⟨S_, .f32⟩ : BufTy).Contents (Elt F) → (⟨S64, .f32⟩ : BufTy).Contents (Elt F)),
    binary main_v349 main_v350 main_v351 (addf : (⟨S64, .f32⟩ : BufTy).Contents (Elt F) → (⟨S64, .f32⟩ : BufTy).Contents (Elt F) → (⟨S64, .f32⟩ : BufTy).Contents (Elt F)),
    unary main_v351 main_v352 (Host.rsqrt : (⟨S64, .f32⟩ : BufTy).Contents (Elt F) → (⟨S64, .f32⟩ : BufTy).Contents (Elt F)),
    unary main_v352 main_v353 (broadcastInDim S1x64 ![1] bcast_S64_S1x64_1 : (⟨S64, .f32⟩ : BufTy).Contents (Elt F) → (⟨S1x64, .f32⟩ : BufTy).Contents (Elt F)),
    unary main_v353 main_v354 (broadcastInDim S204800x64 ![0, 1] bcast_S1x64_S204800x64_0_1 : (⟨S1x64, .f32⟩ : BufTy).Contents (Elt F) → (⟨S204800x64, .f32⟩ : BufTy).Contents (Elt F)),
    binary main_v347 main_v354 main_v355 (mulf : (⟨S204800x64, .f32⟩ : BufTy).Contents (Elt F) → (⟨S204800x64, .f32⟩ : BufTy).Contents (Elt F) → (⟨S204800x64, .f32⟩ : BufTy).Contents (Elt F)),
    unary main_v263 main_v356 ((extractStridedSlice S1x64 ![2, 0] · slices_S3x64_S1x64_2_0) : (⟨S3x64, .f32⟩ : BufTy).Contents (Elt F) → (⟨S1x64, .f32⟩ : BufTy).Contents (Elt F)),
    reshape main_v356 main_v357 rfl shapeCasts_S1x64_S64,
    unary main_v357 main_v358 (broadcastInDim S1x64 ![1] bcast_S64_S1x64_1 : (⟨S64, .f32⟩ : BufTy).Contents (Elt F) → (⟨S1x64, .f32⟩ : BufTy).Contents (Elt F)),
    unary main_v358 main_v359 (broadcastInDim S204800x64 ![0, 1] bcast_S1x64_S204800x64_0_1 : (⟨S1x64, .f32⟩ : BufTy).Contents (Elt F) → (⟨S204800x64, .f32⟩ : BufTy).Contents (Elt F)),
    binary main_v355 main_v359 main_v360 (mulf : (⟨S204800x64, .f32⟩ : BufTy).Contents (Elt F) → (⟨S204800x64, .f32⟩ : BufTy).Contents (Elt F) → (⟨S204800x64, .f32⟩ : BufTy).Contents (Elt F)),
    unary main_v265 main_v361 ((extractStridedSlice S1x64 ![2, 0] · slices_S3x64_S1x64_2_0) : (⟨S3x64, .f32⟩ : BufTy).Contents (Elt F) → (⟨S1x64, .f32⟩ : BufTy).Contents (Elt F)),
    reshape main_v361 main_v362 rfl shapeCasts_S1x64_S64,
    unary main_v362 main_v363 (broadcastInDim S1x64 ![1] bcast_S64_S1x64_1 : (⟨S64, .f32⟩ : BufTy).Contents (Elt F) → (⟨S1x64, .f32⟩ : BufTy).Contents (Elt F)),
    unary main_v363 main_v364 (broadcastInDim S204800x64 ![0, 1] bcast_S1x64_S204800x64_0_1 : (⟨S1x64, .f32⟩ : BufTy).Contents (Elt F) → (⟨S204800x64, .f32⟩ : BufTy).Contents (Elt F)),
    binary main_v360 main_v364 main_v365 (addf : (⟨S204800x64, .f32⟩ : BufTy).Contents (Elt F) → (⟨S204800x64, .f32⟩ : BufTy).Contents (Elt F) → (⟨S204800x64, .f32⟩ : BufTy).Contents (Elt F)) ]
theorem f17_sub : (f17 : List (HloOp τ sig (Elt F))).Forall fun op => op.bufs ⊆ tcRefs τ sig :=
  ⟨binary_bufs_sub .., nullary_bufs_sub .., unary_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub ..⟩
theorem f17_fresh : (f17 : List (HloOp τ sig (Elt F))).Forall fun op => op.fresh = ∅ := by
  simp only [List.Forall]; repeat' constructor
/-- The buffers window 17 writes. -/
abbrev f17_W : List (Ref sig .tc) := [main_v341, main_call8_cst, main_call8_v0, main_v342, main_v343, main_v344, main_v345, main_v346, main_v347, main_v348, main_v349, main_cst_17, main_v350, main_v351, main_v352, main_v353, main_v354, main_v355, main_v356, main_v357, main_v358, main_v359, main_v360, main_v361, main_v362, main_v363, main_v364, main_v365]
theorem f17_writes : (f17 : List (HloOp τ sig (Elt F))).Forall fun op => op.writes ⊆ (f17_W.map (Proc.devRef (τ := τ) .tc)).toFinset := by
  simp only [List.Forall]; exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩
/-- A buffer window 17 does not write keeps its contents through it. -/
theorem keep17 (W : Valuation τ sig (Elt F)) (r : Ref sig .tc) (h : r ∉ f17_W) : after f17 W (Proc.devRef .tc r) = W (Proc.devRef .tc r) :=
  after_of_writes_sub f17 W f17_writes h

/-- Window 18: operations 405 to 412 of the program. -/
abbrev f18 : List (HloOp τ sig (Elt F)) :=
  [ reshape main_v365 main_v366 rfl shapeCasts_S204800x64_S4096x50x64,
    nullary main_cst_18 (constant S_ .f32 0x00000000#32),
    binary main_v366 main_cst_18 main_v367 ((fun x v => Host.reduceAdd x v reducesTo_S4096x50x64_S4096x64_d1 h_S_) : (⟨S4096x50x64, .f32⟩ : BufTy).Contents (Elt F) → (⟨S_, .f32⟩ : BufTy).Contents (Elt F) → (⟨S4096x64, .f32⟩ : BufTy).Contents (Elt F)),
    nary ![main_v125, main_v246, main_v367] main_v368 (fun u => concatenate S4096x192 1 [⟨S4096x64, u 0⟩, ⟨S4096x64, u 1⟩, ⟨S4096x64, u 2⟩] concatenates_S4096x64_S4096x64_S4096x64_S4096x192_d1),
    binary main_v368 main_arg11 main_v369 ((fun l r => Host.dotGeneral dot_S4096x192_S192x10_S4096x10_1_0_0_1_n_n none l r) : (⟨S4096x192, .f32⟩ : BufTy).Contents (Elt F) → (⟨S192x10, .f32⟩ : BufTy).Contents (Elt F) → (⟨S4096x10, .f32⟩ : BufTy).Contents (Elt F)),
    unary main_arg12 main_v370 (broadcastInDim S1x10 ![1] bcast_S10_S1x10_1 : (⟨S10, .f32⟩ : BufTy).Contents (Elt F) → (⟨S1x10, .f32⟩ : BufTy).Contents (Elt F)),
    unary main_v370 main_v371 (broadcastInDim S4096x10 ![0, 1] bcast_S1x10_S4096x10_0_1 : (⟨S1x10, .f32⟩ : BufTy).Contents (Elt F) → (⟨S4096x10, .f32⟩ : BufTy).Contents (Elt F)),
    binary main_v369 main_v371 main_v372 (addf : (⟨S4096x10, .f32⟩ : BufTy).Contents (Elt F) → (⟨S4096x10, .f32⟩ : BufTy).Contents (Elt F) → (⟨S4096x10, .f32⟩ : BufTy).Contents (Elt F)) ]
theorem f18_sub : (f18 : List (HloOp τ sig (Elt F))).Forall fun op => op.bufs ⊆ tcRefs τ sig :=
  ⟨reshape_bufs_sub .., nullary_bufs_sub .., binary_bufs_sub .., nary_bufs_sub .., binary_bufs_sub .., unary_bufs_sub .., unary_bufs_sub .., binary_bufs_sub ..⟩
theorem f18_fresh : (f18 : List (HloOp τ sig (Elt F))).Forall fun op => op.fresh = ∅ := by
  simp only [List.Forall]; repeat' constructor
/-- The buffers window 18 writes. -/
abbrev f18_W : List (Ref sig .tc) := [main_v366, main_cst_18, main_v367, main_v368, main_v369, main_v370, main_v371, main_v372]
theorem f18_writes : (f18 : List (HloOp τ sig (Elt F))).Forall fun op => op.writes ⊆ (f18_W.map (Proc.devRef (τ := τ) .tc)).toFinset := by
  simp only [List.Forall]; exact ⟨by writes_one, by writes_one, by writes_one, by writes_one, by writes_one, by writes_one, by writes_one, by writes_one⟩
/-- A buffer window 18 does not write keeps its contents through it. -/
theorem keep18 (W : Valuation τ sig (Elt F)) (r : Ref sig .tc) (h : r ∉ f18_W) : after f18 W (Proc.devRef .tc r) = W (Proc.devRef .tc r) :=
  after_of_writes_sub f18 W f18_writes h

set_option maxRecDepth 8192 in
set_option maxHeartbeats 4000000 in
theorem part0_eq (c : Dev nD) : main_part0 (F := F) c = seq (f0 ++ (f1)) := rfl
set_option maxRecDepth 8192 in
set_option maxHeartbeats 4000000 in
theorem part1_eq (c : Dev nD) : main_part1 (F := F) c = seq (f2 ++ (f3 ++ (f4))) := rfl
set_option maxRecDepth 8192 in
set_option maxHeartbeats 4000000 in
theorem part2_eq (c : Dev nD) : main_part2 (F := F) c = seq (f5 ++ (f6 ++ (f7))) := rfl
set_option maxRecDepth 8192 in
set_option maxHeartbeats 4000000 in
theorem part3_eq (c : Dev nD) : main_part3 (F := F) c = seq (f8 ++ (f9 ++ (f10))) := rfl
set_option maxRecDepth 8192 in
set_option maxHeartbeats 4000000 in
theorem part4_eq (c : Dev nD) : main_part4 (F := F) c = seq (f11 ++ (f12 ++ (f13))) := rfl
set_option maxRecDepth 8192 in
set_option maxHeartbeats 4000000 in
theorem part5_eq (c : Dev nD) : main_part5 (F := F) c = seq (f14 ++ (f15 ++ (f16))) := rfl
set_option maxRecDepth 8192 in
set_option maxHeartbeats 4000000 in
theorem part6_eq (c : Dev nD) : main_part6 (F := F) c = seq (f17 ++ (f18)) := rfl

/-- The whole program's operations: the nineteen windows one after the other. -/
abbrev P : List (HloOp τ sig (Elt F)) := f0 ++ (f1 ++ (f2 ++ (f3 ++ (f4 ++ (f5 ++ (f6 ++ (f7 ++ (f8 ++ (f9 ++ (f10 ++ (f11 ++ (f12 ++ (f13 ++ (f14 ++ (f15 ++ (f16 ++ (f17 ++ (f18))))))))))))))))))

theorem main_eq (c : Dev nD) : main (F := F) c = seq P := by
  have e : main (F := F) c = (main_part0 c >>= fun _ => main_part1 c >>= fun _ => main_part2 c >>= fun _ => main_part3 c >>= fun _ =>
      main_part4 c >>= fun _ => main_part5 c >>= fun _ => main_part6 c) := rfl
  rw [e, part0_eq, part1_eq, part2_eq, part3_eq, part4_eq, part5_eq, part6_eq]
  simp only [P, seq_append, bind_assoc]
theorem scopedRefs_eq : (Finset.univ.filter fun b : Ref sig .tc => b.isScoped) = ∅ := by decide
theorem scopedSems_eq : (Finset.univ.filter fun sm : SemLoc sig => sm.isScoped .tc) = ∅ := by decide
theorem P_sub : (P : List (HloOp τ sig (Elt F))).Forall fun op => op.bufs ⊆ tcRefs τ sig :=
  forall_append f0_sub (forall_append f1_sub (forall_append f2_sub (forall_append f3_sub (forall_append f4_sub (forall_append f5_sub (forall_append f6_sub (forall_append f7_sub (forall_append f8_sub (forall_append f9_sub (forall_append f10_sub (forall_append f11_sub (forall_append f12_sub (forall_append f13_sub (forall_append f14_sub (forall_append f15_sub (forall_append f16_sub (forall_append f17_sub (f18_sub))))))))))))))))))
theorem P_fresh : (P : List (HloOp τ sig (Elt F))).Forall fun op => op.fresh = ∅ :=
  forall_append f0_fresh (forall_append f1_fresh (forall_append f2_fresh (forall_append f3_fresh (forall_append f4_fresh (forall_append f5_fresh (forall_append f6_fresh (forall_append f7_fresh (forall_append f8_fresh (forall_append f9_fresh (forall_append f10_fresh (forall_append f11_fresh (forall_append f12_fresh (forall_append f13_fresh (forall_append f14_fresh (forall_append f15_fresh (forall_append f16_fresh (forall_append f17_fresh (f18_fresh))))))))))))))))))

/-! ## The contents after each window -/

variable (m : (ℓ : Loc nD τ sig) → Buf (Elt F) ℓ) (d : Dev nD)

/-- The launch contents. -/
abbrev R0 : Valuation τ sig (Elt F) := launchContents m d
/-- The contents after window 0. -/
abbrev R1 : Valuation τ sig (Elt F) := after f0 (R0 m d)
/-- The contents after window 1. -/
abbrev R2 : Valuation τ sig (Elt F) := after f1 (R1 m d)
/-- The contents after window 2. -/
abbrev R3 : Valuation τ sig (Elt F) := after f2 (R2 m d)
/-- The contents after window 3. -/
abbrev R4 : Valuation τ sig (Elt F) := after f3 (R3 m d)
/-- The contents after window 4. -/
abbrev R5 : Valuation τ sig (Elt F) := after f4 (R4 m d)
/-- The contents after window 5. -/
abbrev R6 : Valuation τ sig (Elt F) := after f5 (R5 m d)
/-- The contents after window 6. -/
abbrev R7 : Valuation τ sig (Elt F) := after f6 (R6 m d)
/-- The contents after window 7. -/
abbrev R8 : Valuation τ sig (Elt F) := after f7 (R7 m d)
/-- The contents after window 8. -/
abbrev R9 : Valuation τ sig (Elt F) := after f8 (R8 m d)
/-- The contents after window 9. -/
abbrev R10 : Valuation τ sig (Elt F) := after f9 (R9 m d)
/-- The contents after window 10. -/
abbrev R11 : Valuation τ sig (Elt F) := after f10 (R10 m d)
/-- The contents after window 11. -/
abbrev R12 : Valuation τ sig (Elt F) := after f11 (R11 m d)
/-- The contents after window 12. -/
abbrev R13 : Valuation τ sig (Elt F) := after f12 (R12 m d)
/-- The contents after window 13. -/
abbrev R14 : Valuation τ sig (Elt F) := after f13 (R13 m d)
/-- The contents after window 14. -/
abbrev R15 : Valuation τ sig (Elt F) := after f14 (R14 m d)
/-- The contents after window 15. -/
abbrev R16 : Valuation τ sig (Elt F) := after f15 (R15 m d)
/-- The contents after window 16. -/
abbrev R17 : Valuation τ sig (Elt F) := after f16 (R16 m d)
/-- The contents after window 17. -/
abbrev R18 : Valuation τ sig (Elt F) := after f17 (R17 m d)
/-- The contents after window 18. -/
abbrev R19 : Valuation τ sig (Elt F) := after f18 (R18 m d)

/-- The fold over the whole program is the nineteen folds nested. -/
theorem after_P : after P (launchContents m d) = R19 m d := by
  simp only [P, after_append]

/-- Every weakly fair execution of the reference terminates without a fault, and at the end every buffer holds the
    contents after the last window. -/
theorem run_fold (ρ : Dev nD → PrngReg) :
    θ_run defs (onTc (τ := τ) (main (F := F))) ⟨m, fun _ => 0, ρ⟩ fun r =>
      ∀ (d : Dev nD) (b : Ref sig .tc), r.2.mem ((d.tc : Thread nD τ).loc b) = R19 m d (Proc.devRef .tc b) :=
  (θ_run defs _ _).mono (fun r h d b => (h d b).trans (congrFun (after_P m d) _))
    (run_seq scopedRefs_eq scopedSems_eq defs main (fun _ => P) main_eq (fun _ => P_sub) m ρ
      (hfresh := fun _ op h => List.forall_iff_forall_mem.mp P_fresh op h))

/-! ## The frame -/

/-- A buffer no window writes ends as launched. -/
theorem kept (r : Ref sig .tc) (h0 : r ∉ f0_W) (h1 : r ∉ f1_W) (h2 : r ∉ f2_W) (h3 : r ∉ f3_W) (h4 : r ∉ f4_W) (h5 : r ∉ f5_W) (h6 : r ∉ f6_W) (h7 : r ∉ f7_W) (h8 : r ∉ f8_W) (h9 : r ∉ f9_W) (h10 : r ∉ f10_W) (h11 : r ∉ f11_W) (h12 : r ∉ f12_W) (h13 : r ∉ f13_W) (h14 : r ∉ f14_W) (h15 : r ∉ f15_W) (h16 : r ∉ f16_W) (h17 : r ∉ f17_W) (h18 : r ∉ f18_W) :
    R19 m d (Proc.devRef .tc r) = m ((d.tc : Thread nD τ).loc r) :=
  (keep18 _ r h18).trans ((keep17 _ r h17).trans ((keep16 _ r h16).trans ((keep15 _ r h15).trans ((keep14 _ r h14).trans ((keep13 _ r h13).trans ((keep12 _ r h12).trans ((keep11 _ r h11).trans ((keep10 _ r h10).trans ((keep9 _ r h9).trans ((keep8 _ r h8).trans ((keep7 _ r h7).trans ((keep6 _ r h6).trans ((keep5 _ r h5).trans ((keep4 _ r h4).trans ((keep3 _ r h3).trans ((keep2 _ r h2).trans ((keep1 _ r h1).trans ((keep0 _ r h0).trans (rfl)))))))))))))))))))

/-- The frame: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c main_arg0).trans (kept m c main_arg0 (by decide) (by decide) (by decide) (by decide) (by decide) (by decide) (by decide) (by decide) (by decide) (by decide) (by decide) (by decide) (by decide) (by decide) (by decide) (by decide) (by decide) (by decide) (by decide)),
     (h c main_arg1).trans (kept m c main_arg1 (by decide) (by decide) (by decide) (by decide) (by decide) (by decide) (by decide) (by decide) (by decide) (by decide) (by decide) (by decide) (by decide) (by decide) (by decide) (by decide) (by decide) (by decide) (by decide)),
     (h c main_arg2).trans (kept m c main_arg2 (by decide) (by decide) (by decide) (by decide) (by decide) (by decide) (by decide) (by decide) (by decide) (by decide) (by decide) (by decide) (by decide) (by decide) (by decide) (by decide) (by decide) (by decide) (by decide)),
     (h c main_arg3).trans (kept m c main_arg3 (by decide) (by decide) (by decide) (by decide) (by decide) (by decide) (by decide) (by decide) (by decide) (by decide) (by decide) (by decide) (by decide) (by decide) (by decide) (by decide) (by decide) (by decide) (by decide)),
     (h c main_arg4).trans (kept m c main_arg4 (by decide) (by decide) (by decide) (by decide) (by decide) (by decide) (by decide) (by decide) (by decide) (by decide) (by decide) (by decide) (by decide) (by decide) (by decide) (by decide) (by decide) (by decide) (by decide)),
     (h c main_arg5).trans (kept m c main_arg5 (by decide) (by decide) (by decide) (by decide) (by decide) (by decide) (by decide) (by decide) (by decide) (by decide) (by decide) (by decide) (by decide) (by decide) (by decide) (by decide) (by decide) (by decide) (by decide)),
     (h c main_arg6).trans (kept m c main_arg6 (by decide) (by decide) (by decide) (by decide) (by decide) (by decide) (by decide) (by decide) (by decide) (by decide) (by decide) (by decide) (by decide) (by decide) (by decide) (by decide) (by decide) (by decide) (by decide)),
     (h c main_arg7).trans (kept m c main_arg7 (by decide) (by decide) (by decide) (by decide) (by decide) (by decide) (by decide) (by decide) (by decide) (by decide) (by decide) (by decide) (by decide) (by decide) (by decide) (by decide) (by decide) (by decide) (by decide)),
     (h c main_arg8).trans (kept m c main_arg8 (by decide) (by decide) (by decide) (by decide) (by decide) (by decide) (by decide) (by decide) (by decide) (by decide) (by decide) (by decide) (by decide) (by decide) (by decide) (by decide) (by decide) (by decide) (by decide)),
     (h c main_arg9).trans (kept m c main_arg9 (by decide) (by decide) (by decide) (by decide) (by decide) (by decide) (by decide) (by decide) (by decide) (by decide) (by decide) (by decide) (by decide) (by decide) (by decide) (by decide) (by decide) (by decide) (by decide)),
     (h c main_arg10).trans (kept m c main_arg10 (by decide) (by decide) (by decide) (by decide) (by decide) (by decide) (by decide) (by decide) (by decide) (by decide) (by decide) (by decide) (by decide) (by decide) (by decide) (by decide) (by decide) (by decide) (by decide)),
     (h c main_arg11).trans (kept m c main_arg11 (by decide) (by decide) (by decide) (by decide) (by decide) (by decide) (by decide) (by decide) (by decide) (by decide) (by decide) (by decide) (by decide) (by decide) (by decide) (by decide) (by decide) (by decide) (by decide)),
     (h c main_arg12).trans (kept m c main_arg12 (by decide) (by decide) (by decide) (by decide) (by decide) (by decide) (by decide) (by decide) (by decide) (by decide) (by decide) (by decide) (by decide) (by decide) (by decide) (by decide) (by decide) (by decide) (by decide))⟩) (run_fold m ρ)

end Cert.ReferenceIdeal.HandRun

end
-- ==== Proof.GinLayer.lean ====
import Idealize.ShloMosaic.PureOps.Ideal
import Idealize.ShloMosaic.PureOps.Ideal.Laws
import Idealize.ShloMosaic.Lib.ValueIdx

/-!
# One GIN layer, row by row, on the extended reals

A layer takes the node features `X` and the aggregated messages `A` (both `204800 × 64`) and applies, to each row
`x = X[p, :] + A[p, :]`, three stages `j = 0, 1, 2` of

  `x ↦ ((max (x · Wⱼ + bⱼ) 0 − μⱼ) · rsqrt (vⱼ + ε)) · γⱼ + βⱼ`

(a linear map, a rectifier, and a batch normalisation with fixed statistics), where `Wⱼ` is the `j`-th `64 × 64` matrix of
a `3 × 64 × 64` stack and `bⱼ, γⱼ, βⱼ, μⱼ, vⱼ` the `j`-th rows of `3 × 64` tables. Every operation is the float
interpretation's own scalar operation at the exact instance, so the same text is what both programs compute entry by
entry; the product `x · Wⱼ` is the plain finite sum. Rows do not interact: entry `(p, n)` of the result depends on row
`p` of `X` and `A` only.
-/

noncomputable section

namespace Cert.Gin

open Idealize.ShloMosaic Idealize.ShloMosaic.ValueIdx

/-- One stage on a row `x`, at column `n`: `((max (Σₖ xₖ Wₖₙ + bₙ) 0 − μₙ) · rsqrt (vₙ + ε)) · γₙ + βₙ`, with `0` and
    `ε ≈ 1e-5` the two float words the programs print. -/
def stage (W : Fin 64 → Fin 64 → Ideal .f32) (b g β μ v : Fin 64 → Ideal .f32) (x : Fin 64 → Ideal .f32) (n : Fin 64) : Ideal .f32 :=
  FloatOps.addf (FloatOps.mulf (FloatOps.mulf (FloatOps.subf (FloatOps.maximumf (FloatOps.addf (∑ k : Fin 64, x k * W k n) (b n))
    (FloatOps.ofBits .f32 0x00000000#32)) (μ n)) (FloatOps.rsqrt (FloatOps.addf (v n) (FloatOps.ofBits .f32 0x3727C5AC#32)))) (g n)) (β n)

/-- Stage `j` with its matrix and vectors read out of the stacked parameters. -/
def stageOf (W3 : (⟨3, ![3, 64, 64]⟩ : Shape).Idx → Ideal .f32) (b3 g3 β3 μ3 v3 : (⟨2, ![3, 64]⟩ : Shape).Idx → Ideal .f32) (j : Fin 3)
    (x : Fin 64 → Ideal .f32) : Fin 64 → Ideal .f32 :=
  stage (fun k n => W3 (ix3 j k n)) (fun n => b3 (ix2 j n)) (fun n => g3 (ix2 j n)) (fun n => β3 (ix2 j n)) (fun n => μ3 (ix2 j n))
    (fun n => v3 (ix2 j n)) x

/-- The three stages on one row. -/
def rowOut (W3 : (⟨3, ![3, 64, 64]⟩ : Shape).Idx → Ideal .f32) (b3 g3 β3 μ3 v3 : (⟨2, ![3, 64]⟩ : Shape).Idx → Ideal .f32)
    (x : Fin 64 → Ideal .f32) : Fin 64 → Ideal .f32 :=
  stageOf W3 b3 g3 β3 μ3 v3 2 (stageOf W3 b3 g3 β3 μ3 v3 1 (stageOf W3 b3 g3 β3 μ3 v3 0 x))

/-- The layer on `N` rows: row `p` of the result is the three stages applied to row `p` of `X + A`. -/
def layer {N : ℕ} (X A : (⟨2, ![N, 64]⟩ : Shape).Idx → Ideal .f32) (W3 : (⟨3, ![3, 64, 64]⟩ : Shape).Idx → Ideal .f32)
    (b3 g3 β3 μ3 v3 : (⟨2, ![3, 64]⟩ : Shape).Idx → Ideal .f32) : (⟨2, ![N, 64]⟩ : Shape).Idx → Ideal .f32 := fun i =>
  rowOut W3 b3 g3 β3 μ3 v3 (fun k => FloatOps.addf (X (ix2 (i 0 : Fin N) k)) (A (ix2 (i 0 : Fin N) k))) (i 1 : Fin 64)

theorem layer_apply {N : ℕ} (X A : (⟨2, ![N, 64]⟩ : Shape).Idx → Ideal .f32) (W3 : (⟨3, ![3, 64, 64]⟩ : Shape).Idx → Ideal .f32)
    (b3 g3 β3 μ3 v3 : (⟨2, ![3, 64]⟩ : Shape).Idx → Ideal .f32) (p : Fin N) (q : Fin 64) :
    layer X A W3 b3 g3 β3 μ3 v3 (ix2 p q)
      = rowOut W3 b3 g3 β3 μ3 v3 (fun k => FloatOps.addf (X (ix2 p k)) (A (ix2 p k))) q := rfl

end Cert.Gin

end
-- ==== Proof.LibRows.lean ====
/-
  Row-by-row readings of two-axis arrays, for any sizes.

  A dense layer with a per-row normalisation touches an `n × b` array one row at a time: a product with a weight
  matrix (entry `(p, c)` is the sum over `q` of row `p` at `q` times the weight at `(q, c)`), a sum along each row,
  a per-row number broadcast back along its row, a per-column vector broadcast down the rows. Each lemma below reads
  one of these operations at an entry `(p, c)`, in the kernel's spelling (matmul into a zero accumulator, a lane
  reduction, vector broadcasts) and in the host's (a reduce with an initial value, broadcast-in-dim).
-/
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws

noncomputable section

namespace Cert.Lib.Rows

open Idealize.ShloMosaic Idealize.ShloMosaic.ValueIdx

variable {α : Type}

/-! ## Products -/

/-- An `m × k` by `k × n` matrix product accumulated into zero reads, at `(a, b)`, the sum over the contracted
    coordinate of the products of the entries: the same sum the host's product of the two matrices is. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

/-! ## Sums along a row -/

/-- The index of an `n × k` array over row `a` with the column `c` put back. -/
theorem lift_row {n k : ℕ} (h : (⟨2, ![n, k]⟩ : Shape).Reduces [1] ⟨1, ![n]⟩) (a : Fin n) (c : Fin k) :
    h.lift (ix1 a) c = ix2 a c := by
  funext ax; apply Fin.ext
  match ax with
  | ⟨0, _⟩ => rfl
  | ⟨1, _⟩ => rfl

/-- A lane reduction of an `n × k` array along its rows reads, at row `a`, the sum of that row. -/
theorem rowSum_apply {n k : ℕ} {φ : FTy} (src : FVec Ideal ⟨2, ![n, k]⟩ φ) (acc : BitVec φ.bits)
    (h : (⟨2, ![n, k]⟩ : Shape).Reduces [1] ⟨1, ![n]⟩) (hφ : FKind.Formats φ) (hacc : acc = FKind.add.neutral φ hφ) (a : Fin n) :
    multiReduction .add [1] ⟨1, ![n]⟩ src acc h hφ hacc (ix1 a) = ∑ c : Fin k, src (ix2 a c) := by
  rw [Ideal.multiReduction_add_single]
  exact Finset.sum_congr rfl fun c _ => congrArg src (lift_row h a c)

/-- The same for an f32 lane sum from the zero word, with the accumulator's side condition spelt as a program prints it
    (the word equal to itself). -/
theorem rowSum_f32_apply {n k : ℕ} (src : FVec Ideal ⟨2, ![n, k]⟩ .f32)
    (h : (⟨2, ![n, k]⟩ : Shape).Reduces [1] ⟨1, ![n]⟩) (hφ : FKind.Formats .f32)
    (hacc : (0x00000000#32 : BitVec 32) = 0x00000000#32) (a : Fin n) :
    multiReduction .add [1] ⟨1, ![n]⟩ src 0x00000000#32 h hφ hacc (ix1 a) = ∑ c : Fin k, src (ix2 a c) :=
  rowSum_apply src 0x00000000#32 h hφ hacc a

/-- The exact row sums themselves (what a lane sum denotes on the extended reals), read at row `a`. -/
theorem reduceAdd_rows_apply {n k : ℕ} (x : (⟨2, ![n, k]⟩ : Shape).Idx → EReal)
    (h : (⟨2, ![n, k]⟩ : Shape).Reduces [1] ⟨1, ![n]⟩) (a : Fin n) :
    Ideal.reduceAdd h x (ix1 a) = ∑ c : Fin k, x (ix2 a c) := by
  rw [Ideal.reduceAdd_single]
  exact Finset.sum_congr rfl fun c _ => congrArg x (lift_row h a c)

/-- The host's exact row sums from an initial value, read at row `a`. -/
theorem hostReduceAdd_rows_apply {n k : ℕ} (x : (⟨2, ![n, k]⟩ : Shape).Idx → EReal) (init : EReal)
    (h' : (⟨2, ![n, k]⟩ : Shape).ReducesTo [1] ⟨1, ![n]⟩)
    (h : (⟨2, ![n, k]⟩ : Shape).Reduces [1] ⟨1, ![n]⟩) (a : Fin n) :
    Ideal.hostReduceAdd h' x init (ix1 a) = init + ∑ c : Fin k, x (ix2 a c) := by
  rw [Ideal.hostReduceAdd_single h' h]
  exact congrArg (init + ·) (Finset.sum_congr rfl fun c _ => congrArg x (lift_row h a c))

/-- The host's sum of an `n × k` array along its rows reads, at row `a`, the initial value plus the sum of that row. -/
theorem hostRowSum_apply {n k : ℕ} {φ : FTy} {u : Shape} (x : FVec Ideal ⟨2, ![n, k]⟩ φ) (init : u.Idx → Ideal φ)
    (h' : (⟨2, ![n, k]⟩ : Shape).ReducesTo [1] ⟨1, ![n]⟩) (hu : 0 < u.numel)
    (h : (⟨2, ![n, k]⟩ : Shape).Reduces [1] ⟨1, ![n]⟩) (a : Fin n) :
    Host.reduceAdd x init h' hu (ix1 a) = init (Shape.Idx.first hu) + ∑ c : Fin k, x (ix2 a c) := by
  show Ideal.hostReduceAdd h' x (init (Shape.Idx.first hu)) (ix1 a) = _
  rw [Ideal.hostReduceAdd_single h' h]
  exact congrArg (init (Shape.Idx.first hu) + ·) (Finset.sum_congr rfl fun c _ => congrArg x (lift_row h a c))

/-! ## A per-row number broadcast along its row -/

/-- An `a × 1` column broadcast to `a × b` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's spelling of the same: an `a × 1` column broadcast in place (axes kept) to `a × b`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-! ## A per-column vector broadcast down the rows -/

/-- The host's spelling of one row over many: a `1 × b` row broadcast in place to `a × b` reads, at `(p, c)`, the row at `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A length-`b` vector made a `1 × b` row by a broadcast along a new leading axis reads, at `(u, c)`, the vector at `c`. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- A scalar broadcast to any shape reads the scalar everywhere. -/
theorem broadcastInDim_scalar_apply {t : Shape} (v : (⟨0, ![]⟩ : Shape).Idx → α) (dims : Fin 0 → Fin t.rank)
    (h : (⟨0, ![]⟩ : Shape).BroadcastsInDim t dims) (j : t.Idx) :
    broadcastInDim t dims h v j = v ix0 :=
  broadcastInDim_apply dims h v j ix0 fun ax => ax.elim0

end Cert.Lib.Rows

end
-- ==== Proof.RefStage.lean ====
import proofs.«129687_j87179246174626_1_alg».proof.Proof.Gen.ReferenceIdeal
import proofs.«129687_j87179246174626_1_alg».proof.Proof.GinLayer
import proofs.«129687_j87179246174626_1_alg».proof.Proof.LibRows
import Idealize.ShloMosaic.Lib.ValueLayout
import Idealize.ShloMosaic.Lib.Pipeline.Value
import Idealize.ShloMosaic.Lib.StackMember

/-!
# The reference's stage is the layer's stage

The reference computes one stage on the whole `204800 × 64` array `X`: the stage's `64 × 64` matrix is row `j` of the
`3 × 64 × 64` stack (sliced and flattened), multiplied by the host's matrix product; each of the stage's five vectors is
row `j` of its `3 × 64` table (sliced, flattened), made a `1 × 64` row and broadcast down the 204800 rows; the rectifier
is a maximum with a broadcast zero scalar; the reciprocal root of `variance + ε` is taken on the 64-vector before the
broadcast. Read at entry `(p, n)` this is `Gin.stage` of row `p` of `X` with the `j`-th matrix and vectors.
-/

noncomputable section

namespace Cert.ReferenceIdeal.StageValue

open Cert.ReferenceIdeal Cert.ReferenceIdeal.Gen
open Idealize.ShloMosaic Idealize.ShloMosaic.ValueIdx

/-- Row `j` of a `3 × 64` table, broadcast down the rows as the reference spells it. -/
def rrow (j : ℕ) (hv : S3x64.Slices ![j, 0] S1x64) (t : FVec Ideal S3x64 .f32) : FVec Ideal S204800x64 .f32 :=
  broadcastInDim S204800x64 ![0, 1] bcast_S1x64_S204800x64_0_1
    (broadcastInDim S1x64 ![1] bcast_S64_S1x64_1 (shapeCast S64 (extractStridedSlice S1x64 ![j, 0] t hv) shapeCasts_S1x64_S64))

/-- Stage `j` as the reference spells it. -/
def rstage (j : ℕ) (hW : S3x64x64.Slices ![j, 0, 0] S1x64x64) (hv : S3x64.Slices ![j, 0] S1x64)
    (X : FVec Ideal S204800x64 .f32) (W3 : FVec Ideal S3x64x64 .f32) (b3 g3 β3 μ3 v3 : FVec Ideal S3x64 .f32) : FVec Ideal S204800x64 .f32 :=
  addf (mulf (mulf (subf (maximumf (addf
    (Host.dotGeneral dot_S204800x64_S64x64_S204800x64_1_0_0_1_n_n none X
      (shapeCast S64x64 (extractStridedSlice S1x64x64 ![j, 0, 0] W3 hW) shapeCasts_S1x64x64_S64x64))
    (rrow j hv b3))
    (broadcastInDim S204800x64 ![] bcast_S_S204800x64 (constant S_ .f32 0x00000000#32)))
    (rrow j hv μ3))
    (broadcastInDim S204800x64 ![0, 1] bcast_S1x64_S204800x64_0_1 (broadcastInDim S1x64 ![1] bcast_S64_S1x64_1
      (Host.rsqrt (addf (shapeCast S64 (extractStridedSlice S1x64 ![j, 0] v3 hv) shapeCasts_S1x64_S64)
        (broadcastInDim S64 ![] bcast_S_S64 (constant S_ .f32 0x3727C5AC#32)))))))
    (rrow j hv g3))
    (rrow j hv β3)

/-- A table's row `j`, sliced and flattened, reads at `n` the table at `(j, n)`. -/
theorem row_apply (j : ℕ) (hj : j < 3) (hv : S3x64.Slices ![j, 0] S1x64) (t : FVec Ideal S3x64 .f32) (n : Fin 64) :
    shapeCast S64 (extractStridedSlice S1x64 ![j, 0] t hv) shapeCasts_S1x64_S64 (ix1 n) = t (ix2 (⟨j, hj⟩ : Fin 3) n) := by
  rw [shapeCast_1a_a_apply]
  refine extractStridedSlice_apply _ t hv _ _ fun a => ?_
  match a with
  | ⟨0, _⟩ => show j = j + 0; rfl
  | ⟨1, _⟩ => show n.val = 0 + n.val; omega

theorem rrow_apply (j : ℕ) (hj : j < 3) (hv : S3x64.Slices ![j, 0] S1x64) (t : FVec Ideal S3x64 .f32) (p : Fin 204800) (n : Fin 64) :
    rrow j hv t (ix2 p n) = t (ix2 (⟨j, hj⟩ : Fin 3) n) := by
  unfold rrow
  rw [Cert.Lib.Rows.broadcastInDim_1b_ab_apply, Cert.Lib.Rows.broadcastInDim_b_1b_apply, row_apply j hj]

/-- Entry `(p, n)` of the reference's stage `j` is the layer's stage `j` on row `p`. -/
theorem rstage_apply (j : ℕ) (hj : j < 3) (hW : S3x64x64.Slices ![j, 0, 0] S1x64x64) (hv : S3x64.Slices ![j, 0] S1x64)
    (X : FVec Ideal S204800x64 .f32) (W3 : FVec Ideal S3x64x64 .f32) (b3 g3 β3 μ3 v3 : FVec Ideal S3x64 .f32) (p : Fin 204800) (n : Fin 64) :
    rstage j hW hv X W3 b3 g3 β3 μ3 v3 (ix2 p n)
      = Cert.Gin.stageOf W3 b3 g3 β3 μ3 v3 ⟨j, hj⟩ (fun k => X (ix2 p k)) n := by
  have hmm : Host.dotGeneral dot_S204800x64_S64x64_S204800x64_1_0_0_1_n_n none X
      (shapeCast S64x64 (extractStridedSlice S1x64x64 ![j, 0, 0] W3 hW) shapeCasts_S1x64x64_S64x64) (ix2 p n)
      = ∑ k : Fin 64, X (ix2 p k) * W3 (ix3 (⟨j, hj⟩ : Fin 3) k n) := by
    refine (StackMember.dotGeneral_plain_apply (m := 204800) (k := 64) (n := 64) none X
      (shapeCast S64x64 (extractStridedSlice S1x64x64 ![j, 0, 0] W3 hW) shapeCasts_S1x64x64_S64x64) p n).trans ?_
    refine Finset.sum_congr rfl fun k _ => ?_
    rw [shapeCast_1ab_ab_apply]
    refine congrArg (X (ix2 p k) * ·) (extractStridedSlice_apply _ W3 hW _ _ fun a => ?_)
    match a with
    | ⟨0, _⟩ => show j = j + 0; rfl
    | ⟨1, _⟩ => show k.val = 0 + k.val; omega
    | ⟨2, _⟩ => show n.val = 0 + n.val; omega
  have hrs : broadcastInDim S204800x64 ![0, 1] bcast_S1x64_S204800x64_0_1 (broadcastInDim S1x64 ![1] bcast_S64_S1x64_1
      (Host.rsqrt (addf (shapeCast S64 (extractStridedSlice S1x64 ![j, 0] v3 hv) shapeCasts_S1x64_S64)
        (broadcastInDim S64 ![] bcast_S_S64 (constant S_ .f32 0x3727C5AC#32))))) (ix2 p n)
      = FloatOps.rsqrt (FloatOps.addf (v3 (ix2 (⟨j, hj⟩ : Fin 3) n)) (FloatOps.ofBits .f32 0x3727C5AC#32)) := by
    rw [Cert.Lib.Rows.broadcastInDim_1b_ab_apply, Cert.Lib.Rows.broadcastInDim_b_1b_apply]
    show FloatOps.hostUnary .rsqrt (FloatOps.addf (shapeCast S64 (extractStridedSlice S1x64 ![j, 0] v3 hv) shapeCasts_S1x64_S64 (ix1 n))
      (broadcastInDim S64 ![] bcast_S_S64 (constant S_ .f32 0x3727C5AC#32) (ix1 n))) = _
    rw [row_apply j hj, Cert.Lib.Rows.broadcastInDim_scalar_apply]
    rfl
  unfold rstage Cert.Gin.stageOf Cert.Gin.stage
  show FloatOps.addf (FloatOps.mulf (FloatOps.mulf (FloatOps.subf (FloatOps.maximumf (FloatOps.addf _ _) _) _) _) _) _ = _
  rw [hmm, hrs, rrow_apply j hj, rrow_apply j hj, rrow_apply j hj, rrow_apply j hj, Cert.Lib.Rows.broadcastInDim_scalar_apply]
  rfl

end Cert.ReferenceIdeal.StageValue

end
-- ==== Proof.RefWalk.lean ====
import proofs.«129687_j87179246174626_1_alg».proof.Proof.RefRun
import proofs.«129687_j87179246174626_1_alg».proof.Proof.RefStage

/-!
# The reference's value, window by window

Reading the nineteen folds of the reference's run: the first window makes the embedding `h₀`, its aggregated messages
(a row look-up at the source indices, then a segment sum at the destination indices), their sum, and layer 0's slices
of the stacked parameters; each of the next three windows is one stage on the whole array, so the layer's output is
`Gin.layer` of `h₀`, its aggregate and the parameters; the stretch after a layer makes that layer's readout (the sum
over the 50 nodes of each graph), the next aggregate and sum, and the next layer's parameter slices; and the last
window classifies the three readouts. No window writes an argument, so every window reads the launch arguments.
-/

set_option maxRecDepth 16384

noncomputable section

namespace Cert.ReferenceIdeal.Walk

open Cert.ReferenceIdeal Cert.ReferenceIdeal.Gen Cert.ReferenceIdeal.HandRun Cert.ReferenceIdeal.StageValue
open Idealize.ShloMosaic Idealize.ShloMosaic.ValueIdx Idealize.ShloMosaic.TcCoe Idealize.SL.Sem Idealize.ShloMosaic.StableHlo

/-! ## The host operations both programs share, as functions of their operands -/

/-- The embedding `feats · W_seq + b_seq`. -/
def embed (x0 : FVec Ideal S204800 .f32) (x3 : FVec Ideal S1x64 .f32) (x4 : FVec Ideal S64 .f32) : FVec Ideal S204800x64 .f32 :=
  addf (Host.dotGeneral dot_S204800x1_S1x64_S204800x64_1_0_0_1_n_n none (shapeCast S204800x1 x0 shapeCasts_S204800_S204800x1) x3)
    (broadcastInDim S204800x64 ![0, 1] bcast_S1x64_S204800x64_0_1 (broadcastInDim S1x64 ![1] bcast_S64_S1x64_1 x4))

/-- The aggregated messages of node features `H`: rows of `H` looked up at the source indices (negative indices wrapped),
    summed into the rows the destination indices name. -/
def aggregate (H : FVec Ideal S204800x64 .f32) (x1 x2 : IVec S3276800 32) : FVec Ideal S204800x64 .f32 :=
  Host.scatterAdd scatter_S204800x64_S3276800x1_S3276800x64_1_0_0_1
    (broadcastInDim S204800x64 ![] bcast_S_S204800x64 (constant S_ .f32 0x00000000#32))
    (broadcastInDim S3276800x1 ![0] bcast_S3276800_S3276800x1_0 x2)
    (Host.gather gather_S204800x64_S3276800x1_S3276800x64_1_0_n_n_0_1_164 H
      (broadcastInDim S3276800x1 ![0] bcast_S3276800_S3276800x1_0
        (select (cmpi .slt x1 (broadcastInDim S3276800 ![] bcast_S_S3276800 (constantI S_ 32 0#32)))
          (addi x1 (broadcastInDim S3276800 ![] bcast_S_S3276800 (constantI S_ 32 204800#32))) x1)))

/-- Layer `l`'s weight stack out of the stacked argument. -/
def sliceW (l : ℕ) (hs : S3x3x64x64.Slices ![l, 0, 0, 0] S1x3x64x64) (x5 : FVec Ideal S3x3x64x64 .f32) : FVec Ideal S3x64x64 .f32 :=
  shapeCast S3x64x64 (extractStridedSlice S1x3x64x64 ![l, 0, 0, 0] x5 hs) shapeCasts_S1x3x64x64_S3x64x64
/-- Layer `l`'s table out of a stacked `3 × 3 × 64` argument. -/
def sliceV (l : ℕ) (hs : S3x3x64.Slices ![l, 0, 0] S1x3x64) (x : FVec Ideal S3x3x64 .f32) : FVec Ideal S3x64 .f32 :=
  shapeCast S3x64 (extractStridedSlice S1x3x64 ![l, 0, 0] x hs) shapeCasts_S1x3x64_S3x64

/-- A layer's readout: the sum over the 50 nodes of each graph. -/
def readout (H : FVec Ideal S204800x64 .f32) : FVec Ideal S4096x64 .f32 :=
  Host.reduceAdd (shapeCast S4096x50x64 H shapeCasts_S204800x64_S4096x50x64) (constant S_ .f32 0x00000000#32) reducesTo_S4096x50x64_S4096x64_d1 h_S_

/-- The classifier on the three readouts side by side. -/
def classify (r1 r2 r3 : FVec Ideal S4096x64 .f32) (x11 : FVec Ideal S192x10 .f32) (x12 : FVec Ideal S10 .f32) : FVec Ideal S4096x10 .f32 :=
  addf (Host.dotGeneral dot_S4096x192_S192x10_S4096x10_1_0_0_1_n_n none
      (concatenate S4096x192 1 [⟨S4096x64, r1⟩, ⟨S4096x64, r2⟩, ⟨S4096x64, r3⟩] concatenates_S4096x64_S4096x64_S4096x64_S4096x192_d1) x11)
    (broadcastInDim S4096x10 ![0, 1] bcast_S1x10_S4096x10_0_1 (broadcastInDim S1x10 ![1] bcast_S10_S1x10_1 x12))

/-- The three stages of a layer as the reference spells them, on the sum `S` of features and messages. -/
def stages (S : FVec Ideal S204800x64 .f32) (W3 : FVec Ideal S3x64x64 .f32) (b3 g3 β3 μ3 v3 : FVec Ideal S3x64 .f32) : FVec Ideal S204800x64 .f32 :=
  rstage 2 slices_S3x64x64_S1x64x64_2_0_0 slices_S3x64_S1x64_2_0
    (rstage 1 slices_S3x64x64_S1x64x64_1_0_0 slices_S3x64_S1x64_1_0
      (rstage 0 slices_S3x64x64_S1x64x64_0_0_0 slices_S3x64_S1x64_0_0 S W3 b3 g3 β3 μ3 v3) W3 b3 g3 β3 μ3 v3) W3 b3 g3 β3 μ3 v3

/-- The three stages on `X + A` are the layer. -/
theorem stages_eq (X A : FVec Ideal S204800x64 .f32) (W3 : FVec Ideal S3x64x64 .f32) (b3 g3 β3 μ3 v3 : FVec Ideal S3x64 .f32) :
    stages (addf X A) W3 b3 g3 β3 μ3 v3 = Cert.Gin.layer X A W3 b3 g3 β3 μ3 v3 := by
  funext i
  obtain ⟨p, q, rfl⟩ : ∃ (p : Fin 204800) (q : Fin 64), i = ix2 p q := ⟨i 0, i 1, eq_ix2 i⟩
  unfold stages
  rw [rstage_apply 2 (by decide), Cert.Gin.layer_apply]
  unfold Cert.Gin.rowOut
  simp only [rstage_apply 1 (by decide), rstage_apply 0 (by decide)]
  rfl

/-- The result as one function of the thirteen argument arrays: three layers, each on the previous one's output, and
    the classifier on the three readouts. -/
def layer1 (x0 : FVec Ideal S204800 .f32) (x1 x2 : IVec S3276800 32) (x3 : FVec Ideal S1x64 .f32) (x4 : FVec Ideal S64 .f32)
    (x5 : FVec Ideal S3x3x64x64 .f32) (x6 x7 x8 x9 x10 : FVec Ideal S3x3x64 .f32) : FVec Ideal S204800x64 .f32 :=
  Cert.Gin.layer (embed x0 x3 x4) (aggregate (embed x0 x3 x4) x1 x2) (sliceW 0 slices_S3x3x64x64_S1x3x64x64_0_0_0_0 x5)
    (sliceV 0 slices_S3x3x64_S1x3x64_0_0_0 x6) (sliceV 0 slices_S3x3x64_S1x3x64_0_0_0 x7) (sliceV 0 slices_S3x3x64_S1x3x64_0_0_0 x8)
    (sliceV 0 slices_S3x3x64_S1x3x64_0_0_0 x9) (sliceV 0 slices_S3x3x64_S1x3x64_0_0_0 x10)
def nextLayer (l : ℕ) (hW : S3x3x64x64.Slices ![l, 0, 0, 0] S1x3x64x64) (hV : S3x3x64.Slices ![l, 0, 0] S1x3x64)
    (H : FVec Ideal S204800x64 .f32) (x1 x2 : IVec S3276800 32) (x5 : FVec Ideal S3x3x64x64 .f32) (x6 x7 x8 x9 x10 : FVec Ideal S3x3x64 .f32) :
    FVec Ideal S204800x64 .f32 :=
  Cert.Gin.layer H (aggregate H x1 x2) (sliceW l hW x5) (sliceV l hV x6) (sliceV l hV x7) (sliceV l hV x8) (sliceV l hV x9) (sliceV l hV x10)
def result (x0 : FVec Ideal S204800 .f32) (x1 x2 : IVec S3276800 32) (x3 : FVec Ideal S1x64 .f32) (x4 : FVec Ideal S64 .f32)
    (x5 : FVec Ideal S3x3x64x64 .f32) (x6 x7 x8 x9 x10 : FVec Ideal S3x3x64 .f32) (x11 : FVec Ideal S192x10 .f32) (x12 : FVec Ideal S10 .f32) :
    FVec Ideal S4096x10 .f32 :=
  let H1 := layer1 x0 x1 x2 x3 x4 x5 x6 x7 x8 x9 x10
  let H2 := nextLayer 1 slices_S3x3x64x64_S1x3x64x64_1_0_0_0 slices_S3x3x64_S1x3x64_1_0_0 H1 x1 x2 x5 x6 x7 x8 x9 x10
  let H3 := nextLayer 2 slices_S3x3x64x64_S1x3x64x64_2_0_0_0 slices_S3x3x64_S1x3x64_2_0_0 H2 x1 x2 x5 x6 x7 x8 x9 x10
  classify (readout H1) (readout H2) (readout H3) x11 x12

/-! ## Each structure window, read where the next one reads it -/

section Windows
variable (W : Valuation τ sig (Elt Ideal))

theorem e0_sum : after f0 W (Proc.devRef .tc main_v15)
    = addf (embed (W main_arg0) (W main_arg3) (W main_arg4)) (aggregate (embed (W main_arg0) (W main_arg3) (W main_arg4)) (W main_arg1) (W main_arg2)) := by
  dsimp only [f0]; after_results_simp; rfl
theorem e0_p0 : after f0 W (Proc.devRef .tc main_v17) = sliceW 0 slices_S3x3x64x64_S1x3x64x64_0_0_0_0 (W main_arg5) := by
  dsimp only [f0]; after_results_simp; rfl
theorem e0_p1 : after f0 W (Proc.devRef .tc main_v19) = sliceV 0 slices_S3x3x64_S1x3x64_0_0_0 (W main_arg6) := by
  dsimp only [f0]; after_results_simp; rfl
theorem e0_p2 : after f0 W (Proc.devRef .tc main_v21) = sliceV 0 slices_S3x3x64_S1x3x64_0_0_0 (W main_arg7) := by
  dsimp only [f0]; after_results_simp; rfl
theorem e0_p3 : after f0 W (Proc.devRef .tc main_v23) = sliceV 0 slices_S3x3x64_S1x3x64_0_0_0 (W main_arg8) := by
  dsimp only [f0]; after_results_simp; rfl
theorem e0_p4 : after f0 W (Proc.devRef .tc main_v25) = sliceV 0 slices_S3x3x64_S1x3x64_0_0_0 (W main_arg9) := by
  dsimp only [f0]; after_results_simp; rfl
theorem e0_p5 : after f0 W (Proc.devRef .tc main_v27) = sliceV 0 slices_S3x3x64_S1x3x64_0_0_0 (W main_arg10) := by
  dsimp only [f0]; after_results_simp; rfl
theorem s0_0 : after f2 (after f1 W) (Proc.devRef .tc main_v59)
    = rstage 0 slices_S3x64x64_S1x64x64_0_0_0 slices_S3x64_S1x64_0_0 (W main_v15) (W main_v17) (W main_v19) (W main_v21) (W main_v23) (W main_v25) (W main_v27) := by
  dsimp only [f1, f2]; after_results_simp; rfl
theorem s0_1 : after f3 W (Proc.devRef .tc main_v91)
    = rstage 1 slices_S3x64x64_S1x64x64_1_0_0 slices_S3x64_S1x64_1_0 (W main_v59) (W main_v17) (W main_v19) (W main_v21) (W main_v23) (W main_v25) (W main_v27) := by
  dsimp only [f3]; after_results_simp; rfl
theorem s0_2 : after f5 (after f4 W) (Proc.devRef .tc main_v123)
    = rstage 2 slices_S3x64x64_S1x64x64_2_0_0 slices_S3x64_S1x64_2_0 (W main_v91) (W main_v17) (W main_v19) (W main_v21) (W main_v23) (W main_v25) (W main_v27) := by
  dsimp only [f4, f5]; after_results_simp; rfl

theorem e6_ro : after f6 W (Proc.devRef .tc main_v125) = readout (W main_v123) := by
  dsimp only [f6]; after_results_simp; rfl
theorem e6_sum : after f6 W (Proc.devRef .tc main_v136) = addf (W main_v123) (aggregate (W main_v123) (W main_arg1) (W main_arg2)) := by
  dsimp only [f6]; after_results_simp; rfl
theorem e6_p0 : after f6 W (Proc.devRef .tc main_v138) = sliceW 1 slices_S3x3x64x64_S1x3x64x64_1_0_0_0 (W main_arg5) := by
  dsimp only [f6]; after_results_simp; rfl
theorem e6_p1 : after f6 W (Proc.devRef .tc main_v140) = sliceV 1 slices_S3x3x64_S1x3x64_1_0_0 (W main_arg6) := by
  dsimp only [f6]; after_results_simp; rfl
theorem e6_p2 : after f6 W (Proc.devRef .tc main_v142) = sliceV 1 slices_S3x3x64_S1x3x64_1_0_0 (W main_arg7) := by
  dsimp only [f6]; after_results_simp; rfl
theorem e6_p3 : after f6 W (Proc.devRef .tc main_v144) = sliceV 1 slices_S3x3x64_S1x3x64_1_0_0 (W main_arg8) := by
  dsimp only [f6]; after_results_simp; rfl
theorem e6_p4 : after f6 W (Proc.devRef .tc main_v146) = sliceV 1 slices_S3x3x64_S1x3x64_1_0_0 (W main_arg9) := by
  dsimp only [f6]; after_results_simp; rfl
theorem e6_p5 : after f6 W (Proc.devRef .tc main_v148) = sliceV 1 slices_S3x3x64_S1x3x64_1_0_0 (W main_arg10) := by
  dsimp only [f6]; after_results_simp; rfl
theorem s1_0 : after f8 (after f7 W) (Proc.devRef .tc main_v180)
    = rstage 0 slices_S3x64x64_S1x64x64_0_0_0 slices_S3x64_S1x64_0_0 (W main_v136) (W main_v138) (W main_v140) (W main_v142) (W main_v144) (W main_v146) (W main_v148) := by
  dsimp only [f7, f8]; after_results_simp; rfl
theorem s1_1 : after f9 W (Proc.devRef .tc main_v212)
    = rstage 1 slices_S3x64x64_S1x64x64_1_0_0 slices_S3x64_S1x64_1_0 (W main_v180) (W main_v138) (W main_v140) (W main_v142) (W main_v144) (W main_v146) (W main_v148) := by
  dsimp only [f9]; after_results_simp; rfl
theorem s1_2 : after f11 (after f10 W) (Proc.devRef .tc main_v244)
    = rstage 2 slices_S3x64x64_S1x64x64_2_0_0 slices_S3x64_S1x64_2_0 (W main_v212) (W main_v138) (W main_v140) (W main_v142) (W main_v144) (W main_v146) (W main_v148) := by
  dsimp only [f10, f11]; after_results_simp; rfl

theorem e12_ro : after f12 W (Proc.devRef .tc main_v246) = readout (W main_v244) := by
  dsimp only [f12]; after_results_simp; rfl
theorem e12_sum : after f12 W (Proc.devRef .tc main_v257) = addf (W main_v244) (aggregate (W main_v244) (W main_arg1) (W main_arg2)) := by
  dsimp only [f12]; after_results_simp; rfl
theorem e12_p0 : after f12 W (Proc.devRef .tc main_v259) = sliceW 2 slices_S3x3x64x64_S1x3x64x64_2_0_0_0 (W main_arg5) := by
  dsimp only [f12]; after_results_simp; rfl
theorem e12_p1 : after f12 W (Proc.devRef .tc main_v261) = sliceV 2 slices_S3x3x64_S1x3x64_2_0_0 (W main_arg6) := by
  dsimp only [f12]; after_results_simp; rfl
theorem e12_p2 : after f12 W (Proc.devRef .tc main_v263) = sliceV 2 slices_S3x3x64_S1x3x64_2_0_0 (W main_arg7) := by
  dsimp only [f12]; after_results_simp; rfl
theorem e12_p3 : after f12 W (Proc.devRef .tc main_v265) = sliceV 2 slices_S3x3x64_S1x3x64_2_0_0 (W main_arg8) := by
  dsimp only [f12]; after_results_simp; rfl
theorem e12_p4 : after f12 W (Proc.devRef .tc main_v267) = sliceV 2 slices_S3x3x64_S1x3x64_2_0_0 (W main_arg9) := by
  dsimp only [f12]; after_results_simp; rfl
theorem e12_p5 : after f12 W (Proc.devRef .tc main_v269) = sliceV 2 slices_S3x3x64_S1x3x64_2_0_0 (W main_arg10) := by
  dsimp only [f12]; after_results_simp; rfl
theorem s2_0 : after f14 (after f13 W) (Proc.devRef .tc main_v301)
    = rstage 0 slices_S3x64x64_S1x64x64_0_0_0 slices_S3x64_S1x64_0_0 (W main_v257) (W main_v259) (W main_v261) (W main_v263) (W main_v265) (W main_v267) (W main_v269) := by
  dsimp only [f13, f14]; after_results_simp; rfl
theorem s2_1 : after f15 W (Proc.devRef .tc main_v333)
    = rstage 1 slices_S3x64x64_S1x64x64_1_0_0 slices_S3x64_S1x64_1_0 (W main_v301) (W main_v259) (W main_v261) (W main_v263) (W main_v265) (W main_v267) (W main_v269) := by
  dsimp only [f15]; after_results_simp; rfl
theorem s2_2 : after f17 (after f16 W) (Proc.devRef .tc main_v365)
    = rstage 2 slices_S3x64x64_S1x64x64_2_0_0 slices_S3x64_S1x64_2_0 (W main_v333) (W main_v259) (W main_v261) (W main_v263) (W main_v265) (W main_v267) (W main_v269) := by
  dsimp only [f16, f17]; after_results_simp; rfl

theorem e18_out : after f18 W (Proc.devRef .tc main_v372)
    = classify (W main_v125) (W main_v246) (readout (W main_v365)) (W main_arg11) (W main_arg12) := by
  dsimp only [f18]; after_results_simp; rfl

end Windows

/-! ## The walk -/

variable (m : (ℓ : Loc nD τ sig) → Buf (Elt Ideal) ℓ) (d : Dev nD)

/-- The three layers' outputs of the launch arguments. -/
abbrev H1 : FVec Ideal S204800x64 .f32 := layer1 (R0 m d (Proc.devRef .tc main_arg0)) (R0 m d (Proc.devRef .tc main_arg1)) (R0 m d (Proc.devRef .tc main_arg2)) (R0 m d (Proc.devRef .tc main_arg3)) (R0 m d (Proc.devRef .tc main_arg4)) (R0 m d (Proc.devRef .tc main_arg5)) (R0 m d (Proc.devRef .tc main_arg6)) (R0 m d (Proc.devRef .tc main_arg7)) (R0 m d (Proc.devRef .tc main_arg8)) (R0 m d (Proc.devRef .tc main_arg9)) (R0 m d (Proc.devRef .tc main_arg10))
abbrev H2 : FVec Ideal S204800x64 .f32 := nextLayer 1 slices_S3x3x64x64_S1x3x64x64_1_0_0_0 slices_S3x3x64_S1x3x64_1_0_0 (H1 m d) (R0 m d (Proc.devRef .tc main_arg1)) (R0 m d (Proc.devRef .tc main_arg2)) (R0 m d (Proc.devRef .tc main_arg5)) (R0 m d (Proc.devRef .tc main_arg6)) (R0 m d (Proc.devRef .tc main_arg7)) (R0 m d (Proc.devRef .tc main_arg8)) (R0 m d (Proc.devRef .tc main_arg9)) (R0 m d (Proc.devRef .tc main_arg10))
abbrev H3 : FVec Ideal S204800x64 .f32 := nextLayer 2 slices_S3x3x64x64_S1x3x64x64_2_0_0_0 slices_S3x3x64_S1x3x64_2_0_0 (H2 m d) (R0 m d (Proc.devRef .tc main_arg1)) (R0 m d (Proc.devRef .tc main_arg2)) (R0 m d (Proc.devRef .tc main_arg5)) (R0 m d (Proc.devRef .tc main_arg6)) (R0 m d (Proc.devRef .tc main_arg7)) (R0 m d (Proc.devRef .tc main_arg8)) (R0 m d (Proc.devRef .tc main_arg9)) (R0 m d (Proc.devRef .tc main_arg10))

/-- After the first window: the sum of the embedding and its aggregate, and layer 0's parameters. -/
theorem sum0 : R1 m d (Proc.devRef .tc main_v15) = addf (embed (R0 m d (Proc.devRef .tc main_arg0)) (R0 m d (Proc.devRef .tc main_arg3)) (R0 m d (Proc.devRef .tc main_arg4))) (aggregate (embed (R0 m d (Proc.devRef .tc main_arg0)) (R0 m d (Proc.devRef .tc main_arg3)) (R0 m d (Proc.devRef .tc main_arg4))) (R0 m d (Proc.devRef .tc main_arg1)) (R0 m d (Proc.devRef .tc main_arg2))) := e0_sum (R0 m d)
theorem par0_0 : R1 m d (Proc.devRef .tc main_v17) = sliceW 0 slices_S3x3x64x64_S1x3x64x64_0_0_0_0 (R0 m d (Proc.devRef .tc main_arg5)) := e0_p0 (R0 m d)
theorem par0_1 : R1 m d (Proc.devRef .tc main_v19) = sliceV 0 slices_S3x3x64_S1x3x64_0_0_0 (R0 m d (Proc.devRef .tc main_arg6)) := e0_p1 (R0 m d)
theorem par0_2 : R1 m d (Proc.devRef .tc main_v21) = sliceV 0 slices_S3x3x64_S1x3x64_0_0_0 (R0 m d (Proc.devRef .tc main_arg7)) := e0_p2 (R0 m d)
theorem par0_3 : R1 m d (Proc.devRef .tc main_v23) = sliceV 0 slices_S3x3x64_S1x3x64_0_0_0 (R0 m d (Proc.devRef .tc main_arg8)) := e0_p3 (R0 m d)
theorem par0_4 : R1 m d (Proc.devRef .tc main_v25) = sliceV 0 slices_S3x3x64_S1x3x64_0_0_0 (R0 m d (Proc.devRef .tc main_arg9)) := e0_p4 (R0 m d)
theorem par0_5 : R1 m d (Proc.devRef .tc main_v27) = sliceV 0 slices_S3x3x64_S1x3x64_0_0_0 (R0 m d (Proc.devRef .tc main_arg10)) := e0_p5 (R0 m d)

/-- Layer 0's output: the three stage windows on the sum, which is the layer. -/
theorem out0 : R6 m d (Proc.devRef .tc main_v123) = H1 m d := by
  rw [show R6 m d (Proc.devRef .tc main_v123) = _ from s0_2 (R4 m d),
    show R4 m d (Proc.devRef .tc main_v91) = _ from s0_1 (R3 m d),
    show R3 m d (Proc.devRef .tc main_v59) = _ from s0_0 (R1 m d),
    sum0,
    show R4 m d (Proc.devRef .tc main_v17) = _ from (((keep3 (R3 m d) main_v17 (by decide)).trans ((keep2 (R2 m d) main_v17 (by decide)).trans ((keep1 (R1 m d) main_v17 (by decide)).trans rfl)))).trans (par0_0 m d),
    show R4 m d (Proc.devRef .tc main_v19) = _ from (((keep3 (R3 m d) main_v19 (by decide)).trans ((keep2 (R2 m d) main_v19 (by decide)).trans ((keep1 (R1 m d) main_v19 (by decide)).trans rfl)))).trans (par0_1 m d),
    show R4 m d (Proc.devRef .tc main_v21) = _ from (((keep3 (R3 m d) main_v21 (by decide)).trans ((keep2 (R2 m d) main_v21 (by decide)).trans ((keep1 (R1 m d) main_v21 (by decide)).trans rfl)))).trans (par0_2 m d),
    show R4 m d (Proc.devRef .tc main_v23) = _ from (((keep3 (R3 m d) main_v23 (by decide)).trans ((keep2 (R2 m d) main_v23 (by decide)).trans ((keep1 (R1 m d) main_v23 (by decide)).trans rfl)))).trans (par0_3 m d),
    show R4 m d (Proc.devRef .tc main_v25) = _ from (((keep3 (R3 m d) main_v25 (by decide)).trans ((keep2 (R2 m d) main_v25 (by decide)).trans ((keep1 (R1 m d) main_v25 (by decide)).trans rfl)))).trans (par0_4 m d),
    show R4 m d (Proc.devRef .tc main_v27) = _ from (((keep3 (R3 m d) main_v27 (by decide)).trans ((keep2 (R2 m d) main_v27 (by decide)).trans ((keep1 (R1 m d) main_v27 (by decide)).trans rfl)))).trans (par0_5 m d),
    show R3 m d (Proc.devRef .tc main_v17) = _ from (((keep2 (R2 m d) main_v17 (by decide)).trans ((keep1 (R1 m d) main_v17 (by decide)).trans rfl))).trans (par0_0 m d),
    show R3 m d (Proc.devRef .tc main_v19) = _ from (((keep2 (R2 m d) main_v19 (by decide)).trans ((keep1 (R1 m d) main_v19 (by decide)).trans rfl))).trans (par0_1 m d),
    show R3 m d (Proc.devRef .tc main_v21) = _ from (((keep2 (R2 m d) main_v21 (by decide)).trans ((keep1 (R1 m d) main_v21 (by decide)).trans rfl))).trans (par0_2 m d),
    show R3 m d (Proc.devRef .tc main_v23) = _ from (((keep2 (R2 m d) main_v23 (by decide)).trans ((keep1 (R1 m d) main_v23 (by decide)).trans rfl))).trans (par0_3 m d),
    show R3 m d (Proc.devRef .tc main_v25) = _ from (((keep2 (R2 m d) main_v25 (by decide)).trans ((keep1 (R1 m d) main_v25 (by decide)).trans rfl))).trans (par0_4 m d),
    show R3 m d (Proc.devRef .tc main_v27) = _ from (((keep2 (R2 m d) main_v27 (by decide)).trans ((keep1 (R1 m d) main_v27 (by decide)).trans rfl))).trans (par0_5 m d),
    par0_0, par0_1, par0_2, par0_3, par0_4, par0_5]
  exact stages_eq _ _ _ _ _ _ _ _

/-- After the stretch following layer 0: its readout, the next sum, and layer 1's parameters (the arguments read as launched). -/
theorem ro0 : R7 m d (Proc.devRef .tc main_v125) = readout (H1 m d) := by
  rw [show R7 m d (Proc.devRef .tc main_v125) = _ from e6_ro (R6 m d), out0]
theorem sum1 : R7 m d (Proc.devRef .tc main_v136) = addf (H1 m d) (aggregate (H1 m d) (R0 m d (Proc.devRef .tc main_arg1)) (R0 m d (Proc.devRef .tc main_arg2))) := by
  rw [show R7 m d (Proc.devRef .tc main_v136) = _ from e6_sum (R6 m d), out0,
    show R6 m d (Proc.devRef .tc main_arg1) = _ from ((keep5 (R5 m d) main_arg1 (by decide)).trans ((keep4 (R4 m d) main_arg1 (by decide)).trans ((keep3 (R3 m d) main_arg1 (by decide)).trans ((keep2 (R2 m d) main_arg1 (by decide)).trans ((keep1 (R1 m d) main_arg1 (by decide)).trans ((keep0 (R0 m d) main_arg1 (by decide)).trans rfl)))))),
    show R6 m d (Proc.devRef .tc main_arg2) = _ from ((keep5 (R5 m d) main_arg2 (by decide)).trans ((keep4 (R4 m d) main_arg2 (by decide)).trans ((keep3 (R3 m d) main_arg2 (by decide)).trans ((keep2 (R2 m d) main_arg2 (by decide)).trans ((keep1 (R1 m d) main_arg2 (by decide)).trans ((keep0 (R0 m d) main_arg2 (by decide)).trans rfl))))))]
theorem par1_0 : R7 m d (Proc.devRef .tc main_v138) = sliceW 1 slices_S3x3x64x64_S1x3x64x64_1_0_0_0 (R0 m d (Proc.devRef .tc main_arg5)) := by
  rw [show R7 m d (Proc.devRef .tc main_v138) = _ from e6_p0 (R6 m d),
    show R6 m d (Proc.devRef .tc main_arg5) = _ from ((keep5 (R5 m d) main_arg5 (by decide)).trans ((keep4 (R4 m d) main_arg5 (by decide)).trans ((keep3 (R3 m d) main_arg5 (by decide)).trans ((keep2 (R2 m d) main_arg5 (by decide)).trans ((keep1 (R1 m d) main_arg5 (by decide)).trans ((keep0 (R0 m d) main_arg5 (by decide)).trans rfl))))))]
theorem par1_1 : R7 m d (Proc.devRef .tc main_v140) = sliceV 1 slices_S3x3x64_S1x3x64_1_0_0 (R0 m d (Proc.devRef .tc main_arg6)) := by
  rw [show R7 m d (Proc.devRef .tc main_v140) = _ from e6_p1 (R6 m d),
    show R6 m d (Proc.devRef .tc main_arg6) = _ from ((keep5 (R5 m d) main_arg6 (by decide)).trans ((keep4 (R4 m d) main_arg6 (by decide)).trans ((keep3 (R3 m d) main_arg6 (by decide)).trans ((keep2 (R2 m d) main_arg6 (by decide)).trans ((keep1 (R1 m d) main_arg6 (by decide)).trans ((keep0 (R0 m d) main_arg6 (by decide)).trans rfl))))))]
theorem par1_2 : R7 m d (Proc.devRef .tc main_v142) = sliceV 1 slices_S3x3x64_S1x3x64_1_0_0 (R0 m d (Proc.devRef .tc main_arg7)) := by
  rw [show R7 m d (Proc.devRef .tc main_v142) = _ from e6_p2 (R6 m d),
    show R6 m d (Proc.devRef .tc main_arg7) = _ from ((keep5 (R5 m d) main_arg7 (by decide)).trans ((keep4 (R4 m d) main_arg7 (by decide)).trans ((keep3 (R3 m d) main_arg7 (by decide)).trans ((keep2 (R2 m d) main_arg7 (by decide)).trans ((keep1 (R1 m d) main_arg7 (by decide)).trans ((keep0 (R0 m d) main_arg7 (by decide)).trans rfl))))))]
theorem par1_3 : R7 m d (Proc.devRef .tc main_v144) = sliceV 1 slices_S3x3x64_S1x3x64_1_0_0 (R0 m d (Proc.devRef .tc main_arg8)) := by
  rw [show R7 m d (Proc.devRef .tc main_v144) = _ from e6_p3 (R6 m d),
    show R6 m d (Proc.devRef .tc main_arg8) = _ from ((keep5 (R5 m d) main_arg8 (by decide)).trans ((keep4 (R4 m d) main_arg8 (by decide)).trans ((keep3 (R3 m d) main_arg8 (by decide)).trans ((keep2 (R2 m d) main_arg8 (by decide)).trans ((keep1 (R1 m d) main_arg8 (by decide)).trans ((keep0 (R0 m d) main_arg8 (by decide)).trans rfl))))))]
theorem par1_4 : R7 m d (Proc.devRef .tc main_v146) = sliceV 1 slices_S3x3x64_S1x3x64_1_0_0 (R0 m d (Proc.devRef .tc main_arg9)) := by
  rw [show R7 m d (Proc.devRef .tc main_v146) = _ from e6_p4 (R6 m d),
    show R6 m d (Proc.devRef .tc main_arg9) = _ from ((keep5 (R5 m d) main_arg9 (by decide)).trans ((keep4 (R4 m d) main_arg9 (by decide)).trans ((keep3 (R3 m d) main_arg9 (by decide)).trans ((keep2 (R2 m d) main_arg9 (by decide)).trans ((keep1 (R1 m d) main_arg9 (by decide)).trans ((keep0 (R0 m d) main_arg9 (by decide)).trans rfl))))))]
theorem par1_5 : R7 m d (Proc.devRef .tc main_v148) = sliceV 1 slices_S3x3x64_S1x3x64_1_0_0 (R0 m d (Proc.devRef .tc main_arg10)) := by
  rw [show R7 m d (Proc.devRef .tc main_v148) = _ from e6_p5 (R6 m d),
    show R6 m d (Proc.devRef .tc main_arg10) = _ from ((keep5 (R5 m d) main_arg10 (by decide)).trans ((keep4 (R4 m d) main_arg10 (by decide)).trans ((keep3 (R3 m d) main_arg10 (by decide)).trans ((keep2 (R2 m d) main_arg10 (by decide)).trans ((keep1 (R1 m d) main_arg10 (by decide)).trans ((keep0 (R0 m d) main_arg10 (by decide)).trans rfl))))))]

/-- Layer 1's output: the three stage windows on the sum, which is the layer. -/
theorem out1 : R12 m d (Proc.devRef .tc main_v244) = H2 m d := by
  rw [show R12 m d (Proc.devRef .tc main_v244) = _ from s1_2 (R10 m d),
    show R10 m d (Proc.devRef .tc main_v212) = _ from s1_1 (R9 m d),
    show R9 m d (Proc.devRef .tc main_v180) = _ from s1_0 (R7 m d),
    sum1,
    show R10 m d (Proc.devRef .tc main_v138) = _ from (((keep9 (R9 m d) main_v138 (by decide)).trans ((keep8 (R8 m d) main_v138 (by decide)).trans ((keep7 (R7 m d) main_v138 (by decide)).trans rfl)))).trans (par1_0 m d),
    show R10 m d (Proc.devRef .tc main_v140) = _ from (((keep9 (R9 m d) main_v140 (by decide)).trans ((keep8 (R8 m d) main_v140 (by decide)).trans ((keep7 (R7 m d) main_v140 (by decide)).trans rfl)))).trans (par1_1 m d),
    show R10 m d (Proc.devRef .tc main_v142) = _ from (((keep9 (R9 m d) main_v142 (by decide)).trans ((keep8 (R8 m d) main_v142 (by decide)).trans ((keep7 (R7 m d) main_v142 (by decide)).trans rfl)))).trans (par1_2 m d),
    show R10 m d (Proc.devRef .tc main_v144) = _ from (((keep9 (R9 m d) main_v144 (by decide)).trans ((keep8 (R8 m d) main_v144 (by decide)).trans ((keep7 (R7 m d) main_v144 (by decide)).trans rfl)))).trans (par1_3 m d),
    show R10 m d (Proc.devRef .tc main_v146) = _ from (((keep9 (R9 m d) main_v146 (by decide)).trans ((keep8 (R8 m d) main_v146 (by decide)).trans ((keep7 (R7 m d) main_v146 (by decide)).trans rfl)))).trans (par1_4 m d),
    show R10 m d (Proc.devRef .tc main_v148) = _ from (((keep9 (R9 m d) main_v148 (by decide)).trans ((keep8 (R8 m d) main_v148 (by decide)).trans ((keep7 (R7 m d) main_v148 (by decide)).trans rfl)))).trans (par1_5 m d),
    show R9 m d (Proc.devRef .tc main_v138) = _ from (((keep8 (R8 m d) main_v138 (by decide)).trans ((keep7 (R7 m d) main_v138 (by decide)).trans rfl))).trans (par1_0 m d),
    show R9 m d (Proc.devRef .tc main_v140) = _ from (((keep8 (R8 m d) main_v140 (by decide)).trans ((keep7 (R7 m d) main_v140 (by decide)).trans rfl))).trans (par1_1 m d),
    show R9 m d (Proc.devRef .tc main_v142) = _ from (((keep8 (R8 m d) main_v142 (by decide)).trans ((keep7 (R7 m d) main_v142 (by decide)).trans rfl))).trans (par1_2 m d),
    show R9 m d (Proc.devRef .tc main_v144) = _ from (((keep8 (R8 m d) main_v144 (by decide)).trans ((keep7 (R7 m d) main_v144 (by decide)).trans rfl))).trans (par1_3 m d),
    show R9 m d (Proc.devRef .tc main_v146) = _ from (((keep8 (R8 m d) main_v146 (by decide)).trans ((keep7 (R7 m d) main_v146 (by decide)).trans rfl))).trans (par1_4 m d),
    show R9 m d (Proc.devRef .tc main_v148) = _ from (((keep8 (R8 m d) main_v148 (by decide)).trans ((keep7 (R7 m d) main_v148 (by decide)).trans rfl))).trans (par1_5 m d),
    par1_0, par1_1, par1_2, par1_3, par1_4, par1_5]
  exact stages_eq _ _ _ _ _ _ _ _

/-- After the stretch following layer 1: its readout, the next sum, and layer 2's parameters (the arguments read as launched). -/
theorem ro1 : R13 m d (Proc.devRef .tc main_v246) = readout (H2 m d) := by
  rw [show R13 m d (Proc.devRef .tc main_v246) = _ from e12_ro (R12 m d), out1]
theorem sum2 : R13 m d (Proc.devRef .tc main_v257) = addf (H2 m d) (aggregate (H2 m d) (R0 m d (Proc.devRef .tc main_arg1)) (R0 m d (Proc.devRef .tc main_arg2))) := by
  rw [show R13 m d (Proc.devRef .tc main_v257) = _ from e12_sum (R12 m d), out1,
    show R12 m d (Proc.devRef .tc main_arg1) = _ from ((keep11 (R11 m d) main_arg1 (by decide)).trans ((keep10 (R10 m d) main_arg1 (by decide)).trans ((keep9 (R9 m d) main_arg1 (by decide)).trans ((keep8 (R8 m d) main_arg1 (by decide)).trans ((keep7 (R7 m d) main_arg1 (by decide)).trans ((keep6 (R6 m d) main_arg1 (by decide)).trans ((keep5 (R5 m d) main_arg1 (by decide)).trans ((keep4 (R4 m d) main_arg1 (by decide)).trans ((keep3 (R3 m d) main_arg1 (by decide)).trans ((keep2 (R2 m d) main_arg1 (by decide)).trans ((keep1 (R1 m d) main_arg1 (by decide)).trans ((keep0 (R0 m d) main_arg1 (by decide)).trans rfl)))))))))))),
    show R12 m d (Proc.devRef .tc main_arg2) = _ from ((keep11 (R11 m d) main_arg2 (by decide)).trans ((keep10 (R10 m d) main_arg2 (by decide)).trans ((keep9 (R9 m d) main_arg2 (by decide)).trans ((keep8 (R8 m d) main_arg2 (by decide)).trans ((keep7 (R7 m d) main_arg2 (by decide)).trans ((keep6 (R6 m d) main_arg2 (by decide)).trans ((keep5 (R5 m d) main_arg2 (by decide)).trans ((keep4 (R4 m d) main_arg2 (by decide)).trans ((keep3 (R3 m d) main_arg2 (by decide)).trans ((keep2 (R2 m d) main_arg2 (by decide)).trans ((keep1 (R1 m d) main_arg2 (by decide)).trans ((keep0 (R0 m d) main_arg2 (by decide)).trans rfl))))))))))))]
theorem par2_0 : R13 m d (Proc.devRef .tc main_v259) = sliceW 2 slices_S3x3x64x64_S1x3x64x64_2_0_0_0 (R0 m d (Proc.devRef .tc main_arg5)) := by
  rw [show R13 m d (Proc.devRef .tc main_v259) = _ from e12_p0 (R12 m d),
    show R12 m d (Proc.devRef .tc main_arg5) = _ from ((keep11 (R11 m d) main_arg5 (by decide)).trans ((keep10 (R10 m d) main_arg5 (by decide)).trans ((keep9 (R9 m d) main_arg5 (by decide)).trans ((keep8 (R8 m d) main_arg5 (by decide)).trans ((keep7 (R7 m d) main_arg5 (by decide)).trans ((keep6 (R6 m d) main_arg5 (by decide)).trans ((keep5 (R5 m d) main_arg5 (by decide)).trans ((keep4 (R4 m d) main_arg5 (by decide)).trans ((keep3 (R3 m d) main_arg5 (by decide)).trans ((keep2 (R2 m d) main_arg5 (by decide)).trans ((keep1 (R1 m d) main_arg5 (by decide)).trans ((keep0 (R0 m d) main_arg5 (by decide)).trans rfl))))))))))))]
theorem par2_1 : R13 m d (Proc.devRef .tc main_v261) = sliceV 2 slices_S3x3x64_S1x3x64_2_0_0 (R0 m d (Proc.devRef .tc main_arg6)) := by
  rw [show R13 m d (Proc.devRef .tc main_v261) = _ from e12_p1 (R12 m d),
    show R12 m d (Proc.devRef .tc main_arg6) = _ from ((keep11 (R11 m d) main_arg6 (by decide)).trans ((keep10 (R10 m d) main_arg6 (by decide)).trans ((keep9 (R9 m d) main_arg6 (by decide)).trans ((keep8 (R8 m d) main_arg6 (by decide)).trans ((keep7 (R7 m d) main_arg6 (by decide)).trans ((keep6 (R6 m d) main_arg6 (by decide)).trans ((keep5 (R5 m d) main_arg6 (by decide)).trans ((keep4 (R4 m d) main_arg6 (by decide)).trans ((keep3 (R3 m d) main_arg6 (by decide)).trans ((keep2 (R2 m d) main_arg6 (by decide)).trans ((keep1 (R1 m d) main_arg6 (by decide)).trans ((keep0 (R0 m d) main_arg6 (by decide)).trans rfl))))))))))))]
theorem par2_2 : R13 m d (Proc.devRef .tc main_v263) = sliceV 2 slices_S3x3x64_S1x3x64_2_0_0 (R0 m d (Proc.devRef .tc main_arg7)) := by
  rw [show R13 m d (Proc.devRef .tc main_v263) = _ from e12_p2 (R12 m d),
    show R12 m d (Proc.devRef .tc main_arg7) = _ from ((keep11 (R11 m d) main_arg7 (by decide)).trans ((keep10 (R10 m d) main_arg7 (by decide)).trans ((keep9 (R9 m d) main_arg7 (by decide)).trans ((keep8 (R8 m d) main_arg7 (by decide)).trans ((keep7 (R7 m d) main_arg7 (by decide)).trans ((keep6 (R6 m d) main_arg7 (by decide)).trans ((keep5 (R5 m d) main_arg7 (by decide)).trans ((keep4 (R4 m d) main_arg7 (by decide)).trans ((keep3 (R3 m d) main_arg7 (by decide)).trans ((keep2 (R2 m d) main_arg7 (by decide)).trans ((keep1 (R1 m d) main_arg7 (by decide)).trans ((keep0 (R0 m d) main_arg7 (by decide)).trans rfl))))))))))))]
theorem par2_3 : R13 m d (Proc.devRef .tc main_v265) = sliceV 2 slices_S3x3x64_S1x3x64_2_0_0 (R0 m d (Proc.devRef .tc main_arg8)) := by
  rw [show R13 m d (Proc.devRef .tc main_v265) = _ from e12_p3 (R12 m d),
    show R12 m d (Proc.devRef .tc main_arg8) = _ from ((keep11 (R11 m d) main_arg8 (by decide)).trans ((keep10 (R10 m d) main_arg8 (by decide)).trans ((keep9 (R9 m d) main_arg8 (by decide)).trans ((keep8 (R8 m d) main_arg8 (by decide)).trans ((keep7 (R7 m d) main_arg8 (by decide)).trans ((keep6 (R6 m d) main_arg8 (by decide)).trans ((keep5 (R5 m d) main_arg8 (by decide)).trans ((keep4 (R4 m d) main_arg8 (by decide)).trans ((keep3 (R3 m d) main_arg8 (by decide)).trans ((keep2 (R2 m d) main_arg8 (by decide)).trans ((keep1 (R1 m d) main_arg8 (by decide)).trans ((keep0 (R0 m d) main_arg8 (by decide)).trans rfl))))))))))))]
theorem par2_4 : R13 m d (Proc.devRef .tc main_v267) = sliceV 2 slices_S3x3x64_S1x3x64_2_0_0 (R0 m d (Proc.devRef .tc main_arg9)) := by
  rw [show R13 m d (Proc.devRef .tc main_v267) = _ from e12_p4 (R12 m d),
    show R12 m d (Proc.devRef .tc main_arg9) = _ from ((keep11 (R11 m d) main_arg9 (by decide)).trans ((keep10 (R10 m d) main_arg9 (by decide)).trans ((keep9 (R9 m d) main_arg9 (by decide)).trans ((keep8 (R8 m d) main_arg9 (by decide)).trans ((keep7 (R7 m d) main_arg9 (by decide)).trans ((keep6 (R6 m d) main_arg9 (by decide)).trans ((keep5 (R5 m d) main_arg9 (by decide)).trans ((keep4 (R4 m d) main_arg9 (by decide)).trans ((keep3 (R3 m d) main_arg9 (by decide)).trans ((keep2 (R2 m d) main_arg9 (by decide)).trans ((keep1 (R1 m d) main_arg9 (by decide)).trans ((keep0 (R0 m d) main_arg9 (by decide)).trans rfl))))))))))))]
theorem par2_5 : R13 m d (Proc.devRef .tc main_v269) = sliceV 2 slices_S3x3x64_S1x3x64_2_0_0 (R0 m d (Proc.devRef .tc main_arg10)) := by
  rw [show R13 m d (Proc.devRef .tc main_v269) = _ from e12_p5 (R12 m d),
    show R12 m d (Proc.devRef .tc main_arg10) = _ from ((keep11 (R11 m d) main_arg10 (by decide)).trans ((keep10 (R10 m d) main_arg10 (by decide)).trans ((keep9 (R9 m d) main_arg10 (by decide)).trans ((keep8 (R8 m d) main_arg10 (by decide)).trans ((keep7 (R7 m d) main_arg10 (by decide)).trans ((keep6 (R6 m d) main_arg10 (by decide)).trans ((keep5 (R5 m d) main_arg10 (by decide)).trans ((keep4 (R4 m d) main_arg10 (by decide)).trans ((keep3 (R3 m d) main_arg10 (by decide)).trans ((keep2 (R2 m d) main_arg10 (by decide)).trans ((keep1 (R1 m d) main_arg10 (by decide)).trans ((keep0 (R0 m d) main_arg10 (by decide)).trans rfl))))))))))))]

/-- Layer 2's output: the three stage windows on the sum, which is the layer. -/
theorem out2 : R18 m d (Proc.devRef .tc main_v365) = H3 m d := by
  rw [show R18 m d (Proc.devRef .tc main_v365) = _ from s2_2 (R16 m d),
    show R16 m d (Proc.devRef .tc main_v333) = _ from s2_1 (R15 m d),
    show R15 m d (Proc.devRef .tc main_v301) = _ from s2_0 (R13 m d),
    sum2,
    show R16 m d (Proc.devRef .tc main_v259) = _ from (((keep15 (R15 m d) main_v259 (by decide)).trans ((keep14 (R14 m d) main_v259 (by decide)).trans ((keep13 (R13 m d) main_v259 (by decide)).trans rfl)))).trans (par2_0 m d),
    show R16 m d (Proc.devRef .tc main_v261) = _ from (((keep15 (R15 m d) main_v261 (by decide)).trans ((keep14 (R14 m d) main_v261 (by decide)).trans ((keep13 (R13 m d) main_v261 (by decide)).trans rfl)))).trans (par2_1 m d),
    show R16 m d (Proc.devRef .tc main_v263) = _ from (((keep15 (R15 m d) main_v263 (by decide)).trans ((keep14 (R14 m d) main_v263 (by decide)).trans ((keep13 (R13 m d) main_v263 (by decide)).trans rfl)))).trans (par2_2 m d),
    show R16 m d (Proc.devRef .tc main_v265) = _ from (((keep15 (R15 m d) main_v265 (by decide)).trans ((keep14 (R14 m d) main_v265 (by decide)).trans ((keep13 (R13 m d) main_v265 (by decide)).trans rfl)))).trans (par2_3 m d),
    show R16 m d (Proc.devRef .tc main_v267) = _ from (((keep15 (R15 m d) main_v267 (by decide)).trans ((keep14 (R14 m d) main_v267 (by decide)).trans ((keep13 (R13 m d) main_v267 (by decide)).trans rfl)))).trans (par2_4 m d),
    show R16 m d (Proc.devRef .tc main_v269) = _ from (((keep15 (R15 m d) main_v269 (by decide)).trans ((keep14 (R14 m d) main_v269 (by decide)).trans ((keep13 (R13 m d) main_v269 (by decide)).trans rfl)))).trans (par2_5 m d),
    show R15 m d (Proc.devRef .tc main_v259) = _ from (((keep14 (R14 m d) main_v259 (by decide)).trans ((keep13 (R13 m d) main_v259 (by decide)).trans rfl))).trans (par2_0 m d),
    show R15 m d (Proc.devRef .tc main_v261) = _ from (((keep14 (R14 m d) main_v261 (by decide)).trans ((keep13 (R13 m d) main_v261 (by decide)).trans rfl))).trans (par2_1 m d),
    show R15 m d (Proc.devRef .tc main_v263) = _ from (((keep14 (R14 m d) main_v263 (by decide)).trans ((keep13 (R13 m d) main_v263 (by decide)).trans rfl))).trans (par2_2 m d),
    show R15 m d (Proc.devRef .tc main_v265) = _ from (((keep14 (R14 m d) main_v265 (by decide)).trans ((keep13 (R13 m d) main_v265 (by decide)).trans rfl))).trans (par2_3 m d),
    show R15 m d (Proc.devRef .tc main_v267) = _ from (((keep14 (R14 m d) main_v267 (by decide)).trans ((keep13 (R13 m d) main_v267 (by decide)).trans rfl))).trans (par2_4 m d),
    show R15 m d (Proc.devRef .tc main_v269) = _ from (((keep14 (R14 m d) main_v269 (by decide)).trans ((keep13 (R13 m d) main_v269 (by decide)).trans rfl))).trans (par2_5 m d),
    par2_0, par2_1, par2_2, par2_3, par2_4, par2_5]
  exact stages_eq _ _ _ _ _ _ _ _

/-- The reference's result buffer ends at `result` of the launch arguments. -/
theorem result_eq : R19 m d (Proc.devRef .tc main_v372) = result (R0 m d (Proc.devRef .tc main_arg0)) (R0 m d (Proc.devRef .tc main_arg1)) (R0 m d (Proc.devRef .tc main_arg2)) (R0 m d (Proc.devRef .tc main_arg3)) (R0 m d (Proc.devRef .tc main_arg4)) (R0 m d (Proc.devRef .tc main_arg5)) (R0 m d (Proc.devRef .tc main_arg6)) (R0 m d (Proc.devRef .tc main_arg7)) (R0 m d (Proc.devRef .tc main_arg8)) (R0 m d (Proc.devRef .tc main_arg9)) (R0 m d (Proc.devRef .tc main_arg10)) (R0 m d (Proc.devRef .tc main_arg11)) (R0 m d (Proc.devRef .tc main_arg12)) := by
  rw [show R19 m d (Proc.devRef .tc main_v372) = _ from e18_out (R18 m d), out2,
    show R18 m d (Proc.devRef .tc main_v125) = _ from (((keep17 (R17 m d) main_v125 (by decide)).trans ((keep16 (R16 m d) main_v125 (by decide)).trans ((keep15 (R15 m d) main_v125 (by decide)).trans ((keep14 (R14 m d) main_v125 (by decide)).trans ((keep13 (R13 m d) main_v125 (by decide)).trans ((keep12 (R12 m d) main_v125 (by decide)).trans ((keep11 (R11 m d) main_v125 (by decide)).trans ((keep10 (R10 m d) main_v125 (by decide)).trans ((keep9 (R9 m d) main_v125 (by decide)).trans ((keep8 (R8 m d) main_v125 (by decide)).trans ((keep7 (R7 m d) main_v125 (by decide)).trans rfl)))))))))))).trans (ro0 m d),
    show R18 m d (Proc.devRef .tc main_v246) = _ from (((keep17 (R17 m d) main_v246 (by decide)).trans ((keep16 (R16 m d) main_v246 (by decide)).trans ((keep15 (R15 m d) main_v246 (by decide)).trans ((keep14 (R14 m d) main_v246 (by decide)).trans ((keep13 (R13 m d) main_v246 (by decide)).trans rfl)))))).trans (ro1 m d),
    show R18 m d (Proc.devRef .tc main_arg11) = _ from ((keep17 (R17 m d) main_arg11 (by decide)).trans ((keep16 (R16 m d) main_arg11 (by decide)).trans ((keep15 (R15 m d) main_arg11 (by decide)).trans ((keep14 (R14 m d) main_arg11 (by decide)).trans ((keep13 (R13 m d) main_arg11 (by decide)).trans ((keep12 (R12 m d) main_arg11 (by decide)).trans ((keep11 (R11 m d) main_arg11 (by decide)).trans ((keep10 (R10 m d) main_arg11 (by decide)).trans ((keep9 (R9 m d) main_arg11 (by decide)).trans ((keep8 (R8 m d) main_arg11 (by decide)).trans ((keep7 (R7 m d) main_arg11 (by decide)).trans ((keep6 (R6 m d) main_arg11 (by decide)).trans ((keep5 (R5 m d) main_arg11 (by decide)).trans ((keep4 (R4 m d) main_arg11 (by decide)).trans ((keep3 (R3 m d) main_arg11 (by decide)).trans ((keep2 (R2 m d) main_arg11 (by decide)).trans ((keep1 (R1 m d) main_arg11 (by decide)).trans ((keep0 (R0 m d) main_arg11 (by decide)).trans rfl)))))))))))))))))),
    show R18 m d (Proc.devRef .tc main_arg12) = _ from ((keep17 (R17 m d) main_arg12 (by decide)).trans ((keep16 (R16 m d) main_arg12 (by decide)).trans ((keep15 (R15 m d) main_arg12 (by decide)).trans ((keep14 (R14 m d) main_arg12 (by decide)).trans ((keep13 (R13 m d) main_arg12 (by decide)).trans ((keep12 (R12 m d) main_arg12 (by decide)).trans ((keep11 (R11 m d) main_arg12 (by decide)).trans ((keep10 (R10 m d) main_arg12 (by decide)).trans ((keep9 (R9 m d) main_arg12 (by decide)).trans ((keep8 (R8 m d) main_arg12 (by decide)).trans ((keep7 (R7 m d) main_arg12 (by decide)).trans ((keep6 (R6 m d) main_arg12 (by decide)).trans ((keep5 (R5 m d) main_arg12 (by decide)).trans ((keep4 (R4 m d) main_arg12 (by decide)).trans ((keep3 (R3 m d) main_arg12 (by decide)).trans ((keep2 (R2 m d) main_arg12 (by decide)).trans ((keep1 (R1 m d) main_arg12 (by decide)).trans ((keep0 (R0 m d) main_arg12 (by decide)).trans rfl))))))))))))))))))]
  rfl

end Cert.ReferenceIdeal.Walk

end
-- ==== Proof.KernelStage.lean ====
import proofs.«129687_j87179246174626_1_alg».proof.Proof.Gen.KernelIdeal.Skeleton
import proofs.«129687_j87179246174626_1_alg».proof.Proof.GinLayer
import proofs.«129687_j87179246174626_1_alg».proof.Proof.LibRows
import Idealize.ShloMosaic.Lib.ValueLayout
import Idealize.ShloMosaic.Lib.Pipeline.Value

/-!
# The kernel body's arithmetic is three stages of the layer

The body of each pallas call computes, on a `4096 × 64` block `X` of rows, one stage as: the block and the stage's
`64 × 64` matrix (a `1 × 64 × 64` slab of the stack, flattened) rounded to bf16 and multiplied on the matrix unit into a
zero accumulator; the stage's bias (a `1 × 64` slab, flattened and re-expanded) broadcast down the rows and added; a
maximum with the zero splat; the mean broadcast and subtracted; `rsqrt (variance + ε)` computed on the 64-vector,
broadcast, multiplied; scale and shift broadcast, multiplied and added. On the extended reals the roundings are the
identity and the matrix-unit product into zero is the plain sum, so entry `(p, n)` of the stage is `Gin.stage` of row `p`.
The stored block is three such stages applied to the sum of the two input blocks.
-/

noncomputable section

namespace Cert.KernelIdeal.BodyValue

open Cert.KernelIdeal Cert.KernelIdeal.Gen
open Idealize.ShloMosaic Idealize.ShloMosaic.ValueIdx

/-- One stage as the body spells it, on a block `X` and the stage's loaded slabs. -/
def kstage (X : FVec Ideal S4096x64 .f32) (Wb : FVec Ideal S1x64x64 .f32) (b1 μ1 v1 g1 β1 : FVec Ideal S1x64 .f32) : FVec Ideal S4096x64 .f32 :=
  addf (mulf (mulf (subf (maximumf (addf
    (matmul dot_S4096x64_S64x64_S4096x64_1_0_0_1_n_n none (truncf .bf16 X bitsLt_bf16_f32)
      (truncf .bf16 (shapeCast S64x64 Wb shapeCasts_S1x64x64_S64x64) bitsLt_bf16_f32) (constant S4096x64 .f32 0x00000000#32))
    (broadcastTo S4096x64 (shapeCast S1x64 (shapeCast S64 b1 shapeCasts_S1x64_S64) shapeCasts_S64_S1x64) broadcasts_S1x64_S4096x64))
    (broadcast S4096x64 (Scalar.ofBits .f32 0x00000000#32)))
    (broadcastTo S4096x64 (shapeCast S1x64 (shapeCast S64 μ1 shapeCasts_S1x64_S64) shapeCasts_S64_S1x64) broadcasts_S1x64_S4096x64))
    (broadcastTo S4096x64 (shapeCast S1x64 (rsqrt (addf (shapeCast S64 v1 shapeCasts_S1x64_S64) (broadcast S64 (Scalar.ofBits .f32 0x3727C5AC#32))))
      shapeCasts_S64_S1x64) broadcasts_S1x64_S4096x64))
    (broadcastTo S4096x64 (shapeCast S1x64 (shapeCast S64 g1 shapeCasts_S1x64_S64) shapeCasts_S64_S1x64) broadcasts_S1x64_S4096x64))
    (broadcastTo S4096x64 (shapeCast S1x64 (shapeCast S64 β1 shapeCasts_S1x64_S64) shapeCasts_S64_S1x64) broadcasts_S1x64_S4096x64)

/-- A `1 × 64` slab flattened, re-expanded and broadcast down 4096 rows reads, at `(p, n)`, the slab at `(0, n)`. -/
theorem bcast_row_apply (w : FVec Ideal S1x64 .f32) (p : Fin 4096) (n : Fin 64) :
    broadcastTo S4096x64 (shapeCast S1x64 (shapeCast S64 w shapeCasts_S1x64_S64) shapeCasts_S64_S1x64) broadcasts_S1x64_S4096x64 (ix2 p n)
      = w (ix2 (0 : Fin 1) n) := by
  rw [shapeCast_shapeCast]
  exact broadcastTo_1b_ab_apply w broadcasts_S1x64_S4096x64 p n

/-- Entry `(p, n)` of a stage is the layer's stage on row `p`. -/
theorem kstage_apply (X : FVec Ideal S4096x64 .f32) (Wb : FVec Ideal S1x64x64 .f32) (b1 μ1 v1 g1 β1 : FVec Ideal S1x64 .f32)
    (p : Fin 4096) (n : Fin 64) :
    kstage X Wb b1 μ1 v1 g1 β1 (ix2 p n)
      = Cert.Gin.stage (fun k n => Wb (ix3 (0 : Fin 1) k n)) (fun n => b1 (ix2 (0 : Fin 1) n)) (fun n => g1 (ix2 (0 : Fin 1) n))
          (fun n => β1 (ix2 (0 : Fin 1) n)) (fun n => μ1 (ix2 (0 : Fin 1) n)) (fun n => v1 (ix2 (0 : Fin 1) n)) (fun k => X (ix2 p k)) n := by
  have hmm : matmul dot_S4096x64_S64x64_S4096x64_1_0_0_1_n_n none (truncf .bf16 X bitsLt_bf16_f32)
      (truncf .bf16 (shapeCast S64x64 Wb shapeCasts_S1x64x64_S64x64) bitsLt_bf16_f32) (constant S4096x64 .f32 0x00000000#32) (ix2 p n)
      = ∑ k : Fin 64, X (ix2 p k) * Wb (ix3 (0 : Fin 1) k n) := by
    refine (Cert.Lib.Rows.matmul_plain_zero_apply (m := 4096) (k := 64) (n := 64) none (truncf .bf16 X bitsLt_bf16_f32)
      (truncf .bf16 (shapeCast S64x64 Wb shapeCasts_S1x64x64_S64x64) bitsLt_bf16_f32) p n).trans ?_
    refine Finset.sum_congr rfl fun k _ => ?_
    show X (ix2 p k) * shapeCast S64x64 Wb shapeCasts_S1x64x64_S64x64 (ix2 k n) = _
    rw [shapeCast_1ab_ab_apply]
  have hrs : broadcastTo S4096x64 (shapeCast S1x64 (rsqrt (addf (shapeCast S64 v1 shapeCasts_S1x64_S64) (broadcast S64 (Scalar.ofBits .f32 0x3727C5AC#32))))
      shapeCasts_S64_S1x64) broadcasts_S1x64_S4096x64 (ix2 p n)
      = FloatOps.rsqrt (FloatOps.addf (v1 (ix2 (0 : Fin 1) n)) (FloatOps.ofBits .f32 0x3727C5AC#32)) := by
    rw [broadcastTo_1b_ab_apply, shapeCast_a_1a_apply]
    show FloatOps.rsqrt (FloatOps.addf (shapeCast S64 v1 shapeCasts_S1x64_S64 (ix1 n)) _) = _
    rw [shapeCast_1a_a_apply]
    rfl
  unfold kstage Cert.Gin.stage
  show FloatOps.addf (FloatOps.mulf (FloatOps.mulf (FloatOps.subf (FloatOps.maximumf (FloatOps.addf _ _) _) _) _) _) _ = _
  rw [hmm, hrs, bcast_row_apply, bcast_row_apply, bcast_row_apply, bcast_row_apply]
  rfl

/-- The same with the slabs' entries and the block's row named: what the stage reads of them is all that matters. -/
theorem kstage_apply' (X : FVec Ideal S4096x64 .f32) (Wb : FVec Ideal S1x64x64 .f32) (b1 μ1 v1 g1 β1 : FVec Ideal S1x64 .f32)
    (p : Fin 4096) (n : Fin 64) {W' : Fin 64 → Fin 64 → Ideal .f32} {b' g' β' μ' v' x' : Fin 64 → Ideal .f32}
    (hW : ∀ k n, Wb (ix3 (0 : Fin 1) k n) = W' k n) (hb : ∀ n, b1 (ix2 (0 : Fin 1) n) = b' n) (hg : ∀ n, g1 (ix2 (0 : Fin 1) n) = g' n)
    (hβ : ∀ n, β1 (ix2 (0 : Fin 1) n) = β' n) (hμ : ∀ n, μ1 (ix2 (0 : Fin 1) n) = μ' n) (hv : ∀ n, v1 (ix2 (0 : Fin 1) n) = v' n)
    (hx : ∀ k, X (ix2 p k) = x' k) :
    kstage X Wb b1 μ1 v1 g1 β1 (ix2 p n) = Cert.Gin.stage W' b' g' β' μ' v' x' n := by
  rw [kstage_apply]
  have e1 : (fun k n => Wb (ix3 (0 : Fin 1) k n)) = W' := funext fun k => funext fun n => hW k n
  have e2 : (fun n => b1 (ix2 (0 : Fin 1) n)) = b' := funext hb
  have e3 : (fun n => g1 (ix2 (0 : Fin 1) n)) = g' := funext hg
  have e4 : (fun n => β1 (ix2 (0 : Fin 1) n)) = β' := funext hβ
  have e5 : (fun n => μ1 (ix2 (0 : Fin 1) n)) = μ' := funext hμ
  have e6 : (fun n => v1 (ix2 (0 : Fin 1) n)) = v' := funext hv
  have e7 : (fun k => X (ix2 p k)) = x' := funext hx
  rw [e1, e2, e3, e4, e5, e6, e7]

end Cert.KernelIdeal.BodyValue

end
-- ==== Proof.KernelIdealValue0.lean ====
import proofs.«129687_j87179246174626_1_alg».proof.Proof.KernelIdealRegion0
import proofs.«129687_j87179246174626_1_alg».proof.Proof.KernelStage

/-!
# Pallas call 0 computes the layer

At the exact instance, the array call 0 leaves in its result buffer is `Gin.layer` of the arrays it finds in its
eight operands. Point `t` of the grid stores, at `(p, n)` of its block, the three stages applied to row `p` of the two
row blocks it was handed; those are rows `4096 t + p` of the feature and message arrays, and the parameter windows
are the whole parameter arrays at every point; so the block flushed at `t` is rows `4096 t … 4096 t + 4095` of the
layer's result. The fifty blocks tile the `204800` rows, so the fold of the write-backs is the layer's result.
-/

set_option maxRecDepth 16384

noncomputable section

namespace Cert.KernelIdeal.Value0

open Cert.KernelIdeal Cert.KernelIdeal.Gen Cert.KernelIdeal.Region0 Cert.KernelIdeal.BodyValue
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-! ## The stored block, at an entry -/

/-- The stored block is three stages applied to the sum of the two row blocks. -/
theorem stored_eq (x0 x1 : Vec Ideal S4096x64 .f32) (x2 : Vec Ideal S3x64x64 .f32) (x3 x4 x5 x6 x7 : Vec Ideal S3x64 .f32) :
    stored0 x0 x1 x2 x3 x4 x5 x6 x7
      = kstage (kstage (kstage (addf x0 x1) (View.ld x2 rW0) (View.ld x3 rv0) (View.ld x6 rv0) (View.ld x7 rv0) (View.ld x4 rv0) (View.ld x5 rv0))
          (View.ld x2 rW1) (View.ld x3 rv1) (View.ld x6 rv1) (View.ld x7 rv1) (View.ld x4 rv1) (View.ld x5 rv1))
          (View.ld x2 rW2) (View.ld x3 rv2) (View.ld x6 rv2) (View.ld x7 rv2) (View.ld x4 rv2) (View.ld x5 rv2) := by
  unfold stored0 k0_pay1 k0_pay4 k0_pay5 k0_pay2 k0_pay3 kstage
  simp only [View.ld_unit_zero (S := S4096x64) hz2, shapeCast_self]

theorem idxW0 (k n : Fin 64) : rW0.idx (ix3 (0 : Fin 1) k n) = ix3 (0 : Fin 3) k n := by
  funext a; apply Fin.ext
  match a with
  | ⟨0, _⟩ => show 0 + 1 * 0 = 0; rfl
  | ⟨1, _⟩ => show 0 + 1 * k.val = k.val; omega
  | ⟨2, _⟩ => show 0 + 1 * n.val = n.val; omega
theorem idxv0 (n : Fin 64) : rv0.idx (ix2 (0 : Fin 1) n) = ix2 (0 : Fin 3) n := by
  funext a; apply Fin.ext
  match a with
  | ⟨0, _⟩ => show 0 + 1 * 0 = 0; rfl
  | ⟨1, _⟩ => show 0 + 1 * n.val = n.val; omega
theorem ldW0 (x2 : Vec Ideal S3x64x64 .f32) (k n : Fin 64) : View.ld x2 rW0 (ix3 (0 : Fin 1) k n) = x2 (ix3 (0 : Fin 3) k n) :=
  congrArg x2 (idxW0 k n)
theorem ldv0 (x : Vec Ideal S3x64 .f32) (n : Fin 64) : View.ld x rv0 (ix2 (0 : Fin 1) n) = x (ix2 (0 : Fin 3) n) :=
  congrArg x (idxv0 n)
theorem idxW1 (k n : Fin 64) : rW1.idx (ix3 (0 : Fin 1) k n) = ix3 (1 : Fin 3) k n := by
  funext a; apply Fin.ext
  match a with
  | ⟨0, _⟩ => show 1 + 1 * 0 = 1; rfl
  | ⟨1, _⟩ => show 0 + 1 * k.val = k.val; omega
  | ⟨2, _⟩ => show 0 + 1 * n.val = n.val; omega
theorem idxv1 (n : Fin 64) : rv1.idx (ix2 (0 : Fin 1) n) = ix2 (1 : Fin 3) n := by
  funext a; apply Fin.ext
  match a with
  | ⟨0, _⟩ => show 1 + 1 * 0 = 1; rfl
  | ⟨1, _⟩ => show 0 + 1 * n.val = n.val; omega
theorem ldW1 (x2 : Vec Ideal S3x64x64 .f32) (k n : Fin 64) : View.ld x2 rW1 (ix3 (0 : Fin 1) k n) = x2 (ix3 (1 : Fin 3) k n) :=
  congrArg x2 (idxW1 k n)
theorem ldv1 (x : Vec Ideal S3x64 .f32) (n : Fin 64) : View.ld x rv1 (ix2 (0 : Fin 1) n) = x (ix2 (1 : Fin 3) n) :=
  congrArg x (idxv1 n)
theorem idxW2 (k n : Fin 64) : rW2.idx (ix3 (0 : Fin 1) k n) = ix3 (2 : Fin 3) k n := by
  funext a; apply Fin.ext
  match a with
  | ⟨0, _⟩ => show 2 + 1 * 0 = 2; rfl
  | ⟨1, _⟩ => show 0 + 1 * k.val = k.val; omega
  | ⟨2, _⟩ => show 0 + 1 * n.val = n.val; omega
theorem idxv2 (n : Fin 64) : rv2.idx (ix2 (0 : Fin 1) n) = ix2 (2 : Fin 3) n := by
  funext a; apply Fin.ext
  match a with
  | ⟨0, _⟩ => show 2 + 1 * 0 = 2; rfl
  | ⟨1, _⟩ => show 0 + 1 * n.val = n.val; omega
theorem ldW2 (x2 : Vec Ideal S3x64x64 .f32) (k n : Fin 64) : View.ld x2 rW2 (ix3 (0 : Fin 1) k n) = x2 (ix3 (2 : Fin 3) k n) :=
  congrArg x2 (idxW2 k n)
theorem ldv2 (x : Vec Ideal S3x64 .f32) (n : Fin 64) : View.ld x rv2 (ix2 (0 : Fin 1) n) = x (ix2 (2 : Fin 3) n) :=
  congrArg x (idxv2 n)

/-- Entry `(p, q)` of the stored block: the three stages on row `p` of the two blocks' sum, at column `q`. -/
theorem stored_apply (x0 x1 : Vec Ideal S4096x64 .f32) (x2 : Vec Ideal S3x64x64 .f32) (x3 x4 x5 x6 x7 : Vec Ideal S3x64 .f32)
    (p : Fin 4096) (q : Fin 64) :
    stored0 x0 x1 x2 x3 x4 x5 x6 x7 (ix2 p q)
      = Cert.Gin.rowOut x2 x3 x4 x5 x6 x7 (fun k => FloatOps.addf (x0 (ix2 p k)) (x1 (ix2 p k))) q := by
  rw [stored_eq]
  unfold Cert.Gin.rowOut Cert.Gin.stageOf
  exact kstage_apply' _ _ _ _ _ _ _ p q (ldW2 x2) (ldv2 x3) (ldv2 x4) (ldv2 x5) (ldv2 x6) (ldv2 x7) fun k =>
    kstage_apply' _ _ _ _ _ _ _ p k (ldW1 x2) (ldv1 x3) (ldv1 x4) (ldv1 x5) (ldv1 x6) (ldv1 x7) fun k' =>
      kstage_apply' _ _ _ _ _ _ _ p k' (ldW0 x2) (ldv0 x3) (ldv0 x4) (ldv0 x5) (ldv0 x6) (ldv0 x7) fun _ => rfl

/-! ## The windows' blocks, read off the whole arrays -/

/-- How the printed index maps move over the grid: the three row windows sit at block row `t`, column block 0; the
    parameter windows never move. -/
theorem idxf : ∀ t : Fin cfg0.N, win0_0.index t (0 : Fin 2) = t.val ∧ win0_0.index t (1 : Fin 2) = 0
    ∧ win0_1.index t (0 : Fin 2) = t.val ∧ win0_1.index t (1 : Fin 2) = 0
    ∧ win0_8.index t (0 : Fin 2) = t.val ∧ win0_8.index t (1 : Fin 2) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Row `p` of block `t` is row `4096 t + p` of the array. -/
def row (t : Fin cfg0.N) (p : Fin 4096) : Fin 204800 :=
  ⟨t.val * 4096 + p.val, by have h := t.isLt; have hN : cfg0.N = 50 := N_0; have hp := p.isLt; omega⟩

theorem emb0 (t : Fin cfg0.N) (p : Fin 4096) (k : Fin 64) : ((cfg0.win 0).blk t).view.emb (ix2 p k) = ix2 (row t p) k := by
  obtain ⟨e00, e01, e10, e11, e80, e81, -⟩ := idxf t
  funext a; apply Fin.ext
  match a with
  | ⟨0, _⟩ => show win0_0.index t (0 : Fin 2) * 4096 + 1 * p.val = t.val * 4096 + p.val; rw [e00]; omega
  | ⟨1, _⟩ => show win0_0.index t (1 : Fin 2) * 64 + 1 * k.val = k.val; rw [e01]; omega
theorem emb1 (t : Fin cfg0.N) (p : Fin 4096) (k : Fin 64) : ((cfg0.win 1).blk t).view.emb (ix2 p k) = ix2 (row t p) k := by
  obtain ⟨e00, e01, e10, e11, e80, e81, -⟩ := idxf t
  funext a; apply Fin.ext
  match a with
  | ⟨0, _⟩ => show win0_1.index t (0 : Fin 2) * 4096 + 1 * p.val = t.val * 4096 + p.val; rw [e10]; omega
  | ⟨1, _⟩ => show win0_1.index t (1 : Fin 2) * 64 + 1 * k.val = k.val; rw [e11]; omega
theorem emb8 (t : Fin cfg0.N) (p : Fin 4096) (k : Fin 64) : ((cfg0.win 8).blk t).view.emb (ix2 p k) = ix2 (row t p) k := by
  obtain ⟨e00, e01, e10, e11, e80, e81, -⟩ := idxf t
  funext a; apply Fin.ext
  match a with
  | ⟨0, _⟩ => show win0_8.index t (0 : Fin 2) * 4096 + 1 * p.val = t.val * 4096 + p.val; rw [e80]; omega
  | ⟨1, _⟩ => show win0_8.index t (1 : Fin 2) * 64 + 1 * k.val = k.val; rw [e81]; omega
theorem emb2 (t : Fin cfg0.N) (j : Fin 3) (k n : Fin 64) : ((cfg0.win 2).blk t).view.emb (ix3 j k n) = ix3 j k n := by
  obtain ⟨-, -, -, -, -, -, e0, e1, e2, -⟩ := idxf t
  funext a; apply Fin.ext
  match a with
  | ⟨0, _⟩ => show win0_2.index t (0 : Fin 3) * 3 + 1 * j.val = j.val; rw [e0]; omega
  | ⟨1, _⟩ => show win0_2.index t (1 : Fin 3) * 64 + 1 * k.val = k.val; rw [e1]; omega
  | ⟨2, _⟩ => show win0_2.index t (2 : Fin 3) * 64 + 1 * n.val = n.val; rw [e2]; omega
theorem emb3 (t : Fin cfg0.N) (j : Fin 3) (n : Fin 64) : ((cfg0.win 3).blk t).view.emb (ix2 j n) = ix2 j n := by
  have e0 : win0_3.index t (0 : Fin 2) = 0 := by have := idxf t; omega
  have e1 : win0_3.index t (1 : Fin 2) = 0 := by have := idxf t; omega
  funext a; apply Fin.ext
  match a with
  | ⟨0, _⟩ => show win0_3.index t (0 : Fin 2) * 3 + 1 * j.val = j.val; rw [e0]; omega
  | ⟨1, _⟩ => show win0_3.index t (1 : Fin 2) * 64 + 1 * n.val = n.val; rw [e1]; omega
theorem emb4 (t : Fin cfg0.N) (j : Fin 3) (n : Fin 64) : ((cfg0.win 4).blk t).view.emb (ix2 j n) = ix2 j n := by
  have e0 : win0_4.index t (0 : Fin 2) = 0 := by have := idxf t; omega
  have e1 : win0_4.index t (1 : Fin 2) = 0 := by have := idxf t; omega
  funext a; apply Fin.ext
  match a with
  | ⟨0, _⟩ => show win0_4.index t (0 : Fin 2) * 3 + 1 * j.val = j.val; rw [e0]; omega
  | ⟨1, _⟩ => show win0_4.index t (1 : Fin 2) * 64 + 1 * n.val = n.val; rw [e1]; omega
theorem emb5 (t : Fin cfg0.N) (j : Fin 3) (n : Fin 64) : ((cfg0.win 5).blk t).view.emb (ix2 j n) = ix2 j n := by
  have e0 : win0_5.index t (0 : Fin 2) = 0 := by have := idxf t; omega
  have e1 : win0_5.index t (1 : Fin 2) = 0 := by have := idxf t; omega
  funext a; apply Fin.ext
  match a with
  | ⟨0, _⟩ => show win0_5.index t (0 : Fin 2) * 3 + 1 * j.val = j.val; rw [e0]; omega
  | ⟨1, _⟩ => show win0_5.index t (1 : Fin 2) * 64 + 1 * n.val = n.val; rw [e1]; omega
theorem emb6 (t : Fin cfg0.N) (j : Fin 3) (n : Fin 64) : ((cfg0.win 6).blk t).view.emb (ix2 j n) = ix2 j n := by
  have e0 : win0_6.index t (0 : Fin 2) = 0 := by have := idxf t; omega
  have e1 : win0_6.index t (1 : Fin 2) = 0 := by have := idxf t; omega
  funext a; apply Fin.ext
  match a with
  | ⟨0, _⟩ => show win0_6.index t (0 : Fin 2) * 3 + 1 * j.val = j.val; rw [e0]; omega
  | ⟨1, _⟩ => show win0_6.index t (1 : Fin 2) * 64 + 1 * n.val = n.val; rw [e1]; omega
theorem emb7 (t : Fin cfg0.N) (j : Fin 3) (n : Fin 64) : ((cfg0.win 7).blk t).view.emb (ix2 j n) = ix2 j n := by
  have e0 : win0_7.index t (0 : Fin 2) = 0 := by have := idxf t; omega
  have e1 : win0_7.index t (1 : Fin 2) = 0 := by have := idxf t; omega
  funext a; apply Fin.ext
  match a with
  | ⟨0, _⟩ => show win0_7.index t (0 : Fin 2) * 3 + 1 * j.val = j.val; rw [e0]; omega
  | ⟨1, _⟩ => show win0_7.index t (1 : Fin 2) * 64 + 1 * n.val = n.val; rw [e1]; omega

/-- The two row windows' blocks at an entry: the array at row `4096 t + p`. -/
theorem iblk_0 (c : Dev nD) (t : Fin cfg0.N) (p : Fin 4096) (k : Fin 64) : iblk0 V c 0 t (ix2 p k) = V c main_v4 (ix2 (row t p) k) := by
  show V c main_v4 (((cfg0.win 0).blk t).view.emb (ix2 p k)) = _
  rw [emb0]
theorem iblk_1 (c : Dev nD) (t : Fin cfg0.N) (p : Fin 4096) (k : Fin 64) : iblk0 V c 1 t (ix2 p k) = V c main_v14 (ix2 (row t p) k) := by
  show V c main_v14 (((cfg0.win 1).blk t).view.emb (ix2 p k)) = _
  rw [emb1]
/-- The parameter windows' blocks are the whole parameter arrays. -/
theorem iblk_2 (c : Dev nD) (t : Fin cfg0.N) : (iblk0 V c 2 t : Vec Ideal S3x64x64 .f32) = V c main_v16 := by
  funext y
  obtain ⟨j, k, n, rfl⟩ : ∃ (j : Fin 3) (k n : Fin 64), y = ix3 j k n := ⟨y 0, y 1, y 2, eq_ix3 y⟩
  show V c main_v16 (((cfg0.win 2).blk t).view.emb (ix3 j k n)) = _
  rw [emb2]
theorem iblk_3 (c : Dev nD) (t : Fin cfg0.N) : (iblk0 V c 3 t : Vec Ideal S3x64 .f32) = V c main_v18 := by
  funext y
  obtain ⟨j, n, rfl⟩ : ∃ (j : Fin 3) (n : Fin 64), y = ix2 j n := ⟨y 0, y 1, eq_ix2 y⟩
  show V c main_v18 (((cfg0.win 3).blk t).view.emb (ix2 j n)) = _
  rw [emb3]
theorem iblk_4 (c : Dev nD) (t : Fin cfg0.N) : (iblk0 V c 4 t : Vec Ideal S3x64 .f32) = V c main_v20 := by
  funext y
  obtain ⟨j, n, rfl⟩ : ∃ (j : Fin 3) (n : Fin 64), y = ix2 j n := ⟨y 0, y 1, eq_ix2 y⟩
  show V c main_v20 (((cfg0.win 4).blk t).view.emb (ix2 j n)) = _
  rw [emb4]
theorem iblk_5 (c : Dev nD) (t : Fin cfg0.N) : (iblk0 V c 5 t : Vec Ideal S3x64 .f32) = V c main_v22 := by
  funext y
  obtain ⟨j, n, rfl⟩ : ∃ (j : Fin 3) (n : Fin 64), y = ix2 j n := ⟨y 0, y 1, eq_ix2 y⟩
  show V c main_v22 (((cfg0.win 5).blk t).view.emb (ix2 j n)) = _
  rw [emb5]
theorem iblk_6 (c : Dev nD) (t : Fin cfg0.N) : (iblk0 V c 6 t : Vec Ideal S3x64 .f32) = V c main_v24 := by
  funext y
  obtain ⟨j, n, rfl⟩ : ∃ (j : Fin 3) (n : Fin 64), y = ix2 j n := ⟨y 0, y 1, eq_ix2 y⟩
  show V c main_v24 (((cfg0.win 6).blk t).view.emb (ix2 j n)) = _
  rw [emb6]
theorem iblk_7 (c : Dev nD) (t : Fin cfg0.N) : (iblk0 V c 7 t : Vec Ideal S3x64 .f32) = V c main_v26 := by
  funext y
  obtain ⟨j, n, rfl⟩ : ∃ (j : Fin 3) (n : Fin 64), y = ix2 j n := ⟨y 0, y 1, eq_ix2 y⟩
  show V c main_v26 (((cfg0.win 7).blk t).view.emb (ix2 j n)) = _
  rw [emb7]

/-! ## The flushed blocks and the whole array -/

/-- The layer's result on the arrays the call finds. -/
abbrev G (c : Dev nD) : S204800x64.Idx → Ideal .f32 :=
  Cert.Gin.layer (V c main_v4) (V c main_v14) (V c main_v16) (V c main_v18) (V c main_v20) (V c main_v22) (V c main_v24) (V c main_v26)

/-- What point `t` writes back is block `t` of the layer's result. -/
theorem flushed_eq (c : Dev nD) (t : Fin cfg0.N) :
    (dat0 V c).flushed 8 t = ((cfg0.win 8).blk t).view.read (Elt Ideal) (G V c) := by
  show (cfg0.win 8).cut (grid0.coords t) ((dat0 V c).after 8 t) = _
  rw [after0_8]
  unfold out0_8
  rw [View.canon_unit_zero hz2]
  funext y
  obtain ⟨p, q, rfl⟩ : ∃ (p : Fin 4096) (q : Fin 64), y = ix2 p q := ⟨y 0, y 1, eq_ix2 y⟩
  show stored0 (iblk0 V c 0 t) (iblk0 V c 1 t) (iblk0 V c 2 t) (iblk0 V c 3 t) (iblk0 V c 4 t) (iblk0 V c 5 t) (iblk0 V c 6 t) (iblk0 V c 7 t) (ix2 p q)
    = G V c (((cfg0.win 8).blk t).view.emb (ix2 p q))
  rw [stored_apply, emb8, iblk_2, iblk_3, iblk_4, iblk_5, iblk_6, iblk_7]
  show _ = Cert.Gin.rowOut _ _ _ _ _ _ (fun k => FloatOps.addf (V c main_v4 (ix2 (row t p) k)) (V c main_v14 (ix2 (row t p) k))) q
  refine congrArg (fun x => Cert.Gin.rowOut _ _ _ _ _ _ x q) (funext fun k => ?_)
  rw [iblk_0, iblk_1]

/-- An index of the result array is in point `t`'s block iff each coordinate is in the block's range. -/
theorem mem_blk (t : Fin cfg0.N) (i : S204800x64.Idx) :
    i ∈ ((cfg0.win 8).blk t).view.set ↔ ∀ a : Fin 2, win0_8.index t a * S4096x64.size a ≤ (i a).val ∧ (i a).val < win0_8.index t a * S4096x64.size a + S4096x64.size a := by
  show i ∈ ((View.whole main_v27).slice (win0_8.rect t)).set ↔ _
  rw [View.set_slice_whole, Rect.mem_set_unit]
  exact Iff.rfl

/-- Every entry of the result lies in the block of point `row / 4096`. -/
theorem cover (i : S204800x64.Idx) : ∃ t : Fin cfg0.N, (cfg0.win 8).flush t = true ∧ i ∈ ((cfg0.win 8).blk t).view.set := by
  have hi0 : (i 0).val < 204800 := (i 0).isLt
  have hi1 : (i 1).val < 64 := (i 1).isLt
  have hN : cfg0.N = 50 := N_0
  let t : Fin cfg0.N := ⟨(i 0).val / 4096, by rw [hN]; omega⟩
  refine ⟨t, flush0_8 t, ?_⟩
  rw [mem_blk]
  obtain ⟨-, -, -, -, e80, e81, -⟩ := idxf t
  intro a
  match a with
  | ⟨0, _⟩ =>
    show win0_8.index t (0 : Fin 2) * 4096 ≤ (i 0).val ∧ (i 0).val < win0_8.index t (0 : Fin 2) * 4096 + 4096
    rw [e80]; show (i 0).val / 4096 * 4096 ≤ (i 0).val ∧ (i 0).val < (i 0).val / 4096 * 4096 + 4096; omega
  | ⟨1, _⟩ =>
    show win0_8.index t (1 : Fin 2) * 64 ≤ (i 1).val ∧ (i 1).val < win0_8.index t (1 : Fin 2) * 64 + 64
    rw [e81]; omega

/-- The result array after the call is the layer's result on the arrays the call finds. -/
theorem final (c : Dev nD) : (dat0 V c).arrAt 8 cfg0.N = G V c :=
  (dat0 V c).arrAt_eq_of_cover 8 (G V c) (fun t _ => flushed_eq V c t) (cover)

end Cert.KernelIdeal.Value0

end
-- ==== Proof.KernelIdealValue1.lean ====
import proofs.«129687_j87179246174626_1_alg».proof.Proof.KernelIdealRegion1
import proofs.«129687_j87179246174626_1_alg».proof.Proof.KernelStage

/-!
# Pallas call 1 computes the layer

At the exact instance, the array call 1 leaves in its result buffer is `Gin.layer` of the arrays it finds in its
eight operands. Point `t` of the grid stores, at `(p, n)` of its block, the three stages applied to row `p` of the two
row blocks it was handed; those are rows `4096 t + p` of the feature and message arrays, and the parameter windows
are the whole parameter arrays at every point; so the block flushed at `t` is rows `4096 t … 4096 t + 4095` of the
layer's result. The fifty blocks tile the `204800` rows, so the fold of the write-backs is the layer's result.
-/

set_option maxRecDepth 16384

noncomputable section

namespace Cert.KernelIdeal.Value1

open Cert.KernelIdeal Cert.KernelIdeal.Gen Cert.KernelIdeal.Region1 Cert.KernelIdeal.BodyValue
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-! ## The stored block, at an entry -/

/-- The stored block is three stages applied to the sum of the two row blocks. -/
theorem stored_eq (x0 x1 : Vec Ideal S4096x64 .f32) (x2 : Vec Ideal S3x64x64 .f32) (x3 x4 x5 x6 x7 : Vec Ideal S3x64 .f32) :
    stored1 x0 x1 x2 x3 x4 x5 x6 x7
      = kstage (kstage (kstage (addf x0 x1) (View.ld x2 rW0) (View.ld x3 rv0) (View.ld x6 rv0) (View.ld x7 rv0) (View.ld x4 rv0) (View.ld x5 rv0))
          (View.ld x2 rW1) (View.ld x3 rv1) (View.ld x6 rv1) (View.ld x7 rv1) (View.ld x4 rv1) (View.ld x5 rv1))
          (View.ld x2 rW2) (View.ld x3 rv2) (View.ld x6 rv2) (View.ld x7 rv2) (View.ld x4 rv2) (View.ld x5 rv2) := by
  unfold stored1 k1_pay1 k1_pay4 k1_pay5 k1_pay2 k1_pay3 kstage
  simp only [View.ld_unit_zero (S := S4096x64) hz2, shapeCast_self]

theorem idxW0 (k n : Fin 64) : rW0.idx (ix3 (0 : Fin 1) k n) = ix3 (0 : Fin 3) k n := by
  funext a; apply Fin.ext
  match a with
  | ⟨0, _⟩ => show 0 + 1 * 0 = 0; rfl
  | ⟨1, _⟩ => show 0 + 1 * k.val = k.val; omega
  | ⟨2, _⟩ => show 0 + 1 * n.val = n.val; omega
theorem idxv0 (n : Fin 64) : rv0.idx (ix2 (0 : Fin 1) n) = ix2 (0 : Fin 3) n := by
  funext a; apply Fin.ext
  match a with
  | ⟨0, _⟩ => show 0 + 1 * 0 = 0; rfl
  | ⟨1, _⟩ => show 0 + 1 * n.val = n.val; omega
theorem ldW0 (x2 : Vec Ideal S3x64x64 .f32) (k n : Fin 64) : View.ld x2 rW0 (ix3 (0 : Fin 1) k n) = x2 (ix3 (0 : Fin 3) k n) :=
  congrArg x2 (idxW0 k n)
theorem ldv0 (x : Vec Ideal S3x64 .f32) (n : Fin 64) : View.ld x rv0 (ix2 (0 : Fin 1) n) = x (ix2 (0 : Fin 3) n) :=
  congrArg x (idxv0 n)
theorem idxW1 (k n : Fin 64) : rW1.idx (ix3 (0 : Fin 1) k n) = ix3 (1 : Fin 3) k n := by
  funext a; apply Fin.ext
  match a with
  | ⟨0, _⟩ => show 1 + 1 * 0 = 1; rfl
  | ⟨1, _⟩ => show 0 + 1 * k.val = k.val; omega
  | ⟨2, _⟩ => show 0 + 1 * n.val = n.val; omega
theorem idxv1 (n : Fin 64) : rv1.idx (ix2 (0 : Fin 1) n) = ix2 (1 : Fin 3) n := by
  funext a; apply Fin.ext
  match a with
  | ⟨0, _⟩ => show 1 + 1 * 0 = 1; rfl
  | ⟨1, _⟩ => show 0 + 1 * n.val = n.val; omega
theorem ldW1 (x2 : Vec Ideal S3x64x64 .f32) (k n : Fin 64) : View.ld x2 rW1 (ix3 (0 : Fin 1) k n) = x2 (ix3 (1 : Fin 3) k n) :=
  congrArg x2 (idxW1 k n)
theorem ldv1 (x : Vec Ideal S3x64 .f32) (n : Fin 64) : View.ld x rv1 (ix2 (0 : Fin 1) n) = x (ix2 (1 : Fin 3) n) :=
  congrArg x (idxv1 n)
theorem idxW2 (k n : Fin 64) : rW2.idx (ix3 (0 : Fin 1) k n) = ix3 (2 : Fin 3) k n := by
  funext a; apply Fin.ext
  match a with
  | ⟨0, _⟩ => show 2 + 1 * 0 = 2; rfl
  | ⟨1, _⟩ => show 0 + 1 * k.val = k.val; omega
  | ⟨2, _⟩ => show 0 + 1 * n.val = n.val; omega
theorem idxv2 (n : Fin 64) : rv2.idx (ix2 (0 : Fin 1) n) = ix2 (2 : Fin 3) n := by
  funext a; apply Fin.ext
  match a with
  | ⟨0, _⟩ => show 2 + 1 * 0 = 2; rfl
  | ⟨1, _⟩ => show 0 + 1 * n.val = n.val; omega
theorem ldW2 (x2 : Vec Ideal S3x64x64 .f32) (k n : Fin 64) : View.ld x2 rW2 (ix3 (0 : Fin 1) k n) = x2 (ix3 (2 : Fin 3) k n) :=
  congrArg x2 (idxW2 k n)
theorem ldv2 (x : Vec Ideal S3x64 .f32) (n : Fin 64) : View.ld x rv2 (ix2 (0 : Fin 1) n) = x (ix2 (2 : Fin 3) n) :=
  congrArg x (idxv2 n)

/-- Entry `(p, q)` of the stored block: the three stages on row `p` of the two blocks' sum, at column `q`. -/
theorem stored_apply (x0 x1 : Vec Ideal S4096x64 .f32) (x2 : Vec Ideal S3x64x64 .f32) (x3 x4 x5 x6 x7 : Vec Ideal S3x64 .f32)
    (p : Fin 4096) (q : Fin 64) :
    stored1 x0 x1 x2 x3 x4 x5 x6 x7 (ix2 p q)
      = Cert.Gin.rowOut x2 x3 x4 x5 x6 x7 (fun k => FloatOps.addf (x0 (ix2 p k)) (x1 (ix2 p k))) q := by
  rw [stored_eq]
  unfold Cert.Gin.rowOut Cert.Gin.stageOf
  exact kstage_apply' _ _ _ _ _ _ _ p q (ldW2 x2) (ldv2 x3) (ldv2 x4) (ldv2 x5) (ldv2 x6) (ldv2 x7) fun k =>
    kstage_apply' _ _ _ _ _ _ _ p k (ldW1 x2) (ldv1 x3) (ldv1 x4) (ldv1 x5) (ldv1 x6) (ldv1 x7) fun k' =>
      kstage_apply' _ _ _ _ _ _ _ p k' (ldW0 x2) (ldv0 x3) (ldv0 x4) (ldv0 x5) (ldv0 x6) (ldv0 x7) fun _ => rfl

/-! ## The windows' blocks, read off the whole arrays -/

/-- How the printed index maps move over the grid: the three row windows sit at block row `t`, column block 0; the
    parameter windows never move. -/
theorem idxf : ∀ t : Fin cfg1.N, win1_0.index t (0 : Fin 2) = t.val ∧ win1_0.index t (1 : Fin 2) = 0
    ∧ win1_1.index t (0 : Fin 2) = t.val ∧ win1_1.index t (1 : Fin 2) = 0
    ∧ win1_8.index t (0 : Fin 2) = t.val ∧ win1_8.index t (1 : Fin 2) = 0
    ∧ win1_2.index t (0 : Fin 3) = 0 ∧ win1_2.index t (1 : Fin 3) = 0 ∧ win1_2.index t (2 : Fin 3) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

/-- Row `p` of block `t` is row `4096 t + p` of the array. -/
def row (t : Fin cfg1.N) (p : Fin 4096) : Fin 204800 :=
  ⟨t.val * 4096 + p.val, by have h := t.isLt; have hN : cfg1.N = 50 := N_1; have hp := p.isLt; omega⟩

theorem emb0 (t : Fin cfg1.N) (p : Fin 4096) (k : Fin 64) : ((cfg1.win 0).blk t).view.emb (ix2 p k) = ix2 (row t p) k := by
  obtain ⟨e00, e01, e10, e11, e80, e81, -⟩ := idxf t
  funext a; apply Fin.ext
  match a with
  | ⟨0, _⟩ => show win1_0.index t (0 : Fin 2) * 4096 + 1 * p.val = t.val * 4096 + p.val; rw [e00]; omega
  | ⟨1, _⟩ => show win1_0.index t (1 : Fin 2) * 64 + 1 * k.val = k.val; rw [e01]; omega
theorem emb1 (t : Fin cfg1.N) (p : Fin 4096) (k : Fin 64) : ((cfg1.win 1).blk t).view.emb (ix2 p k) = ix2 (row t p) k := by
  obtain ⟨e00, e01, e10, e11, e80, e81, -⟩ := idxf t
  funext a; apply Fin.ext
  match a with
  | ⟨0, _⟩ => show win1_1.index t (0 : Fin 2) * 4096 + 1 * p.val = t.val * 4096 + p.val; rw [e10]; omega
  | ⟨1, _⟩ => show win1_1.index t (1 : Fin 2) * 64 + 1 * k.val = k.val; rw [e11]; omega
theorem emb8 (t : Fin cfg1.N) (p : Fin 4096) (k : Fin 64) : ((cfg1.win 8).blk t).view.emb (ix2 p k) = ix2 (row t p) k := by
  obtain ⟨e00, e01, e10, e11, e80, e81, -⟩ := idxf t
  funext a; apply Fin.ext
  match a with
  | ⟨0, _⟩ => show win1_8.index t (0 : Fin 2) * 4096 + 1 * p.val = t.val * 4096 + p.val; rw [e80]; omega
  | ⟨1, _⟩ => show win1_8.index t (1 : Fin 2) * 64 + 1 * k.val = k.val; rw [e81]; omega
theorem emb2 (t : Fin cfg1.N) (j : Fin 3) (k n : Fin 64) : ((cfg1.win 2).blk t).view.emb (ix3 j k n) = ix3 j k n := by
  obtain ⟨-, -, -, -, -, -, e0, e1, e2, -⟩ := idxf t
  funext a; apply Fin.ext
  match a with
  | ⟨0, _⟩ => show win1_2.index t (0 : Fin 3) * 3 + 1 * j.val = j.val; rw [e0]; omega
  | ⟨1, _⟩ => show win1_2.index t (1 : Fin 3) * 64 + 1 * k.val = k.val; rw [e1]; omega
  | ⟨2, _⟩ => show win1_2.index t (2 : Fin 3) * 64 + 1 * n.val = n.val; rw [e2]; omega
theorem emb3 (t : Fin cfg1.N) (j : Fin 3) (n : Fin 64) : ((cfg1.win 3).blk t).view.emb (ix2 j n) = ix2 j n := by
  have e0 : win1_3.index t (0 : Fin 2) = 0 := by have := idxf t; omega
  have e1 : win1_3.index t (1 : Fin 2) = 0 := by have := idxf t; omega
  funext a; apply Fin.ext
  match a with
  | ⟨0, _⟩ => show win1_3.index t (0 : Fin 2) * 3 + 1 * j.val = j.val; rw [e0]; omega
  | ⟨1, _⟩ => show win1_3.index t (1 : Fin 2) * 64 + 1 * n.val = n.val; rw [e1]; omega
theorem emb4 (t : Fin cfg1.N) (j : Fin 3) (n : Fin 64) : ((cfg1.win 4).blk t).view.emb (ix2 j n) = ix2 j n := by
  have e0 : win1_4.index t (0 : Fin 2) = 0 := by have := idxf t; omega
  have e1 : win1_4.index t (1 : Fin 2) = 0 := by have := idxf t; omega
  funext a; apply Fin.ext
  match a with
  | ⟨0, _⟩ => show win1_4.index t (0 : Fin 2) * 3 + 1 * j.val = j.val; rw [e0]; omega
  | ⟨1, _⟩ => show win1_4.index t (1 : Fin 2) * 64 + 1 * n.val = n.val; rw [e1]; omega
theorem emb5 (t : Fin cfg1.N) (j : Fin 3) (n : Fin 64) : ((cfg1.win 5).blk t).view.emb (ix2 j n) = ix2 j n := by
  have e0 : win1_5.index t (0 : Fin 2) = 0 := by have := idxf t; omega
  have e1 : win1_5.index t (1 : Fin 2) = 0 := by have := idxf t; omega
  funext a; apply Fin.ext
  match a with
  | ⟨0, _⟩ => show win1_5.index t (0 : Fin 2) * 3 + 1 * j.val = j.val; rw [e0]; omega
  | ⟨1, _⟩ => show win1_5.index t (1 : Fin 2) * 64 + 1 * n.val = n.val; rw [e1]; omega
theorem emb6 (t : Fin cfg1.N) (j : Fin 3) (n : Fin 64) : ((cfg1.win 6).blk t).view.emb (ix2 j n) = ix2 j n := by
  have e0 : win1_6.index t (0 : Fin 2) = 0 := by have := idxf t; omega
  have e1 : win1_6.index t (1 : Fin 2) = 0 := by have := idxf t; omega
  funext a; apply Fin.ext
  match a with
  | ⟨0, _⟩ => show win1_6.index t (0 : Fin 2) * 3 + 1 * j.val = j.val; rw [e0]; omega
  | ⟨1, _⟩ => show win1_6.index t (1 : Fin 2) * 64 + 1 * n.val = n.val; rw [e1]; omega
theorem emb7 (t : Fin cfg1.N) (j : Fin 3) (n : Fin 64) : ((cfg1.win 7).blk t).view.emb (ix2 j n) = ix2 j n := by
  have e0 : win1_7.index t (0 : Fin 2) = 0 := by have := idxf t; omega
  have e1 : win1_7.index t (1 : Fin 2) = 0 := by have := idxf t; omega
  funext a; apply Fin.ext
  match a with
  | ⟨0, _⟩ => show win1_7.index t (0 : Fin 2) * 3 + 1 * j.val = j.val; rw [e0]; omega
  | ⟨1, _⟩ => show win1_7.index t (1 : Fin 2) * 64 + 1 * n.val = n.val; rw [e1]; omega

/-- The two row windows' blocks at an entry: the array at row `4096 t + p`. -/
theorem iblk_0 (c : Dev nD) (t : Fin cfg1.N) (p : Fin 4096) (k : Fin 64) : iblk1 V c 0 t (ix2 p k) = V c main_v27 (ix2 (row t p) k) := by
  show V c main_v27 (((cfg1.win 0).blk t).view.emb (ix2 p k)) = _
  rw [emb0]
theorem iblk_1 (c : Dev nD) (t : Fin cfg1.N) (p : Fin 4096) (k : Fin 64) : iblk1 V c 1 t (ix2 p k) = V c main_v39 (ix2 (row t p) k) := by
  show V c main_v39 (((cfg1.win 1).blk t).view.emb (ix2 p k)) = _
  rw [emb1]
/-- The parameter windows' blocks are the whole parameter arrays. -/
theorem iblk_2 (c : Dev nD) (t : Fin cfg1.N) : (iblk1 V c 2 t : Vec Ideal S3x64x64 .f32) = V c main_v41 := by
  funext y
  obtain ⟨j, k, n, rfl⟩ : ∃ (j : Fin 3) (k n : Fin 64), y = ix3 j k n := ⟨y 0, y 1, y 2, eq_ix3 y⟩
  show V c main_v41 (((cfg1.win 2).blk t).view.emb (ix3 j k n)) = _
  rw [emb2]
theorem iblk_3 (c : Dev nD) (t : Fin cfg1.N) : (iblk1 V c 3 t : Vec Ideal S3x64 .f32) = V c main_v43 := by
  funext y
  obtain ⟨j, n, rfl⟩ : ∃ (j : Fin 3) (n : Fin 64), y = ix2 j n := ⟨y 0, y 1, eq_ix2 y⟩
  show V c main_v43 (((cfg1.win 3).blk t).view.emb (ix2 j n)) = _
  rw [emb3]
theorem iblk_4 (c : Dev nD) (t : Fin cfg1.N) : (iblk1 V c 4 t : Vec Ideal S3x64 .f32) = V c main_v45 := by
  funext y
  obtain ⟨j, n, rfl⟩ : ∃ (j : Fin 3) (n : Fin 64), y = ix2 j n := ⟨y 0, y 1, eq_ix2 y⟩
  show V c main_v45 (((cfg1.win 4).blk t).view.emb (ix2 j n)) = _
  rw [emb4]
theorem iblk_5 (c : Dev nD) (t : Fin cfg1.N) : (iblk1 V c 5 t : Vec Ideal S3x64 .f32) = V c main_v47 := by
  funext y
  obtain ⟨j, n, rfl⟩ : ∃ (j : Fin 3) (n : Fin 64), y = ix2 j n := ⟨y 0, y 1, eq_ix2 y⟩
  show V c main_v47 (((cfg1.win 5).blk t).view.emb (ix2 j n)) = _
  rw [emb5]
theorem iblk_6 (c : Dev nD) (t : Fin cfg1.N) : (iblk1 V c 6 t : Vec Ideal S3x64 .f32) = V c main_v49 := by
  funext y
  obtain ⟨j, n, rfl⟩ : ∃ (j : Fin 3) (n : Fin 64), y = ix2 j n := ⟨y 0, y 1, eq_ix2 y⟩
  show V c main_v49 (((cfg1.win 6).blk t).view.emb (ix2 j n)) = _
  rw [emb6]
theorem iblk_7 (c : Dev nD) (t : Fin cfg1.N) : (iblk1 V c 7 t : Vec Ideal S3x64 .f32) = V c main_v51 := by
  funext y
  obtain ⟨j, n, rfl⟩ : ∃ (j : Fin 3) (n : Fin 64), y = ix2 j n := ⟨y 0, y 1, eq_ix2 y⟩
  show V c main_v51 (((cfg1.win 7).blk t).view.emb (ix2 j n)) = _
  rw [emb7]

/-! ## The flushed blocks and the whole array -/

/-- The layer's result on the arrays the call finds. -/
abbrev G (c : Dev nD) : S204800x64.Idx → Ideal .f32 :=
  Cert.Gin.layer (V c main_v27) (V c main_v39) (V c main_v41) (V c main_v43) (V c main_v45) (V c main_v47) (V c main_v49) (V c main_v51)

/-- What point `t` writes back is block `t` of the layer's result. -/
theorem flushed_eq (c : Dev nD) (t : Fin cfg1.N) :
    (dat1 V c).flushed 8 t = ((cfg1.win 8).blk t).view.read (Elt Ideal) (G V c) := by
  show (cfg1.win 8).cut (grid1.coords t) ((dat1 V c).after 8 t) = _
  rw [after1_8]
  unfold out1_8
  rw [View.canon_unit_zero hz2]
  funext y
  obtain ⟨p, q, rfl⟩ : ∃ (p : Fin 4096) (q : Fin 64), y = ix2 p q := ⟨y 0, y 1, eq_ix2 y⟩
  show stored1 (iblk1 V c 0 t) (iblk1 V c 1 t) (iblk1 V c 2 t) (iblk1 V c 3 t) (iblk1 V c 4 t) (iblk1 V c 5 t) (iblk1 V c 6 t) (iblk1 V c 7 t) (ix2 p q)
    = G V c (((cfg1.win 8).blk t).view.emb (ix2 p q))
  rw [stored_apply, emb8, iblk_2, iblk_3, iblk_4, iblk_5, iblk_6, iblk_7]
  show _ = Cert.Gin.rowOut _ _ _ _ _ _ (fun k => FloatOps.addf (V c main_v27 (ix2 (row t p) k)) (V c main_v39 (ix2 (row t p) k))) q
  refine congrArg (fun x => Cert.Gin.rowOut _ _ _ _ _ _ x q) (funext fun k => ?_)
  rw [iblk_0, iblk_1]

/-- An index of the result array is in point `t`'s block iff each coordinate is in the block's range. -/
theorem mem_blk (t : Fin cfg1.N) (i : S204800x64.Idx) :
    i ∈ ((cfg1.win 8).blk t).view.set ↔ ∀ a : Fin 2, win1_8.index t a * S4096x64.size a ≤ (i a).val ∧ (i a).val < win1_8.index t a * S4096x64.size a + S4096x64.size a := by
  show i ∈ ((View.whole main_v52).slice (win1_8.rect t)).set ↔ _
  rw [View.set_slice_whole, Rect.mem_set_unit]
  exact Iff.rfl

/-- Every entry of the result lies in the block of point `row / 4096`. -/
theorem cover (i : S204800x64.Idx) : ∃ t : Fin cfg1.N, (cfg1.win 8).flush t = true ∧ i ∈ ((cfg1.win 8).blk t).view.set := by
  have hi0 : (i 0).val < 204800 := (i 0).isLt
  have hi1 : (i 1).val < 64 := (i 1).isLt
  have hN : cfg1.N = 50 := N_1
  let t : Fin cfg1.N := ⟨(i 0).val / 4096, by rw [hN]; omega⟩
  refine ⟨t, flush1_8 t, ?_⟩
  rw [mem_blk]
  obtain ⟨-, -, -, -, e80, e81, -⟩ := idxf t
  intro a
  match a with
  | ⟨0, _⟩ =>
    show win1_8.index t (0 : Fin 2) * 4096 ≤ (i 0).val ∧ (i 0).val < win1_8.index t (0 : Fin 2) * 4096 + 4096
    rw [e80]; show (i 0).val / 4096 * 4096 ≤ (i 0).val ∧ (i 0).val < (i 0).val / 4096 * 4096 + 4096; omega
  | ⟨1, _⟩ =>
    show win1_8.index t (1 : Fin 2) * 64 ≤ (i 1).val ∧ (i 1).val < win1_8.index t (1 : Fin 2) * 64 + 64
    rw [e81]; omega

/-- The result array after the call is the layer's result on the arrays the call finds. -/
theorem final (c : Dev nD) : (dat1 V c).arrAt 8 cfg1.N = G V c :=
  (dat1 V c).arrAt_eq_of_cover 8 (G V c) (fun t _ => flushed_eq V c t) (cover)

end Cert.KernelIdeal.Value1

end
-- ==== Proof.KernelIdealValue2.lean ====
import proofs.«129687_j87179246174626_1_alg».proof.Proof.KernelIdealRegion2
import proofs.«129687_j87179246174626_1_alg».proof.Proof.KernelStage

/-!
# Pallas call 2 computes the layer

At the exact instance, the array call 2 leaves in its result buffer is `Gin.layer` of the arrays it finds in its
eight operands. Point `t` of the grid stores, at `(p, n)` of its block, the three stages applied to row `p` of the two
row blocks it was handed; those are rows `4096 t + p` of the feature and message arrays, and the parameter windows
are the whole parameter arrays at every point; so the block flushed at `t` is rows `4096 t … 4096 t + 4095` of the
layer's result. The fifty blocks tile the `204800` rows, so the fold of the write-backs is the layer's result.
-/

set_option maxRecDepth 16384

noncomputable section

namespace Cert.KernelIdeal.Value2

open Cert.KernelIdeal Cert.KernelIdeal.Gen Cert.KernelIdeal.Region2 Cert.KernelIdeal.BodyValue
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-! ## The stored block, at an entry -/

/-- The stored block is three stages applied to the sum of the two row blocks. -/
theorem stored_eq (x0 x1 : Vec Ideal S4096x64 .f32) (x2 : Vec Ideal S3x64x64 .f32) (x3 x4 x5 x6 x7 : Vec Ideal S3x64 .f32) :
    stored2 x0 x1 x2 x3 x4 x5 x6 x7
      = kstage (kstage (kstage (addf x0 x1) (View.ld x2 rW0) (View.ld x3 rv0) (View.ld x6 rv0) (View.ld x7 rv0) (View.ld x4 rv0) (View.ld x5 rv0))
          (View.ld x2 rW1) (View.ld x3 rv1) (View.ld x6 rv1) (View.ld x7 rv1) (View.ld x4 rv1) (View.ld x5 rv1))
          (View.ld x2 rW2) (View.ld x3 rv2) (View.ld x6 rv2) (View.ld x7 rv2) (View.ld x4 rv2) (View.ld x5 rv2) := by
  unfold stored2 k2_pay1 k2_pay4 k2_pay5 k2_pay2 k2_pay3 kstage
  simp only [View.ld_unit_zero (S := S4096x64) hz2, shapeCast_self]

theorem idxW0 (k n : Fin 64) : rW0.idx (ix3 (0 : Fin 1) k n) = ix3 (0 : Fin 3) k n := by
  funext a; apply Fin.ext
  match a with
  | ⟨0, _⟩ => show 0 + 1 * 0 = 0; rfl
  | ⟨1, _⟩ => show 0 + 1 * k.val = k.val; omega
  | ⟨2, _⟩ => show 0 + 1 * n.val = n.val; omega
theorem idxv0 (n : Fin 64) : rv0.idx (ix2 (0 : Fin 1) n) = ix2 (0 : Fin 3) n := by
  funext a; apply Fin.ext
  match a with
  | ⟨0, _⟩ => show 0 + 1 * 0 = 0; rfl
  | ⟨1, _⟩ => show 0 + 1 * n.val = n.val; omega
theorem ldW0 (x2 : Vec Ideal S3x64x64 .f32) (k n : Fin 64) : View.ld x2 rW0 (ix3 (0 : Fin 1) k n) = x2 (ix3 (0 : Fin 3) k n) :=
  congrArg x2 (idxW0 k n)
theorem ldv0 (x : Vec Ideal S3x64 .f32) (n : Fin 64) : View.ld x rv0 (ix2 (0 : Fin 1) n) = x (ix2 (0 : Fin 3) n) :=
  congrArg x (idxv0 n)
theorem idxW1 (k n : Fin 64) : rW1.idx (ix3 (0 : Fin 1) k n) = ix3 (1 : Fin 3) k n := by
  funext a; apply Fin.ext
  match a with
  | ⟨0, _⟩ => show 1 + 1 * 0 = 1; rfl
  | ⟨1, _⟩ => show 0 + 1 * k.val = k.val; omega
  | ⟨2, _⟩ => show 0 + 1 * n.val = n.val; omega
theorem idxv1 (n : Fin 64) : rv1.idx (ix2 (0 : Fin 1) n) = ix2 (1 : Fin 3) n := by
  funext a; apply Fin.ext
  match a with
  | ⟨0, _⟩ => show 1 + 1 * 0 = 1; rfl
  | ⟨1, _⟩ => show 0 + 1 * n.val = n.val; omega
theorem ldW1 (x2 : Vec Ideal S3x64x64 .f32) (k n : Fin 64) : View.ld x2 rW1 (ix3 (0 : Fin 1) k n) = x2 (ix3 (1 : Fin 3) k n) :=
  congrArg x2 (idxW1 k n)
theorem ldv1 (x : Vec Ideal S3x64 .f32) (n : Fin 64) : View.ld x rv1 (ix2 (0 : Fin 1) n) = x (ix2 (1 : Fin 3) n) :=
  congrArg x (idxv1 n)
theorem idxW2 (k n : Fin 64) : rW2.idx (ix3 (0 : Fin 1) k n) = ix3 (2 : Fin 3) k n := by
  funext a; apply Fin.ext
  match a with
  | ⟨0, _⟩ => show 2 + 1 * 0 = 2; rfl
  | ⟨1, _⟩ => show 0 + 1 * k.val = k.val; omega
  | ⟨2, _⟩ => show 0 + 1 * n.val = n.val; omega
theorem idxv2 (n : Fin 64) : rv2.idx (ix2 (0 : Fin 1) n) = ix2 (2 : Fin 3) n := by
  funext a; apply Fin.ext
  match a with
  | ⟨0, _⟩ => show 2 + 1 * 0 = 2; rfl
  | ⟨1, _⟩ => show 0 + 1 * n.val = n.val; omega
theorem ldW2 (x2 : Vec Ideal S3x64x64 .f32) (k n : Fin 64) : View.ld x2 rW2 (ix3 (0 : Fin 1) k n) = x2 (ix3 (2 : Fin 3) k n) :=
  congrArg x2 (idxW2 k n)
theorem ldv2 (x : Vec Ideal S3x64 .f32) (n : Fin 64) : View.ld x rv2 (ix2 (0 : Fin 1) n) = x (ix2 (2 : Fin 3) n) :=
  congrArg x (idxv2 n)

/-- Entry `(p, q)` of the stored block: the three stages on row `p` of the two blocks' sum, at column `q`. -/
theorem stored_apply (x0 x1 : Vec Ideal S4096x64 .f32) (x2 : Vec Ideal S3x64x64 .f32) (x3 x4 x5 x6 x7 : Vec Ideal S3x64 .f32)
    (p : Fin 4096) (q : Fin 64) :
    stored2 x0 x1 x2 x3 x4 x5 x6 x7 (ix2 p q)
      = Cert.Gin.rowOut x2 x3 x4 x5 x6 x7 (fun k => FloatOps.addf (x0 (ix2 p k)) (x1 (ix2 p k))) q := by
  rw [stored_eq]
  unfold Cert.Gin.rowOut Cert.Gin.stageOf
  exact kstage_apply' _ _ _ _ _ _ _ p q (ldW2 x2) (ldv2 x3) (ldv2 x4) (ldv2 x5) (ldv2 x6) (ldv2 x7) fun k =>
    kstage_apply' _ _ _ _ _ _ _ p k (ldW1 x2) (ldv1 x3) (ldv1 x4) (ldv1 x5) (ldv1 x6) (ldv1 x7) fun k' =>
      kstage_apply' _ _ _ _ _ _ _ p k' (ldW0 x2) (ldv0 x3) (ldv0 x4) (ldv0 x5) (ldv0 x6) (ldv0 x7) fun _ => rfl

/-! ## The windows' blocks, read off the whole arrays -/

/-- How the printed index maps move over the grid: the three row windows sit at block row `t`, column block 0; the
    parameter windows never move. -/
theorem idxf : ∀ t : Fin cfg2.N, win2_0.index t (0 : Fin 2) = t.val ∧ win2_0.index t (1 : Fin 2) = 0
    ∧ win2_1.index t (0 : Fin 2) = t.val ∧ win2_1.index t (1 : Fin 2) = 0
    ∧ win2_8.index t (0 : Fin 2) = t.val ∧ win2_8.index t (1 : Fin 2) = 0
    ∧ win2_2.index t (0 : Fin 3) = 0 ∧ win2_2.index t (1 : Fin 3) = 0 ∧ win2_2.index t (2 : Fin 3) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

/-- Row `p` of block `t` is row `4096 t + p` of the array. -/
def row (t : Fin cfg2.N) (p : Fin 4096) : Fin 204800 :=
  ⟨t.val * 4096 + p.val, by have h := t.isLt; have hN : cfg2.N = 50 := N_2; have hp := p.isLt; omega⟩

theorem emb0 (t : Fin cfg2.N) (p : Fin 4096) (k : Fin 64) : ((cfg2.win 0).blk t).view.emb (ix2 p k) = ix2 (row t p) k := by
  obtain ⟨e00, e01, e10, e11, e80, e81, -⟩ := idxf t
  funext a; apply Fin.ext
  match a with
  | ⟨0, _⟩ => show win2_0.index t (0 : Fin 2) * 4096 + 1 * p.val = t.val * 4096 + p.val; rw [e00]; omega
  | ⟨1, _⟩ => show win2_0.index t (1 : Fin 2) * 64 + 1 * k.val = k.val; rw [e01]; omega
theorem emb1 (t : Fin cfg2.N) (p : Fin 4096) (k : Fin 64) : ((cfg2.win 1).blk t).view.emb (ix2 p k) = ix2 (row t p) k := by
  obtain ⟨e00, e01, e10, e11, e80, e81, -⟩ := idxf t
  funext a; apply Fin.ext
  match a with
  | ⟨0, _⟩ => show win2_1.index t (0 : Fin 2) * 4096 + 1 * p.val = t.val * 4096 + p.val; rw [e10]; omega
  | ⟨1, _⟩ => show win2_1.index t (1 : Fin 2) * 64 + 1 * k.val = k.val; rw [e11]; omega
theorem emb8 (t : Fin cfg2.N) (p : Fin 4096) (k : Fin 64) : ((cfg2.win 8).blk t).view.emb (ix2 p k) = ix2 (row t p) k := by
  obtain ⟨e00, e01, e10, e11, e80, e81, -⟩ := idxf t
  funext a; apply Fin.ext
  match a with
  | ⟨0, _⟩ => show win2_8.index t (0 : Fin 2) * 4096 + 1 * p.val = t.val * 4096 + p.val; rw [e80]; omega
  | ⟨1, _⟩ => show win2_8.index t (1 : Fin 2) * 64 + 1 * k.val = k.val; rw [e81]; omega
theorem emb2 (t : Fin cfg2.N) (j : Fin 3) (k n : Fin 64) : ((cfg2.win 2).blk t).view.emb (ix3 j k n) = ix3 j k n := by
  obtain ⟨-, -, -, -, -, -, e0, e1, e2, -⟩ := idxf t
  funext a; apply Fin.ext
  match a with
  | ⟨0, _⟩ => show win2_2.index t (0 : Fin 3) * 3 + 1 * j.val = j.val; rw [e0]; omega
  | ⟨1, _⟩ => show win2_2.index t (1 : Fin 3) * 64 + 1 * k.val = k.val; rw [e1]; omega
  | ⟨2, _⟩ => show win2_2.index t (2 : Fin 3) * 64 + 1 * n.val = n.val; rw [e2]; omega
theorem emb3 (t : Fin cfg2.N) (j : Fin 3) (n : Fin 64) : ((cfg2.win 3).blk t).view.emb (ix2 j n) = ix2 j n := by
  have e0 : win2_3.index t (0 : Fin 2) = 0 := by have := idxf t; omega
  have e1 : win2_3.index t (1 : Fin 2) = 0 := by have := idxf t; omega
  funext a; apply Fin.ext
  match a with
  | ⟨0, _⟩ => show win2_3.index t (0 : Fin 2) * 3 + 1 * j.val = j.val; rw [e0]; omega
  | ⟨1, _⟩ => show win2_3.index t (1 : Fin 2) * 64 + 1 * n.val = n.val; rw [e1]; omega
theorem emb4 (t : Fin cfg2.N) (j : Fin 3) (n : Fin 64) : ((cfg2.win 4).blk t).view.emb (ix2 j n) = ix2 j n := by
  have e0 : win2_4.index t (0 : Fin 2) = 0 := by have := idxf t; omega
  have e1 : win2_4.index t (1 : Fin 2) = 0 := by have := idxf t; omega
  funext a; apply Fin.ext
  match a with
  | ⟨0, _⟩ => show win2_4.index t (0 : Fin 2) * 3 + 1 * j.val = j.val; rw [e0]; omega
  | ⟨1, _⟩ => show win2_4.index t (1 : Fin 2) * 64 + 1 * n.val = n.val; rw [e1]; omega
theorem emb5 (t : Fin cfg2.N) (j : Fin 3) (n : Fin 64) : ((cfg2.win 5).blk t).view.emb (ix2 j n) = ix2 j n := by
  have e0 : win2_5.index t (0 : Fin 2) = 0 := by have := idxf t; omega
  have e1 : win2_5.index t (1 : Fin 2) = 0 := by have := idxf t; omega
  funext a; apply Fin.ext
  match a with
  | ⟨0, _⟩ => show win2_5.index t (0 : Fin 2) * 3 + 1 * j.val = j.val; rw [e0]; omega
  | ⟨1, _⟩ => show win2_5.index t (1 : Fin 2) * 64 + 1 * n.val = n.val; rw [e1]; omega
theorem emb6 (t : Fin cfg2.N) (j : Fin 3) (n : Fin 64) : ((cfg2.win 6).blk t).view.emb (ix2 j n) = ix2 j n := by
  have e0 : win2_6.index t (0 : Fin 2) = 0 := by have := idxf t; omega
  have e1 : win2_6.index t (1 : Fin 2) = 0 := by have := idxf t; omega
  funext a; apply Fin.ext
  match a with
  | ⟨0, _⟩ => show win2_6.index t (0 : Fin 2) * 3 + 1 * j.val = j.val; rw [e0]; omega
  | ⟨1, _⟩ => show win2_6.index t (1 : Fin 2) * 64 + 1 * n.val = n.val; rw [e1]; omega
theorem emb7 (t : Fin cfg2.N) (j : Fin 3) (n : Fin 64) : ((cfg2.win 7).blk t).view.emb (ix2 j n) = ix2 j n := by
  have e0 : win2_7.index t (0 : Fin 2) = 0 := by have := idxf t; omega
  have e1 : win2_7.index t (1 : Fin 2) = 0 := by have := idxf t; omega
  funext a; apply Fin.ext
  match a with
  | ⟨0, _⟩ => show win2_7.index t (0 : Fin 2) * 3 + 1 * j.val = j.val; rw [e0]; omega
  | ⟨1, _⟩ => show win2_7.index t (1 : Fin 2) * 64 + 1 * n.val = n.val; rw [e1]; omega

/-- The two row windows' blocks at an entry: the array at row `4096 t + p`. -/
theorem iblk_0 (c : Dev nD) (t : Fin cfg2.N) (p : Fin 4096) (k : Fin 64) : iblk2 V c 0 t (ix2 p k) = V c main_v52 (ix2 (row t p) k) := by
  show V c main_v52 (((cfg2.win 0).blk t).view.emb (ix2 p k)) = _
  rw [emb0]
theorem iblk_1 (c : Dev nD) (t : Fin cfg2.N) (p : Fin 4096) (k : Fin 64) : iblk2 V c 1 t (ix2 p k) = V c main_v64 (ix2 (row t p) k) := by
  show V c main_v64 (((cfg2.win 1).blk t).view.emb (ix2 p k)) = _
  rw [emb1]
/-- The parameter windows' blocks are the whole parameter arrays. -/
theorem iblk_2 (c : Dev nD) (t : Fin cfg2.N) : (iblk2 V c 2 t : Vec Ideal S3x64x64 .f32) = V c main_v66 := by
  funext y
  obtain ⟨j, k, n, rfl⟩ : ∃ (j : Fin 3) (k n : Fin 64), y = ix3 j k n := ⟨y 0, y 1, y 2, eq_ix3 y⟩
  show V c main_v66 (((cfg2.win 2).blk t).view.emb (ix3 j k n)) = _
  rw [emb2]
theorem iblk_3 (c : Dev nD) (t : Fin cfg2.N) : (iblk2 V c 3 t : Vec Ideal S3x64 .f32) = V c main_v68 := by
  funext y
  obtain ⟨j, n, rfl⟩ : ∃ (j : Fin 3) (n : Fin 64), y = ix2 j n := ⟨y 0, y 1, eq_ix2 y⟩
  show V c main_v68 (((cfg2.win 3).blk t).view.emb (ix2 j n)) = _
  rw [emb3]
theorem iblk_4 (c : Dev nD) (t : Fin cfg2.N) : (iblk2 V c 4 t : Vec Ideal S3x64 .f32) = V c main_v70 := by
  funext y
  obtain ⟨j, n, rfl⟩ : ∃ (j : Fin 3) (n : Fin 64), y = ix2 j n := ⟨y 0, y 1, eq_ix2 y⟩
  show V c main_v70 (((cfg2.win 4).blk t).view.emb (ix2 j n)) = _
  rw [emb4]
theorem iblk_5 (c : Dev nD) (t : Fin cfg2.N) : (iblk2 V c 5 t : Vec Ideal S3x64 .f32) = V c main_v72 := by
  funext y
  obtain ⟨j, n, rfl⟩ : ∃ (j : Fin 3) (n : Fin 64), y = ix2 j n := ⟨y 0, y 1, eq_ix2 y⟩
  show V c main_v72 (((cfg2.win 5).blk t).view.emb (ix2 j n)) = _
  rw [emb5]
theorem iblk_6 (c : Dev nD) (t : Fin cfg2.N) : (iblk2 V c 6 t : Vec Ideal S3x64 .f32) = V c main_v74 := by
  funext y
  obtain ⟨j, n, rfl⟩ : ∃ (j : Fin 3) (n : Fin 64), y = ix2 j n := ⟨y 0, y 1, eq_ix2 y⟩
  show V c main_v74 (((cfg2.win 6).blk t).view.emb (ix2 j n)) = _
  rw [emb6]
theorem iblk_7 (c : Dev nD) (t : Fin cfg2.N) : (iblk2 V c 7 t : Vec Ideal S3x64 .f32) = V c main_v76 := by
  funext y
  obtain ⟨j, n, rfl⟩ : ∃ (j : Fin 3) (n : Fin 64), y = ix2 j n := ⟨y 0, y 1, eq_ix2 y⟩
  show V c main_v76 (((cfg2.win 7).blk t).view.emb (ix2 j n)) = _
  rw [emb7]

/-! ## The flushed blocks and the whole array -/

/-- The layer's result on the arrays the call finds. -/
abbrev G (c : Dev nD) : S204800x64.Idx → Ideal .f32 :=
  Cert.Gin.layer (V c main_v52) (V c main_v64) (V c main_v66) (V c main_v68) (V c main_v70) (V c main_v72) (V c main_v74) (V c main_v76)

/-- What point `t` writes back is block `t` of the layer's result. -/
theorem flushed_eq (c : Dev nD) (t : Fin cfg2.N) :
    (dat2 V c).flushed 8 t = ((cfg2.win 8).blk t).view.read (Elt Ideal) (G V c) := by
  show (cfg2.win 8).cut (grid2.coords t) ((dat2 V c).after 8 t) = _
  rw [after2_8]
  unfold out2_8
  rw [View.canon_unit_zero hz2]
  funext y
  obtain ⟨p, q, rfl⟩ : ∃ (p : Fin 4096) (q : Fin 64), y = ix2 p q := ⟨y 0, y 1, eq_ix2 y⟩
  show stored2 (iblk2 V c 0 t) (iblk2 V c 1 t) (iblk2 V c 2 t) (iblk2 V c 3 t) (iblk2 V c 4 t) (iblk2 V c 5 t) (iblk2 V c 6 t) (iblk2 V c 7 t) (ix2 p q)
    = G V c (((cfg2.win 8).blk t).view.emb (ix2 p q))
  rw [stored_apply, emb8, iblk_2, iblk_3, iblk_4, iblk_5, iblk_6, iblk_7]
  show _ = Cert.Gin.rowOut _ _ _ _ _ _ (fun k => FloatOps.addf (V c main_v52 (ix2 (row t p) k)) (V c main_v64 (ix2 (row t p) k))) q
  refine congrArg (fun x => Cert.Gin.rowOut _ _ _ _ _ _ x q) (funext fun k => ?_)
  rw [iblk_0, iblk_1]

/-- An index of the result array is in point `t`'s block iff each coordinate is in the block's range. -/
theorem mem_blk (t : Fin cfg2.N) (i : S204800x64.Idx) :
    i ∈ ((cfg2.win 8).blk t).view.set ↔ ∀ a : Fin 2, win2_8.index t a * S4096x64.size a ≤ (i a).val ∧ (i a).val < win2_8.index t a * S4096x64.size a + S4096x64.size a := by
  show i ∈ ((View.whole main_v77).slice (win2_8.rect t)).set ↔ _
  rw [View.set_slice_whole, Rect.mem_set_unit]
  exact Iff.rfl

/-- Every entry of the result lies in the block of point `row / 4096`. -/
theorem cover (i : S204800x64.Idx) : ∃ t : Fin cfg2.N, (cfg2.win 8).flush t = true ∧ i ∈ ((cfg2.win 8).blk t).view.set := by
  have hi0 : (i 0).val < 204800 := (i 0).isLt
  have hi1 : (i 1).val < 64 := (i 1).isLt
  have hN : cfg2.N = 50 := N_2
  let t : Fin cfg2.N := ⟨(i 0).val / 4096, by rw [hN]; omega⟩
  refine ⟨t, flush2_8 t, ?_⟩
  rw [mem_blk]
  obtain ⟨-, -, -, -, e80, e81, -⟩ := idxf t
  intro a
  match a with
  | ⟨0, _⟩ =>
    show win2_8.index t (0 : Fin 2) * 4096 ≤ (i 0).val ∧ (i 0).val < win2_8.index t (0 : Fin 2) * 4096 + 4096
    rw [e80]; show (i 0).val / 4096 * 4096 ≤ (i 0).val ∧ (i 0).val < (i 0).val / 4096 * 4096 + 4096; omega
  | ⟨1, _⟩ =>
    show win2_8.index t (1 : Fin 2) * 64 ≤ (i 1).val ∧ (i 1).val < win2_8.index t (1 : Fin 2) * 64 + 64
    rw [e81]; omega

/-- The result array after the call is the layer's result on the arrays the call finds. -/
theorem final (c : Dev nD) : (dat2 V c).arrAt 8 cfg2.N = G V c :=
  (dat2 V c).arrAt_eq_of_cover 8 (G V c) (fun t _ => flushed_eq V c t) (cover)

end Cert.KernelIdeal.Value2

end
-- ==== Proof.Bridge.lean ====
import proofs.«129687_j87179246174626_1_alg».proof.Proof.KernelIdealRun
import proofs.«129687_j87179246174626_1_alg».proof.Proof.KernelIdealValue0
import proofs.«129687_j87179246174626_1_alg».proof.Proof.KernelIdealValue1
import proofs.«129687_j87179246174626_1_alg».proof.Proof.KernelIdealValue2
import proofs.«129687_j87179246174626_1_alg».proof.Proof.RefWalk

/-!
# The kernel's program computes the reference's value

Both programs run the same host operations around the three layers — the embedding, the look-up and segment sum
that aggregate messages, the slices of the stacked parameters, the readouts and the classifier — the kernel's on its
own buffers, with a pallas call where the reference has the layer's ninety-six host operations. Walking the kernel's
buffer contents from segment to segment: the first call is entered with the embedding `h₀`, its aggregate and layer
0's parameters, so it leaves `Gin.layer` of those, the first layer's output `H₁`; the second is entered with `H₁`, its
aggregate and layer 1's parameters, and leaves `H₂`; the third leaves `H₃`; and the last stretch classifies the three
readouts. That is the function `result` of the thirteen argument arrays which the reference's run ends at.
-/

set_option maxRecDepth 16384

noncomputable section

namespace Cert.Bridge

open Cert.KernelIdeal Cert.KernelIdeal.Gen Cert.KernelIdeal.Run
open Idealize.ShloMosaic Idealize.ShloMosaic.ValueIdx Idealize.ShloMosaic.TcCoe Idealize.SL.Sem
open Cert.ReferenceIdeal.Walk (embed aggregate sliceW sliceV readout classify layer1 nextLayer result)

/-! ## The host stretches, read where the calls and the tail read them -/

section Stretches
variable (W : Valuation τ sig (Elt Ideal))

set_option maxHeartbeats 2000000 in
theorem s0_h : StableHlo.after (hostOps0 : List (HloOp τ sig (Elt Ideal))) W (Proc.devRef .tc main_v4) = embed (W main_arg0) (W main_arg3) (W main_arg4) := by
  dsimp only [hostOps0]; after_results_simp; rfl
set_option maxHeartbeats 2000000 in
theorem s0_agg : StableHlo.after (hostOps0 : List (HloOp τ sig (Elt Ideal))) W (Proc.devRef .tc main_v14)
    = aggregate (embed (W main_arg0) (W main_arg3) (W main_arg4)) (W main_arg1) (W main_arg2) := by
  dsimp only [hostOps0]; after_results_simp; rfl
set_option maxHeartbeats 2000000 in
theorem s0_W : StableHlo.after (hostOps0 : List (HloOp τ sig (Elt Ideal))) W (Proc.devRef .tc main_v16) = sliceW 0 Cert.ReferenceIdeal.Gen.slices_S3x3x64x64_S1x3x64x64_0_0_0_0 (W main_arg5) := by
  dsimp only [hostOps0]; after_results_simp; rfl
set_option maxHeartbeats 2000000 in
theorem s0_b : StableHlo.after (hostOps0 : List (HloOp τ sig (Elt Ideal))) W (Proc.devRef .tc main_v18) = sliceV 0 Cert.ReferenceIdeal.Gen.slices_S3x3x64_S1x3x64_0_0_0 (W main_arg6) := by
  dsimp only [hostOps0]; after_results_simp; rfl
set_option maxHeartbeats 2000000 in
theorem s0_g : StableHlo.after (hostOps0 : List (HloOp τ sig (Elt Ideal))) W (Proc.devRef .tc main_v20) = sliceV 0 Cert.ReferenceIdeal.Gen.slices_S3x3x64_S1x3x64_0_0_0 (W main_arg7) := by
  dsimp only [hostOps0]; after_results_simp; rfl
set_option maxHeartbeats 2000000 in
theorem s0_be : StableHlo.after (hostOps0 : List (HloOp τ sig (Elt Ideal))) W (Proc.devRef .tc main_v22) = sliceV 0 Cert.ReferenceIdeal.Gen.slices_S3x3x64_S1x3x64_0_0_0 (W main_arg8) := by
  dsimp only [hostOps0]; after_results_simp; rfl
set_option maxHeartbeats 2000000 in
theorem s0_mu : StableHlo.after (hostOps0 : List (HloOp τ sig (Elt Ideal))) W (Proc.devRef .tc main_v24) = sliceV 0 Cert.ReferenceIdeal.Gen.slices_S3x3x64_S1x3x64_0_0_0 (W main_arg9) := by
  dsimp only [hostOps0]; after_results_simp; rfl
set_option maxHeartbeats 2000000 in
theorem s0_v : StableHlo.after (hostOps0 : List (HloOp τ sig (Elt Ideal))) W (Proc.devRef .tc main_v26) = sliceV 0 Cert.ReferenceIdeal.Gen.slices_S3x3x64_S1x3x64_0_0_0 (W main_arg10) := by
  dsimp only [hostOps0]; after_results_simp; rfl
set_option maxHeartbeats 2000000 in
theorem s1_ro : StableHlo.after (hostOps1 : List (HloOp τ sig (Elt Ideal))) W (Proc.devRef .tc main_v29) = readout (W main_v27) := by
  dsimp only [hostOps1]; after_results_simp; rfl
set_option maxHeartbeats 2000000 in
theorem s1_agg : StableHlo.after (hostOps1 : List (HloOp τ sig (Elt Ideal))) W (Proc.devRef .tc main_v39) = aggregate (W main_v27) (W main_arg1) (W main_arg2) := by
  dsimp only [hostOps1]; after_results_simp; rfl
set_option maxHeartbeats 2000000 in
theorem s1_W : StableHlo.after (hostOps1 : List (HloOp τ sig (Elt Ideal))) W (Proc.devRef .tc main_v41) = sliceW 1 Cert.ReferenceIdeal.Gen.slices_S3x3x64x64_S1x3x64x64_1_0_0_0 (W main_arg5) := by
  dsimp only [hostOps1]; after_results_simp; rfl
set_option maxHeartbeats 2000000 in
theorem s1_b : StableHlo.after (hostOps1 : List (HloOp τ sig (Elt Ideal))) W (Proc.devRef .tc main_v43) = sliceV 1 Cert.ReferenceIdeal.Gen.slices_S3x3x64_S1x3x64_1_0_0 (W main_arg6) := by
  dsimp only [hostOps1]; after_results_simp; rfl
set_option maxHeartbeats 2000000 in
theorem s1_g : StableHlo.after (hostOps1 : List (HloOp τ sig (Elt Ideal))) W (Proc.devRef .tc main_v45) = sliceV 1 Cert.ReferenceIdeal.Gen.slices_S3x3x64_S1x3x64_1_0_0 (W main_arg7) := by
  dsimp only [hostOps1]; after_results_simp; rfl
set_option maxHeartbeats 2000000 in
theorem s1_be : StableHlo.after (hostOps1 : List (HloOp τ sig (Elt Ideal))) W (Proc.devRef .tc main_v47) = sliceV 1 Cert.ReferenceIdeal.Gen.slices_S3x3x64_S1x3x64_1_0_0 (W main_arg8) := by
  dsimp only [hostOps1]; after_results_simp; rfl
set_option maxHeartbeats 2000000 in
theorem s1_mu : StableHlo.after (hostOps1 : List (HloOp τ sig (Elt Ideal))) W (Proc.devRef .tc main_v49) = sliceV 1 Cert.ReferenceIdeal.Gen.slices_S3x3x64_S1x3x64_1_0_0 (W main_arg9) := by
  dsimp only [hostOps1]; after_results_simp; rfl
set_option maxHeartbeats 2000000 in
theorem s1_v : StableHlo.after (hostOps1 : List (HloOp τ sig (Elt Ideal))) W (Proc.devRef .tc main_v51) = sliceV 1 Cert.ReferenceIdeal.Gen.slices_S3x3x64_S1x3x64_1_0_0 (W main_arg10) := by
  dsimp only [hostOps1]; after_results_simp; rfl
set_option maxHeartbeats 2000000 in
theorem s2_ro : StableHlo.after (hostOps2 : List (HloOp τ sig (Elt Ideal))) W (Proc.devRef .tc main_v54) = readout (W main_v52) := by
  dsimp only [hostOps2]; after_results_simp; rfl
set_option maxHeartbeats 2000000 in
theorem s2_agg : StableHlo.after (hostOps2 : List (HloOp τ sig (Elt Ideal))) W (Proc.devRef .tc main_v64) = aggregate (W main_v52) (W main_arg1) (W main_arg2) := by
  dsimp only [hostOps2]; after_results_simp; rfl
set_option maxHeartbeats 2000000 in
theorem s2_W : StableHlo.after (hostOps2 : List (HloOp τ sig (Elt Ideal))) W (Proc.devRef .tc main_v66) = sliceW 2 Cert.ReferenceIdeal.Gen.slices_S3x3x64x64_S1x3x64x64_2_0_0_0 (W main_arg5) := by
  dsimp only [hostOps2]; after_results_simp; rfl
set_option maxHeartbeats 2000000 in
theorem s2_b : StableHlo.after (hostOps2 : List (HloOp τ sig (Elt Ideal))) W (Proc.devRef .tc main_v68) = sliceV 2 Cert.ReferenceIdeal.Gen.slices_S3x3x64_S1x3x64_2_0_0 (W main_arg6) := by
  dsimp only [hostOps2]; after_results_simp; rfl
set_option maxHeartbeats 2000000 in
theorem s2_g : StableHlo.after (hostOps2 : List (HloOp τ sig (Elt Ideal))) W (Proc.devRef .tc main_v70) = sliceV 2 Cert.ReferenceIdeal.Gen.slices_S3x3x64_S1x3x64_2_0_0 (W main_arg7) := by
  dsimp only [hostOps2]; after_results_simp; rfl
set_option maxHeartbeats 2000000 in
theorem s2_be : StableHlo.after (hostOps2 : List (HloOp τ sig (Elt Ideal))) W (Proc.devRef .tc main_v72) = sliceV 2 Cert.ReferenceIdeal.Gen.slices_S3x3x64_S1x3x64_2_0_0 (W main_arg8) := by
  dsimp only [hostOps2]; after_results_simp; rfl
set_option maxHeartbeats 2000000 in
theorem s2_mu : StableHlo.after (hostOps2 : List (HloOp τ sig (Elt Ideal))) W (Proc.devRef .tc main_v74) = sliceV 2 Cert.ReferenceIdeal.Gen.slices_S3x3x64_S1x3x64_2_0_0 (W main_arg9) := by
  dsimp only [hostOps2]; after_results_simp; rfl
set_option maxHeartbeats 2000000 in
theorem s2_v : StableHlo.after (hostOps2 : List (HloOp τ sig (Elt Ideal))) W (Proc.devRef .tc main_v76) = sliceV 2 Cert.ReferenceIdeal.Gen.slices_S3x3x64_S1x3x64_2_0_0 (W main_arg10) := by
  dsimp only [hostOps2]; after_results_simp; rfl
set_option maxHeartbeats 2000000 in
theorem s3_out : StableHlo.after (hostOps3 : List (HloOp τ sig (Elt Ideal))) W (Proc.devRef .tc main_v84)
    = classify (W main_v29) (W main_v54) (readout (W main_v77)) (W main_arg11) (W main_arg12) := by
  dsimp only [hostOps3]; after_results_simp; rfl

end Stretches

/-! ## Buffers no segment so far has written -/

variable (m : (ℓ : Loc nD τ sig) → Buf (Elt Ideal) ℓ) (c : Dev nD)

theorem keep2 (r : Ref sig .tc) (h0 : r ∉ hostOps0_W) (h1 : r ∉ ([main_v27] : List (Ref sig .tc))) :
    Gen.V2 m (outsC m) c r = Gen.V0 m c r :=
  (Gen.V2_of m (outsC m) c r h1).trans (Gen.V1_of m c r h0)
theorem keep4 (r : Ref sig .tc) (h0 : r ∉ hostOps0_W) (h1 : r ∉ ([main_v27] : List (Ref sig .tc))) (h2 : r ∉ hostOps1_W)
    (h3 : r ∉ ([main_v52] : List (Ref sig .tc))) : Gen.V4 m (outsC m) c r = Gen.V0 m c r :=
  (Gen.V4_of m (outsC m) c r h3).trans ((Gen.V3_of m (outsC m) c r h2).trans (keep2 m c r h0 h1))
theorem keep6 (r : Ref sig .tc) (h0 : r ∉ hostOps0_W) (h1 : r ∉ ([main_v27] : List (Ref sig .tc))) (h2 : r ∉ hostOps1_W)
    (h3 : r ∉ ([main_v52] : List (Ref sig .tc))) (h4 : r ∉ hostOps2_W) (h5 : r ∉ ([main_v77] : List (Ref sig .tc))) :
    Gen.V6 m (outsC m) c r = Gen.V0 m c r :=
  (Gen.V6_of m (outsC m) c r h5).trans ((Gen.V5_of m (outsC m) c r h4).trans (keep4 m c r h0 h1 h2 h3))

/-! ## The three layers' outputs -/

/-- The three layers' outputs of the kernel's arguments. -/
abbrev H1 : FVec Ideal Cert.ReferenceIdeal.S204800x64 .f32 := layer1 (Gen.V0 m c main_arg0) (Gen.V0 m c main_arg1) (Gen.V0 m c main_arg2) (Gen.V0 m c main_arg3) (Gen.V0 m c main_arg4) (Gen.V0 m c main_arg5) (Gen.V0 m c main_arg6) (Gen.V0 m c main_arg7) (Gen.V0 m c main_arg8) (Gen.V0 m c main_arg9) (Gen.V0 m c main_arg10)
abbrev H2 : FVec Ideal Cert.ReferenceIdeal.S204800x64 .f32 := nextLayer 1 Cert.ReferenceIdeal.Gen.slices_S3x3x64x64_S1x3x64x64_1_0_0_0 Cert.ReferenceIdeal.Gen.slices_S3x3x64_S1x3x64_1_0_0 (H1 m c) (Gen.V0 m c main_arg1) (Gen.V0 m c main_arg2) (Gen.V0 m c main_arg5) (Gen.V0 m c main_arg6) (Gen.V0 m c main_arg7) (Gen.V0 m c main_arg8) (Gen.V0 m c main_arg9) (Gen.V0 m c main_arg10)
abbrev H3 : FVec Ideal Cert.ReferenceIdeal.S204800x64 .f32 := nextLayer 2 Cert.ReferenceIdeal.Gen.slices_S3x3x64x64_S1x3x64x64_2_0_0_0 Cert.ReferenceIdeal.Gen.slices_S3x3x64_S1x3x64_2_0_0 (H2 m c) (Gen.V0 m c main_arg1) (Gen.V0 m c main_arg2) (Gen.V0 m c main_arg5) (Gen.V0 m c main_arg6) (Gen.V0 m c main_arg7) (Gen.V0 m c main_arg8) (Gen.V0 m c main_arg9) (Gen.V0 m c main_arg10)

/-- Call 0 leaves the first layer's output. -/
theorem o2_eq : o2 m c = H1 m c := by
  unfold o2
  rw [Cert.KernelIdeal.Value0.final (En0 m) c]
  show Cert.Gin.layer (Gen.V1 m c main_v4) (Gen.V1 m c main_v14) (Gen.V1 m c main_v16) (Gen.V1 m c main_v18) (Gen.V1 m c main_v20) (Gen.V1 m c main_v22) (Gen.V1 m c main_v24) (Gen.V1 m c main_v26) = _
  rw [show Gen.V1 m c main_v4 = _ from s0_h (Gen.V0 m c), show Gen.V1 m c main_v14 = _ from s0_agg (Gen.V0 m c),
    show Gen.V1 m c main_v16 = _ from s0_W (Gen.V0 m c), show Gen.V1 m c main_v18 = _ from s0_b (Gen.V0 m c),
    show Gen.V1 m c main_v20 = _ from s0_g (Gen.V0 m c), show Gen.V1 m c main_v22 = _ from s0_be (Gen.V0 m c),
    show Gen.V1 m c main_v24 = _ from s0_mu (Gen.V0 m c), show Gen.V1 m c main_v26 = _ from s0_v (Gen.V0 m c)]
  rfl

/-- The contents call 1 is entered with at call 0's result buffer: what call 0 left. -/
theorem V2_v27 : Gen.V2 m (outsC m) c main_v27 = H1 m c :=
  (Ex0_out m (outsC m) c).trans ((outsC_2 m c).trans (o2_eq m c))

/-- Call 1 leaves the second layer's output. -/
theorem o4_eq : o4 m c = H2 m c := by
  unfold o4
  rw [Cert.KernelIdeal.Value1.final _ c]
  show Cert.Gin.layer (Gen.V3 m (outsC m) c main_v27) (Gen.V3 m (outsC m) c main_v39) (Gen.V3 m (outsC m) c main_v41) (Gen.V3 m (outsC m) c main_v43) (Gen.V3 m (outsC m) c main_v45) (Gen.V3 m (outsC m) c main_v47) (Gen.V3 m (outsC m) c main_v49) (Gen.V3 m (outsC m) c main_v51) = _
  rw [show Gen.V3 m (outsC m) c main_v27 = _ from (Gen.V3_of m (outsC m) c main_v27 (by decide)).trans (V2_v27 m c),
    show Gen.V3 m (outsC m) c main_v39 = _ from s1_agg (Gen.V2 m (outsC m) c), show Gen.V3 m (outsC m) c main_v41 = _ from s1_W (Gen.V2 m (outsC m) c),
    show Gen.V3 m (outsC m) c main_v43 = _ from s1_b (Gen.V2 m (outsC m) c), show Gen.V3 m (outsC m) c main_v45 = _ from s1_g (Gen.V2 m (outsC m) c),
    show Gen.V3 m (outsC m) c main_v47 = _ from s1_be (Gen.V2 m (outsC m) c), show Gen.V3 m (outsC m) c main_v49 = _ from s1_mu (Gen.V2 m (outsC m) c),
    show Gen.V3 m (outsC m) c main_v51 = _ from s1_v (Gen.V2 m (outsC m) c),
    V2_v27 m c, keep2 m c main_arg1 (by decide) (by decide), keep2 m c main_arg2 (by decide) (by decide), keep2 m c main_arg5 (by decide) (by decide), keep2 m c main_arg6 (by decide) (by decide), keep2 m c main_arg7 (by decide) (by decide), keep2 m c main_arg8 (by decide) (by decide), keep2 m c main_arg9 (by decide) (by decide), keep2 m c main_arg10 (by decide) (by decide)]
  rfl

theorem V4_v52 : Gen.V4 m (outsC m) c main_v52 = H2 m c :=
  (Ex1_out m (outsC m) c).trans ((outsC_4 m c).trans (o4_eq m c))

/-- Call 2 leaves the third layer's output. -/
theorem o6_eq : o6 m c = H3 m c := by
  unfold o6
  rw [Cert.KernelIdeal.Value2.final _ c]
  show Cert.Gin.layer (Gen.V5 m (outsC m) c main_v52) (Gen.V5 m (outsC m) c main_v64) (Gen.V5 m (outsC m) c main_v66) (Gen.V5 m (outsC m) c main_v68) (Gen.V5 m (outsC m) c main_v70) (Gen.V5 m (outsC m) c main_v72) (Gen.V5 m (outsC m) c main_v74) (Gen.V5 m (outsC m) c main_v76) = _
  rw [show Gen.V5 m (outsC m) c main_v52 = _ from (Gen.V5_of m (outsC m) c main_v52 (by decide)).trans (V4_v52 m c),
    show Gen.V5 m (outsC m) c main_v64 = _ from s2_agg (Gen.V4 m (outsC m) c), show Gen.V5 m (outsC m) c main_v66 = _ from s2_W (Gen.V4 m (outsC m) c),
    show Gen.V5 m (outsC m) c main_v68 = _ from s2_b (Gen.V4 m (outsC m) c), show Gen.V5 m (outsC m) c main_v70 = _ from s2_g (Gen.V4 m (outsC m) c),
    show Gen.V5 m (outsC m) c main_v72 = _ from s2_be (Gen.V4 m (outsC m) c), show Gen.V5 m (outsC m) c main_v74 = _ from s2_mu (Gen.V4 m (outsC m) c),
    show Gen.V5 m (outsC m) c main_v76 = _ from s2_v (Gen.V4 m (outsC m) c),
    V4_v52 m c, keep4 m c main_arg1 (by decide) (by decide) (by decide) (by decide), keep4 m c main_arg2 (by decide) (by decide) (by decide) (by decide), keep4 m c main_arg5 (by decide) (by decide) (by decide) (by decide), keep4 m c main_arg6 (by decide) (by decide) (by decide) (by decide), keep4 m c main_arg7 (by decide) (by decide) (by decide) (by decide), keep4 m c main_arg8 (by decide) (by decide) (by decide) (by decide), keep4 m c main_arg9 (by decide) (by decide) (by decide) (by decide), keep4 m c main_arg10 (by decide) (by decide) (by decide) (by decide)]
  rfl

theorem V6_v77 : Gen.V6 m (outsC m) c main_v77 = H3 m c :=
  (Ex2_out m (outsC m) c).trans ((outsC_6 m c).trans (o6_eq m c))

/-! ## The result -/

/-- The first readout, still in its buffer when the last stretch reads it. -/
theorem V6_v29 : Gen.V6 m (outsC m) c main_v29 = readout (H1 m c) :=
  (Gen.V6_of m (outsC m) c main_v29 (by decide)).trans ((Gen.V5_of m (outsC m) c main_v29 (by decide)).trans
    ((Gen.V4_of m (outsC m) c main_v29 (by decide)).trans ((s1_ro (Gen.V2 m (outsC m) c)).trans (congrArg readout (V2_v27 m c)))))
/-- The second readout. -/
theorem V6_v54 : Gen.V6 m (outsC m) c main_v54 = readout (H2 m c) :=
  (Gen.V6_of m (outsC m) c main_v54 (by decide)).trans ((s2_ro (Gen.V4 m (outsC m) c)).trans (congrArg readout (V4_v52 m c)))

/-- The kernel's result buffer ends at `result` of the kernel's arguments. -/
theorem result_eq : Gen.V7 m (outsC m) c main_v84 = result (Gen.V0 m c main_arg0) (Gen.V0 m c main_arg1) (Gen.V0 m c main_arg2) (Gen.V0 m c main_arg3) (Gen.V0 m c main_arg4) (Gen.V0 m c main_arg5) (Gen.V0 m c main_arg6) (Gen.V0 m c main_arg7) (Gen.V0 m c main_arg8) (Gen.V0 m c main_arg9) (Gen.V0 m c main_arg10) (Gen.V0 m c main_arg11) (Gen.V0 m c main_arg12) := by
  show StableHlo.after (hostOps3 : List (HloOp τ sig (Elt Ideal))) (Gen.V6 m (outsC m) c) (Proc.devRef .tc main_v84) = _
  rw [s3_out, V6_v29, V6_v54, V6_v77, keep6 m c main_arg11 (by decide) (by decide) (by decide) (by decide) (by decide) (by decide),
    keep6 m c main_arg12 (by decide) (by decide) (by decide) (by decide) (by decide) (by decide)]
  rfl

end Cert.Bridge

end
-- ==== Proof.lean ====
/-
  The five claims of this certificate.

  The kernel's program is: host operations (the embedding, the first aggregation, the first layer's parameter slices),
  a pallas call that applies the layer's three stages to 4096-row blocks, host operations (the readout, the next
  aggregation and slices), a second and a third such call, and the classifier on the three readouts. The reference
  runs the same host operations with each layer's three stages as ninety-six operations on the whole array.

  * Frames. Each program terminates without a fault and leaves its arguments as launched: the kernel's programs as
    seven segments (four host stretches, three calls) launched together, each call's body run symbolically at a generic
    grid point; the reference as a straight line of host operations read window by window.
  * `preserves`: the idealization rewrote nothing, so there is nothing to state.
  * `algebraic`: at the exact instance each call leaves `Gin.layer` of the arrays it finds (its fifty blocks are the
    rows of that array function; roundings are the identity and the matrix unit's product into zero is the plain sum),
    which is what the reference's three stages compute; every other operation is the same on both sides; so both
    result buffers end at one function, `Walk.result`, of the thirteen arguments. No law of arithmetic beyond
    reading sums and broadcasts at an index is used, so the finiteness precondition is never opened.
-/
import proofs.«129687_j87179246174626_1_alg».proof.Defs
import proofs.«129687_j87179246174626_1_alg».proof.Proof.Gen.Kernel
import proofs.«129687_j87179246174626_1_alg».proof.Proof.Gen.KernelIdeal
import proofs.«129687_j87179246174626_1_alg».proof.Proof.Gen.ReferenceIdeal
import proofs.«129687_j87179246174626_1_alg».proof.Proof.Gen.Pre_finite_inputs
import proofs.«129687_j87179246174626_1_alg».proof.Proof.KernelRun
import proofs.«129687_j87179246174626_1_alg».proof.Proof.KernelIdealRun
import proofs.«129687_j87179246174626_1_alg».proof.Proof.RefRun
import proofs.«129687_j87179246174626_1_alg».proof.Proof.RefWalk
import proofs.«129687_j87179246174626_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Run.frame (F := Bits) m ρ
theorem frame_ki : Cert.frame_KernelIdeal := fun m ρ _ => Cert.KernelIdeal.Run.frame (F := Ideal) m ρ
theorem frame_ri : Cert.frame_ReferenceIdeal := fun m ρ _ => Cert.ReferenceIdeal.HandRun.frame (F := Ideal) m ρ
theorem preserves : Cert.preserves_Kernel_KernelIdeal := trivial

/-- Both idealized programs end with their result buffers at `Walk.result` of the (agreeing) arguments. -/
theorem algebraic : Cert.algebraic_KernelIdeal_ReferenceIdeal := by
  intro m ρ m' ρ' _ hagree
  refine ⟨fun c => Cert.ReferenceIdeal.Walk.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · refine (θ_run (Cert.KernelIdeal.defs (F := Ideal)) _ _).mono (fun r h c => ?_) (Cert.KernelIdeal.Run.run (F := Ideal) m ρ)
    exact ⟨(h c _ (Cert.KernelIdeal.Run.mem_uc Cert.KernelIdeal.main_v84 (by decide))).trans (Cert.Bridge.result_eq m c),
      (h c _ (Cert.KernelIdeal.Run.mem_uc Cert.KernelIdeal.main_arg0 (by decide))).trans (Cert.KernelIdeal.Gen.V7_main_arg0 m (Cert.KernelIdeal.Run.outsC m) c),
      (h c _ (Cert.KernelIdeal.Run.mem_uc Cert.KernelIdeal.main_arg1 (by decide))).trans (Cert.KernelIdeal.Gen.V7_main_arg1 m (Cert.KernelIdeal.Run.outsC m) c),
      (h c _ (Cert.KernelIdeal.Run.mem_uc Cert.KernelIdeal.main_arg2 (by decide))).trans (Cert.KernelIdeal.Gen.V7_main_arg2 m (Cert.KernelIdeal.Run.outsC m) c),
      (h c _ (Cert.KernelIdeal.Run.mem_uc Cert.KernelIdeal.main_arg3 (by decide))).trans (Cert.KernelIdeal.Gen.V7_main_arg3 m (Cert.KernelIdeal.Run.outsC m) c),
      (h c _ (Cert.KernelIdeal.Run.mem_uc Cert.KernelIdeal.main_arg4 (by decide))).trans (Cert.KernelIdeal.Gen.V7_main_arg4 m (Cert.KernelIdeal.Run.outsC m) c),
      (h c _ (Cert.KernelIdeal.Run.mem_uc Cert.KernelIdeal.main_arg5 (by decide))).trans (Cert.KernelIdeal.Gen.V7_main_arg5 m (Cert.KernelIdeal.Run.outsC m) c),
      (h c _ (Cert.KernelIdeal.Run.mem_uc Cert.KernelIdeal.main_arg6 (by decide))).trans (Cert.KernelIdeal.Gen.V7_main_arg6 m (Cert.KernelIdeal.Run.outsC m) c),
      (h c _ (Cert.KernelIdeal.Run.mem_uc Cert.KernelIdeal.main_arg7 (by decide))).trans (Cert.KernelIdeal.Gen.V7_main_arg7 m (Cert.KernelIdeal.Run.outsC m) c),
      (h c _ (Cert.KernelIdeal.Run.mem_uc Cert.KernelIdeal.main_arg8 (by decide))).trans (Cert.KernelIdeal.Gen.V7_main_arg8 m (Cert.KernelIdeal.Run.outsC m) c),
      (h c _ (Cert.KernelIdeal.Run.mem_uc Cert.KernelIdeal.main_arg9 (by decide))).trans (Cert.KernelIdeal.Gen.V7_main_arg9 m (Cert.KernelIdeal.Run.outsC m) c),
      (h c _ (Cert.KernelIdeal.Run.mem_uc Cert.KernelIdeal.main_arg10 (by decide))).trans (Cert.KernelIdeal.Gen.V7_main_arg10 m (Cert.KernelIdeal.Run.outsC m) c),
      (h c _ (Cert.KernelIdeal.Run.mem_uc Cert.KernelIdeal.main_arg11 (by decide))).trans (Cert.KernelIdeal.Gen.V7_main_arg11 m (Cert.KernelIdeal.Run.outsC m) c),
      (h c _ (Cert.KernelIdeal.Run.mem_uc Cert.KernelIdeal.main_arg12 (by decide))).trans (Cert.KernelIdeal.Gen.V7_main_arg12 m (Cert.KernelIdeal.Run.outsC m) c)⟩
  · refine (θ_run (Cert.ReferenceIdeal.defs (F := Ideal)) _ _).mono (fun r h c => ?_) (Cert.ReferenceIdeal.HandRun.run_fold (F := Ideal) m' ρ')
    refine ⟨(h c Cert.ReferenceIdeal.main_v372).trans ((Cert.ReferenceIdeal.Walk.result_eq m' c).trans ?_),
      (h c Cert.ReferenceIdeal.main_arg0).trans (Cert.ReferenceIdeal.HandRun.kept m' c Cert.ReferenceIdeal.main_arg0 (by decide) (by decide) (by decide) (by decide) (by decide) (by decide) (by decide) (by decide) (by decide) (by decide) (by decide) (by decide) (by decide) (by decide) (by decide) (by decide) (by decide) (by decide) (by decide)),
      (h c Cert.ReferenceIdeal.main_arg1).trans (Cert.ReferenceIdeal.HandRun.kept m' c Cert.ReferenceIdeal.main_arg1 (by decide) (by decide) (by decide) (by decide) (by decide) (by decide) (by decide) (by decide) (by decide) (by decide) (by decide) (by decide) (by decide) (by decide) (by decide) (by decide) (by decide) (by decide) (by decide)),
      (h c Cert.ReferenceIdeal.main_arg2).trans (Cert.ReferenceIdeal.HandRun.kept m' c Cert.ReferenceIdeal.main_arg2 (by decide) (by decide) (by decide) (by decide) (by decide) (by decide) (by decide) (by decide) (by decide) (by decide) (by decide) (by decide) (by decide) (by decide) (by decide) (by decide) (by decide) (by decide) (by decide)),
      (h c Cert.ReferenceIdeal.main_arg3).trans (Cert.ReferenceIdeal.HandRun.kept m' c Cert.ReferenceIdeal.main_arg3 (by decide) (by decide) (by decide) (by decide) (by decide) (by decide) (by decide) (by decide) (by decide) (by decide) (by decide) (by decide) (by decide) (by decide) (by decide) (by decide) (by decide) (by decide) (by decide)),
      (h c Cert.ReferenceIdeal.main_arg4).trans (Cert.ReferenceIdeal.HandRun.kept m' c Cert.ReferenceIdeal.main_arg4 (by decide) (by decide) (by decide) (by decide) (by decide) (by decide) (by decide) (by decide) (by decide) (by decide) (by decide) (by decide) (by decide) (by decide) (by decide) (by decide) (by decide) (by decide) (by decide)),
      (h c Cert.ReferenceIdeal.main_arg5).trans (Cert.ReferenceIdeal.HandRun.kept m' c Cert.ReferenceIdeal.main_arg5 (by decide) (by decide) (by decide) (by decide) (by decide) (by decide) (by decide) (by decide) (by decide) (by decide) (by decide) (by decide) (by decide) (by decide) (by decide) (by decide) (by decide) (by decide) (by decide)),
      (h c Cert.ReferenceIdeal.main_arg6).trans (Cert.ReferenceIdeal.HandRun.kept m' c Cert.ReferenceIdeal.main_arg6 (by decide) (by decide) (by decide) (by decide) (by decide) (by decide) (by decide) (by decide) (by decide) (by decide) (by decide) (by decide) (by decide) (by decide) (by decide) (by decide) (by decide) (by decide) (by decide)),
      (h c Cert.ReferenceIdeal.main_arg7).trans (Cert.ReferenceIdeal.HandRun.kept m' c Cert.ReferenceIdeal.main_arg7 (by decide) (by decide) (by decide) (by decide) (by decide) (by decide) (by decide) (by decide) (by decide) (by decide) (by decide) (by decide) (by decide) (by decide) (by decide) (by decide) (by decide) (by decide) (by decide)),
      (h c Cert.ReferenceIdeal.main_arg8).trans (Cert.ReferenceIdeal.HandRun.kept m' c Cert.ReferenceIdeal.main_arg8 (by decide) (by decide) (by decide) (by decide) (by decide) (by decide) (by decide) (by decide) (by decide) (by decide) (by decide) (by decide) (by decide) (by decide) (by decide) (by decide) (by decide) (by decide) (by decide)),
      (h c Cert.ReferenceIdeal.main_arg9).trans (Cert.ReferenceIdeal.HandRun.kept m' c Cert.ReferenceIdeal.main_arg9 (by decide) (by decide) (by decide) (by decide) (by decide) (by decide) (by decide) (by decide) (by decide) (by decide) (by decide) (by decide) (by decide) (by decide) (by decide) (by decide) (by decide) (by decide) (by decide)),
      (h c Cert.ReferenceIdeal.main_arg10).trans (Cert.ReferenceIdeal.HandRun.kept m' c Cert.ReferenceIdeal.main_arg10 (by decide) (by decide) (by decide) (by decide) (by decide) (by decide) (by decide) (by decide) (by decide) (by decide) (by decide) (by decide) (by decide) (by decide) (by decide) (by decide) (by decide) (by decide) (by decide)),
      (h c Cert.ReferenceIdeal.main_arg11).trans (Cert.ReferenceIdeal.HandRun.kept m' c Cert.ReferenceIdeal.main_arg11 (by decide) (by decide) (by decide) (by decide) (by decide) (by decide) (by decide) (by decide) (by decide) (by decide) (by decide) (by decide) (by decide) (by decide) (by decide) (by decide) (by decide) (by decide) (by decide)),
      (h c Cert.ReferenceIdeal.main_arg12).trans (Cert.ReferenceIdeal.HandRun.kept m' c Cert.ReferenceIdeal.main_arg12 (by decide) (by decide) (by decide) (by decide) (by decide) (by decide) (by decide) (by decide) (by decide) (by decide) (by decide) (by decide) (by decide) (by decide) (by decide) (by decide) (by decide) (by decide) (by decide))⟩
    show Cert.ReferenceIdeal.Walk.result (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) = _
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
